-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2047x64 : Shape := ⟨2, ![2047, 64]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2047x64 : S_.BroadcastsInDim S2047x64 (![] : Fin 0 → Fin S2047x64.rank)
  reducesTo_S2047x64_S_d0_1 : S2047x64.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S2047x64 .f32) (main_arg2 : FVec F S2047x64 .f32) (main_arg3 : FVec F S3072x1024 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2047x64 .f32 := Host.absf main_arg1
  let main_cst_0 : FVec F S_ .f32 := constant S_ .f32 0x7F800000#32
  let main_v5 : FVec F S2047x64 .f32 := broadcastInDim S2047x64 ![] bcast_S_S2047x64 main_cst_0
  let main_v6 : IVec S2047x64 1 := cmpf .olt main_v4 main_v5
  let main_c_1 : IVec S_ 1 := constantI S_ 1 1#1
  let main_v7 : IVec S_ 1 := (fun x v => Host.reduce IntOp.andi x v reducesTo_S2047x64_S_d0_1 h_S_) main_v6 main_c_1
  let main_v8 : IVec S_ 1 := andi main_v3 main_v7
  let main_v9 : FVec F S2047x64 .f32 := Host.absf main_arg2
  let main_cst_2 : FVec F S_ .f32 := constant S_ .f32 0x7F800000#32
  let main_v10 : FVec F S2047x64 .f32 := broadcastInDim S2047x64 ![] bcast_S_S2047x64 main_cst_2
  let main_v11 : IVec S2047x64 1 := cmpf .olt main_v9 main_v10
  let main_c_3 : IVec S_ 1 := constantI S_ 1 1#1
  let main_v12 : IVec S_ 1 := (fun x v => Host.reduce IntOp.andi x v reducesTo_S2047x64_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_v13 main_v16
-- ==== Kernel.lean ====
abbrev S2x2048x1024 : Shape := ⟨3, ![2, 2048, 1024]⟩
abbrev S2047x64 : Shape := ⟨2, ![2047, 64]⟩
abbrev S3072x1024 : Shape := ⟨2, ![3072, 1024]⟩
abbrev S1024x1024 : Shape := ⟨2, ![1024, 1024]⟩
abbrev S1024 : Shape := ⟨1, ![1024]⟩
abbrev S3x8x2x64x1024 : Shape := ⟨5, ![3, 8, 2, 64, 1024]⟩
abbrev S8x3x2x64x1024 : Shape := ⟨5, ![8, 3, 2, 64, 1024]⟩
abbrev S8x384x1024 : Shape := ⟨3, ![8, 384, 1024]⟩
abbrev S_ : Shape := ⟨0, ![]⟩
abbrev S1x64 : Shape := ⟨2, ![1, 64]⟩
abbrev S2048x64 : Shape := ⟨2, ![2048, 64]⟩
abbrev S2x8x2048x128 : Shape := ⟨4, ![2, 8, 2048, 128]⟩
abbrev S1x2048x1024 : Shape := ⟨3, ![1, 2048, 1024]⟩
abbrev S1x384x1024 : Shape := ⟨3, ![1, 384, 1024]⟩
abbrev S1x1x2048x128 : Shape := ⟨4, ![1, 1, 2048, 128]⟩
abbrev S2048x1024 : Shape := ⟨2, ![2048, 1024]⟩
abbrev S384x1024 : Shape := ⟨2, ![384, 1024]⟩
abbrev S2048x384 : Shape := ⟨2, ![2048, 384]⟩
abbrev S2048x32 : Shape := ⟨2, ![2048, 32]⟩
abbrev S2048x128 : Shape := ⟨2, ![2048, 128]⟩
abbrev S1x1x512x128 : Shape := ⟨4, ![1, 1, 512, 128]⟩
abbrev S1x512x128 : Shape := ⟨3, ![1, 512, 128]⟩
abbrev S512x1 : Shape := ⟨2, ![512, 1]⟩
abbrev S512x64 : Shape := ⟨2, ![512, 64]⟩
abbrev S512x128 : Shape := ⟨2, ![512, 128]⟩
abbrev S512x512 : Shape := ⟨2, ![512, 512]⟩
abbrev S512 : Shape := ⟨1, ![512]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 26
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2047x64, .f32⟩
  | .hbm, ⟨2, _⟩ => ⟨S2047x64, .f32⟩
  | .hbm, ⟨3, _⟩ => ⟨S3072x1024, .f32⟩
  | .hbm, ⟨4, _⟩ => ⟨S1024x1024, .f32⟩
  | .hbm, ⟨5, _⟩ => ⟨S1024, .f32⟩
  | .hbm, ⟨6, _⟩ => ⟨S2x2048x1024, .bf16⟩
  | .hbm, ⟨7, _⟩ => ⟨S3x8x2x64x1024, .f32⟩
  | .hbm, ⟨8, _⟩ => ⟨S8x3x2x64x1024, .f32⟩
  | .hbm, ⟨9, _⟩ => ⟨S8x384x1024, .f32⟩
  | .hbm, ⟨10, _⟩ => ⟨S8x384x1024, .bf16⟩
  | .hbm, ⟨11, _⟩ => ⟨S_, .f32⟩
  | .hbm, ⟨12, _⟩ => ⟨S1x64, .f32⟩
  | .hbm, ⟨13, _⟩ => ⟨S_, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2x8x2048x128, .bf16⟩
  | .hbm, ⟨18, _⟩ => ⟨S2x8x2048x128, .bf16⟩
  | .hbm, ⟨19, _⟩ => ⟨S2x8x2048x128, .bf16⟩
  | .hbm, ⟨20, _⟩ => ⟨S2x2048x1024, .bf16⟩
  | .hbm, ⟨21, _⟩ => ⟨S4096x1024, .bf16⟩
  | .hbm, ⟨22, _⟩ => ⟨S1024x1024, .bf16⟩
  | .hbm, ⟨23, _⟩ => ⟨S1x1024, .f32⟩
  | .hbm, ⟨24, _⟩ => ⟨S4096x1024, .f32⟩
  | .hbm, ⟨25, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x384x1024, .bf16⟩
  | .local _ .vmem, ⟨3, _⟩ => ⟨S1x384x1024, .bf16⟩
  | .local _ .vmem, ⟨4, _⟩ => ⟨S2048x64, .f32⟩
  | .local _ .vmem, ⟨5, _⟩ => ⟨S2048x64, .f32⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S1x1x512x128, .bf16⟩
  | .local _ .vmem, ⟨13, _⟩ => ⟨S1x1x512x128, .bf16⟩
  | .local _ .vmem, ⟨14, _⟩ => ⟨S1x1x512x128, .bf16⟩
  | .local _ .vmem, ⟨15, _⟩ => ⟨S1x1x512x128, .bf16⟩
  | .local _ .vmem, ⟨16, _⟩ => ⟨S1x1x512x128, .bf16⟩
  | .local _ .vmem, ⟨17, _⟩ => ⟨S1x1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S512x1, .f32⟩
  | .local _ .vmem, ⟨21, _⟩ => ⟨S512x1, .f32⟩
  | .local _ .vmem, ⟨22, _⟩ => ⟨S512x64, .f32⟩
  | .local _ .vmem, ⟨23, _⟩ => ⟨S512x1, .f32⟩
  | .local _ .vmem, ⟨24, _⟩ => ⟨S512x1, .f32⟩
  | .local _ .vmem, ⟨25, _⟩ => ⟨S512x64, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc1_scratch5 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨4, ![2, 8, 4, 4], ![false, false, false, false]⟩

def k1_cond2 (i : grid1.Coords) : BitVec 1 :=
  let arg3 : BitVec 32 := BitVec.ofNat 32 (i 3).val
  let c3_i32 : BitVec 32 := 3#32
  let v77 : BitVec 1 := Scalar.cmpi .eq arg3 c3_i32
  let v78 : BitVec 32 := Scalar.extui v77
  let c0_i32_47 : BitVec 32 := 0#32
  let v79 : BitVec 1 := Scalar.cmpi .ne v78 c0_i32_47
  v79

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage1_0 : Fin 2 → Memref sig .tc .vmem S1x1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, true]

abbrev stage1_2 : Fin 2 → Memref sig .tc .vmem S1x1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, true]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S3072x1024_S3x8x2x64x1024 : S3072x1024.ShapeCasts S3x8x2x64x1024
  transposes_S3x8x2x64x1024_S8x3x2x64x1024_1_0_2_3_4 : S3x8x2x64x1024.Transposes [1, 0, 2, 3, 4] S8x3x2x64x1024
  shapeCasts_S8x3x2x64x1024_S8x384x1024 : S8x3x2x64x1024.ShapeCasts S8x384x1024
  bcast_S_S1x64 : S_.BroadcastsInDim S1x64 (![] : Fin 0 → Fin S1x64.rank)
  concatenates_S1x64_S2047x64_S2048x64_d0 : Shape.Concatenates [S1x64, S2047x64] S2048x64 0
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x384x1024_S1x384x1024_0_0_0 : ∀ a, (![0, 0, 0] : Fin 3 → Nat) a + S1x384x1024.size a ≤ S1x384x1024.size a
  h_S1x384x1024 : 0 < S1x384x1024.numel
  shapeCasts_S1x384x1024_S384x1024 : S1x384x1024.ShapeCasts S384x1024
  slices_S2048x384_o0_0_S2048x64 : S2048x384.Slices ![0, 0] S2048x64
  slices_S2048x384_o0_64_S2048x64 : S2048x384.Slices ![0, 64] S2048x64
  slices_S2048x384_o0_128_S2048x64 : S2048x384.Slices ![0, 128] S2048x64
  slices_S2048x384_o0_192_S2048x64 : S2048x384.Slices ![0, 192] S2048x64
  slices_S2048x384_o0_256_S2048x64 : S2048x384.Slices ![0, 256] S2048x64
  slices_S2048x384_o0_320_S2048x64 : S2048x384.Slices ![0, 320] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S2048x64_o0_0_S2048x32 : S2048x64.Slices ![0, 0] S2048x32
  slices_S2048x64_o0_32_S2048x32 : S2048x64.Slices ![0, 32] S2048x32
  concatenates_S2048x32_S2048x32_S2048x64_d1 : Shape.Concatenates [S2048x32, S2048x32] S2048x64 1
  concatenates_S2048x64_S2048x64_S2048x128_d1 : Shape.Concatenates [S2048x64, S2048x64] S2048x128 1
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  shapeCasts_S2048x128_S1x1x2048x128 : S2048x128.ShapeCasts S1x1x2048x128
  packedbf16_S1x1x2048x128_S1x1x2048x128_0_0_0_0 : (Rect.unit (s := S1x1x2048x128) ![0, 0, 0, 0] S1x1x2048x128.size inb_S1x1x2048x128_S1x1x2048x128_0_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  slices_S512x128_o0_0_S512x64 : S512x128.Slices ![0, 0] S512x64
  slices_S512x128_o0_64_S512x64 : S512x128.Slices ![0, 64] S512x64
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  concatenates_S512x64_S512x64_S512x128_d1 : Shape.Concatenates [S512x64, S512x64] S512x128 1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S2x2048x1024_S4096x1024 : S2x2048x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S2048x1024_S384x1024_S2048x384_1_1_0_0_n_n_wf : DotDims.WF S2048x1024 S384x1024 S2048x384 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .bf16 = 32 ∨ (Rect.block (s := S2x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x1024.size a ≤ S8x384x1024.size a
  hwx0_1 : ∀ i : grid0.Coords, EltTy.bits .bf16 = 32 ∨ (Rect.block (s := S8x384x1024) S1x384x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x128.size a ≤ S2x8x2048x128.size a
  hwx0_4 : ∀ i : grid0.Coords, EltTy.bits .bf16 = 32 ∨ (Rect.block (s := S2x8x2048x128) S1x1x2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x128.size a ≤ S2x8x2048x128.size a
  hwx0_5 : ∀ i : grid0.Coords, EltTy.bits .bf16 = 32 ∨ (Rect.block (s := S2x8x2048x128) S1x1x2048x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048x128.size a ≤ S2x8x2048x128.size a
  hwx0_6 : ∀ i : grid0.Coords, EltTy.bits .bf16 = 32 ∨ (Rect.block (s := S2x8x2048x128) S1x1x2048x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x128.size a ≤ S2x8x2048x128.size a
  hwx1_0 : ∀ i : grid1.Coords, EltTy.bits .bf16 = 32 ∨ (Rect.block (s := S2x8x2048x128) S1x1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x128.size a ≤ S2x8x2048x128.size a
  hwx1_1 : ∀ i : grid1.Coords, EltTy.bits .bf16 = 32 ∨ (Rect.block (s := S2x8x2048x128) S1x1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x128.size a ≤ S2x8x2048x128.size a
  hwx1_2 : ∀ i : grid1.Coords, EltTy.bits .bf16 = 32 ∨ (Rect.block (s := S2x8x2048x128) S1x1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .bf16 = 32 ∨ (Rect.block (s := S2x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S2048x1024_S384x1024_S2048x384_1_1_0_0_n_n : DotDims S2048x1024 S384x1024 S2048x384 where
  lhsContracting := [1]
  rhsContracting := [1]
  lhsNonContracting := [0]
  rhsNonContracting := [0]
  lhsBatch := []
  rhsBatch := []
  wf := dot_S2048x1024_S384x1024_S2048x384_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x384x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x1x2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x1x2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1x1x2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9_0) S1x1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2047x64 : Shape := ⟨2, ![2047, 64]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x1x64 : Shape := ⟨4, ![2, 16, 1, 64]⟩
abbrev S2x16x2047x64 : Shape := ⟨4, ![2, 16, 2047, 64]⟩
abbrev S1x1x2047x64 : Shape := ⟨4, ![1, 1, 2047, 64]⟩
abbrev S2x16x2047x32 : Shape := ⟨4, ![2, 16, 2047, 32]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2047x64, .f32⟩
  | .hbm, ⟨2, _⟩ => ⟨S2047x64, .f32⟩
  | .hbm, ⟨3, _⟩ => ⟨S3072x1024, .f32⟩
  | .hbm, ⟨4, _⟩ => ⟨S1024x1024, .f32⟩
  | .hbm, ⟨5, _⟩ => ⟨S1024, .f32⟩
  | .hbm, ⟨6, _⟩ => ⟨S2x2048x3072, .f32⟩
  | .hbm, ⟨7, _⟩ => ⟨S2x2048x3x16x64, .f32⟩
  | .hbm, ⟨8, _⟩ => ⟨S2x2048x1x16x64, .f32⟩
  | .hbm, ⟨9, _⟩ => ⟨S2x2048x16x64, .f32⟩
  | .hbm, ⟨10, _⟩ => ⟨S2x16x2048x64, .f32⟩
  | .hbm, ⟨11, _⟩ => ⟨S2x2048x1x16x64, .f32⟩
  | .hbm, ⟨12, _⟩ => ⟨S2x2048x16x64, .f32⟩
  | .hbm, ⟨13, _⟩ => ⟨S2x16x2048x64, .f32⟩
  | .hbm, ⟨14, _⟩ => ⟨S2x2048x1x16x64, .f32⟩
  | .hbm, ⟨15, _⟩ => ⟨S2x2048x16x64, .f32⟩
  | .hbm, ⟨16, _⟩ => ⟨S2x16x2048x64, .f32⟩
  | .hbm, ⟨17, _⟩ => ⟨S2x16x1x64, .f32⟩
  | .hbm, ⟨18, _⟩ => ⟨S2x16x2047x64, .f32⟩
  | .hbm, ⟨19, _⟩ => ⟨S1x1x2047x64, .f32⟩
  | .hbm, ⟨20, _⟩ => ⟨S2x16x2047x64, .f32⟩
  | .hbm, ⟨21, _⟩ => ⟨S2x16x2047x64, .f32⟩
  | .hbm, ⟨22, _⟩ => ⟨S2x16x2047x32, .f32⟩
  | .hbm, ⟨23, _⟩ => ⟨S2x16x2047x32, .f32⟩
  | .hbm, ⟨24, _⟩ => ⟨S2x16x2047x32, .f32⟩
  | .hbm, ⟨25, _⟩ => ⟨S2x16x2047x64, .f32⟩
  | .hbm, ⟨26, _⟩ => ⟨S1x1x2047x64, .f32⟩
  | .hbm, ⟨27, _⟩ => ⟨S2x16x2047x64, .f32⟩
  | .hbm, ⟨28, _⟩ => ⟨S2x16x2047x64, .f32⟩
  | .hbm, ⟨29, _⟩ => ⟨S2x16x2047x64, .f32⟩
  | .hbm, ⟨30, _⟩ => ⟨S2x16x2048x64, .f32⟩
  | .hbm, ⟨31, _⟩ => ⟨S2x16x1x64, .f32⟩
  | .hbm, ⟨32, _⟩ => ⟨S2x16x2047x64, .f32⟩
  | .hbm, ⟨33, _⟩ => ⟨S1x1x2047x64, .f32⟩
  | .hbm, ⟨34, _⟩ => ⟨S2x16x2047x64, .f32⟩
  | .hbm, ⟨35, _⟩ => ⟨S2x16x2047x64, .f32⟩
  | .hbm, ⟨36, _⟩ => ⟨S2x16x2047x32, .f32⟩
  | .hbm, ⟨37, _⟩ => ⟨S2x16x2047x32, .f32⟩
  | .hbm, ⟨38, _⟩ => ⟨S2x16x2047x32, .f32⟩
  | .hbm, ⟨39, _⟩ => ⟨S2x16x2047x64, .f32⟩
  | .hbm, ⟨40, _⟩ => ⟨S1x1x2047x64, .f32⟩
  | .hbm, ⟨41, _⟩ => ⟨S2x16x2047x64, .f32⟩
  | .hbm, ⟨42, _⟩ => ⟨S2x16x2047x64, .f32⟩
  | .hbm, ⟨43, _⟩ => ⟨S2x16x2047x64, .f32⟩
  | .hbm, ⟨44, _⟩ => ⟨S2x16x2048x64, .f32⟩
  | .hbm, ⟨45, _⟩ => ⟨S2x16x2048x2048, .f32⟩
  | .hbm, ⟨46, _⟩ => ⟨S_, .f32⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S_, .f32⟩
  | .hbm, ⟨52, _⟩ => ⟨S2x16x2048, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048, .f32⟩
  | .hbm, ⟨60, _⟩ => ⟨S2x16x2048x1, .f32⟩
  | .hbm, ⟨61, _⟩ => ⟨S2x16x2048x2048, .f32⟩
  | .hbm, ⟨62, _⟩ => ⟨S2x16x2048x2048, .f32⟩
  | .hbm, ⟨63, _⟩ => ⟨S2x16x2048x64, .f32⟩
  | .hbm, ⟨64, _⟩ => ⟨S2x2048x16x64, .f32⟩
  | .hbm, ⟨65, _⟩ => ⟨S2x2048x1024, .f32⟩
  | .hbm, ⟨66, _⟩ => ⟨S2x2048x1024, .f32⟩
  | .hbm, ⟨67, _⟩ => ⟨S1x1x1024, .f32⟩
  | .hbm, ⟨68, _⟩ => ⟨S2x2048x1024, .f32⟩
  | .hbm, ⟨69, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst : Ref sig .tc := ⟨.hbm, 46, rfl⟩
abbrev main_v40 : Ref sig .tc := ⟨.hbm, 47, rfl⟩
abbrev main_v41 : Ref sig .tc := ⟨.hbm, 48, rfl⟩
abbrev main_cst_0 : Ref sig .tc := ⟨.hbm, 49, rfl⟩
abbrev main_v42 : Ref sig .tc := ⟨.hbm, 50, rfl⟩
abbrev main_cst_1 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  slices_S2x16x2048x64_S2x16x1x64_0_0_0_0 : S2x16x2048x64.Slices ![0, 0, 0, 0] S2x16x1x64
  slices_S2x16x2048x64_S2x16x2047x64_0_0_1_0 : S2x16x2048x64.Slices ![0, 0, 1, 0] S2x16x2047x64
  bcast_S2047x64_S1x1x2047x64_2_3 : S2047x64.BroadcastsInDim S1x1x2047x64 (![2, 3] : Fin 2 → Fin S1x1x2047x64.rank)
  bcast_S1x1x2047x64_S2x16x2047x64_0_1_2_3 : S1x1x2047x64.BroadcastsInDim S2x16x2047x64 (![0, 1, 2, 3] : Fin 4 → Fin S2x16x2047x64.rank)
  slices_S2x16x2047x64_S2x16x2047x32_0_0_0_0 : S2x16x2047x64.Slices ![0, 0, 0, 0] S2x16x2047x32
  slices_S2x16x2047x64_S2x16x2047x32_0_0_0_32 : S2x16x2047x64.Slices ![0, 0, 0, 32] S2x16x2047x32
  concatenates_S2x16x2047x32_S2x16x2047x32_S2x16x2047x64_d3 : Shape.Concatenates [S2x16x2047x32, S2x16x2047x32] S2x16x2047x64 3
  concatenates_S2x16x1x64_S2x16x2047x64_S2x16x2048x64_d2 : Shape.Concatenates [S2x16x1x64, S2x16x2047x64] S2x16x2048x64 2
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.FrameQkvBits.lean ====
/-
  The fused projection and rotation, one (batch, head pair) at a time: the first pallas_call stages the batch's
  2048 token rows, the head pair's 384 weight rows and the two padded rotation tables, multiplies, rotates the
  query and key columns (the query also scaled by 1/8), and stores three blocks of 2048 x 128: queries, keys,
  values of the two heads side by side. Every point reads its four input blocks whole and writes its three
  output blocks whole; nothing is kept between points. Stated at the contents V the call is entered with.
-/
import proofs.«138496_j31379031065087_2_alg».proof.Proof.Gen.Kernel.Launch
import proofs.«138496_j31379031065087_2_alg».proof.Proof.Gen.Kernel.Skeleton
import proofs.«138496_j31379031065087_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x2048x1024 := Rect.unit (s := S1x2048x1024) ![0, 0, 0] S1x2048x1024.size inb_S1x2048x1024_S1x2048x1024_0_0_0
abbrev r0_1 : Rect S1x384x1024 := Rect.unit (s := S1x384x1024) ![0, 0, 0] S1x384x1024.size inb_S1x384x1024_S1x384x1024_0_0_0
abbrev r0_2 : Rect S2048x64 := Rect.unit (s := S2048x64) ![0, 0] S2048x64.size inb_S2048x64_S2048x64_0_0
abbrev r0_4 : Rect S1x1x2048x128 := Rect.unit (s := S1x1x2048x128) ![0, 0, 0, 0] S1x1x2048x128.size inb_S1x1x2048x128_S1x1x2048x128_0_0_0_0

/-- The query block after the body: both heads' rotated, scaled queries side by side. -/
def out0_4 (x0 : Vec F S1x2048x1024 .bf16) (x1 : Vec F S1x384x1024 .bf16) (x2 x3 : Vec F S2048x64 .f32) : Vec F S1x1x2048x128 .bf16 :=
  View.canon [⟨r0_4, k0_pay1 (k0_pay11 (View.ld x0 r0_0) (View.ld x1 r0_1) (View.ld x2 r0_2) (View.ld x3 r0_2)) (k0_pay12 (View.ld x0 r0_0) (View.ld x1 r0_1) (View.ld x2 r0_2) (View.ld x3 r0_2))⟩]
/-- The key block after the body: both heads' rotated keys side by side. -/
def out0_5 (x0 : Vec F S1x2048x1024 .bf16) (x1 : Vec F S1x384x1024 .bf16) (x2 x3 : Vec F S2048x64 .f32) : Vec F S1x1x2048x128 .bf16 :=
  View.canon [⟨r0_4, k0_pay2 (k0_pay6 (View.ld x0 r0_0) (View.ld x1 r0_1)) (k0_pay9 (View.ld x2 r0_2)) (k0_pay10 (View.ld x3 r0_2)) (k0_pay13 (View.ld x0 r0_0) (View.ld x1 r0_1) (View.ld x3 r0_2)) (k0_pay14 (View.ld x0 r0_0) (View.ld x1 r0_1) (View.ld x2 r0_2))⟩]
/-- The value block after the body: both heads' values side by side. -/
def out0_6 (x0 : Vec F S1x2048x1024 .bf16) (x1 : Vec F S1x384x1024 .bf16) : Vec F S1x1x2048x128 .bf16 :=
  View.canon [⟨r0_4, k0_pay3 (k0_pay7 (View.ld x0 r0_0) (View.ld x1 r0_1)) (k0_pay8 (View.ld x0 r0_0) (View.ld x1 r0_1))⟩]

/-- One whole store covers a block. -/
theorem cover0_4 (p0 : Vec F S1x1x2048x128 .bf16) (y : S1x1x2048x128.Idx) :
    ∃ pc ∈ ([⟨r0_4, p0⟩] : List (View.Piece (Elt F) S1x1x2048x128 .bf16)), y ∈ pc.1.set :=
  View.cover_of_tiled [⟨r0_4, p0⟩] S1x1x2048x128.size (by rfl) y

set_option maxHeartbeats 4000000 in
/-- The body on whole staging buffers: the inputs come back as they were, each output holds its block. -/
theorem sound_kernel0 (c : Dev nD) (E : Set ℕ) (i : grid0.Coords)
    (arg2 : Memref sig .tc .vmem S1x2048x1024 .bf16) (harg2 : arg2.IsWhole) (arg3 : Memref sig .tc .vmem S1x384x1024 .bf16) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S1x1x2048x128 .bf16) (harg6 : arg6.IsWhole) (arg7 : Memref sig .tc .vmem S1x1x2048x128 .bf16) (harg7 : arg7.IsWhole)
    (arg8 : Memref sig .tc .vmem S1x1x2048x128 .bf16) (harg8 : arg8.IsWhole)
    (x0 : Vec F S1x2048x1024 .bf16) (x1 : Vec F S1x384x1024 .bf16) (x2 x3 : Vec F S2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3) ∗ owns (c : Thread nD τ) arg7 fullShare (out0_5 x0 x1 x2 x3) ∗ owns (c : Thread nD τ) arg8 fullShare (out0_6 x0 x1)) -∗ K ⟨⟩))
      ⊢ wp frame (wpE (defs₀ (F := F)) Variants.none c none) E (cc0__qkv_rope_kernel i arg2 harg2 arg3 harg3 arg4 harg4 arg5 harg5 arg6 harg6 arg7 harg7 arg8 harg8) K := by
  simp only [cc0__qkv_rope_kernel_eq_skeleton]; unfold cc0__qkv_rope_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_4 _)

/-- The proof data of the first call on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameProjBits.lean ====
/-
  The output projection, one row block at a time: the third pallas_call stages a block of 512 rows of the
  attention output, the whole projection matrix and the bias row, and stores the block's product plus the
  bias into the block's rows of the result. Every point reads its three input blocks whole, writes its
  output block whole, keeps nothing between points. Stated at the contents V the call is entered with.
-/
import proofs.«138496_j31379031065087_2_alg».proof.Proof.Gen.Kernel.Launch
import proofs.«138496_j31379031065087_2_alg».proof.Proof.Gen.Kernel.Skeleton
import proofs.«138496_j31379031065087_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or
    the index did not move since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-- The output block after the body: the one store, the product of the row block with the matrix plus the bias. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The store covers the block. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

set_option maxHeartbeats 1000000 in
/-- The body on whole staging buffers: the inputs come back as they were, the output holds out2_3 of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third call on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameAttnRunsBits.lean ====
/-
  Attention over key/value blocks, one block at a time: the second pallas_call visits, for each batch, head
  pair and query block, the four key/value blocks in turn (the last grid coordinate), keeping for each of the
  two heads a running row maximum, a running row sum and an unnormalised accumulator in six buffers of its own
  that live from one point to the next. At the first key/value block the six are reset before they are read;
  at the last the two accumulators are divided by their sums and stored, side by side, into the output block.
  This module holds what the three cases' runs share: the windows' blocks, the two branch conditions in closed
  form, where the output window is idle, and the invariant with the six carried buffers named.
-/
import proofs.«138496_j31379031065087_2_alg».proof.Proof.Gen.Kernel.Launch
import proofs.«138496_j31379031065087_2_alg».proof.Proof.Gen.Kernel.Skeleton
import proofs.«138496_j31379031065087_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or
    the index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, in closed form -/

/-- The first branch (reset the six carried buffers) is taken when the key/value coordinate is 0. -/
abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (normalise and store the output block) is taken when the key/value coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x512x128 .bf16 := (Memref.whole cc1_stg3_0 : Memref sig .tc .vmem S1x512x128 .bf16).view
abbrev ms1_0 (t : Fin cfg1.N) : Memref sig .tc .vmem S1x1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .bf16 := win1_3.stage (cfg1.slots t 3)
abbrev hs1_3 (t : Fin cfg1.N) : (ms1_3 t).IsWhole := hstage1_3 ((cfg1.slots t 3).cast nbuf1_3)
/-- The six carried buffers (running maximum, running sum, accumulator, for each of the two heads), whole. -/
abbrev scM1_0 : Memref sig .tc .vmem S512x1 .f32 := Memref.whole cc1_scratch0
abbrev VS1_0 : View sig .tc .vmem S512x1 .f32 := (scM1_0).view
abbrev scM1_1 : Memref sig .tc .vmem S512x1 .f32 := Memref.whole cc1_scratch1
abbrev VS1_1 : View sig .tc .vmem S512x1 .f32 := (scM1_1).view
abbrev scM1_2 : Memref sig .tc .vmem S512x64 .f32 := Memref.whole cc1_scratch2
abbrev VS1_2 : View sig .tc .vmem S512x64 .f32 := (scM1_2).view
abbrev scM1_3 : Memref sig .tc .vmem S512x1 .f32 := Memref.whole cc1_scratch3
abbrev VS1_3 : View sig .tc .vmem S512x1 .f32 := (scM1_3).view
abbrev scM1_4 : Memref sig .tc .vmem S512x1 .f32 := Memref.whole cc1_scratch4
abbrev VS1_4 : View sig .tc .vmem S512x1 .f32 := (scM1_4).view
abbrev scM1_5 : Memref sig .tc .vmem S512x64 .f32 := Memref.whole cc1_scratch5
abbrev VS1_5 : View sig .tc .vmem S512x64 .f32 := (scM1_5).view

/-- The class invariant with the six carried buffers as memrefs owned at some contents; the other scoped
    buffers of the core, each at some contents, stay as they are listed. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ d, owns (c : Thread nD τ) scM1_3 fullShare d)
        ∗ (∃ d, owns (c : Thread nD τ) scM1_4 fullShare d)
        ∗ (∃ d, owns (c : Thread nD τ) scM1_5 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, scM1_2, scM1_3, scM1_4, scM1_5, owns_whole]; try rfl

end Cert.Kernel.Hand

end
-- ==== Proof.FrameAttnRunBBits.lean ====
/-
  The attention body at a middle key/value block: neither the reset nor the final normalisation runs.
-/
import proofs.«138496_j31379031065087_2_alg».proof.Proof.FrameAttnRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- A middle key/value block (neither branch taken). On whole memrefs — the three input blocks at their contents, the
    output block at any contents, handed back untouched, the six carried buffers at what the point before left —
    the body runs to a continuation that holds the inputs as they were and each carried buffer with the pieces
    its stores wrote, last first. The pieces are found by running the body. -/
noncomputable def kernelRun1_B (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S1x512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S1x512x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ owns (c : Thread nD τ) arg7 fullShare xi3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨[], ?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg7.eq_unread hf3; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.FrameAttnRunABits.lean ====
/-
  The attention body at the first key/value block: the six carried buffers are reset, then updated.
-/
import proofs.«138496_j31379031065087_2_alg».proof.Proof.FrameAttnRunBBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The first key/value block (the reset is taken, the final normalisation is not). On whole memrefs — the three
    input blocks at their contents, the output block at any contents, handed back untouched, the six carried
    buffers at ANY contents, since each is stored whole before it is read — the body runs to a continuation that
    holds the inputs as they were and each carried buffer with the pieces its stores wrote, last first. -/
noncomputable def kernelRun1_A (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) :
    Σ' (L3 : List (View.Piece (Elt F) S1x512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S1x512x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨[], ?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.FrameAttnRunCBits.lean ====
/-
  The attention body at the last key/value block: the carried buffers are updated, then the two accumulators
  are normalised and stored into the output block.
-/
import proofs.«138496_j31379031065087_2_alg».proof.Proof.FrameAttnRunABits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The last key/value block (no reset; the final normalisation is taken). On whole memrefs — the three input
    blocks at their contents, the output block at anything, the six carried buffers at what the point before
    left — the body runs to a continuation that holds the inputs as they were, each carried buffer with the
    pieces its stores wrote, and the output block with the one piece stored into it. -/
noncomputable def kernelRun1_C (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S1x512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.FrameAttnDatBits.lean ====
/-
  Attention over key/value blocks: what the six carried buffers and the output block hold after every point,
  the invariant between points, and the proof data of the second pallas_call. A point is in one of three cases
  by its key/value coordinate: the first block (the carried buffers are reset and updated), a middle block
  (updated), the last block (updated, then the normalised accumulators are stored into the output block). The
  carried buffers after a point are the pieces that point's run stored, read back; a middle or last point's
  run starts from what the point before left.
-/
import proofs.«138496_j31379031065087_2_alg».proof.Proof.FrameAttnRunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the first-block run stores into carried buffer 0 cover it. -/
theorem scover1_A_0 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.1 S512x1.size (by sl_kernel_rfl) y

/-- The pieces the first-block run stores into carried buffer 1 cover it. -/
theorem scover1_A_1 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.1 S512x1.size (by sl_kernel_rfl) y

/-- The pieces the first-block run stores into carried buffer 2 cover it. -/
theorem scover1_A_2 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x64.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.1 S512x64.size (by sl_kernel_rfl) y

/-- The pieces the first-block run stores into carried buffer 3 cover it. -/
theorem scover1_A_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.2.1 S512x1.size (by sl_kernel_rfl) y

/-- The pieces the first-block run stores into carried buffer 4 cover it. -/
theorem scover1_A_4 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.2.2.1 S512x1.size (by sl_kernel_rfl) y

/-- The pieces the first-block run stores into carried buffer 5 cover it. -/
theorem scover1_A_5 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x64.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.2.2.2.1 S512x64.size (by sl_kernel_rfl) y

/-- What the first-block run leaves: the output block (no piece: a placeholder nothing consults, the window being idle there), then the six carried buffers, each the
    run's pieces read back over arbitrary contents. -/
def outs1_A (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) : Vec F S1x512x128 .bf16 × Vec F S512x1 .f32 × Vec F S512x1 .f32 × Vec F S512x64 .f32 × Vec F S512x1 .f32 × Vec F S512x1 .f32 × Vec F S512x64 .f32 :=
  (VO1_3.read (Elt F) (VO1_3.writes (Elt F) VO1_3.junk (kernelRun1_A c i arg4 harg4 arg5 harg5 arg6 harg6 arg7 harg7 arg8 harg8 arg9 harg9 arg10 harg10 arg11 harg11 arg12 harg12 arg13 harg13 hc0 hc1 x0 x1 x2).1),
   VS1_0.read (Elt F) (VS1_0.writes (Elt F) VS1_0.junk (kernelRun1_A c i arg4 harg4 arg5 harg5 arg6 harg6 arg7 harg7 arg8 harg8 arg9 harg9 arg10 harg10 arg11 harg11 arg12 harg12 arg13 harg13 hc0 hc1 x0 x1 x2).2.1),
   VS1_1.read (Elt F) (VS1_1.writes (Elt F) VS1_1.junk (kernelRun1_A c i arg4 harg4 arg5 harg5 arg6 harg6 arg7 harg7 arg8 harg8 arg9 harg9 arg10 harg10 arg11 harg11 arg12 harg12 arg13 harg13 hc0 hc1 x0 x1 x2).2.2.1),
   VS1_2.read (Elt F) (VS1_2.writes (Elt F) VS1_2.junk (kernelRun1_A c i arg4 harg4 arg5 harg5 arg6 harg6 arg7 harg7 arg8 harg8 arg9 harg9 arg10 harg10 arg11 harg11 arg12 harg12 arg13 harg13 hc0 hc1 x0 x1 x2).2.2.2.1),
   VS1_3.read (Elt F) (VS1_3.writes (Elt F) VS1_3.junk (kernelRun1_A c i arg4 harg4 arg5 harg5 arg6 harg6 arg7 harg7 arg8 harg8 arg9 harg9 arg10 harg10 arg11 harg11 arg12 harg12 arg13 harg13 hc0 hc1 x0 x1 x2).2.2.2.2.1),
   VS1_4.read (Elt F) (VS1_4.writes (Elt F) VS1_4.junk (kernelRun1_A c i arg4 harg4 arg5 harg5 arg6 harg6 arg7 harg7 arg8 harg8 arg9 harg9 arg10 harg10 arg11 harg11 arg12 harg12 arg13 harg13 hc0 hc1 x0 x1 x2).2.2.2.2.2.1),
   VS1_5.read (Elt F) (VS1_5.writes (Elt F) VS1_5.junk (kernelRun1_A c i arg4 harg4 arg5 harg5 arg6 harg6 arg7 harg7 arg8 harg8 arg9 harg9 arg10 harg10 arg11 harg11 arg12 harg12 arg13 harg13 hc0 hc1 x0 x1 x2).2.2.2.2.2.2.1))

/-- The pieces the middle-block run stores into carried buffer 0 cover it. -/
theorem scover1_B_0 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1 S512x1.size (by sl_kernel_rfl) y

/-- The pieces the middle-block run stores into carried buffer 1 cover it. -/
theorem scover1_B_1 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1 S512x1.size (by sl_kernel_rfl) y

/-- The pieces the middle-block run stores into carried buffer 2 cover it. -/
theorem scover1_B_2 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1 S512x64.size (by sl_kernel_rfl) y

/-- The pieces the middle-block run stores into carried buffer 3 cover it. -/
theorem scover1_B_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1 S512x1.size (by sl_kernel_rfl) y

/-- The pieces the middle-block run stores into carried buffer 4 cover it. -/
theorem scover1_B_4 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1 S512x1.size (by sl_kernel_rfl) y

/-- The pieces the middle-block run stores into carried buffer 5 cover it. -/
theorem scover1_B_5 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1 S512x64.size (by sl_kernel_rfl) y

/-- What the middle-block run leaves: the output block (no piece: a placeholder nothing consults, the window being idle there), then the six carried buffers, each the
    run's pieces read back over arbitrary contents. -/
def outs1_B (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S1x512x128 .bf16 × Vec F S512x1 .f32 × Vec F S512x1 .f32 × Vec F S512x64 .f32 × Vec F S512x1 .f32 × Vec F S512x1 .f32 × Vec F S512x64 .f32 :=
  (VO1_3.read (Elt F) (VO1_3.writes (Elt F) VO1_3.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).1),
   VS1_0.read (Elt F) (VS1_0.writes (Elt F) VS1_0.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1),
   VS1_1.read (Elt F) (VS1_1.writes (Elt F) VS1_1.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1),
   VS1_2.read (Elt F) (VS1_2.writes (Elt F) VS1_2.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1),
   VS1_3.read (Elt F) (VS1_3.writes (Elt F) VS1_3.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1),
   VS1_4.read (Elt F) (VS1_4.writes (Elt F) VS1_4.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1),
   VS1_5.read (Elt F) (VS1_5.writes (Elt F) VS1_5.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1))

/-- The pieces the last-block run stores into carried buffer 0 cover it. -/
theorem scover1_C_0 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1 S512x1.size (by sl_kernel_rfl) y

/-- The pieces the last-block run stores into carried buffer 1 cover it. -/
theorem scover1_C_1 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1 S512x1.size (by sl_kernel_rfl) y

/-- The pieces the last-block run stores into carried buffer 2 cover it. -/
theorem scover1_C_2 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1 S512x64.size (by sl_kernel_rfl) y

/-- The pieces the last-block run stores into carried buffer 3 cover it. -/
theorem scover1_C_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1 S512x1.size (by sl_kernel_rfl) y

/-- The pieces the last-block run stores into carried buffer 4 cover it. -/
theorem scover1_C_4 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1 S512x1.size (by sl_kernel_rfl) y

/-- The pieces the last-block run stores into carried buffer 5 cover it. -/
theorem scover1_C_5 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1 S512x64.size (by sl_kernel_rfl) y

/-- The one piece the last-block run stores into the output block covers it. -/
theorem cover1_C_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S1x512x128.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).1 S1x512x128.size (by sl_kernel_rfl) y

/-- What the last-block run leaves: the output block, then the six carried buffers, each the
    run's pieces read back over arbitrary contents. -/
def outs1_C (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S1x512x128 .bf16 × Vec F S512x1 .f32 × Vec F S512x1 .f32 × Vec F S512x64 .f32 × Vec F S512x1 .f32 × Vec F S512x1 .f32 × Vec F S512x64 .f32 :=
  (VO1_3.read (Elt F) (VO1_3.writes (Elt F) VO1_3.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).1),
   VS1_0.read (Elt F) (VS1_0.writes (Elt F) VS1_0.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1),
   VS1_1.read (Elt F) (VS1_1.writes (Elt F) VS1_1.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1),
   VS1_2.read (Elt F) (VS1_2.writes (Elt F) VS1_2.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1),
   VS1_3.read (Elt F) (VS1_3.writes (Elt F) VS1_3.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1),
   VS1_4.read (Elt F) (VS1_4.writes (Elt F) VS1_4.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1),
   VS1_5.read (Elt F) (VS1_5.writes (Elt F) VS1_5.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1))

/-! ## What the buffers hold after each point -/

/-- After the body at position n: the case n's key/value coordinate selects, run at the point's memrefs and
    input blocks; a middle or last block starts from the six carried buffers as position n - 1 left them. -/
def outsAt1 (c : Dev nD) : (n : ℕ) → n < cfg1.N → Vec F S1x512x128 .bf16 × Vec F S512x1 .f32 × Vec F S512x1 .f32 × Vec F S512x64 .f32 × Vec F S512x1 .f32 × Vec F S512x1 .f32 × Vec F S512x64 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      if h1 : (n + 1) % 4 = 3 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 4 = 3 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2.1 (outsAt1 c n (Nat.lt_of_succ_lt hn)).2.2.2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2.1 (outsAt1 c n (Nat.lt_of_succ_lt hn)).2.2.2.2.2.2

/-- At a first key/value block. -/
theorem outsAt1_A (c : Dev nD) (t : Fin cfg1.N) (h0 : t.val % 4 = 0) (h1 : ¬t.val % 4 = 3) :
    outsAt1 V c t.val t.isLt = outs1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

/-- At a middle key/value block: over what the point before left. -/
theorem outsAt1_B (c : Dev nD) (t : Fin cfg1.N) (h0 : ¬t.val % 4 = 0) (h1 : ¬t.val % 4 = 3) :
    outsAt1 V c t.val t.isLt = outs1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

/-- At a last key/value block: over what the point before left. -/
theorem outsAt1_C (c : Dev nD) (t : Fin cfg1.N) (h0 : ¬t.val % 4 = 0) (h1 : t.val % 4 = 3) :
    outsAt1 V c t.val t.isLt = outs1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n. Before the first point, the class invariant: every scoped buffer of the core that is no
    staging buffer of this call at some contents, and the generator register at some state. Afterwards the
    same, with the six carried buffers at what position n - 1 left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM1_0 fullShare ((outsAt1 V c n hn).2.1)
        ∗ owns (c : Thread nD τ) scM1_1 fullShare ((outsAt1 V c n hn).2.2.1)
        ∗ owns (c : Thread nD τ) scM1_2 fullShare ((outsAt1 V c n hn).2.2.2.1)
        ∗ owns (c : Thread nD τ) scM1_3 fullShare ((outsAt1 V c n hn).2.2.2.2.1)
        ∗ owns (c : Thread nD τ) scM1_4 fullShare ((outsAt1 V c n hn).2.2.2.2.2.1)
        ∗ owns (c : Thread nD τ) scM1_5 fullShare ((outsAt1 V c n hn).2.2.2.2.2.2)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM1_0 fullShare ((outsAt1 V c n hn).2.1)
        ∗ owns (c : Thread nD τ) scM1_1 fullShare ((outsAt1 V c n hn).2.2.1)
        ∗ owns (c : Thread nD τ) scM1_2 fullShare ((outsAt1 V c n hn).2.2.2.1)
        ∗ owns (c : Thread nD τ) scM1_3 fullShare ((outsAt1 V c n hn).2.2.2.2.1)
        ∗ owns (c : Thread nD τ) scM1_4 fullShare ((outsAt1 V c n hn).2.2.2.2.2.1)
        ∗ owns (c : Thread nD τ) scM1_5 fullShare ((outsAt1 V c n hn).2.2.2.2.2.2)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM1_0 fullShare ((outsAt1 V c (n - 1) (by omega)).2.1)
        ∗ owns (c : Thread nD τ) scM1_1 fullShare ((outsAt1 V c (n - 1) (by omega)).2.2.1)
        ∗ owns (c : Thread nD τ) scM1_2 fullShare ((outsAt1 V c (n - 1) (by omega)).2.2.2.1)
        ∗ owns (c : Thread nD τ) scM1_3 fullShare ((outsAt1 V c (n - 1) (by omega)).2.2.2.2.1)
        ∗ owns (c : Thread nD τ) scM1_4 fullShare ((outsAt1 V c (n - 1) (by omega)).2.2.2.2.2.1)
        ∗ owns (c : Thread nD τ) scM1_5 fullShare ((outsAt1 V c (n - 1) (by omega)).2.2.2.2.2.2)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The proof data -/

/-- The proof data of the second call on core c: the arrays as the call finds them; after the body each input's
    buffer at its block and the output's at the point's output component; the invariant PhiS1; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.Kernel.Hand

end
-- ==== Proof.FrameAttnBits.lean ====
/-
  Attention over key/value blocks: the body obligation of the second pallas_call. At any point the inputs'
  memrefs hold their blocks; the key/value coordinate says which of the three cases the point is in, so that
  case's run applies; the invariant hands the run the six carried buffers (at anything at the very first point,
  otherwise at what the point before left) and takes them back at this point's contents, the run's pieces
  covering each; the output block is handed back untouched except at a last key/value block, where the stored
  piece covers it.
-/
import proofs.«138496_j31379031065087_2_alg».proof.Proof.FrameAttnDatBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
/-- The very first point: the six carried buffers come from the class invariant, at anything. -/
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_zero V c _ _ hz, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_A V c t h0 h1]
  unfold outs1_A; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t)).2.2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_A_4 c _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_A_5 c _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  iexists _; iexact H3

set_option maxHeartbeats 4800000 in
/-- A later first key/value block: what the point before left in the six carried buffers is overwritten. -/
theorem sound_body1_A1 (c : Dev nD) (t : Fin cfg1.N) (h0 : t.val % 4 = 0) (h1 : ¬t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_A V c t h0 h1]
  unfold outs1_A; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t)).2.2.2.2.2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_A_4 c _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_A_5 c _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  iexists _; iexact H3

set_option maxHeartbeats 4800000 in
/-- A middle key/value block. -/
theorem sound_body1_B (c : Dev nD) (t : Fin cfg1.N) (h0 : ¬t.val % 4 = 0) (h1 : ¬t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_B V c t h0 h1]
  unfold outs1_B; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _ _ _).2.2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_B_3 c _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_B_4 c _ _ _ _ _ _ _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_B_5 c _ _ _ _ _ _ _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  iexists _; iexact H3

set_option maxHeartbeats 4800000 in
/-- A last key/value block: the output block is stored. -/
theorem sound_body1_C (c : Dev nD) (t : Fin cfg1.N) (h0 : ¬t.val % 4 = 0) (h1 : t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_1 t).mpr h1)], after1_3]
  rw [outsAt1_C V c t h0 h1]
  unfold outs1_C; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) _ _ _ _ _ _).2.2.2.2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_C_3 c _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_C_4 c _ _ _ _ _ _ _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_C_5 c _ _ _ _ _ _ _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _ _ _ _ _ _ _ _ _ _ _ _ _ _ _ _)

/-- The body at any point, by its case. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 4 = 3
    · exfalso; omega
    · by_cases hz : t.val = 0
      · exact sound_body1_A0 V c t h0 h1 hz
      · exact sound_body1_A1 V c t h0 h1 hz
  · have hz : t.val ≠ 0 := fun hz => h0 (by rw [hz])
    by_cases h1 : t.val % 4 = 3
    · exact sound_body1_C V c t h0 h1 hz
    · exact sound_body1_B V c t h0 h1 hz
/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: what the six carried buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HS0, HS1, HS2, HS3, HS4, HS5, HR18, HR19, HR20, HR21, HR22, HR23⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HR18]; · iexact HR18
    isplitl [HR19]; · iexact HR19
    isplitl [HR20]; · iexact HR20
    isplitl [HR21]; · iexact HR21
    isplitl [HR22]; · iexact HR22
    iexact HR23
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.RunBits.lean ====
/-
  The whole program as a chain of six segments: host operations (casts, the weight relayout, the padded
  rotation tables), the projection-and-rotation call, the attention call, host operations (a reshape, a cast,
  the bias as a row), the output projection call, a last reshape. Between two segments every unscoped buffer
  holds named contents: a host stretch applies its operations; a call leaves its own arrays at what its
  write-backs folded over the grid give and touches nothing else. The run ends with every unscoped buffer at the
  last of these contents, whence the arguments are unchanged and the result is the last reshape of the output
  projection's array.
-/
import proofs.«138496_j31379031065087_2_alg».proof.Proof.FrameQkvBits
import proofs.«138496_j31379031065087_2_alg».proof.Proof.FrameProjBits

import proofs.«138496_j31379031065087_2_alg».proof.Proof.FrameAttnBits
import proofs.«138496_j31379031065087_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev Bd0 : Dev nD → Valuation τ sig (Elt F) := fun c b => (s₀ m ρ).mem ((c : Dev nD), b)
/-- After the first host stretch. -/
abbrev Bd1 : Dev nD → Valuation τ sig (Elt F) := fun c => StableHlo.after hostOps0 (Bd0 m ρ c)
abbrev Vd1 : (c : Dev nD) → (b : Ref sig .tc) → Buf (Elt F) ((c : Thread nD τ).loc b) := fun c b => Bd1 m ρ c b

/-- After call 0: its arrays at what the pipeline's write-backs leave, every other buffer as entered. -/
def Bd2 (c : Dev nD) : Valuation τ sig (Elt F) :=
  Pipeline.withArrays spec0 c (Bd1 m ρ c) fun w => (dat0 (Vd1 m ρ) c).arrAt w cfg0.N
theorem Bd2_arr (c : Dev nD) (w : Fin cfg0.W) :
    Bd2 m ρ c (Proc.devRef .tc (Pipeline.arrRef spec0 w)) = (dat0 (Vd1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Vd2 : (c : Dev nD) → (b : Ref sig .tc) → Buf (Elt F) ((c : Thread nD τ).loc b) := fun c b => Bd2 m ρ c b
theorem hF0 (c : Dev nD) (w : Fin cfg0.W) : (dat0 (Vd1 m ρ) c).arrAt w cfg0.N = Vd2 m ρ c (Pipeline.arrRef spec0 w) :=
  (Bd2_arr m ρ c w).symm
theorem hrest0 (c : Dev nD) : ∀ b, b ∉ Finset.univ.image (Pipeline.arrRef spec0) → Vd2 m ρ c b = Vd1 m ρ c b :=
  fun b hb => Bd2_of_ne m ρ c b fun w e => hb (Finset.mem_image.mpr ⟨w, Finset.mem_univ _, e⟩)

/-- After call 1: its arrays at what the pipeline's write-backs leave, every other buffer as entered. -/
def Bd3 (c : Dev nD) : Valuation τ sig (Elt F) :=
  Pipeline.withArrays spec1 c (Bd2 m ρ c) fun w => (dat1 (Vd2 m ρ) c).arrAt w cfg1.N
theorem Bd3_arr (c : Dev nD) (w : Fin cfg1.W) :
    Bd3 m ρ c (Proc.devRef .tc (Pipeline.arrRef spec1 w)) = (dat1 (Vd2 m ρ) c).arrAt w cfg1.N := by
  unfold Bd3; exact Pipeline.withArrays_arr spec1 launch1.win.arr_inj c _ _ w
theorem Bd3_of_ne (c : Dev nD) (b : Ref sig .tc) (hb : ∀ w, Pipeline.arrRef spec1 w ≠ b) :
    Bd3 m ρ c (Proc.devRef .tc b) = Bd2 m ρ c (Proc.devRef .tc b) := by
  unfold Bd3; exact Pipeline.withArrays_of_ne spec1 c _ _ b hb
abbrev Vd3 : (c : Dev nD) → (b : Ref sig .tc) → Buf (Elt F) ((c : Thread nD τ).loc b) := fun c b => Bd3 m ρ c b
theorem hF1 (c : Dev nD) (w : Fin cfg1.W) : (dat1 (Vd2 m ρ) c).arrAt w cfg1.N = Vd3 m ρ c (Pipeline.arrRef spec1 w) :=
  (Bd3_arr m ρ c w).symm
theorem hrest1 (c : Dev nD) : ∀ b, b ∉ Finset.univ.image (Pipeline.arrRef spec1) → Vd3 m ρ c b = Vd2 m ρ c b :=
  fun b hb => Bd3_of_ne m ρ c b fun w e => hb (Finset.mem_image.mpr ⟨w, Finset.mem_univ _, e⟩)

/-- After the second host stretch. -/
abbrev Bd4 : Dev nD → Valuation τ sig (Elt F) := fun c => StableHlo.after hostOps2 (Bd3 m ρ c)
abbrev Vd4 : (c : Dev nD) → (b : Ref sig .tc) → Buf (Elt F) ((c : Thread nD τ).loc b) := fun c b => Bd4 m ρ c b

/-- After call 2: its arrays at what the pipeline's write-backs leave, every other buffer as entered. -/
def Bd5 (c : Dev nD) : Valuation τ sig (Elt F) :=
  Pipeline.withArrays spec2 c (Bd4 m ρ c) fun w => (dat2 (Vd4 m ρ) c).arrAt w cfg2.N
theorem Bd5_arr (c : Dev nD) (w : Fin cfg2.W) :
    Bd5 m ρ c (Proc.devRef .tc (Pipeline.arrRef spec2 w)) = (dat2 (Vd4 m ρ) c).arrAt w cfg2.N := by
  unfold Bd5; exact Pipeline.withArrays_arr spec2 launch2.win.arr_inj c _ _ w
theorem Bd5_of_ne (c : Dev nD) (b : Ref sig .tc) (hb : ∀ w, Pipeline.arrRef spec2 w ≠ b) :
    Bd5 m ρ c (Proc.devRef .tc b) = Bd4 m ρ c (Proc.devRef .tc b) := by
  unfold Bd5; exact Pipeline.withArrays_of_ne spec2 c _ _ b hb
abbrev Vd5 : (c : Dev nD) → (b : Ref sig .tc) → Buf (Elt F) ((c : Thread nD τ).loc b) := fun c b => Bd5 m ρ c b
theorem hF2 (c : Dev nD) (w : Fin cfg2.W) : (dat2 (Vd4 m ρ) c).arrAt w cfg2.N = Vd5 m ρ c (Pipeline.arrRef spec2 w) :=
  (Bd5_arr m ρ c w).symm
theorem hrest2 (c : Dev nD) : ∀ b, b ∉ Finset.univ.image (Pipeline.arrRef spec2) → Vd5 m ρ c b = Vd4 m ρ c b :=
  fun b hb => Bd5_of_ne m ρ c b fun w e => hb (Finset.mem_image.mpr ⟨w, Finset.mem_univ _, e⟩)

/-- After the last host stretch: the run's final contents. -/
abbrev Bd6 : Dev nD → Valuation τ sig (Elt F) := fun c => StableHlo.after hostOps3 (Bd5 m ρ c)

/-- A buffer that no host operation writes and that is no call's array ends as launched. -/
theorem Bd6_of (c : Dev nD) (b : Ref sig .tc) (h0 : b ∉ hostOps0_W) (a0 : ∀ w, Pipeline.arrRef spec0 w ≠ b) (a1 : ∀ w, Pipeline.arrRef spec1 w ≠ b)
    (h2 : b ∉ hostOps2_W) (a2 : ∀ w, Pipeline.arrRef spec2 w ≠ b) (h3 : b ∉ hostOps3_W) :
    Bd6 m ρ c (Proc.devRef .tc b) = m ((c : Thread nD τ).loc b) :=
  calc Bd6 m ρ c (Proc.devRef .tc b)
    _ = Bd5 m ρ c (Proc.devRef .tc b) := StableHlo.after_of_writes_sub hostOps3 _ hostOps3_writes h3
    _ = Bd4 m ρ c (Proc.devRef .tc b) := Bd5_of_ne m ρ c b a2
    _ = Bd3 m ρ c (Proc.devRef .tc b) := StableHlo.after_of_writes_sub hostOps2 _ hostOps2_writes h2
    _ = Bd2 m ρ c (Proc.devRef .tc b) := Bd3_of_ne m ρ c b a1
    _ = Bd1 m ρ c (Proc.devRef .tc b) := Bd2_of_ne m ρ c b a0
    _ = Bd0 m ρ c (Proc.devRef .tc b) := StableHlo.after_of_writes_sub hostOps0 _ hostOps0_writes h0
    _ = m ((c : Thread nD τ).loc b) := rfl

/-- No call has a prefetched table. -/
abbrev admH : (p : Fin 3) → (pcfgs (F := F) p).Adm := fun p => (cfgs p).toPCfg_adm
/-- Every call's proof data, each at its entry contents. -/
def pdatsH : (p : Fin 3) → (c : Dev nD) → Dat τ (Elt F) Unit ℕ (UR sig nD τ) ℕ (Pipeline.pin (pcfgs (F := F)) admH p) c
  | ⟨0, _⟩ => fun c => dat0 (Vd1 m ρ) c
  | ⟨1, _⟩ => fun c => dat1 (Vd2 m ρ) c
  | ⟨2, _⟩ => fun c => dat2 (Vd4 m ρ) c
abbrev 𝒱H : Variants := Variants.none
abbrev LH : GSem nD τ sig → Finset Unit := fun _ => ∅
abbrev lvH : GSem nD τ sig → Unit → ℕ := fun _ _ => 0
/-- What rides beside the buffers: the generator register at some state, and nothing owed. -/
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Bd6 m ρ c) ∗ ∃ r, prngReg c r)

set_option backward.isDefEq.respectTransparency.types false in
/-- Call 0 as a segment: entered with every unscoped buffer at the contents before it, left with the call's
    arrays at what its write-backs leave and every other buffer untouched. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vd1 m ρ) c).loose
  hwaits := Pipeline.hwaits_of_owed_zero _ _ _ _ LH lvH 0 fun _ _ => rfl
  pre c := iprop(StableHlo.held (c : Thread nD τ) (Pipeline.ucRefs τ sig) (Bd1 m ρ c) ∗ Rst c)
  post c := iprop(StableHlo.held (c : Thread nD τ) (Pipeline.ucRefs τ sig) (Bd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vd1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vd1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vd1 m ρ c) (Vd2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with the call's
    arrays at what its write-backs leave and every other buffer untouched. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vd2 m ρ) c).loose
  hwaits := Pipeline.hwaits_of_owed_zero _ _ _ _ LH lvH 1 fun _ _ => rfl
  pre c := iprop(StableHlo.held (c : Thread nD τ) (Pipeline.ucRefs τ sig) (Bd2 m ρ c) ∗ Rst c)
  post c := iprop(StableHlo.held (c : Thread nD τ) (Pipeline.ucRefs τ sig) (Bd3 m ρ c) ∗ Rst c)
  X c := iprop(∃ r, prngReg c r)
  Y c := iprop(∃ r, prngReg c r)
  Z c := Pipeline.unscopedRest (Ix := Unit) (Name := ℕ) (U := UR sig nD τ) (Lvl := ℕ) spec1 c (Vd2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vd2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (Vd2 m ρ) c).Φ 0 from rfl]
    have h := hin1 (Vd2 m ρ) c
    unfold Pipeline.ΦA at h
    iintro ⟨Hp, -, Hr⟩
    iapply h
    isplitl [Hr]; · iexact Hr
    iexact Hp
  hout c := by
    rw [Pipeline.ownSems0_none, show (pdatsH m ρ 1 c).Φ (Fin.last _) = (dat1 (Vd2 m ρ) c).Φ (Fin.last cfg1.N) from rfl]
    have h := hout1 (Vd2 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vd2 m ρ c) (Vd3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at the contents before it, left with the call's
    arrays at what its write-backs leave and every other buffer untouched. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vd4 m ρ) c).loose
  hwaits := Pipeline.hwaits_of_owed_zero _ _ _ _ LH lvH 2 fun _ _ => rfl
  pre c := iprop(StableHlo.held (c : Thread nD τ) (Pipeline.ucRefs τ sig) (Bd4 m ρ c) ∗ Rst c)
  post c := iprop(StableHlo.held (c : Thread nD τ) (Pipeline.ucRefs τ sig) (Bd5 m ρ c) ∗ Rst c)
  X c := iprop(∃ r, prngReg c r)
  Y c := iprop(∃ r, prngReg c r)
  Z c := Pipeline.unscopedRest (Ix := Unit) (Name := ℕ) (U := UR sig nD τ) (Lvl := ℕ) spec2 c (Vd4 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vd4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vd4 m ρ c) (Vd5 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments in order. -/
abbrev segsH : List (Pipeline.Seg (pcfgs (F := F)) admH (pdatsH m ρ) () defs₀ 𝒱H LH lvH) :=
  [ .host (hsegH hostOps0 hostOps0_sub hostOps0_fresh (Bd0 m ρ)),
    .region (reg0 m ρ),
    .region (reg1 m ρ),
    .host (hsegH hostOps2 hostOps2_sub hostOps2_fresh (Bd3 m ρ)),
    .region (reg2 m ρ),
    .host (hsegH hostOps3 hostOps3_sub hostOps3_fresh (Bd5 m ρ)) ]
theorem main_runH (c : Dev nD) : main (F := F) c = Pipeline.Seg.run (segsH m ρ) := (main_chain c).trans (by chain_rfl)

set_option backward.isDefEq.respectTransparency.types false in
/-- Every weakly fair execution from memory m with zero counters terminates, nothing faulting, and ends with every
    unscoped buffer at the contents the chain of segments gives. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (Bd6 m ρ c) ∗ Rst c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h c => h c)

/-- The frame: the six argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_ucH main_arg0 (by decide))).trans (Bd6_of m ρ c main_arg0 (by decide) (by decide) (by decide) (by decide) (by decide) (by decide)),
    (h c _ (mem_ucH main_arg1 (by decide))).trans (Bd6_of m ρ c main_arg1 (by decide) (by decide) (by decide) (by decide) (by decide) (by decide)),
    (h c _ (mem_ucH main_arg2 (by decide))).trans (Bd6_of m ρ c main_arg2 (by decide) (by decide) (by decide) (by decide) (by decide) (by decide)),
    (h c _ (mem_ucH main_arg3 (by decide))).trans (Bd6_of m ρ c main_arg3 (by decide) (by decide) (by decide) (by decide) (by decide) (by decide)),
    (h c _ (mem_ucH main_arg4 (by decide))).trans (Bd6_of m ρ c main_arg4 (by decide) (by decide) (by decide) (by decide) (by decide) (by decide)),
    (h c _ (mem_ucH main_arg5 (by decide))).trans (Bd6_of m ρ c main_arg5 (by decide) (by decide) (by decide) (by decide) (by decide) (by decide))⟩)
    (run_all m ρ)

end Cert.Kernel.Hand

end
-- ==== Proof.FrameQkvIdeal.lean ====
/-
  The fused projection and rotation, one (batch, head pair) at a time: the first pallas_call stages the batch's
  2048 token rows, the head pair's 384 weight rows and the two padded rotation tables, multiplies, rotates the
  query and key columns (the query also scaled by 1/8), and stores three blocks of 2048 x 128: queries, keys,
  values of the two heads side by side. Every point reads its four input blocks whole and writes its three
  output blocks whole; nothing is kept between points. Stated at the contents V the call is entered with.
-/
import proofs.«138496_j31379031065087_2_alg».proof.Proof.Gen.KernelIdeal.Launch
import proofs.«138496_j31379031065087_2_alg».proof.Proof.Gen.KernelIdeal.Skeleton
import proofs.«138496_j31379031065087_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x2048x1024 := Rect.unit (s := S1x2048x1024) ![0, 0, 0] S1x2048x1024.size inb_S1x2048x1024_S1x2048x1024_0_0_0
abbrev r0_1 : Rect S1x384x1024 := Rect.unit (s := S1x384x1024) ![0, 0, 0] S1x384x1024.size inb_S1x384x1024_S1x384x1024_0_0_0
abbrev r0_2 : Rect S2048x64 := Rect.unit (s := S2048x64) ![0, 0] S2048x64.size inb_S2048x64_S2048x64_0_0
abbrev r0_4 : Rect S1x1x2048x128 := Rect.unit (s := S1x1x2048x128) ![0, 0, 0, 0] S1x1x2048x128.size inb_S1x1x2048x128_S1x1x2048x128_0_0_0_0

/-- The query block after the body: both heads' rotated, scaled queries side by side. -/
def out0_4 (x0 : Vec F S1x2048x1024 .bf16) (x1 : Vec F S1x384x1024 .bf16) (x2 x3 : Vec F S2048x64 .f32) : Vec F S1x1x2048x128 .bf16 :=
  View.canon [⟨r0_4, k0_pay1 (k0_pay11 (View.ld x0 r0_0) (View.ld x1 r0_1) (View.ld x2 r0_2) (View.ld x3 r0_2)) (k0_pay12 (View.ld x0 r0_0) (View.ld x1 r0_1) (View.ld x2 r0_2) (View.ld x3 r0_2))⟩]
/-- The key block after the body: both heads' rotated keys side by side. -/
def out0_5 (x0 : Vec F S1x2048x1024 .bf16) (x1 : Vec F S1x384x1024 .bf16) (x2 x3 : Vec F S2048x64 .f32) : Vec F S1x1x2048x128 .bf16 :=
  View.canon [⟨r0_4, k0_pay2 (k0_pay6 (View.ld x0 r0_0) (View.ld x1 r0_1)) (k0_pay9 (View.ld x2 r0_2)) (k0_pay10 (View.ld x3 r0_2)) (k0_pay13 (View.ld x0 r0_0) (View.ld x1 r0_1) (View.ld x3 r0_2)) (k0_pay14 (View.ld x0 r0_0) (View.ld x1 r0_1) (View.ld x2 r0_2))⟩]
/-- The value block after the body: both heads' values side by side. -/
def out0_6 (x0 : Vec F S1x2048x1024 .bf16) (x1 : Vec F S1x384x1024 .bf16) : Vec F S1x1x2048x128 .bf16 :=
  View.canon [⟨r0_4, k0_pay3 (k0_pay7 (View.ld x0 r0_0) (View.ld x1 r0_1)) (k0_pay8 (View.ld x0 r0_0) (View.ld x1 r0_1))⟩]

/-- One whole store covers a block. -/
theorem cover0_4 (p0 : Vec F S1x1x2048x128 .bf16) (y : S1x1x2048x128.Idx) :
    ∃ pc ∈ ([⟨r0_4, p0⟩] : List (View.Piece (Elt F) S1x1x2048x128 .bf16)), y ∈ pc.1.set :=
  View.cover_of_tiled [⟨r0_4, p0⟩] S1x1x2048x128.size (by rfl) y

set_option maxHeartbeats 4000000 in
/-- The body on whole staging buffers: the inputs come back as they were, each output holds its block. -/
theorem sound_kernel0 (c : Dev nD) (E : Set ℕ) (i : grid0.Coords)
    (arg2 : Memref sig .tc .vmem S1x2048x1024 .bf16) (harg2 : arg2.IsWhole) (arg3 : Memref sig .tc .vmem S1x384x1024 .bf16) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S1x1x2048x128 .bf16) (harg6 : arg6.IsWhole) (arg7 : Memref sig .tc .vmem S1x1x2048x128 .bf16) (harg7 : arg7.IsWhole)
    (arg8 : Memref sig .tc .vmem S1x1x2048x128 .bf16) (harg8 : arg8.IsWhole)
    (x0 : Vec F S1x2048x1024 .bf16) (x1 : Vec F S1x384x1024 .bf16) (x2 x3 : Vec F S2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3) ∗ owns (c : Thread nD τ) arg7 fullShare (out0_5 x0 x1 x2 x3) ∗ owns (c : Thread nD τ) arg8 fullShare (out0_6 x0 x1)) -∗ K ⟨⟩))
      ⊢ wp frame (wpE (defs₀ (F := F)) Variants.none c none) E (cc0__qkv_rope_kernel i arg2 harg2 arg3 harg3 arg4 harg4 arg5 harg5 arg6 harg6 arg7 harg7 arg8 harg8) K := by
  simp only [cc0__qkv_rope_kernel_eq_skeleton]; unfold cc0__qkv_rope_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_4 _)

/-- The proof data of the first call on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameProjIdeal.lean ====
/-
  The output projection, one row block at a time: the third pallas_call stages a block of 512 rows of the
  attention output, the whole projection matrix and the bias row, and stores the block's product plus the
  bias into the block's rows of the result. Every point reads its three input blocks whole, writes its
  output block whole, keeps nothing between points. Stated at the contents V the call is entered with.
-/
import proofs.«138496_j31379031065087_2_alg».proof.Proof.Gen.KernelIdeal.Launch
import proofs.«138496_j31379031065087_2_alg».proof.Proof.Gen.KernelIdeal.Skeleton
import proofs.«138496_j31379031065087_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or
    the index did not move since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-- The output block after the body: the one store, the product of the row block with the matrix plus the bias. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The store covers the block. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

set_option maxHeartbeats 1000000 in
/-- The body on whole staging buffers: the inputs come back as they were, the output holds out2_3 of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third call on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameAttnRunsIdeal.lean ====
/-
  Attention over key/value blocks, one block at a time: the second pallas_call visits, for each batch, head
  pair and query block, the four key/value blocks in turn (the last grid coordinate), keeping for each of the
  two heads a running row maximum, a running row sum and an unnormalised accumulator in six buffers of its own
  that live from one point to the next. At the first key/value block the six are reset before they are read;
  at the last the two accumulators are divided by their sums and stored, side by side, into the output block.
  This module holds what the three cases' runs share: the windows' blocks, the two branch conditions in closed
  form, where the output window is idle, and the invariant with the six carried buffers named.
-/
import proofs.«138496_j31379031065087_2_alg».proof.Proof.Gen.KernelIdeal.Launch
import proofs.«138496_j31379031065087_2_alg».proof.Proof.Gen.KernelIdeal.Skeleton
import proofs.«138496_j31379031065087_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or
    the index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, in closed form -/

/-- The first branch (reset the six carried buffers) is taken when the key/value coordinate is 0. -/
abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (normalise and store the output block) is taken when the key/value coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x512x128 .bf16 := (Memref.whole cc1_stg3_0 : Memref sig .tc .vmem S1x512x128 .bf16).view
abbrev ms1_0 (t : Fin cfg1.N) : Memref sig .tc .vmem S1x1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .bf16 := win1_3.stage (cfg1.slots t 3)
abbrev hs1_3 (t : Fin cfg1.N) : (ms1_3 t).IsWhole := hstage1_3 ((cfg1.slots t 3).cast nbuf1_3)
/-- The six carried buffers (running maximum, running sum, accumulator, for each of the two heads), whole. -/
abbrev scM1_0 : Memref sig .tc .vmem S512x1 .f32 := Memref.whole cc1_scratch0
abbrev VS1_0 : View sig .tc .vmem S512x1 .f32 := (scM1_0).view
abbrev scM1_1 : Memref sig .tc .vmem S512x1 .f32 := Memref.whole cc1_scratch1
abbrev VS1_1 : View sig .tc .vmem S512x1 .f32 := (scM1_1).view
abbrev scM1_2 : Memref sig .tc .vmem S512x64 .f32 := Memref.whole cc1_scratch2
abbrev VS1_2 : View sig .tc .vmem S512x64 .f32 := (scM1_2).view
abbrev scM1_3 : Memref sig .tc .vmem S512x1 .f32 := Memref.whole cc1_scratch3
abbrev VS1_3 : View sig .tc .vmem S512x1 .f32 := (scM1_3).view
abbrev scM1_4 : Memref sig .tc .vmem S512x1 .f32 := Memref.whole cc1_scratch4
abbrev VS1_4 : View sig .tc .vmem S512x1 .f32 := (scM1_4).view
abbrev scM1_5 : Memref sig .tc .vmem S512x64 .f32 := Memref.whole cc1_scratch5
abbrev VS1_5 : View sig .tc .vmem S512x64 .f32 := (scM1_5).view

/-- The class invariant with the six carried buffers as memrefs owned at some contents; the other scoped
    buffers of the core, each at some contents, stay as they are listed. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ d, owns (c : Thread nD τ) scM1_3 fullShare d)
        ∗ (∃ d, owns (c : Thread nD τ) scM1_4 fullShare d)
        ∗ (∃ d, owns (c : Thread nD τ) scM1_5 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, scM1_2, scM1_3, scM1_4, scM1_5, owns_whole]; try rfl

end Cert.KernelIdeal.Hand

end
-- ==== Proof.FrameAttnRunBIdeal.lean ====
/-
  The attention body at a middle key/value block: neither the reset nor the final normalisation runs.
-/
import proofs.«138496_j31379031065087_2_alg».proof.Proof.FrameAttnRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- A middle key/value block (neither branch taken). On whole memrefs — the three input blocks at their contents, the
    output block at any contents, handed back untouched, the six carried buffers at what the point before left —
    the body runs to a continuation that holds the inputs as they were and each carried buffer with the pieces
    its stores wrote, last first. The pieces are found by running the body. -/
noncomputable def kernelRun1_B (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S1x512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S1x512x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ owns (c : Thread nD τ) arg7 fullShare xi3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨[], ?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg7.eq_unread hf3; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.FrameAttnRunAIdeal.lean ====
/-
  The attention body at the first key/value block: the six carried buffers are reset, then updated.
-/
import proofs.«138496_j31379031065087_2_alg».proof.Proof.FrameAttnRunBIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The first key/value block (the reset is taken, the final normalisation is not). On whole memrefs — the three
    input blocks at their contents, the output block at any contents, handed back untouched, the six carried
    buffers at ANY contents, since each is stored whole before it is read — the body runs to a continuation that
    holds the inputs as they were and each carried buffer with the pieces its stores wrote, last first. -/
noncomputable def kernelRun1_A (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) :
    Σ' (L3 : List (View.Piece (Elt F) S1x512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S1x512x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨[], ?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.FrameAttnRunCIdeal.lean ====
/-
  The attention body at the last key/value block: the carried buffers are updated, then the two accumulators
  are normalised and stored into the output block.
-/
import proofs.«138496_j31379031065087_2_alg».proof.Proof.FrameAttnRunAIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The last key/value block (no reset; the final normalisation is taken). On whole memrefs — the three input
    blocks at their contents, the output block at anything, the six carried buffers at what the point before
    left — the body runs to a continuation that holds the inputs as they were, each carried buffer with the
    pieces its stores wrote, and the output block with the one piece stored into it. -/
noncomputable def kernelRun1_C (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S1x512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.FrameAttnDatIdeal.lean ====
/-
  Attention over key/value blocks: what the six carried buffers and the output block hold after every point,
  the invariant between points, and the proof data of the second pallas_call. A point is in one of three cases
  by its key/value coordinate: the first block (the carried buffers are reset and updated), a middle block
  (updated), the last block (updated, then the normalised accumulators are stored into the output block). The
  carried buffers after a point are the pieces that point's run stored, read back; a middle or last point's
  run starts from what the point before left.
-/
import proofs.«138496_j31379031065087_2_alg».proof.Proof.FrameAttnRunCIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the first-block run stores into carried buffer 0 cover it. -/
theorem scover1_A_0 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.1 S512x1.size (by sl_kernel_rfl) y

/-- The pieces the first-block run stores into carried buffer 1 cover it. -/
theorem scover1_A_1 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.1 S512x1.size (by sl_kernel_rfl) y

/-- The pieces the first-block run stores into carried buffer 2 cover it. -/
theorem scover1_A_2 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x64.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.1 S512x64.size (by sl_kernel_rfl) y

/-- The pieces the first-block run stores into carried buffer 3 cover it. -/
theorem scover1_A_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.2.1 S512x1.size (by sl_kernel_rfl) y

/-- The pieces the first-block run stores into carried buffer 4 cover it. -/
theorem scover1_A_4 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x1.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.2.2.1 S512x1.size (by sl_kernel_rfl) y

/-- The pieces the first-block run stores into carried buffer 5 cover it. -/
theorem scover1_A_5 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) (y : S512x64.Idx) :
    ∃ pc ∈ (kernelRun1_A c i arg4 harg4 arg5 harg5 arg6 harg6 arg7 harg7 arg8 harg8 arg9 harg9 arg10 harg10 arg11 harg11 arg12 harg12 arg13 harg13 hc0 hc1 x0 x1 x2).2.2.2.2.2.2.1, y ∈ pc.1.set :=
  View.cover_of_tiledL (kernelRun1_A c i arg4 harg4 arg5 harg5 arg6 harg6 arg7 harg7 arg8 harg8 arg9 harg9 arg10 harg10 arg11 harg11 arg12 harg12 arg13 harg13 hc0 hc1 x0 x1 x2).2.2.2.2.2.2.1 S512x64.size (by sl_kernel_rfl) y

/-- What the first-block run leaves: the output block (no piece: a placeholder nothing consults, the window being idle there), then the six carried buffers, each the
    run's pieces read back over arbitrary contents. -/
def outs1_A (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : cond1_0 i) (hc1 : ¬cond1_1 i)
    (x0 : Vec F S1x1x512x128 .bf16) (x1 : Vec F S1x1x512x128 .bf16) (x2 : Vec F S1x1x512x128 .bf16) : Vec F S1x512x128 .bf16 × Vec F S512x1 .f32 × Vec F S512x1 .f32 × Vec F S512x64 .f32 × Vec F S512x1 .f32 × Vec F S512x1 .f32 × Vec F S512x64 .f32 :=
  (VO1_3.read (Elt F) (VO1_3.writes (Elt F) VO1_3.junk (kernelRun1_A c i arg4 harg4 arg5 harg5 arg6 harg6 arg7 harg7 arg8 harg8 arg9 harg9 arg10 harg10 arg11 harg11 arg12 harg12 arg13 harg13 hc0 hc1 x0 x1 x2).1),
   VS1_0.read (Elt F) (VS1_0.writes (Elt F) VS1_0.junk (kernelRun1_A c i arg4 harg4 arg5 harg5 arg6 harg6 arg7 harg7 arg8 harg8 arg9 harg9 arg10 harg10 arg11 harg11 arg12 harg12 arg13 harg13 hc0 hc1 x0 x1 x2).2.1),
   VS1_1.read (Elt F) (VS1_1.writes (Elt F) VS1_1.junk (kernelRun1_A c i arg4 harg4 arg5 harg5 arg6 harg6 arg7 harg7 arg8 harg8 arg9 harg9 arg10 harg10 arg11 harg11 arg12 harg12 arg13 harg13 hc0 hc1 x0 x1 x2).2.2.1),
   VS1_2.read (Elt F) (VS1_2.writes (Elt F) VS1_2.junk (kernelRun1_A c i arg4 harg4 arg5 harg5 arg6 harg6 arg7 harg7 arg8 harg8 arg9 harg9 arg10 harg10 arg11 harg11 arg12 harg12 arg13 harg13 hc0 hc1 x0 x1 x2).2.2.2.1),
   VS1_3.read (Elt F) (VS1_3.writes (Elt F) VS1_3.junk (kernelRun1_A c i arg4 harg4 arg5 harg5 arg6 harg6 arg7 harg7 arg8 harg8 arg9 harg9 arg10 harg10 arg11 harg11 arg12 harg12 arg13 harg13 hc0 hc1 x0 x1 x2).2.2.2.2.1),
   VS1_4.read (Elt F) (VS1_4.writes (Elt F) VS1_4.junk (kernelRun1_A c i arg4 harg4 arg5 harg5 arg6 harg6 arg7 harg7 arg8 harg8 arg9 harg9 arg10 harg10 arg11 harg11 arg12 harg12 arg13 harg13 hc0 hc1 x0 x1 x2).2.2.2.2.2.1),
   VS1_5.read (Elt F) (VS1_5.writes (Elt F) VS1_5.junk (kernelRun1_A c i arg4 harg4 arg5 harg5 arg6 harg6 arg7 harg7 arg8 harg8 arg9 harg9 arg10 harg10 arg11 harg11 arg12 harg12 arg13 harg13 hc0 hc1 x0 x1 x2).2.2.2.2.2.2.1))

/-- The pieces the middle-block run stores into carried buffer 0 cover it. -/
theorem scover1_B_0 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1 S512x1.size (by sl_kernel_rfl) y

/-- The pieces the middle-block run stores into carried buffer 1 cover it. -/
theorem scover1_B_1 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1 S512x1.size (by sl_kernel_rfl) y

/-- The pieces the middle-block run stores into carried buffer 2 cover it. -/
theorem scover1_B_2 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1 S512x64.size (by sl_kernel_rfl) y

/-- The pieces the middle-block run stores into carried buffer 3 cover it. -/
theorem scover1_B_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1 S512x1.size (by sl_kernel_rfl) y

/-- The pieces the middle-block run stores into carried buffer 4 cover it. -/
theorem scover1_B_4 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1 S512x1.size (by sl_kernel_rfl) y

/-- The pieces the middle-block run stores into carried buffer 5 cover it. -/
theorem scover1_B_5 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1, y ∈ pc.1.set :=
  View.cover_of_tiledL (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1 S512x64.size (by sl_kernel_rfl) y

/-- What the middle-block run leaves: the output block (no piece: a placeholder nothing consults, the window being idle there), then the six carried buffers, each the
    run's pieces read back over arbitrary contents. -/
def outs1_B (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : ¬cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S1x512x128 .bf16 × Vec F S512x1 .f32 × Vec F S512x1 .f32 × Vec F S512x64 .f32 × Vec F S512x1 .f32 × Vec F S512x1 .f32 × Vec F S512x64 .f32 :=
  (VO1_3.read (Elt F) (VO1_3.writes (Elt F) VO1_3.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).1),
   VS1_0.read (Elt F) (VS1_0.writes (Elt F) VS1_0.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1),
   VS1_1.read (Elt F) (VS1_1.writes (Elt F) VS1_1.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1),
   VS1_2.read (Elt F) (VS1_2.writes (Elt F) VS1_2.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1),
   VS1_3.read (Elt F) (VS1_3.writes (Elt F) VS1_3.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1),
   VS1_4.read (Elt F) (VS1_4.writes (Elt F) VS1_4.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1),
   VS1_5.read (Elt F) (VS1_5.writes (Elt F) VS1_5.junk (kernelRun1_B c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1))

/-- The pieces the last-block run stores into carried buffer 0 cover it. -/
theorem scover1_C_0 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1 S512x1.size (by sl_kernel_rfl) y

/-- The pieces the last-block run stores into carried buffer 1 cover it. -/
theorem scover1_C_1 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1 S512x1.size (by sl_kernel_rfl) y

/-- The pieces the last-block run stores into carried buffer 2 cover it. -/
theorem scover1_C_2 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1 S512x64.size (by sl_kernel_rfl) y

/-- The pieces the last-block run stores into carried buffer 3 cover it. -/
theorem scover1_C_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1 S512x1.size (by sl_kernel_rfl) y

/-- The pieces the last-block run stores into carried buffer 4 cover it. -/
theorem scover1_C_4 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1 S512x1.size (by sl_kernel_rfl) y

/-- The pieces the last-block run stores into carried buffer 5 cover it. -/
theorem scover1_C_5 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1 S512x64.size (by sl_kernel_rfl) y

/-- The one piece the last-block run stores into the output block covers it. -/
theorem cover1_C_3 (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S1x512x128.Idx) :
    ∃ pc ∈ (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).1, y ∈ pc.1.set :=
  View.cover_of_tiledL (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).1 S1x512x128.size (by sl_kernel_rfl) y

/-- What the last-block run leaves: the output block, then the six carried buffers, each the
    run's pieces read back over arbitrary contents. -/
def outs1_C (c : Dev nD) (i : grid1.Coords) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬cond1_0 i) (hc1 : cond1_1 i)
    (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S1x512x128 .bf16 × Vec F S512x1 .f32 × Vec F S512x1 .f32 × Vec F S512x64 .f32 × Vec F S512x1 .f32 × Vec F S512x1 .f32 × Vec F S512x64 .f32 :=
  (VO1_3.read (Elt F) (VO1_3.writes (Elt F) VO1_3.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).1),
   VS1_0.read (Elt F) (VS1_0.writes (Elt F) VS1_0.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.1),
   VS1_1.read (Elt F) (VS1_1.writes (Elt F) VS1_1.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.1),
   VS1_2.read (Elt F) (VS1_2.writes (Elt F) VS1_2.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.1),
   VS1_3.read (Elt F) (VS1_3.writes (Elt F) VS1_3.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.1),
   VS1_4.read (Elt F) (VS1_4.writes (Elt F) VS1_4.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.1),
   VS1_5.read (Elt F) (VS1_5.writes (Elt F) VS1_5.junk (kernelRun1_C c i arg4 harg4 arg5 harg5 arg6 harg6 arg7 harg7 arg8 harg8 arg9 harg9 arg10 harg10 arg11 harg11 arg12 harg12 arg13 harg13 hc0 hc1 x0 x1 x2 xs0 xs1 xs2 xs3 xs4 xs5).2.2.2.2.2.2.1))

/-! ## What the buffers hold after each point -/

/-- After the body at position n: the case n's key/value coordinate selects, run at the point's memrefs and
    input blocks; a middle or last block starts from the six carried buffers as position n - 1 left them. -/
def outsAt1 (c : Dev nD) : (n : ℕ) → n < cfg1.N → Vec F S1x512x128 .bf16 × Vec F S512x1 .f32 × Vec F S512x1 .f32 × Vec F S512x64 .f32 × Vec F S512x1 .f32 × Vec F S512x1 .f32 × Vec F S512x64 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      if h1 : (n + 1) % 4 = 3 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 4 = 3 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2.1 (outsAt1 c n (Nat.lt_of_succ_lt hn)).2.2.2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2.1 (outsAt1 c n (Nat.lt_of_succ_lt hn)).2.2.2.2.2.2

/-- At a first key/value block. -/
theorem outsAt1_A (c : Dev nD) (t : Fin cfg1.N) (h0 : t.val % 4 = 0) (h1 : ¬t.val % 4 = 3) :
    outsAt1 V c t.val t.isLt = outs1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

/-- At a middle key/value block: over what the point before left. -/
theorem outsAt1_B (c : Dev nD) (t : Fin cfg1.N) (h0 : ¬t.val % 4 = 0) (h1 : ¬t.val % 4 = 3) :
    outsAt1 V c t.val t.isLt = outs1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

/-- At a last key/value block: over what the point before left. -/
theorem outsAt1_C (c : Dev nD) (t : Fin cfg1.N) (h0 : ¬t.val % 4 = 0) (h1 : t.val % 4 = 3) :
    outsAt1 V c t.val t.isLt = outs1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n. Before the first point, the class invariant: every scoped buffer of the core that is no
    staging buffer of this call at some contents, and the generator register at some state. Afterwards the
    same, with the six carried buffers at what position n - 1 left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM1_0 fullShare ((outsAt1 V c n hn).2.1)
        ∗ owns (c : Thread nD τ) scM1_1 fullShare ((outsAt1 V c n hn).2.2.1)
        ∗ owns (c : Thread nD τ) scM1_2 fullShare ((outsAt1 V c n hn).2.2.2.1)
        ∗ owns (c : Thread nD τ) scM1_3 fullShare ((outsAt1 V c n hn).2.2.2.2.1)
        ∗ owns (c : Thread nD τ) scM1_4 fullShare ((outsAt1 V c n hn).2.2.2.2.2.1)
        ∗ owns (c : Thread nD τ) scM1_5 fullShare ((outsAt1 V c n hn).2.2.2.2.2.2)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM1_0 fullShare ((outsAt1 V c n hn).2.1)
        ∗ owns (c : Thread nD τ) scM1_1 fullShare ((outsAt1 V c n hn).2.2.1)
        ∗ owns (c : Thread nD τ) scM1_2 fullShare ((outsAt1 V c n hn).2.2.2.1)
        ∗ owns (c : Thread nD τ) scM1_3 fullShare ((outsAt1 V c n hn).2.2.2.2.1)
        ∗ owns (c : Thread nD τ) scM1_4 fullShare ((outsAt1 V c n hn).2.2.2.2.2.1)
        ∗ owns (c : Thread nD τ) scM1_5 fullShare ((outsAt1 V c n hn).2.2.2.2.2.2)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM1_0 fullShare ((outsAt1 V c (n - 1) (by omega)).2.1)
        ∗ owns (c : Thread nD τ) scM1_1 fullShare ((outsAt1 V c (n - 1) (by omega)).2.2.1)
        ∗ owns (c : Thread nD τ) scM1_2 fullShare ((outsAt1 V c (n - 1) (by omega)).2.2.2.1)
        ∗ owns (c : Thread nD τ) scM1_3 fullShare ((outsAt1 V c (n - 1) (by omega)).2.2.2.2.1)
        ∗ owns (c : Thread nD τ) scM1_4 fullShare ((outsAt1 V c (n - 1) (by omega)).2.2.2.2.2.1)
        ∗ owns (c : Thread nD τ) scM1_5 fullShare ((outsAt1 V c (n - 1) (by omega)).2.2.2.2.2.2)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The proof data -/

/-- The proof data of the second call on core c: the arrays as the call finds them; after the body each input's
    buffer at its block and the output's at the point's output component; the invariant PhiS1; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.KernelIdeal.Hand

end
-- ==== Proof.FrameAttnIdeal.lean ====
/-
  Attention over key/value blocks: the body obligation of the second pallas_call. At any point the inputs'
  memrefs hold their blocks; the key/value coordinate says which of the three cases the point is in, so that
  case's run applies; the invariant hands the run the six carried buffers (at anything at the very first point,
  otherwise at what the point before left) and takes them back at this point's contents, the run's pieces
  covering each; the output block is handed back untouched except at a last key/value block, where the stored
  piece covers it.
-/
import proofs.«138496_j31379031065087_2_alg».proof.Proof.FrameAttnDatIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
/-- The very first point: the six carried buffers come from the class invariant, at anything. -/
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_zero V c _ _ hz, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_A V c t h0 h1]
  unfold outs1_A; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t)).2.2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_A_4 c _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_A_5 c _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  iexists _; iexact H3

set_option maxHeartbeats 4800000 in
/-- A later first key/value block: what the point before left in the six carried buffers is overwritten. -/
theorem sound_body1_A1 (c : Dev nD) (t : Fin cfg1.N) (h0 : t.val % 4 = 0) (h1 : ¬t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_A V c t h0 h1]
  unfold outs1_A; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t)).2.2.2.2.2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_A_4 c _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_A_5 c _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  iexists _; iexact H3

set_option maxHeartbeats 4800000 in
/-- A middle key/value block. -/
theorem sound_body1_B (c : Dev nD) (t : Fin cfg1.N) (h0 : ¬t.val % 4 = 0) (h1 : ¬t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h1 ((hcond1_1 t).mp h))) (noFlush1_3 t (fun h => h1 ((hcond1_1 t).mp h)))]
  rw [outsAt1_B V c t h0 h1]
  unfold outs1_B; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _ _ _).2.2.2.2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_B_3 c _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_B_4 c _ _ _ _ _ _ _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_B_5 c _ _ _ _ _ _ _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  iexists _; iexact H3

set_option maxHeartbeats 4800000 in
/-- A last key/value block: the output block is stored. -/
theorem sound_body1_C (c : Dev nD) (t : Fin cfg1.N) (h0 : ¬t.val % 4 = 0) (h1 : t.val % 4 = 3) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_1 t).mpr h1)], after1_3]
  rw [outsAt1_C V c t h0 h1]
  unfold outs1_C; (try dsimp only)
  iintro ⟨⟨⟨HR0, HR1, HR2, HR3, HR4, HR5, HR6, HR7, HR8, HR9, HR10, HR11, HS0, HS1, HS2, HS3, HS4, HS5, HR18, HR19, HR20, HR21, HR22, HR23⟩, Hg⟩, Ho, ⟨%d0, H0⟩, ⟨%d1, H1⟩, ⟨%d2, H2⟩, ⟨%d3, H3⟩⟩
  iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) _ _ _ _ _ _).2.2.2.2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%es0, HS0⟩, ⟨%es1, HS1⟩, ⟨%es2, HS2⟩, ⟨%es3, HS3⟩, ⟨%es4, HS4⟩, ⟨%es5, HS5⟩⟩
  isplitl [HR0 HR1 HR2 HR3 HR4 HR5 HR6 HR7 HR8 HR9 HR10 HR11 HS0 HS1 HS2 HS3 HS4 HS5 HR18 HR19 HR20 HR21 HR22 HR23 Hg]
  · isplitl [HR0 HR1 HR2 HR3 HR4 HR5 HR6 HR7 HR8 HR9 HR10 HR11 HS0 HS1 HS2 HS3 HS4 HS5 HR18 HR19 HR20 HR21 HR22 HR23]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover1_C_3 c _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover1_C_4 c _ _ _ _ _ _ _ _ _ _ _ _ _ _ _ _ _ _ _ _ _ _ _ _ _ _ _ _ _ _ _ _)
      isplitl [HS5]
      · unfold owns; iexists _; isplitr
        swap; · iexact HS5
        ipureintro; exact View.read_writes_of_cover _ _ _ _ _ (scover1_C_5 c _ _ _ _ _ _ _ _ _ _ _ _ _ _ _ _ _ _ _ _ _ _ _ _ _ _ _ _ _ _ _ _)
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _ _ _ _ _ _ _ _ _ _ _ _ _ _ _ _)

/-- The body at any point, by its case. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 4 = 3
    · exfalso; omega
    · by_cases hz : t.val = 0
      · exact sound_body1_A0 V c t h0 h1 hz
      · exact sound_body1_A1 V c t h0 h1 hz
  · have hz : t.val ≠ 0 := fun hz => h0 (by rw [hz])
    by_cases h1 : t.val % 4 = 3
    · exact sound_body1_C V c t h0 h1 hz
    · exact sound_body1_B V c t h0 h1 hz
/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: what the six carried buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HS0, HS1, HS2, HS3, HS4, HS5, HR18, HR19, HR20, HR21, HR22, HR23⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HR18]; · iexact HR18
    isplitl [HR19]; · iexact HR19
    isplitl [HR20]; · iexact HR20
    isplitl [HR21]; · iexact HR21
    isplitl [HR22]; · iexact HR22
    iexact HR23
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.RunIdeal.lean ====
/-
  The whole program as a chain of six segments: host operations (casts, the weight relayout, the padded
  rotation tables), the projection-and-rotation call, the attention call, host operations (a reshape, a cast,
  the bias as a row), the output projection call, a last reshape. Between two segments every unscoped buffer
  holds named contents: a host stretch applies its operations; a call leaves its own arrays at what its
  write-backs folded over the grid give and touches nothing else. The run ends with every unscoped buffer at the
  last of these contents, whence the arguments are unchanged and the result is the last reshape of the output
  projection's array.
-/
import proofs.«138496_j31379031065087_2_alg».proof.Proof.FrameQkvIdeal
import proofs.«138496_j31379031065087_2_alg».proof.Proof.FrameProjIdeal

import proofs.«138496_j31379031065087_2_alg».proof.Proof.FrameAttnIdeal
import proofs.«138496_j31379031065087_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev Bd0 : Dev nD → Valuation τ sig (Elt F) := fun c b => (s₀ m ρ).mem ((c : Dev nD), b)
/-- After the first host stretch. -/
abbrev Bd1 : Dev nD → Valuation τ sig (Elt F) := fun c => StableHlo.after hostOps0 (Bd0 m ρ c)
abbrev Vd1 : (c : Dev nD) → (b : Ref sig .tc) → Buf (Elt F) ((c : Thread nD τ).loc b) := fun c b => Bd1 m ρ c b

/-- After call 0: its arrays at what the pipeline's write-backs leave, every other buffer as entered. -/
def Bd2 (c : Dev nD) : Valuation τ sig (Elt F) :=
  Pipeline.withArrays spec0 c (Bd1 m ρ c) fun w => (dat0 (Vd1 m ρ) c).arrAt w cfg0.N
theorem Bd2_arr (c : Dev nD) (w : Fin cfg0.W) :
    Bd2 m ρ c (Proc.devRef .tc (Pipeline.arrRef spec0 w)) = (dat0 (Vd1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Vd2 : (c : Dev nD) → (b : Ref sig .tc) → Buf (Elt F) ((c : Thread nD τ).loc b) := fun c b => Bd2 m ρ c b
theorem hF0 (c : Dev nD) (w : Fin cfg0.W) : (dat0 (Vd1 m ρ) c).arrAt w cfg0.N = Vd2 m ρ c (Pipeline.arrRef spec0 w) :=
  (Bd2_arr m ρ c w).symm
theorem hrest0 (c : Dev nD) : ∀ b, b ∉ Finset.univ.image (Pipeline.arrRef spec0) → Vd2 m ρ c b = Vd1 m ρ c b :=
  fun b hb => Bd2_of_ne m ρ c b fun w e => hb (Finset.mem_image.mpr ⟨w, Finset.mem_univ _, e⟩)

/-- After call 1: its arrays at what the pipeline's write-backs leave, every other buffer as entered. -/
def Bd3 (c : Dev nD) : Valuation τ sig (Elt F) :=
  Pipeline.withArrays spec1 c (Bd2 m ρ c) fun w => (dat1 (Vd2 m ρ) c).arrAt w cfg1.N
theorem Bd3_arr (c : Dev nD) (w : Fin cfg1.W) :
    Bd3 m ρ c (Proc.devRef .tc (Pipeline.arrRef spec1 w)) = (dat1 (Vd2 m ρ) c).arrAt w cfg1.N := by
  unfold Bd3; exact Pipeline.withArrays_arr spec1 launch1.win.arr_inj c _ _ w
theorem Bd3_of_ne (c : Dev nD) (b : Ref sig .tc) (hb : ∀ w, Pipeline.arrRef spec1 w ≠ b) :
    Bd3 m ρ c (Proc.devRef .tc b) = Bd2 m ρ c (Proc.devRef .tc b) := by
  unfold Bd3; exact Pipeline.withArrays_of_ne spec1 c _ _ b hb
abbrev Vd3 : (c : Dev nD) → (b : Ref sig .tc) → Buf (Elt F) ((c : Thread nD τ).loc b) := fun c b => Bd3 m ρ c b
theorem hF1 (c : Dev nD) (w : Fin cfg1.W) : (dat1 (Vd2 m ρ) c).arrAt w cfg1.N = Vd3 m ρ c (Pipeline.arrRef spec1 w) :=
  (Bd3_arr m ρ c w).symm
theorem hrest1 (c : Dev nD) : ∀ b, b ∉ Finset.univ.image (Pipeline.arrRef spec1) → Vd3 m ρ c b = Vd2 m ρ c b :=
  fun b hb => Bd3_of_ne m ρ c b fun w e => hb (Finset.mem_image.mpr ⟨w, Finset.mem_univ _, e⟩)

/-- After the second host stretch. -/
abbrev Bd4 : Dev nD → Valuation τ sig (Elt F) := fun c => StableHlo.after hostOps2 (Bd3 m ρ c)
abbrev Vd4 : (c : Dev nD) → (b : Ref sig .tc) → Buf (Elt F) ((c : Thread nD τ).loc b) := fun c b => Bd4 m ρ c b

/-- After call 2: its arrays at what the pipeline's write-backs leave, every other buffer as entered. -/
def Bd5 (c : Dev nD) : Valuation τ sig (Elt F) :=
  Pipeline.withArrays spec2 c (Bd4 m ρ c) fun w => (dat2 (Vd4 m ρ) c).arrAt w cfg2.N
theorem Bd5_arr (c : Dev nD) (w : Fin cfg2.W) :
    Bd5 m ρ c (Proc.devRef .tc (Pipeline.arrRef spec2 w)) = (dat2 (Vd4 m ρ) c).arrAt w cfg2.N := by
  unfold Bd5; exact Pipeline.withArrays_arr spec2 launch2.win.arr_inj c _ _ w
theorem Bd5_of_ne (c : Dev nD) (b : Ref sig .tc) (hb : ∀ w, Pipeline.arrRef spec2 w ≠ b) :
    Bd5 m ρ c (Proc.devRef .tc b) = Bd4 m ρ c (Proc.devRef .tc b) := by
  unfold Bd5; exact Pipeline.withArrays_of_ne spec2 c _ _ b hb
abbrev Vd5 : (c : Dev nD) → (b : Ref sig .tc) → Buf (Elt F) ((c : Thread nD τ).loc b) := fun c b => Bd5 m ρ c b
theorem hF2 (c : Dev nD) (w : Fin cfg2.W) : (dat2 (Vd4 m ρ) c).arrAt w cfg2.N = Vd5 m ρ c (Pipeline.arrRef spec2 w) :=
  (Bd5_arr m ρ c w).symm
theorem hrest2 (c : Dev nD) : ∀ b, b ∉ Finset.univ.image (Pipeline.arrRef spec2) → Vd5 m ρ c b = Vd4 m ρ c b :=
  fun b hb => Bd5_of_ne m ρ c b fun w e => hb (Finset.mem_image.mpr ⟨w, Finset.mem_univ _, e⟩)

/-- After the last host stretch: the run's final contents. -/
abbrev Bd6 : Dev nD → Valuation τ sig (Elt F) := fun c => StableHlo.after hostOps3 (Bd5 m ρ c)

/-- A buffer that no host operation writes and that is no call's array ends as launched. -/
theorem Bd6_of (c : Dev nD) (b : Ref sig .tc) (h0 : b ∉ hostOps0_W) (a0 : ∀ w, Pipeline.arrRef spec0 w ≠ b) (a1 : ∀ w, Pipeline.arrRef spec1 w ≠ b)
    (h2 : b ∉ hostOps2_W) (a2 : ∀ w, Pipeline.arrRef spec2 w ≠ b) (h3 : b ∉ hostOps3_W) :
    Bd6 m ρ c (Proc.devRef .tc b) = m ((c : Thread nD τ).loc b) :=
  calc Bd6 m ρ c (Proc.devRef .tc b)
    _ = Bd5 m ρ c (Proc.devRef .tc b) := StableHlo.after_of_writes_sub hostOps3 _ hostOps3_writes h3
    _ = Bd4 m ρ c (Proc.devRef .tc b) := Bd5_of_ne m ρ c b a2
    _ = Bd3 m ρ c (Proc.devRef .tc b) := StableHlo.after_of_writes_sub hostOps2 _ hostOps2_writes h2
    _ = Bd2 m ρ c (Proc.devRef .tc b) := Bd3_of_ne m ρ c b a1
    _ = Bd1 m ρ c (Proc.devRef .tc b) := Bd2_of_ne m ρ c b a0
    _ = Bd0 m ρ c (Proc.devRef .tc b) := StableHlo.after_of_writes_sub hostOps0 _ hostOps0_writes h0
    _ = m ((c : Thread nD τ).loc b) := rfl

/-- No call has a prefetched table. -/
abbrev admH : (p : Fin 3) → (pcfgs (F := F) p).Adm := fun p => (cfgs p).toPCfg_adm
/-- Every call's proof data, each at its entry contents. -/
def pdatsH : (p : Fin 3) → (c : Dev nD) → Dat τ (Elt F) Unit ℕ (UR sig nD τ) ℕ (Pipeline.pin (pcfgs (F := F)) admH p) c
  | ⟨0, _⟩ => fun c => dat0 (Vd1 m ρ) c
  | ⟨1, _⟩ => fun c => dat1 (Vd2 m ρ) c
  | ⟨2, _⟩ => fun c => dat2 (Vd4 m ρ) c
abbrev 𝒱H : Variants := Variants.none
abbrev LH : GSem nD τ sig → Finset Unit := fun _ => ∅
abbrev lvH : GSem nD τ sig → Unit → ℕ := fun _ _ => 0
/-- What rides beside the buffers: the generator register at some state, and nothing owed. -/
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Bd6 m ρ c) ∗ ∃ r, prngReg c r)

set_option backward.isDefEq.respectTransparency.types false in
/-- Call 0 as a segment: entered with every unscoped buffer at the contents before it, left with the call's
    arrays at what its write-backs leave and every other buffer untouched. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vd1 m ρ) c).loose
  hwaits := Pipeline.hwaits_of_owed_zero _ _ _ _ LH lvH 0 fun _ _ => rfl
  pre c := iprop(StableHlo.held (c : Thread nD τ) (Pipeline.ucRefs τ sig) (Bd1 m ρ c) ∗ Rst c)
  post c := iprop(StableHlo.held (c : Thread nD τ) (Pipeline.ucRefs τ sig) (Bd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vd1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vd1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vd1 m ρ c) (Vd2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with the call's
    arrays at what its write-backs leave and every other buffer untouched. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vd2 m ρ) c).loose
  hwaits := Pipeline.hwaits_of_owed_zero _ _ _ _ LH lvH 1 fun _ _ => rfl
  pre c := iprop(StableHlo.held (c : Thread nD τ) (Pipeline.ucRefs τ sig) (Bd2 m ρ c) ∗ Rst c)
  post c := iprop(StableHlo.held (c : Thread nD τ) (Pipeline.ucRefs τ sig) (Bd3 m ρ c) ∗ Rst c)
  X c := iprop(∃ r, prngReg c r)
  Y c := iprop(∃ r, prngReg c r)
  Z c := Pipeline.unscopedRest (Ix := Unit) (Name := ℕ) (U := UR sig nD τ) (Lvl := ℕ) spec1 c (Vd2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vd2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (Vd2 m ρ) c).Φ 0 from rfl]
    have h := hin1 (Vd2 m ρ) c
    unfold Pipeline.ΦA at h
    iintro ⟨Hp, -, Hr⟩
    iapply h
    isplitl [Hr]; · iexact Hr
    iexact Hp
  hout c := by
    rw [Pipeline.ownSems0_none, show (pdatsH m ρ 1 c).Φ (Fin.last _) = (dat1 (Vd2 m ρ) c).Φ (Fin.last cfg1.N) from rfl]
    have h := hout1 (Vd2 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vd2 m ρ c) (Vd3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at the contents before it, left with the call's
    arrays at what its write-backs leave and every other buffer untouched. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vd4 m ρ) c).loose
  hwaits := Pipeline.hwaits_of_owed_zero _ _ _ _ LH lvH 2 fun _ _ => rfl
  pre c := iprop(StableHlo.held (c : Thread nD τ) (Pipeline.ucRefs τ sig) (Bd4 m ρ c) ∗ Rst c)
  post c := iprop(StableHlo.held (c : Thread nD τ) (Pipeline.ucRefs τ sig) (Bd5 m ρ c) ∗ Rst c)
  X c := iprop(∃ r, prngReg c r)
  Y c := iprop(∃ r, prngReg c r)
  Z c := Pipeline.unscopedRest (Ix := Unit) (Name := ℕ) (U := UR sig nD τ) (Lvl := ℕ) spec2 c (Vd4 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vd4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vd4 m ρ c) (Vd5 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments in order. -/
abbrev segsH : List (Pipeline.Seg (pcfgs (F := F)) admH (pdatsH m ρ) () defs₀ 𝒱H LH lvH) :=
  [ .host (hsegH hostOps0 hostOps0_sub hostOps0_fresh (Bd0 m ρ)),
    .region (reg0 m ρ),
    .region (reg1 m ρ),
    .host (hsegH hostOps2 hostOps2_sub hostOps2_fresh (Bd3 m ρ)),
    .region (reg2 m ρ),
    .host (hsegH hostOps3 hostOps3_sub hostOps3_fresh (Bd5 m ρ)) ]
theorem main_runH (c : Dev nD) : main (F := F) c = Pipeline.Seg.run (segsH m ρ) := (main_chain c).trans (by chain_rfl)

set_option backward.isDefEq.respectTransparency.types false in
/-- Every weakly fair execution from memory m with zero counters terminates, nothing faulting, and ends with every
    unscoped buffer at the contents the chain of segments gives. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (Bd6 m ρ c) ∗ Rst c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h c => h c)

/-- The frame: the six argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_ucH main_arg0 (by decide))).trans (Bd6_of m ρ c main_arg0 (by decide) (by decide) (by decide) (by decide) (by decide) (by decide)),
    (h c _ (mem_ucH main_arg1 (by decide))).trans (Bd6_of m ρ c main_arg1 (by decide) (by decide) (by decide) (by decide) (by decide) (by decide)),
    (h c _ (mem_ucH main_arg2 (by decide))).trans (Bd6_of m ρ c main_arg2 (by decide) (by decide) (by decide) (by decide) (by decide) (by decide)),
    (h c _ (mem_ucH main_arg3 (by decide))).trans (Bd6_of m ρ c main_arg3 (by decide) (by decide) (by decide) (by decide) (by decide) (by decide)),
    (h c _ (mem_ucH main_arg4 (by decide))).trans (Bd6_of m ρ c main_arg4 (by decide) (by decide) (by decide) (by decide) (by decide) (by decide)),
    (h c _ (mem_ucH main_arg5 (by decide))).trans (Bd6_of m ρ c main_arg5 (by decide) (by decide) (by decide) (by decide) (by decide) (by decide))⟩)
    (run_all m ρ)

end Cert.KernelIdeal.Hand

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibSoftmaxRows.lean ====
/-
  Row softmax on the extended reals, and the vector operations that compute it on an `[a, b]` array, read at an entry.

  For a row `f : Fin n → EReal`: `rowMax f` is the fold of `max` over its entries from `-∞` (the f32 word
  `0xFF800000`), `expShift f k = exp (f k - rowMax f)`, `overSum g k = g k / ∑ j, g j`, and
  `softmaxRow f = overSum (expShift f)`.  One more maximum with `-∞` does not change a row's maximum.
  For an `[a, b]` array `v` of f32 values at the extended reals, any extents: its row maxima (a maximum-reduction along
  axis 1 from `-∞`) re-laid as a column and spread back over the lanes read, at `(r, k)`, `rowMax` of row `r`; its row
  sums (an add-reduction along axis 1 from zero) likewise read the row's sum; so `exp (v - spread maxima)` at `(r, k)` is
  `expShift` of row `r` at `k` and `g / spread sums` at `(r, k)` is `overSum` of row `r` at `k`.  Also the re-layings
  between `[1, 1, a, b]` and `[a, b]` read at an entry.  (The column forms and the reduction's source index come from the
  keepdims lemma file this module imports.)
-/
import Idealize.ShloMosaic.PureOps.Ideal
import Idealize.ShloMosaic.PureOps.Ideal.Laws
import Idealize.ShloMosaic.Lib.ValueIdx
import Idealize.ShloMosaic.Lib.Pipeline.Value
import proofs.«138496_j31379031065087_2_alg».proof.Proof.LibKeepdims

noncomputable section

namespace Cert.Attn

open Idealize.ShloMosaic Idealize.ShloMosaic.ValueIdx

/-- A row's maximum: the fold of `max` over its entries, from `-∞`. -/
def rowMax {n : ℕ} (f : Fin n → EReal) : EReal :=
  (Finset.univ : Finset (Fin n)).fold max (Ideal.ofBits .f32 0xFF800000#32) f

/-- The numerator of a row's softmax at `k`. -/
def expShift {n : ℕ} (f : Fin n → EReal) (k : Fin n) : EReal := Ideal.exp (f k - rowMax f)

/-- An entry of a row over the row's sum. -/
def overSum {n : ℕ} (g : Fin n → EReal) (k : Fin n) : EReal := Ideal.div (g k) (∑ j : Fin n, g j)

/-- A row's softmax at `k`. -/
def softmaxRow {n : ℕ} (f : Fin n → EReal) (k : Fin n) : EReal := overSum (expShift f) k

/-- The maximum of `-∞` and a row's maximum is the row's maximum: the fold starts from `-∞`. -/
theorem max_negInf_rowMax {n : ℕ} (f : Fin n → EReal) :
    max (Ideal.ofBits .f32 0xFF800000#32) (rowMax f) = rowMax f := by
  unfold rowMax
  exact max_eq_right ((Finset.le_fold_max _).2 (Or.inl le_rfl))

end Cert.Attn

namespace Cert.Attn.RowOps

open Idealize.ShloMosaic Idealize.ShloMosaic.ValueIdx Cert.Attn Cert.Lib.Keepdims

variable {a b : ℕ}

/-- The row maxima of `v`, spread back over the lanes, at `(r, k)`: the maximum of row `r`. -/
theorem rowMax_spread (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .maximumf [1] ⟨1, ![a]⟩ v 0xFF800000#32 hr hφ hacc) hc) hb (ix2 r k)
      = rowMax fun k' : Fin b => v (ix2 r k') := by
  refine (column_spread_apply _ hc hb r k).trans ?_
  refine (Ideal.multiReduction_maximumf_single v _ hr hφ hacc (ix1 r)).trans ?_
  unfold rowMax
  show (Finset.univ : Finset (Fin b)).fold max _ _ = _
  refine congrArg (fun g => (Finset.univ : Finset (Fin b)).fold max (Ideal.ofBits .f32 0xFF800000#32) g) ?_
  funext k'
  exact congrArg v (lift_axis1 hr r k')

/-- The row sums of `g`, spread back over the lanes, at `(r, k)`: the sum of row `r`. -/
theorem rowSum_spread (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .add [1] ⟨1, ![a]⟩ g 0x00000000#32 hr hφ hacc) hc) hb (ix2 r k)
      = ∑ k' : Fin b, g (ix2 r k') := by
  refine (column_spread_apply _ hc hb r k).trans ?_
  refine (Ideal.multiReduction_add_single g _ hr hφ hacc (ix1 r)).trans ?_
  show ∑ k' : Fin b, _ = _
  refine Finset.sum_congr rfl fun k' _ => ?_
  exact congrArg g (lift_axis1 hr r k')

/-- `exp` of the array minus its spread row maxima, at `(r, k)`: the softmax numerator of row `r` at `k`. -/
theorem expShift_vec (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    exp (subf v (broadcastTo ⟨2, ![a, b]⟩ (shapeCast ⟨2, ![a, 1]⟩ (multiReduction .maximumf [1] ⟨1, ![a]⟩ v 0xFF800000#32 hr hφ hacc) hc) hb)) (ix2 r k)
      = expShift (fun k' : Fin b => v (ix2 r k')) k :=
  congrArg (fun M => Ideal.exp (v (ix2 r k) - M)) (rowMax_spread v hr hφ hacc hc hb r k)

/-- The array over its spread row sums, at `(r, k)`: row `r`'s entry over the row's sum. -/
theorem overSum_vec (g : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf g (broadcastTo ⟨2, ![a, b]⟩ (shapeCast ⟨2, ![a, 1]⟩ (multiReduction .add [1] ⟨1, ![a]⟩ g 0x00000000#32 hr hφ hacc) hc) hb) (ix2 r k)
      = overSum (fun k' : Fin b => g (ix2 r k')) k :=
  congrArg (fun S => Ideal.div (g (ix2 r k)) S) (rowSum_spread g hr hφ hacc hc hb r k)

variable {α : Type}

/-- A `[1, 1, a, b]` array re-laid as `[a, b]` reads, at `(i, j)`, the operand at `(0, 0, i, j)`. -/
theorem shapeCast_11ab_ab_apply (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array re-laid as `[1, 1, a, b]` reads, at `(u, w, i, j)`, the operand at `(i, j)`. -/
theorem shapeCast_ab_11ab_apply (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]; simp only [Nat.zero_mul, Nat.zero_add])

end Cert.Attn.RowOps

end
-- ==== Proof.ValueAttnPayIdeal.lean ====
/-
  The attention body's arithmetic at one index, at the exact instance. For one head, with A the query rows'
  64 lanes, B the key rows' 64 lanes and C the value rows' 64 lanes of the blocks at hand: the scores of query
  row r against the block's 512 keys, the new running maximum, the new running sum and the new weighted sum.
  Both heads' stored values are these four functions of the blocks and of what the scratch held.
-/
import proofs.«138496_j31379031065087_2_alg».proof.Proof.Gen.KernelIdeal.Skeleton
import proofs.«138496_j31379031065087_2_alg».proof.Proof.LibSoftmaxRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Cert.Attn Cert.Lib.Keepdims Cert.Attn.RowOps
open scoped BigOperators

/-! ### The two products at an index -/

theorem qk_lhs_0 (i : S512x512.Idx) (q : dot_S512x64_S512x64_S512x512_1_1_0_0_n_n.contr.Idx) : (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem qk_lhs_1 (i : S512x512.Idx) (q : dot_S512x64_S512x64_S512x512_1_1_0_0_n_n.contr.Idx) : (dot_S512x64_S512x64_S512x512_1_1_0_0_n_n.lhsIdx i q 1).val = (q ⟨0, by decide⟩).val :=
  dot_S512x64_S512x64_S512x512_1_1_0_0_n_n.lhsIdx_val_of_single rfl i q
theorem qk_rhs_0 (i : S512x512.Idx) (q : dot_S512x64_S512x64_S512x512_1_1_0_0_n_n.contr.Idx) : (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem qk_rhs_1 (i : S512x512.Idx) (q : dot_S512x64_S512x64_S512x512_1_1_0_0_n_n.contr.Idx) : (dot_S512x64_S512x64_S512x512_1_1_0_0_n_n.rhsIdx i q 1).val = (q ⟨0, by decide⟩).val :=
  dot_S512x64_S512x64_S512x512_1_1_0_0_n_n.rhsIdx_val_of_single rfl i q

/-- Query rows against key rows, both contracted over their 64 lanes, at (r, k). -/
theorem qk_apply (a b : FVec Ideal S512x64 .bf16) (r k : Fin 512) :
    matmul dot_S512x64_S512x64_S512x512_1_1_0_0_n_n none a b (constant S512x512 .f32 0x00000000#32) (ix2 r k) = ∑ d : Fin 64, a (ix2 r d) * b (ix2 k d) := by
  show FloatOps.matmul _ _ _ _ _ _ = _
  rw [Ideal.matmul_constant_zero_apply, ← Equiv.sum_comp (contrEquiv1 dot_S512x64_S512x64_S512x512_1_1_0_0_n_n 64 rfl rfl).symm]
  refine Finset.sum_congr rfl fun d _ => ?_
  have hk := contrEquiv1_symm_val dot_S512x64_S512x64_S512x512_1_1_0_0_n_n 64 rfl rfl d
  have el : dot_S512x64_S512x64_S512x512_1_1_0_0_n_n.lhsIdx (ix2 r k) ((contrEquiv1 dot_S512x64_S512x64_S512x512_1_1_0_0_n_n 64 rfl rfl).symm d) = ix2 r d := funext fun a => Fin.ext (by
    match a with
    | ⟨0, _⟩ => exact qk_lhs_0 _ _
    | ⟨1, _⟩ => exact (qk_lhs_1 _ _).trans hk)
  have er : dot_S512x64_S512x64_S512x512_1_1_0_0_n_n.rhsIdx (ix2 r k) ((contrEquiv1 dot_S512x64_S512x64_S512x512_1_1_0_0_n_n 64 rfl rfl).symm d) = ix2 k d := funext fun a => Fin.ext (by
    match a with
    | ⟨0, _⟩ => exact qk_rhs_0 _ _
    | ⟨1, _⟩ => exact (qk_rhs_1 _ _).trans hk)
  rw [el, er]

theorem pv_lhs_0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem pv_lhs_1 (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem pv_rhs_0 (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem pv_rhs_1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Weights against value rows, contracted over the 512 keys, at (r, d). -/
theorem pv_apply (p : FVec Ideal S512x512 .bf16) (v : FVec Ideal S512x64 .bf16) (r : Fin 512) (d : Fin 64) :
    matmul dot_S512x512_S512x64_S512x64_1_0_0_1_n_n none p v (constant S512x64 .f32 0x00000000#32) (ix2 r d) = ∑ k : Fin 512, p (ix2 r k) * v (ix2 k d) := by
  show FloatOps.matmul _ _ _ _ _ _ = _
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k := funext fun a => Fin.ext (by
    match a with
    | ⟨0, _⟩ => exact pv_lhs_0 _ _
    | ⟨1, _⟩ => exact (pv_lhs_1 _ _).trans hk)
  have er : dot_S512x512_S512x64_S512x64_1_0_0_1_n_n.rhsIdx (ix2 r d) ((contrEquiv1 dot_S512x512_S512x64_S512x64_1_0_0_1_n_n 512 rfl rfl).symm k) = ix2 k d := funext fun a => Fin.ext (by
    match a with
    | ⟨0, _⟩ => exact (pv_rhs_0 _ _).trans hk
    | ⟨1, _⟩ => exact pv_rhs_1 _ _)
  rw [el, er]

/-! ### Lanes of a block, columns spread over lanes, row reductions kept as columns -/

/-- The first 64 lanes of a 128-lane block. -/
theorem lanes_lo (x : FVec Ideal S512x128 .bf16) (r : Fin 512) (d : Fin 64) :
    extractStridedSlice S512x64 ![0, 0] x slices_S512x128_o0_0_S512x64 (ix2 r d) = x (ix2 r ⟨d.val, by omega⟩) :=
  extractStridedSlice_apply _ x _ _ _ fun a => by
    match a with
    | ⟨0, _⟩ => show r.val = 0 + r.val; omega
    | ⟨1, _⟩ => show d.val = 0 + d.val; omega
/-- The last 64 lanes of a 128-lane block. -/
theorem lanes_hi (x : FVec Ideal S512x128 .bf16) (r : Fin 512) (d : Fin 64) :
    extractStridedSlice S512x64 ![0, 64] x slices_S512x128_o0_64_S512x64 (ix2 r d) = x (ix2 r ⟨64 + d.val, by omega⟩) :=
  extractStridedSlice_apply _ x _ _ _ fun a => by
    match a with
    | ⟨0, _⟩ => show r.val = 0 + r.val; omega
    | ⟨1, _⟩ => show 64 + d.val = 64 + d.val; rfl
/-- A staged [1,1,512,128] block read as [512,128]. -/
theorem blk_apply (v : Vec Ideal S1x1x512x128 .bf16) (r : Fin 512) (j : Fin 128) :
    shapeCast S512x128 v shapeCasts_S1x1x512x128_S512x128 (ix2 r j) = v (ix4 0 0 r j) :=
  shapeCast_11ab_ab_apply v _ r j
/-- A column spread over 64 lanes. -/
theorem col64_apply (x : FVec Ideal S512x1 .f32) (r : Fin 512) (d : Fin 64) :
    broadcastTo S512x64 x broadcasts_S512x1_S512x64 (ix2 r d) = x (ix2 r 0) :=
  broadcastTo_a1_ab_apply x _ r d
/-- A column spread over 512 lanes. -/
theorem col512_apply (x : FVec Ideal S512x1 .f32) (r k : Fin 512) :
    broadcastTo S512x512 x broadcasts_S512x1_S512x512 (ix2 r k) = x (ix2 r 0) :=
  broadcastTo_a1_ab_apply x _ r k
/-- The row maxima of a [512,512] array kept as a column. -/
theorem rowmax_col (y : FVec Ideal S512x512 .f32) (r : Fin 512) :
    shapeCast S512x1 (multiReduction .maximumf [1] S512 y 0xFF800000#32 reduces_S512x512_S512 (.inl rfl) rfl) shapeCasts_S512_S512x1 (ix2 r 0)
      = rowMax fun k : Fin 512 => y (ix2 r k) := by
  refine (shapeCast_a_a1_apply _ _ r 0).trans ?_
  refine (Ideal.multiReduction_maximumf_single y _ reduces_S512x512_S512 (.inl rfl) rfl (ix1 r)).trans ?_
  unfold rowMax
  show (Finset.univ : Finset (Fin 512)).fold max _ _ = _
  refine congrArg (fun g => (Finset.univ : Finset (Fin 512)).fold max (Ideal.ofBits .f32 0xFF800000#32) g) ?_
  funext k'
  exact congrArg y (lift_axis1 reduces_S512x512_S512 r k')
/-- The row sums of a [512,512] array kept as a column. -/
theorem rowsum_col (y : FVec Ideal S512x512 .f32) (r : Fin 512) :
    shapeCast S512x1 (multiReduction .add [1] S512 y 0x00000000#32 reduces_S512x512_S512 (.inl rfl) rfl) shapeCasts_S512_S512x1 (ix2 r 0)
      = ∑ k : Fin 512, y (ix2 r k) := by
  refine (shapeCast_a_a1_apply _ _ r 0).trans ?_
  refine (Ideal.multiReduction_add_single y _ reduces_S512x512_S512 (.inl rfl) rfl (ix1 r)).trans ?_
  show ∑ k' : Fin 512, _ = _
  refine Finset.sum_congr rfl fun k' _ => ?_
  exact congrArg y (lift_axis1 reduces_S512x512_S512 r k')

/-! ### One head's step on a block -/

/-- The score of query row r against key row k of the block. -/
def hS (A B : FVec Ideal S512x64 .bf16) (r k : Fin 512) : EReal := ∑ d : Fin 64, A (ix2 r d) * B (ix2 k d)
/-- The running maximum after the block: the larger of what was kept and the block's row maximum. -/
def hM (A B : FVec Ideal S512x64 .bf16) (mo : Vec Ideal S512x1 .f32) (r : Fin 512) : EReal :=
  max (mo (ix2 r 0)) (rowMax fun k : Fin 512 => hS A B r k)
/-- The running sum after the block: the kept sum rescaled to the new maximum, plus the block's exponentials. -/
def hL (A B : FVec Ideal S512x64 .bf16) (mo lo : Vec Ideal S512x1 .f32) (r : Fin 512) : EReal :=
  Ideal.exp (mo (ix2 r 0) - hM A B mo r) * lo (ix2 r 0) + ∑ k : Fin 512, Ideal.exp (hS A B r k - hM A B mo r)
/-- The running weighted sum after the block, at lane d. -/
def hAcc (A B C : FVec Ideal S512x64 .bf16) (mo : Vec Ideal S512x1 .f32) (acc : Vec Ideal S512x64 .f32) (r : Fin 512) (d : Fin 64) : EReal :=
  Ideal.exp (mo (ix2 r 0) - hM A B mo r) * acc (ix2 r d) + ∑ k : Fin 512, Ideal.exp (hS A B r k - hM A B mo r) * C (ix2 k d)

/-! ### The second head's stored values (its operands are named slices) -/

theorem pay25_apply (v10 v12 : FVec Ideal S512x64 .bf16) (r k : Fin 512) :
    k1_pay25 (F := Ideal) v10 v12 (ix2 r k) = hS v10 v12 r k := by
  unfold k1_pay25 hS; exact qk_apply v10 v12 r k
theorem pay26_apply (v10 v12 : FVec Ideal S512x64 .bf16) (v47 : Vec Ideal S512x1 .f32) (r : Fin 512) :
    k1_pay26 (F := Ideal) v10 v12 v47 (ix2 r 0) = hM v10 v12 v47 r := by
  unfold k1_pay26 hM
  rw [maximumf_apply, rowmax_col]
  refine congrArg (fun f => max (v47 (ix2 r 0)) (rowMax f)) ?_
  funext k; exact pay25_apply v10 v12 r k
theorem pay27_apply (v10 v12 : FVec Ideal S512x64 .bf16) (v47 v51 : Vec Ideal S512x1 .f32) (r : Fin 512) :
    k1_pay27 (F := Ideal) v10 v12 v47 v51 (ix2 r 0) = Ideal.exp (v51 (ix2 r 0) - hM v10 v12 v47 r) := by
  unfold k1_pay27
  show Ideal.exp (subf v51 (k1_pay26 v10 v12 v47) (ix2 r 0)) = _
  rw [subf_apply, pay26_apply]
theorem pay28_apply (v10 v12 : FVec Ideal S512x64 .bf16) (v47 : Vec Ideal S512x1 .f32) (r k : Fin 512) :
    k1_pay28 (F := Ideal) v10 v12 v47 (ix2 r k) = Ideal.exp (hS v10 v12 r k - hM v10 v12 v47 r) := by
  unfold k1_pay28
  show Ideal.exp (subf (k1_pay25 v10 v12) (broadcastTo S512x512 (k1_pay26 v10 v12 v47) broadcasts_S512x1_S512x512) (ix2 r k)) = _
  rw [subf_apply, pay25_apply, col512_apply, pay26_apply]
theorem pay29_apply (v10 v12 : FVec Ideal S512x64 .bf16) (v47 v57 : Vec Ideal S512x1 .f32) (r : Fin 512) :
    k1_pay29 (F := Ideal) v10 v12 v47 v47 v57 (ix2 r 0) = hL v10 v12 v47 v57 r := by
  unfold k1_pay29 hL
  simp only [shapeCast_self]
  rw [addf_apply, mulf_apply, pay27_apply, rowsum_col]
  refine congrArg (fun s => Ideal.exp (v47 (ix2 r 0) - hM v10 v12 v47 r) * v57 (ix2 r 0) + s) ?_
  refine Finset.sum_congr rfl fun k _ => ?_
  exact pay28_apply v10 v12 v47 r k
theorem pay1_apply (v14 : FVec Ideal S512x64 .bf16) (v53 : FVec Ideal S512x1 .f32) (v56 : FVec Ideal S512x512 .f32) (v65 : Vec Ideal S512x64 .f32) (r : Fin 512) (d : Fin 64) :
    k1_pay1 (F := Ideal) v14 v53 v56 v65 (ix2 r d) = v53 (ix2 r 0) * v65 (ix2 r d) + ∑ k : Fin 512, v56 (ix2 r k) * v14 (ix2 k d) := by
  unfold k1_pay1
  simp only [shapeCast_self]
  rw [addf_apply, mulf_apply, col64_apply, pv_apply]
  rfl

/-! ### The heads' operands: lanes of the staged blocks -/

/-- The first head's query lanes of a staged query block. -/
def qLo (v3 : Vec Ideal S1x1x512x128 .bf16) : FVec Ideal S512x64 .bf16 :=
  extractStridedSlice S512x64 ![0, 0] (k1_pay10 (F := Ideal) v3) slices_S512x128_o0_0_S512x64
/-- The first head's key lanes of a staged key block. -/
def kLo (v5 : Vec Ideal S1x1x512x128 .bf16) : FVec Ideal S512x64 .bf16 :=
  extractStridedSlice S512x64 ![0, 0] (k1_pay11 (F := Ideal) v5) slices_S512x128_o0_0_S512x64
theorem qLo_apply (v3 : Vec Ideal S1x1x512x128 .bf16) (r : Fin 512) (d : Fin 64) : qLo v3 (ix2 r d) = v3 (ix4 0 0 r ⟨d.val, by omega⟩) := by
  unfold qLo k1_pay10; rw [lanes_lo, blk_apply]
theorem kLo_apply (v5 : Vec Ideal S1x1x512x128 .bf16) (r : Fin 512) (d : Fin 64) : kLo v5 (ix2 r d) = v5 (ix4 0 0 r ⟨d.val, by omega⟩) := by
  unfold kLo k1_pay11; rw [lanes_lo, blk_apply]
theorem pay15_apply (v7 : Vec Ideal S1x1x512x128 .bf16) (r : Fin 512) (d : Fin 64) : k1_pay15 (F := Ideal) v7 (ix2 r d) = v7 (ix4 0 0 r ⟨d.val, by omega⟩) := by
  unfold k1_pay15 k1_pay12; rw [lanes_lo, blk_apply]
theorem pay13_apply (v3 : Vec Ideal S1x1x512x128 .bf16) (r : Fin 512) (d : Fin 64) : k1_pay13 (F := Ideal) v3 (ix2 r d) = v3 (ix4 0 0 r ⟨64 + d.val, by omega⟩) := by
  unfold k1_pay13 k1_pay10; rw [lanes_hi, blk_apply]
theorem pay14_apply (v5 : Vec Ideal S1x1x512x128 .bf16) (r : Fin 512) (d : Fin 64) : k1_pay14 (F := Ideal) v5 (ix2 r d) = v5 (ix4 0 0 r ⟨64 + d.val, by omega⟩) := by
  unfold k1_pay14 k1_pay11; rw [lanes_hi, blk_apply]
theorem pay16_apply (v7 : Vec Ideal S1x1x512x128 .bf16) (r : Fin 512) (d : Fin 64) : k1_pay16 (F := Ideal) v7 (ix2 r d) = v7 (ix4 0 0 r ⟨64 + d.val, by omega⟩) := by
  unfold k1_pay16 k1_pay12; rw [lanes_hi, blk_apply]

/-! ### The first head's stored values -/

theorem pay17_apply (v3 v5 : Vec Ideal S1x1x512x128 .bf16) (r k : Fin 512) :
    k1_pay17 (F := Ideal) v3 v5 (ix2 r k) = hS (qLo v3) (kLo v5) r k := by
  unfold k1_pay17 hS qLo kLo; exact qk_apply _ _ r k
theorem pay18_apply (v3 v5 : Vec Ideal S1x1x512x128 .bf16) (v16 : Vec Ideal S512x1 .f32) (r : Fin 512) :
    k1_pay18 (F := Ideal) v3 v5 v16 (ix2 r 0) = hM (qLo v3) (kLo v5) v16 r := by
  unfold k1_pay18 hM
  rw [maximumf_apply, rowmax_col]
  refine congrArg (fun f => max (v16 (ix2 r 0)) (rowMax f)) ?_
  funext k; exact pay17_apply v3 v5 r k
theorem pay19_apply (v3 v5 : Vec Ideal S1x1x512x128 .bf16) (v16 v20 : Vec Ideal S512x1 .f32) (r : Fin 512) :
    k1_pay19 (F := Ideal) v3 v5 v16 v20 (ix2 r 0) = Ideal.exp (v20 (ix2 r 0) - hM (qLo v3) (kLo v5) v16 r) := by
  unfold k1_pay19
  show Ideal.exp (subf v20 (k1_pay18 v3 v5 v16) (ix2 r 0)) = _
  rw [subf_apply, pay18_apply]
theorem pay20_apply (v3 v5 : Vec Ideal S1x1x512x128 .bf16) (v16 : Vec Ideal S512x1 .f32) (r k : Fin 512) :
    k1_pay20 (F := Ideal) v3 v5 v16 (ix2 r k) = Ideal.exp (hS (qLo v3) (kLo v5) r k - hM (qLo v3) (kLo v5) v16 r) := by
  unfold k1_pay20
  show Ideal.exp (subf (k1_pay17 v3 v5) (broadcastTo S512x512 (k1_pay18 v3 v5 v16) broadcasts_S512x1_S512x512) (ix2 r k)) = _
  rw [subf_apply, pay17_apply, col512_apply, pay18_apply]
theorem pay21_apply (v3 v5 : Vec Ideal S1x1x512x128 .bf16) (v16 v26 : Vec Ideal S512x1 .f32) (r : Fin 512) :
    k1_pay21 (F := Ideal) v3 v5 v16 v16 v26 (ix2 r 0) = hL (qLo v3) (kLo v5) v16 v26 r := by
  unfold k1_pay21 hL
  rw [addf_apply, mulf_apply, pay19_apply, rowsum_col]
  refine congrArg (fun s => Ideal.exp (v16 (ix2 r 0) - hM (qLo v3) (kLo v5) v16 r) * v26 (ix2 r 0) + s) ?_
  refine Finset.sum_congr rfl fun k _ => ?_
  exact pay20_apply v3 v5 v16 r k
theorem pay23_apply (v13 : FVec Ideal S512x64 .bf16) (v22 : FVec Ideal S512x1 .f32) (v25 : FVec Ideal S512x512 .f32) (v34 : Vec Ideal S512x64 .f32) (r : Fin 512) (d : Fin 64) :
    k1_pay23 (F := Ideal) v13 v22 v25 v34 (ix2 r d) = v22 (ix2 r 0) * v34 (ix2 r d) + ∑ k : Fin 512, v25 (ix2 r k) * v13 (ix2 k d) := by
  unfold k1_pay23
  simp only [shapeCast_self]
  rw [addf_apply, mulf_apply, col64_apply, pv_apply]
  rfl
theorem pay22_eq (v30 : FVec Ideal S512x1 .f32) : k1_pay22 (F := Ideal) v30 = v30 := by unfold k1_pay22; exact shapeCast_self _ _
theorem pay24_eq (v19 : FVec Ideal S512x1 .f32) : k1_pay24 (F := Ideal) v19 = v19 := by unfold k1_pay24; exact shapeCast_self _ _
theorem pay2_eq (v50 : FVec Ideal S512x1 .f32) : k1_pay2 (F := Ideal) v50 = v50 := by unfold k1_pay2; exact shapeCast_self _ _

/-! ### What the first key block starts from -/

theorem pay4_apply (i : S512x1.Idx) : k1_pay4 (F := Ideal) i = Ideal.ofBits .f32 0xFF800000#32 := by
  unfold k1_pay4; simp only [shapeCast_self]; rfl
theorem pay7_apply (i : S512x1.Idx) : k1_pay7 (F := Ideal) i = Ideal.ofBits .f32 0xFF800000#32 := by
  unfold k1_pay7; simp only [shapeCast_self]; rfl
theorem pay5_apply (i : S512x1.Idx) : k1_pay5 (F := Ideal) i = 0 := by
  unfold k1_pay5; simp only [shapeCast_self]; exact Ideal.ofBits_zero_f32
theorem pay8_apply (i : S512x1.Idx) : k1_pay8 (F := Ideal) i = 0 := by
  unfold k1_pay8; simp only [shapeCast_self]; exact Ideal.ofBits_zero_f32
theorem pay6_apply (i : S512x64.Idx) : k1_pay6 (F := Ideal) i = 0 := by
  unfold k1_pay6; simp only [shapeCast_self]; exact Ideal.ofBits_zero_f32
theorem pay9_apply (i : S512x64.Idx) : k1_pay9 (F := Ideal) i = 0 := by
  unfold k1_pay9; simp only [shapeCast_self]; exact Ideal.ofBits_zero_f32

/-! ### The written-back block: each head's weighted sum over its running sum -/

theorem pay3_lo (v80 v84 : Vec Ideal S512x64 .f32) (v81 v85 : Vec Ideal S512x1 .f32) (r : Fin 512) (d : Fin 64) :
    k1_pay3 (F := Ideal) v80 v81 v84 v85 (ix3 0 r ⟨d.val, by omega⟩) = Ideal.div (v80 (ix2 r d)) (v81 (ix2 r 0)) := by
  unfold k1_pay3
  refine (shapeCast_apply _ _ (ix3 0 r ⟨d.val, by omega⟩) (ix2 r ⟨d.val, by omega⟩) (by
    rw [Shape.rowMajor_val_three, Shape.rowMajor_val_two]
    show r.val * 128 + d.val = (0 * 512 + r.val) * 128 + d.val
    omega)).trans ?_
  rw [truncf_apply]
  refine (concatenate_pair_apply_left (1 : Fin S512x128.rank) _ _ concatenates_S512x64_S512x64_S512x128_d1
    (ix2 r (⟨d.val, by omega⟩ : Fin 128)) rfl (ix2 r d) (fun b => by
      match b with
      | ⟨0, _⟩ => rfl
      | ⟨1, _⟩ => rfl)).trans ?_
  rw [divf_apply, col64_apply]
theorem pay3_hi (v80 v84 : Vec Ideal S512x64 .f32) (v81 v85 : Vec Ideal S512x1 .f32) (r : Fin 512) (d : Fin 64) :
    k1_pay3 (F := Ideal) v80 v81 v84 v85 (ix3 0 r ⟨64 + d.val, by omega⟩) = Ideal.div (v84 (ix2 r d)) (v85 (ix2 r 0)) := by
  unfold k1_pay3
  refine (shapeCast_apply _ _ (ix3 0 r ⟨64 + d.val, by omega⟩) (ix2 r ⟨64 + d.val, by omega⟩) (by
    rw [Shape.rowMajor_val_three, Shape.rowMajor_val_two]
    show r.val * 128 + (64 + d.val) = (0 * 512 + r.val) * 128 + (64 + d.val)
    omega)).trans ?_
  rw [truncf_apply]
  refine (concatenate_pair_apply_right (1 : Fin S512x128.rank) _ _ concatenates_S512x64_S512x64_S512x128_d1
    (ix2 r (⟨64 + d.val, by omega⟩ : Fin 128)) rfl rfl (ix2 r d) (fun b hb => by
      match b with
      | ⟨0, _⟩ => rfl
      | ⟨1, _⟩ => exact absurd rfl hb) (by show d.val + 64 = 64 + d.val; omega)).trans ?_
  rw [divf_apply, col64_apply]

end Cert.KernelIdeal.Hand

end
-- ==== Proof.ValueAttnBlkIdeal.lean ====
/-
  Where the attention call's staged blocks sit in its arrays. Point t of the grid [2, 8, 4, 4] is batch t / 128,
  head pair (t / 16) mod 8, query block (t / 4) mod 4, key block t mod 4. The query window stages rows
  512 qi .. 512 qi + 511 of (batch, pair); the key and value windows rows 512 kv .. 512 kv + 511; the output
  window rows 512 qi .. of the batch and lanes 128 g .. 128 g + 127.
-/
import proofs.«138496_j31379031065087_2_alg».proof.Proof.FrameAttnDatIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The query, key and value arrays the call is entered with. -/
abbrev attQ (c : Dev nD) : S2x8x2048x128.Idx → EReal := V c main_v9_0
abbrev attK (c : Dev nD) : S2x8x2048x128.Idx → EReal := V c main_v9_1
abbrev attV (c : Dev nD) : S2x8x2048x128.Idx → EReal := V c main_v9_2

/-- The index maps over the 256 points. -/
theorem attn_idx_facts : ∀ t : Fin cfg1.N,
    win1_0.index t (0 : Fin 4) = t.val / 128 ∧ win1_0.index t (1 : Fin 4) = t.val / 16 % 8 ∧ win1_0.index t (2 : Fin 4) = t.val / 4 % 4 ∧ win1_0.index t (3 : Fin 4) = 0
    ∧ win1_1.index t (0 : Fin 4) = t.val / 128 ∧ win1_1.index t (1 : Fin 4) = t.val / 16 % 8 ∧ win1_1.index t (2 : Fin 4) = t.val % 4 ∧ win1_1.index t (3 : Fin 4) = 0
    ∧ win1_2.index t (0 : Fin 4) = t.val / 128 ∧ win1_2.index t (1 : Fin 4) = t.val / 16 % 8 ∧ win1_2.index t (2 : Fin 4) = t.val % 4 ∧ win1_2.index t (3 : Fin 4) = 0
    ∧ win1_3.index t (0 : Fin 3) = t.val / 128 ∧ win1_3.index t (1 : Fin 3) = t.val / 4 % 4 ∧ win1_3.index t (2 : Fin 3) = t.val / 16 % 8 :=
  (by decide +kernel : ∀ t : Fin grid1.N, _)

/-- The query block at point t, at row r and lane j. -/
theorem attn_iblk0_apply (c : Dev nD) (t : Fin cfg1.N) (r : Fin 512) (j : Fin 128) (b : Fin 2) (g : Fin 8) (n : Fin 2048)
    (hb : b.val = t.val / 128) (hg : g.val = t.val / 16 % 8) (hn : n.val = 512 * (t.val / 4 % 4) + r.val) :
    (iblk1 V c 0 t : Vec Ideal S1x1x512x128 .bf16) (ix4 0 0 r j) = attQ V c (ix4 b g n j) := by
  obtain ⟨e0, e1, e2, e3, -⟩ := attn_idx_facts t
  unfold iblk1
  rw [View.read_apply]
  show V c main_v9_0 _ = V c main_v9_0 _
  congr 1
  funext a
  apply Fin.ext
  match a with
  | ⟨0, _⟩ => show win1_0.index t (0 : Fin 4) * 1 + 1 * 0 = b.val; omega
  | ⟨1, _⟩ => show win1_0.index t (1 : Fin 4) * 1 + 1 * 0 = g.val; omega
  | ⟨2, _⟩ => show win1_0.index t (2 : Fin 4) * 512 + 1 * r.val = n.val; omega
  | ⟨3, _⟩ => show win1_0.index t (3 : Fin 4) * 128 + 1 * j.val = j.val; omega

/-- The key block at point t, at row k and lane j. -/
theorem attn_iblk1_apply (c : Dev nD) (t : Fin cfg1.N) (k : Fin 512) (j : Fin 128) (b : Fin 2) (g : Fin 8) (n : Fin 2048)
    (hb : b.val = t.val / 128) (hg : g.val = t.val / 16 % 8) (hn : n.val = 512 * (t.val % 4) + k.val) :
    (iblk1 V c 1 t : Vec Ideal S1x1x512x128 .bf16) (ix4 0 0 k j) = attK V c (ix4 b g n j) := by
  obtain ⟨-, -, -, -, e0, e1, e2, e3, -⟩ := attn_idx_facts t
  unfold iblk1
  rw [View.read_apply]
  show V c main_v9_1 _ = V c main_v9_1 _
  congr 1
  funext a
  apply Fin.ext
  match a with
  | ⟨0, _⟩ => show win1_1.index t (0 : Fin 4) * 1 + 1 * 0 = b.val; omega
  | ⟨1, _⟩ => show win1_1.index t (1 : Fin 4) * 1 + 1 * 0 = g.val; omega
  | ⟨2, _⟩ => show win1_1.index t (2 : Fin 4) * 512 + 1 * k.val = n.val; omega
  | ⟨3, _⟩ => show win1_1.index t (3 : Fin 4) * 128 + 1 * j.val = j.val; omega

/-- The value block at point t, at row k and lane j. -/
theorem attn_iblk2_apply (c : Dev nD) (t : Fin cfg1.N) (k : Fin 512) (j : Fin 128) (b : Fin 2) (g : Fin 8) (n : Fin 2048)
    (hb : b.val = t.val / 128) (hg : g.val = t.val / 16 % 8) (hn : n.val = 512 * (t.val % 4) + k.val) :
    (iblk1 V c 2 t : Vec Ideal S1x1x512x128 .bf16) (ix4 0 0 k j) = attV V c (ix4 b g n j) := by
  obtain ⟨-, -, -, -, -, -, -, -, e0, e1, e2, e3, -⟩ := attn_idx_facts t
  unfold iblk1
  rw [View.read_apply]
  show V c main_v9_2 _ = V c main_v9_2 _
  congr 1
  funext a
  apply Fin.ext
  match a with
  | ⟨0, _⟩ => show win1_2.index t (0 : Fin 4) * 1 + 1 * 0 = b.val; omega
  | ⟨1, _⟩ => show win1_2.index t (1 : Fin 4) * 1 + 1 * 0 = g.val; omega
  | ⟨2, _⟩ => show win1_2.index t (2 : Fin 4) * 512 + 1 * k.val = n.val; omega
  | ⟨3, _⟩ => show win1_2.index t (3 : Fin 4) * 128 + 1 * j.val = j.val; omega

end Cert.KernelIdeal.Hand

end
-- ==== Proof.LibOnlineSoftmax.lean ====
/-
  Online softmax equals plain softmax, at the extended reals.

  A row of scores is processed in blocks; after each block a running maximum m, a running
  total l = ∑ exp (s - m) and a running weighted total acc = ∑ exp (s - m) * v are kept,
  the two totals being rescaled by exp (m_old - m_new) whenever the maximum grows. For finite
  scores and values the quotient acc / l after n ≥ 1 blocks is the softmax-weighted sum of
  the values over all keys seen so far.
-/
import Idealize.ShloMosaic.PureOps.Ideal

noncomputable section

namespace Cert.OnlineSoftmax

open Idealize.ShloMosaic
open scoped BigOperators

/-! ### Bridging lemmas: the operations on coerced reals -/

/-- The coercion of a finite real sum is the sum of the coercions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a difference of two reals is the real exponential of the difference. -/
theorem exp_coe_sub (a b : ℝ) :
    Ideal.exp ((a : EReal) - (b : EReal)) = ((Real.exp (a - b) : ℝ) : EReal) := by
  rw [← EReal.coe_sub, Ideal.exp_coe]

/-- The exponential of bottom minus anything is zero. -/
theorem exp_bot_sub (x : EReal) : Ideal.exp (⊥ - x) = 0 := by
  rw [EReal.bot_sub, Ideal.exp_bot]

/-- The quotient of two reals by a nonzero divisor is the real quotient. -/
theorem div_coe_coe (x : ℝ) {y : ℝ} (h : y ≠ 0) :
    Ideal.div (x : EReal) (y : EReal) = ((x / y : ℝ) : EReal) := by
  rw [Ideal.div_coe h, ← EReal.coe_mul, mul_one_div]

/-- The maximum of two coerced reals is the coerced maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ### The recurrence -/

section Recurrence

variable {κ : Type*} [Fintype κ]

/-- One block of the online recurrence: from the state (m, l, acc) before block n to the
    state after it. The new maximum is the old one joined with the block's maximum mx n; the
    old totals are rescaled by the exponential of the old maximum minus the new one, and the
    block's exponentials (of score minus new maximum), plain and weighted by the values, are added. -/
def step (s v : ℕ → κ → ℝ) (mx : ℕ → EReal) (n : ℕ) (p : EReal × EReal × EReal) :
    EReal × EReal × EReal :=
  (max p.1 (mx n),
   Ideal.exp (p.1 - max p.1 (mx n)) * p.2.1
     + ∑ k, Ideal.exp ((s n k : EReal) - max p.1 (mx n)),
   Ideal.exp (p.1 - max p.1 (mx n)) * p.2.2
     + ∑ k, Ideal.exp ((s n k : EReal) - max p.1 (mx n)) * (v n k : EReal))

/-- The state after n blocks: it starts at (⊥, 0, 0) and each block applies step. -/
def st (s v : ℕ → κ → ℝ) (mx : ℕ → EReal) : ℕ → EReal × EReal × EReal
  | 0 => (⊥, 0, 0)
  | n + 1 => step s v mx n (st s v mx n)

/-- The state before any block. -/
@[simp] theorem st_zero (s v : ℕ → κ → ℝ) (mx : ℕ → EReal) : st s v mx 0 = (⊥, 0, 0) := rfl

/-- The state after one more block. -/
theorem st_succ (s v : ℕ → κ → ℝ) (mx : ℕ → EReal) (n : ℕ) :
    st s v mx (n + 1) = step s v mx n (st s v mx n) := rfl

/-- The first block, from the initial state: the old maximum is ⊥, so the rescaling factor is
    exp ⊥ = 0 and the old totals 0 vanish; the state is the block's own maximum and totals. -/
theorem step_init (s v : ℕ → κ → ℝ) (mx : ℕ → EReal) (n : ℕ) {M : ℝ} (hM : mx n = (M : EReal)) :
    step s v mx n (⊥, 0, 0)
      = ((M : EReal),
         ((∑ k, Real.exp (s n k - M) : ℝ) : EReal),
         ((∑ k, Real.exp (s n k - M) * v n k : ℝ) : EReal)) := by
  have hmax : max (⊥ : EReal) (mx n) = (M : EReal) := by rw [hM]; exact max_eq_right bot_le
  simp only [step, hmax, exp_bot_sub, mul_zero, zero_add]
  refine Prod.ext rfl (Prod.ext ?_ ?_)
  · simp only [coe_finset_sum, exp_coe_sub]
  · simp only [coe_finset_sum, exp_coe_sub, EReal.coe_mul]

/-- A later block, from a state of reals: the new maximum is the larger of the old one and the
    block's; the old totals are multiplied by the real exponential of the (nonpositive) difference. -/
theorem step_coe (s v : ℕ → κ → ℝ) (mx : ℕ → EReal) (n : ℕ) {Mn : ℝ} (hM : mx n = (Mn : EReal))
    (M L A : ℝ) :
    step s v mx n ((M : EReal), (L : EReal), (A : EReal))
      = (((max M Mn : ℝ) : EReal),
         ((Real.exp (M - max M Mn) * L + ∑ k, Real.exp (s n k - max M Mn) : ℝ) : EReal),
         ((Real.exp (M - max M Mn) * A + ∑ k, Real.exp (s n k - max M Mn) * v n k : ℝ) : EReal)) := by
  have hmax : max (M : EReal) (mx n) = ((max M Mn : ℝ) : EReal) := by rw [hM, max_coe_coe]
  simp only [step, hmax, exp_coe_sub]
  refine Prod.ext rfl (Prod.ext ?_ ?_)
  · simp only [EReal.coe_add, EReal.coe_mul, coe_finset_sum]
  · simp only [EReal.coe_add, EReal.coe_mul, coe_finset_sum]

end Recurrence

/-! ### The invariant -/

section Invariant

variable {κ : Type*} [Fintype κ]

/-- Rescaling the totals: the real exponential of (M - M') times the exponential of (x - M) is
    the exponential of (x - M'). -/
theorem exp_rescale (M M' x : ℝ) : Real.exp (M - M') * Real.exp (x - M) = Real.exp (x - M') := by
  rw [← Real.exp_add]; congr 1; ring

/-- One block preserves the invariant, stated on an explicit state. If before block n the state is
    (M, ∑ exp (s - M), ∑ exp (s - M) * v) over the first n blocks, M being their attained maximum,
    and the block's maximum mx n is an attained upper bound of the block's scores, then after the
    block the state has the same shape over the first n + 1 blocks, with their attained maximum. -/
theorem step_totals (s v : ℕ → κ → ℝ) (mx : ℕ → EReal) (n : ℕ)
    (hle_n : ∀ k, (s n k : EReal) ≤ mx n) (hat_n : ∃ k, mx n = (s n k : EReal))
    {M : ℝ} (hle : ∀ j < n, ∀ k, s j k ≤ M) (hat : ∃ j < n, ∃ k, s j k = M) :
    ∃ M' : ℝ, (∀ j < n + 1, ∀ k, s j k ≤ M') ∧ (∃ j < n + 1, ∃ k, s j k = M') ∧
      step s v mx n ((M : EReal),
          ((∑ j ∈ Finset.range n, ∑ k, Real.exp (s j k - M) : ℝ) : EReal),
          ((∑ j ∈ Finset.range n, ∑ k, Real.exp (s j k - M) * v j k : ℝ) : EReal))
        = ((M' : EReal),
          ((∑ j ∈ Finset.range (n + 1), ∑ k, Real.exp (s j k - M') : ℝ) : EReal),
          ((∑ j ∈ Finset.range (n + 1), ∑ k, Real.exp (s j k - M') * v j k : ℝ) : EReal)) := by
  obtain ⟨k0, hk0⟩ := hat_n
  refine ⟨max M (s n k0), ?_, ?_, ?_⟩
  · intro j hj k
    rcases Nat.lt_succ_iff_lt_or_eq.mp hj with h | h
    · exact le_trans (hle j h k) (le_max_left _ _)
    · subst h
      have h1 : (s j k : EReal) ≤ (s j k0 : EReal) := hk0 ▸ hle_n k
      exact le_trans (EReal.coe_le_coe_iff.mp h1) (le_max_right _ _)
  · rcases le_total M (s n k0) with h | h
    · exact ⟨n, Nat.lt_succ_self n, k0, (max_eq_right h).symm⟩
    · obtain ⟨j, hj, k, hk⟩ := hat
      exact ⟨j, Nat.lt_succ_of_lt hj, k, by rw [hk, max_eq_left h]⟩
  · rw [step_coe s v mx n hk0]
    refine Prod.ext rfl (Prod.ext ?_ ?_)
    · show ((_ : ℝ) : EReal) = ((_ : ℝ) : EReal)
      congr 1
      rw [Finset.sum_range_succ, Finset.mul_sum]
      congr 1
      refine Finset.sum_congr rfl fun j _ => ?_
      rw [Finset.mul_sum]
      exact Finset.sum_congr rfl fun k _ => exp_rescale _ _ _
    · show ((_ : ℝ) : EReal) = ((_ : ℝ) : EReal)
      congr 1
      rw [Finset.sum_range_succ, Finset.mul_sum]
      congr 1
      refine Finset.sum_congr rfl fun j _ => ?_
      rw [Finset.mul_sum]
      refine Finset.sum_congr rfl fun k _ => ?_
      rw [← mul_assoc, exp_rescale]

/-- The invariant of the recurrence after n blocks, for a real M: M bounds the scores of the first
    n blocks and is one of them, the running maximum is M, and the running totals are the real
    sums of exp (s - M) and of exp (s - M) * v over those blocks. -/
structure StInv (s v : ℕ → κ → ℝ) (mx : ℕ → EReal) (n : ℕ) (M : ℝ) : Prop where
  /-- M bounds every score of the first n blocks. -/
  le : ∀ j < n, ∀ k, s j k ≤ M
  /-- M is one of those scores. -/
  attained : ∃ j < n, ∃ k, s j k = M
  /-- The running maximum is M. -/
  m_eq : (st s v mx n).1 = (M : EReal)
  /-- The running total is the real sum of exponentials. -/
  l_eq : (st s v mx n).2.1 = ((∑ j ∈ Finset.range n, ∑ k, Real.exp (s j k - M) : ℝ) : EReal)
  /-- The running weighted total is the real weighted sum of exponentials. -/
  acc_eq : (st s v mx n).2.2
    = ((∑ j ∈ Finset.range n, ∑ k, Real.exp (s j k - M) * v j k : ℝ) : EReal)

/-- The invariant holds after the first block, with M the first block's maximum. -/
theorem inv_one (s v : ℕ → κ → ℝ) (mx : ℕ → EReal)
    (hle : ∀ j k, (s j k : EReal) ≤ mx j) (hat : ∀ j, ∃ k, mx j = (s j k : EReal)) :
    ∃ M : ℝ, StInv s v mx 1 M := by
  obtain ⟨k0, hk0⟩ := hat 0
  have hst : st s v mx 1 = _ := (st_succ s v mx 0).trans (step_init s v mx 0 hk0)
  refine ⟨s 0 k0, ?_, ⟨0, Nat.one_pos, k0, rfl⟩, ?_, ?_, ?_⟩
  · intro j hj k
    have hj0 : j = 0 := Nat.lt_one_iff.mp hj
    subst hj0
    exact EReal.coe_le_coe_iff.mp (hk0 ▸ hle 0 k)
  · rw [hst]
  · rw [hst, Finset.sum_range_one]
  · rw [hst, Finset.sum_range_one]

/-- The invariant passes from n blocks to n + 1 blocks. -/
theorem inv_succ (s v : ℕ → κ → ℝ) (mx : ℕ → EReal)
    (hle : ∀ j k, (s j k : EReal) ≤ mx j) (hat : ∀ j, ∃ k, mx j = (s j k : EReal))
    {n : ℕ} {M : ℝ} (h : StInv s v mx n M) : ∃ M' : ℝ, StInv s v mx (n + 1) M' := by
  obtain ⟨M', h1, h2, h3⟩ := step_totals s v mx n (hle n) (hat n) h.le h.attained
  have hst : st s v mx n = ((M : EReal),
      ((∑ j ∈ Finset.range n, ∑ k, Real.exp (s j k - M) : ℝ) : EReal),
      ((∑ j ∈ Finset.range n, ∑ k, Real.exp (s j k - M) * v j k : ℝ) : EReal)) :=
    Prod.ext h.m_eq (Prod.ext h.l_eq h.acc_eq)
  have hst' := (st_succ s v mx n).trans ((congrArg (step s v mx n) hst).trans h3)
  exact ⟨M', h1, h2, by rw [hst'], by rw [hst'], by rw [hst']⟩

/-- The invariant holds after any positive number of blocks. -/
theorem inv (s v : ℕ → κ → ℝ) (mx : ℕ → EReal)
    (hle : ∀ j k, (s j k : EReal) ≤ mx j) (hat : ∀ j, ∃ k, mx j = (s j k : EReal))
    {n : ℕ} (hn : 1 ≤ n) : ∃ M : ℝ, StInv s v mx n M := by
  induction n, hn using Nat.le_induction with
  | base => exact inv_one s v mx hle hat
  | succ n _ ih => obtain ⟨M, hM⟩ := ih; exact inv_succ s v mx hle hat hM

end Invariant

/-! ### The conclusion -/

section Conclusion

variable {κ : Type*} [Fintype κ]

/-- An attained upper bound of the first n blocks' scores is unique. -/
theorem max_unique (s : ℕ → κ → ℝ) {n : ℕ} {M M' : ℝ}
    (hle : ∀ j < n, ∀ k, s j k ≤ M) (hat : ∃ j < n, ∃ k, s j k = M)
    (hle' : ∀ j < n, ∀ k, s j k ≤ M') (hat' : ∃ j < n, ∃ k, s j k = M') : M = M' := by
  obtain ⟨j, hj, k, hk⟩ := hat
  obtain ⟨j', hj', k', hk'⟩ := hat'
  exact le_antisymm (hk ▸ hle' j hj k) (hk' ▸ hle j' hj' k')

/-- The total of the exponentials is positive as soon as there is one key. -/
theorem total_pos (s : ℕ → κ → ℝ) {n : ℕ} (M : ℝ) (hne : ∃ j < n, Nonempty κ) :
    0 < ∑ j ∈ Finset.range n, ∑ k, Real.exp (s j k - M) := by
  obtain ⟨j0, hj0, ⟨k0⟩⟩ := hne
  refine Finset.sum_pos' (fun j _ => Finset.sum_nonneg fun k _ => (Real.exp_pos _).le)
    ⟨j0, Finset.mem_range.mpr hj0, ?_⟩
  exact Finset.sum_pos (fun k _ => Real.exp_pos _) ⟨k0, Finset.mem_univ k0⟩

/-- The total of the exponentials is positive when the maximum is attained. -/
theorem total_pos_of_attained (s : ℕ → κ → ℝ) {n : ℕ} {M : ℝ} (hat : ∃ j < n, ∃ k, s j k = M) :
    0 < ∑ j ∈ Finset.range n, ∑ k, Real.exp (s j k - M) := by
  obtain ⟨j0, hj0, k0, _⟩ := hat
  exact total_pos s M ⟨j0, hj0, ⟨k0⟩⟩

/-- The online quotient in closed real form: after n ≥ 1 blocks, the weighted total divided by the
    total is the real quotient of the two sums of exponentials taken against the overall maximum M'. -/
theorem div_st_eq_closed (s v : ℕ → κ → ℝ) (mx : ℕ → EReal)
    (hle : ∀ j k, (s j k : EReal) ≤ mx j) (hat : ∀ j, ∃ k, mx j = (s j k : EReal))
    {n : ℕ} (hn : 1 ≤ n) {M' : ℝ}
    (hle' : ∀ j < n, ∀ k, s j k ≤ M') (hat' : ∃ j < n, ∃ k, s j k = M') :
    Ideal.div (st s v mx n).2.2 (st s v mx n).2.1
      = (((∑ j ∈ Finset.range n, ∑ k, Real.exp (s j k - M') * v j k)
          / (∑ j ∈ Finset.range n, ∑ k, Real.exp (s j k - M')) : ℝ) : EReal) := by
  obtain ⟨M, h⟩ := inv s v mx hle hat hn
  have hMM : M = M' := max_unique s h.le h.attained hle' hat'
  subst hMM
  rw [h.l_eq, h.acc_eq]
  exact div_coe_coe _ (total_pos_of_attained s hat').ne'

/-- The plain softmax-weighted sum in closed real form: each exponential divided by the total (the
    total accumulated from the literal zero), times the value, summed over all keys, is the real
    quotient of the two sums. -/
theorem softmax_eq_closed (s v : ℕ → κ → ℝ) {n : ℕ} {M' : ℝ} (hat' : ∃ j < n, ∃ k, s j k = M') :
    (∑ j ∈ Finset.range n, ∑ k,
        Ideal.div (Ideal.exp ((s j k : EReal) - (M' : EReal)))
          (0 + ∑ j' ∈ Finset.range n, ∑ k', Ideal.exp ((s j' k' : EReal) - (M' : EReal)))
        * (v j k : EReal))
      = (((∑ j ∈ Finset.range n, ∑ k, Real.exp (s j k - M') * v j k)
          / (∑ j ∈ Finset.range n, ∑ k, Real.exp (s j k - M')) : ℝ) : EReal) := by
  have hpos := total_pos_of_attained s hat'
  have htot : (0 : EReal) + ∑ j' ∈ Finset.range n, ∑ k', Ideal.exp ((s j' k' : EReal) - (M' : EReal))
      = ((∑ j ∈ Finset.range n, ∑ k, Real.exp (s j k - M') : ℝ) : EReal) := by
    rw [zero_add]; simp only [exp_coe_sub, ← coe_finset_sum]
  rw [htot]
  simp only [exp_coe_sub, div_coe_coe _ hpos.ne', ← EReal.coe_mul, ← coe_finset_sum]
  congr 1
  rw [Finset.sum_div]
  refine Finset.sum_congr rfl fun j _ => ?_
  rw [Finset.sum_div]
  refine Finset.sum_congr rfl fun k _ => ?_
  ring

/-- Online softmax is plain softmax: after n ≥ 1 blocks, the weighted total divided by the total is
    the sum over all keys of the softmax weight (exponential of score minus the overall maximum M',
    divided by the total of those exponentials) times the value. -/
theorem div_st_eq_softmax (s v : ℕ → κ → ℝ) (mx : ℕ → EReal)
    (hle : ∀ j k, (s j k : EReal) ≤ mx j) (hat : ∀ j, ∃ k, mx j = (s j k : EReal))
    {n : ℕ} (hn : 1 ≤ n) {M' : ℝ}
    (hle' : ∀ j < n, ∀ k, s j k ≤ M') (hat' : ∃ j < n, ∃ k, s j k = M') :
    Ideal.div (st s v mx n).2.2 (st s v mx n).2.1
      = ∑ j ∈ Finset.range n, ∑ k,
          Ideal.div (Ideal.exp ((s j k : EReal) - (M' : EReal)))
            (0 + ∑ j' ∈ Finset.range n, ∑ k', Ideal.exp ((s j' k' : EReal) - (M' : EReal)))
          * (v j k : EReal) :=
  (div_st_eq_closed s v mx hle hat hn hle' hat').trans (softmax_eq_closed s v hat').symm

end Conclusion

end Cert.OnlineSoftmax
-- ==== Proof.ValueFlashIdeal.lean ====
/-
  The running maximum, sum and weighted sum of one query row against its key blocks, as a fold over blocks of
  512 keys on the extended reals; on real scores and values it is the online recurrence whose quotient is the
  softmax-weighted sum. Also: a sum over 2048 keys as the sum over four blocks of 512.
-/
import proofs.«138496_j31379031065087_2_alg».proof.Proof.LibOnlineSoftmax
import proofs.«138496_j31379031065087_2_alg».proof.Proof.LibSoftmaxRows

noncomputable section

namespace Cert.Flash

open Idealize.ShloMosaic Cert.OnlineSoftmax Cert.Attn
open scoped BigOperators

/-- The word the running maximum starts from denotes the least extended real. -/
theorem negInf_bot : Ideal.ofBits .f32 0xFF800000#32 = (⊥ : EReal) := by
  simp [Ideal.ofBits, Ideal.ieee]

/-- A block's maximum (the fold of max from minus infinity) is the supremum of its scores. -/
theorem blockMax_eq_sup {n : ℕ} (f : Fin n → EReal) : rowMax f = (Finset.univ : Finset (Fin n)).sup f := by
  unfold rowMax; rw [negInf_bot]; rfl
theorem le_blockMax {n : ℕ} (f : Fin n → EReal) (k : Fin n) : f k ≤ rowMax f := by
  rw [blockMax_eq_sup]; exact Finset.le_sup (f := f) (Finset.mem_univ k)
theorem blockMax_attained (f : Fin 512 → EReal) : ∃ k : Fin 512, rowMax f = f k := by
  rw [blockMax_eq_sup]
  obtain ⟨k, _, hk⟩ := Finset.exists_mem_eq_sup (Finset.univ : Finset (Fin 512)) ⟨0, Finset.mem_univ _⟩ f
  exact ⟨k, hk⟩

/-- One block's update of (maximum, sum, weighted sum). -/
def fstep (s cv : Fin 512 → EReal) (p : EReal × EReal × EReal) : EReal × EReal × EReal :=
  (max p.1 (rowMax s),
   Ideal.exp (p.1 - max p.1 (rowMax s)) * p.2.1 + ∑ k, Ideal.exp (s k - max p.1 (rowMax s)),
   Ideal.exp (p.1 - max p.1 (rowMax s)) * p.2.2 + ∑ k, Ideal.exp (s k - max p.1 (rowMax s)) * cv k)

/-- The state after the first j blocks, from (minus infinity, 0, 0). -/
def fst (S Cv : ℕ → Fin 512 → EReal) : ℕ → EReal × EReal × EReal
  | 0 => (⊥, 0, 0)
  | j + 1 => fstep (S j) (Cv j) (fst S Cv j)

theorem fst_zero (S Cv : ℕ → Fin 512 → EReal) : fst S Cv 0 = (⊥, 0, 0) := rfl
theorem fst_succ (S Cv : ℕ → Fin 512 → EReal) (j : ℕ) : fst S Cv (j + 1) = fstep (S j) (Cv j) (fst S Cv j) := rfl

/-- On real scores and values the fold is the online recurrence with each block's maximum its fold of max. -/
theorem fst_eq_st (s v : ℕ → Fin 512 → ℝ) (n : ℕ) :
    fst (fun j k => (s j k : EReal)) (fun j k => (v j k : EReal)) n
      = st s v (fun j => rowMax fun k => (s j k : EReal)) n := by
  induction n with
  | zero => rfl
  | succ n ih => rw [fst_succ, st_succ, ih]; rfl

/-- The quotient after n ≥ 1 blocks of real scores and values: the softmax-weighted sum in closed form, M the
    overall maximum. -/
theorem flash_closed (s v : ℕ → Fin 512 → ℝ) {n : ℕ} (hn : 1 ≤ n) {M : ℝ}
    (hle : ∀ j < n, ∀ k, s j k ≤ M) (hat : ∃ j < n, ∃ k, s j k = M) :
    Ideal.div (fst (fun j k => (s j k : EReal)) (fun j k => (v j k : EReal)) n).2.2
        (fst (fun j k => (s j k : EReal)) (fun j k => (v j k : EReal)) n).2.1
      = (((∑ j ∈ Finset.range n, ∑ k, Real.exp (s j k - M) * v j k) / (∑ j ∈ Finset.range n, ∑ k, Real.exp (s j k - M)) : ℝ) : EReal) := by
  rw [fst_eq_st]
  exact div_st_eq_closed s v _ (fun j k => le_blockMax (fun k => (s j k : EReal)) k)
    (fun j => blockMax_attained fun k => (s j k : EReal)) hn hle hat

/-- A sum over 2048 keys is the sum over four blocks of 512 keys. -/
theorem sum_blocks {α : Type} [AddCommMonoid α] (f : Fin 2048 → α) :
    ∑ k : Fin 2048, f k = ∑ j ∈ Finset.range 4, ∑ k : Fin 512, f ⟨(512 * j + k.val) % 2048, Nat.mod_lt _ (by norm_num)⟩ := by
  rw [← Fin.sum_univ_eq_sum_range (fun j => ∑ k : Fin 512, f ⟨(512 * j + k.val) % 2048, Nat.mod_lt _ (by norm_num)⟩) 4]
  rw [← Fintype.sum_prod_type']
  rw [← Equiv.sum_comp (finProdFinEquiv : Fin 4 × Fin 512 ≃ Fin (4 * 512))]
  refine Finset.sum_congr rfl fun p _ => ?_
  refine congrArg f (Fin.ext ?_)
  show p.2.val + 512 * p.1.val = (512 * p.1.val + p.2.val) % 2048
  have h1 := p.1.isLt; have h2 := p.2.isLt
  omega

end Cert.Flash

end
-- ==== Proof.ValueAttnStepIdeal.lean ====
/-
  One grid point of the attention call, at one query row and one lane: the six carried values after the point are
  one block's update (new maximum, rescaled sum plus the block's exponentials, rescaled weighted sum plus the
  block's weighted values) of the six values before it; and the block's scores and values are entries of the
  query, key and value arrays the call was entered with.
-/
import proofs.«138496_j31379031065087_2_alg».proof.Proof.ValueAttnPayIdeal
import proofs.«138496_j31379031065087_2_alg».proof.Proof.ValueAttnBlkIdeal
import proofs.«138496_j31379031065087_2_alg».proof.Proof.ValueFlashIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Flash
open scoped BigOperators

/-- The carried values of the first head after a point whose stored blocks are the named payloads. -/
theorem step_head0 (x0 x1 x2 : Vec Ideal S1x1x512x128 .bf16) (xs0 xs1 : Vec Ideal S512x1 .f32) (xs2 : Vec Ideal S512x64 .f32)
    (m' l' : Vec Ideal S512x1 .f32) (a' : Vec Ideal S512x64 .f32)
    (h0 : m' = k1_pay24 (F := Ideal) (k1_pay18 x0 x1 xs0)) (h1 : l' = k1_pay22 (F := Ideal) (k1_pay21 x0 x1 xs0 xs0 xs1))
    (h2 : a' = k1_pay23 (F := Ideal) (k1_pay15 x2) (k1_pay19 x0 x1 xs0 xs0) (k1_pay20 x0 x1 xs0) xs2) (r : Fin 512) (d : Fin 64) :
    m' (ix2 r 0) = (fstep (fun k => hS (qLo x0) (kLo x1) r k) (fun k => k1_pay15 (F := Ideal) x2 (ix2 k d)) (xs0 (ix2 r 0), xs1 (ix2 r 0), xs2 (ix2 r d))).1
    ∧ l' (ix2 r 0) = (fstep (fun k => hS (qLo x0) (kLo x1) r k) (fun k => k1_pay15 (F := Ideal) x2 (ix2 k d)) (xs0 (ix2 r 0), xs1 (ix2 r 0), xs2 (ix2 r d))).2.1
    ∧ a' (ix2 r d) = (fstep (fun k => hS (qLo x0) (kLo x1) r k) (fun k => k1_pay15 (F := Ideal) x2 (ix2 k d)) (xs0 (ix2 r 0), xs1 (ix2 r 0), xs2 (ix2 r d))).2.2 := by
  subst h0 h1 h2
  refine ⟨?_, ?_, ?_⟩
  · rw [pay24_eq, pay18_apply]; rfl
  · rw [pay22_eq, pay21_apply]; rfl
  · rw [pay23_apply, pay19_apply]
    simp only [pay20_apply]
    rfl

/-- The carried values of the second head after such a point. -/
theorem step_head1 (x0 x1 x2 : Vec Ideal S1x1x512x128 .bf16) (xs3 xs4 : Vec Ideal S512x1 .f32) (xs5 : Vec Ideal S512x64 .f32)
    (m' l' : Vec Ideal S512x1 .f32) (a' : Vec Ideal S512x64 .f32)
    (h3 : m' = k1_pay2 (F := Ideal) (k1_pay26 (k1_pay13 x0) (k1_pay14 x1) xs3)) (h4 : l' = k1_pay29 (F := Ideal) (k1_pay13 x0) (k1_pay14 x1) xs3 xs3 xs4)
    (h5 : a' = k1_pay1 (F := Ideal) (k1_pay16 x2) (k1_pay27 (k1_pay13 x0) (k1_pay14 x1) xs3 xs3) (k1_pay28 (k1_pay13 x0) (k1_pay14 x1) xs3) xs5) (r : Fin 512) (d : Fin 64) :
    m' (ix2 r 0) = (fstep (fun k => hS (k1_pay13 (F := Ideal) x0) (k1_pay14 x1) r k) (fun k => k1_pay16 (F := Ideal) x2 (ix2 k d)) (xs3 (ix2 r 0), xs4 (ix2 r 0), xs5 (ix2 r d))).1
    ∧ l' (ix2 r 0) = (fstep (fun k => hS (k1_pay13 (F := Ideal) x0) (k1_pay14 x1) r k) (fun k => k1_pay16 (F := Ideal) x2 (ix2 k d)) (xs3 (ix2 r 0), xs4 (ix2 r 0), xs5 (ix2 r d))).2.1
    ∧ a' (ix2 r d) = (fstep (fun k => hS (k1_pay13 (F := Ideal) x0) (k1_pay14 x1) r k) (fun k => k1_pay16 (F := Ideal) x2 (ix2 k d)) (xs3 (ix2 r 0), xs4 (ix2 r 0), xs5 (ix2 r d))).2.2 := by
  subst h3 h4 h5
  refine ⟨?_, ?_, ?_⟩
  · rw [pay2_eq, pay26_apply]; rfl
  · rw [pay29_apply]; rfl
  · rw [pay1_apply, pay27_apply]
    simp only [pay28_apply]
    rfl

variable (V : (c : Dev nD) → (b : Ref sig .tc) → Buf (Elt Ideal) ((c : Thread nD τ).loc b))

/-- Lane d of head e among a head pair's 128 lanes. -/
def lane (e : Fin 2) (d : Fin 64) : Fin 128 := ⟨64 * e.val + d.val, by omega⟩
/-- Key k of key block j. -/
def keyAt (j : ℕ) (k : Fin 512) : Fin 2048 := ⟨(512 * j + k.val) % 2048, Nat.mod_lt _ (by norm_num)⟩

/-- The score of query row n against key k of key block j, for head e of pair g in batch b. -/
def Srow (c : Dev nD) (e : Fin 2) (b : Fin 2) (g : Fin 8) (n : Fin 2048) (j : ℕ) (k : Fin 512) : EReal :=
  ∑ d : Fin 64, attQ V c (ix4 b g n (lane e d)) * attK V c (ix4 b g (keyAt j k) (lane e d))
/-- The value at lane d of key k of key block j. -/
def Crow (c : Dev nD) (e : Fin 2) (b : Fin 2) (g : Fin 8) (d : Fin 64) (j : ℕ) (k : Fin 512) : EReal :=
  attV V c (ix4 b g (keyAt j k) (lane e d))

/-- At point t the first head's block scores are the arrays' scores of key block t mod 4. -/
theorem hS_lo_eq (c : Dev nD) (t : Fin cfg1.N) (r k : Fin 512) (b : Fin 2) (g : Fin 8) (n : Fin 2048)
    (hb : b.val = t.val / 128) (hg : g.val = t.val / 16 % 8) (hn : n.val = 512 * (t.val / 4 % 4) + r.val) :
    hS (qLo (iblk1 V c 0 t)) (kLo (iblk1 V c 1 t)) r k = Srow V c 0 b g n (t.val % 4) k := by
  unfold hS Srow
  refine Finset.sum_congr rfl fun d _ => ?_
  rw [qLo_apply, kLo_apply,
    attn_iblk0_apply V c t r _ b g n hb hg hn,
    attn_iblk1_apply V c t k _ b g (keyAt (t.val % 4) k) hb hg (by show (512 * (t.val % 4) + k.val) % 2048 = _; have := k.isLt; omega)]
  rw [show lane 0 d = (⟨d.val, by omega⟩ : Fin 128) from Fin.ext (by show 64 * 0 + d.val = d.val; omega)]
/-- The second head's. -/
theorem hS_hi_eq (c : Dev nD) (t : Fin cfg1.N) (r k : Fin 512) (b : Fin 2) (g : Fin 8) (n : Fin 2048)
    (hb : b.val = t.val / 128) (hg : g.val = t.val / 16 % 8) (hn : n.val = 512 * (t.val / 4 % 4) + r.val) :
    hS (k1_pay13 (F := Ideal) (iblk1 V c 0 t)) (k1_pay14 (iblk1 V c 1 t)) r k = Srow V c 1 b g n (t.val % 4) k := by
  unfold hS Srow
  refine Finset.sum_congr rfl fun d _ => ?_
  rw [pay13_apply, pay14_apply,
    attn_iblk0_apply V c t r _ b g n hb hg hn,
    attn_iblk1_apply V c t k _ b g (keyAt (t.val % 4) k) hb hg (by show (512 * (t.val % 4) + k.val) % 2048 = _; have := k.isLt; omega)]
  rfl
/-- The first head's block values. -/
theorem C_lo_eq (c : Dev nD) (t : Fin cfg1.N) (k : Fin 512) (d : Fin 64) (b : Fin 2) (g : Fin 8)
    (hb : b.val = t.val / 128) (hg : g.val = t.val / 16 % 8) :
    k1_pay15 (F := Ideal) (iblk1 V c 2 t) (ix2 k d) = Crow V c 0 b g d (t.val % 4) k := by
  unfold Crow
  rw [pay15_apply, attn_iblk2_apply V c t k _ b g (keyAt (t.val % 4) k) hb hg (by show (512 * (t.val % 4) + k.val) % 2048 = _; have := k.isLt; omega)]
  rw [show lane 0 d = (⟨d.val, by omega⟩ : Fin 128) from Fin.ext (by show 64 * 0 + d.val = d.val; omega)]
/-- The second head's. -/
theorem C_hi_eq (c : Dev nD) (t : Fin cfg1.N) (k : Fin 512) (d : Fin 64) (b : Fin 2) (g : Fin 8)
    (hb : b.val = t.val / 128) (hg : g.val = t.val / 16 % 8) :
    k1_pay16 (F := Ideal) (iblk1 V c 2 t) (ix2 k d) = Crow V c 1 b g d (t.val % 4) k := by
  unfold Crow
  rw [pay16_apply, attn_iblk2_apply V c t k _ b g (keyAt (t.val % 4) k) hb hg (by show (512 * (t.val % 4) + k.val) % 2048 = _; have := k.isLt; omega)]
  rfl

/-- The state of query row n of (batch b, pair g, head e) at lane d after the first j key blocks. -/
def flashSt (c : Dev nD) (e : Fin 2) (b : Fin 2) (g : Fin 8) (n : Fin 2048) (d : Fin 64) (j : ℕ) : EReal × EReal × EReal :=
  fst (Srow V c e b g n) (Crow V c e b g d) j

/-- The attention output at batch b, token n and column cc (pair cc / 128, head (cc / 64) mod 2, lane cc mod 64): the
    weighted sum over the running sum after all four key blocks. -/
def G1At (c : Dev nD) (b : Fin 2) (n : Fin 2048) (cc : Fin 1024) : EReal :=
  Ideal.div (flashSt V c ⟨cc.val / 64 % 2, by omega⟩ b ⟨cc.val / 128, by omega⟩ n ⟨cc.val % 64, by omega⟩ 4).2.2
    (flashSt V c ⟨cc.val / 64 % 2, by omega⟩ b ⟨cc.val / 128, by omega⟩ n ⟨cc.val % 64, by omega⟩ 4).2.1
/-- The attention output as one function of the arrays the call is entered with. -/
def G1 (c : Dev nD) : S2x2048x1024.Idx → EReal := fun i => G1At V c (i 0) (i 1) (i 2)
theorem G1_apply (c : Dev nD) (b : Fin 2) (n : Fin 2048) (cc : Fin 1024) : G1 V c (ix3 b n cc) = G1At V c b n cc := rfl

end Cert.KernelIdeal.Hand

end
-- ==== Proof.ValueAttnPiecesIdeal.lean ====
/-
  Attention over key/value blocks: what each case's run leaves in the six carried buffers and the output block,
  read back as the kernel's own payload terms. Every store of the body writes a whole buffer, so the contents
  after the point are the payload of the last store into it; a load of a whole buffer before any store reads what
  the point was entered with, a load after a store reads that store's payload. At a middle or last key/value
  block every carried buffer is loaded before it is stored; at a first block the reset comes first, so every
  later load reads the reset value (minus infinity for the maxima, zero for the sums and accumulators).
-/
import proofs.«138496_j31379031065087_2_alg».proof.Proof.FrameAttnDatIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl
theorem zeroOff3 : (![0, 0, 0] : Fin 3 → Nat) = fun _ => 0 := funext fun a => by fin_cases a <;> rfl
theorem zeroOff4 : (![0, 0, 0, 0] : Fin 4 → Nat) = fun _ => 0 := funext fun a => by fin_cases a <;> rfl

/-! ## A middle key/value block -/

/-- A middle key/value block: the running maximum of head 0 after the point. -/
theorem piece1_B_0 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : ¬cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_B c i a4 h4 a5 h5 a6 h6 a7 h7 a8 h8 a9 h9 a10 h10 a11 h11 a12 h12 a13 h13 hc0 hc1 x0 x1 x2 xs0 xs1 xs2 xs3 xs4 xs5).2.1 = k1_pay24 (k1_pay18 x0 x1 xs0) := by
  unfold outs1_B
  dsimp only
  rw [View.read_writes_eq_canon _ _ _ (scover1_B_0 c i a4 h4 a5 h5 a6 h6 a7 h7 a8 h8 a9 h9 a10 h10 a11 h11 a12 h12 a13 h13 hc0 hc1 x0 x1 x2 xs0 xs1 xs2 xs3 xs4 xs5)]
  unfold kernelRun1_B
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A middle key/value block: the running sum of head 0 after the point. -/
theorem piece1_B_1 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : ¬cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_B c i a4 h4 a5 h5 a6 h6 a7 h7 a8 h8 a9 h9 a10 h10 a11 h11 a12 h12 a13 h13 hc0 hc1 x0 x1 x2 xs0 xs1 xs2 xs3 xs4 xs5).2.2.1 = k1_pay22 (k1_pay21 x0 x1 xs0 xs0 xs1) := by
  unfold outs1_B
  dsimp only
  rw [View.read_writes_eq_canon _ _ _ (scover1_B_1 c i a4 h4 a5 h5 a6 h6 a7 h7 a8 h8 a9 h9 a10 h10 a11 h11 a12 h12 a13 h13 hc0 hc1 x0 x1 x2 xs0 xs1 xs2 xs3 xs4 xs5)]
  unfold kernelRun1_B
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A middle key/value block: the accumulator of head 0 after the point. -/
theorem piece1_B_2 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : ¬cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_B c i a4 h4 a5 h5 a6 h6 a7 h7 a8 h8 a9 h9 a10 h10 a11 h11 a12 h12 a13 h13 hc0 hc1 x0 x1 x2 xs0 xs1 xs2 xs3 xs4 xs5).2.2.2.1 = k1_pay23 (k1_pay15 x2) (k1_pay19 x0 x1 xs0 xs0) (k1_pay20 x0 x1 xs0) xs2 := by
  unfold outs1_B
  dsimp only
  rw [View.read_writes_eq_canon _ _ _ (scover1_B_2 c i a4 h4 a5 h5 a6 h6 a7 h7 a8 h8 a9 h9 a10 h10 a11 h11 a12 h12 a13 h13 hc0 hc1 x0 x1 x2 xs0 xs1 xs2 xs3 xs4 xs5)]
  unfold kernelRun1_B
  dsimp only
  sl_unfold_words
  rw [View.canon_unit_zero (S := S512x64) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A middle key/value block: the running maximum of head 1 after the point. -/
theorem piece1_B_3 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : ¬cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_B c i a4 h4 a5 h5 a6 h6 a7 h7 a8 h8 a9 h9 a10 h10 a11 h11 a12 h12 a13 h13 hc0 hc1 x0 x1 x2 xs0 xs1 xs2 xs3 xs4 xs5).2.2.2.2.1 = k1_pay2 (k1_pay26 (k1_pay13 x0) (k1_pay14 x1) xs3) := by
  unfold outs1_B
  dsimp only
  rw [View.read_writes_eq_canon _ _ _ (scover1_B_3 c i a4 h4 a5 h5 a6 h6 a7 h7 a8 h8 a9 h9 a10 h10 a11 h11 a12 h12 a13 h13 hc0 hc1 x0 x1 x2 xs0 xs1 xs2 xs3 xs4 xs5)]
  unfold kernelRun1_B
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A middle key/value block: the running sum of head 1 after the point. -/
theorem piece1_B_4 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : ¬cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_B c i a4 h4 a5 h5 a6 h6 a7 h7 a8 h8 a9 h9 a10 h10 a11 h11 a12 h12 a13 h13 hc0 hc1 x0 x1 x2 xs0 xs1 xs2 xs3 xs4 xs5).2.2.2.2.2.1 = k1_pay29 (k1_pay13 x0) (k1_pay14 x1) xs3 xs3 xs4 := by
  unfold outs1_B
  dsimp only
  rw [View.read_writes_eq_canon _ _ _ (scover1_B_4 c i a4 h4 a5 h5 a6 h6 a7 h7 a8 h8 a9 h9 a10 h10 a11 h11 a12 h12 a13 h13 hc0 hc1 x0 x1 x2 xs0 xs1 xs2 xs3 xs4 xs5)]
  unfold kernelRun1_B
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A middle key/value block: the accumulator of head 1 after the point. -/
theorem piece1_B_5 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : ¬cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_B c i a4 h4 a5 h5 a6 h6 a7 h7 a8 h8 a9 h9 a10 h10 a11 h11 a12 h12 a13 h13 hc0 hc1 x0 x1 x2 xs0 xs1 xs2 xs3 xs4 xs5).2.2.2.2.2.2 = k1_pay1 (k1_pay16 x2) (k1_pay27 (k1_pay13 x0) (k1_pay14 x1) xs3 xs3) (k1_pay28 (k1_pay13 x0) (k1_pay14 x1) xs3) xs5 := by
  unfold outs1_B
  dsimp only
  rw [View.read_writes_eq_canon _ _ _ (scover1_B_5 c i a4 h4 a5 h5 a6 h6 a7 h7 a8 h8 a9 h9 a10 h10 a11 h11 a12 h12 a13 h13 hc0 hc1 x0 x1 x2 xs0 xs1 xs2 xs3 xs4 xs5)]
  unfold kernelRun1_B
  dsimp only
  sl_unfold_words
  rw [View.canon_unit_zero (S := S512x64) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-! ## A first key/value block -/

/-- A first key/value block: the running maximum of head 0 after the point. -/
theorem piece1_A_0 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : cond1_0 i) (hc1 : ¬cond1_1 i) (x0 : Vec F S1x1x512x128 .bf16) (x1 : Vec F S1x1x512x128 .bf16) (x2 : Vec F S1x1x512x128 .bf16) :
    (outs1_A c i a4 h4 a5 h5 a6 h6 a7 h7 a8 h8 a9 h9 a10 h10 a11 h11 a12 h12 a13 h13 hc0 hc1 x0 x1 x2).2.1 = k1_pay24 (k1_pay18 x0 x1 (k1_pay4 (F := F))) := by
  unfold outs1_A
  dsimp only
  rw [View.read_writes_eq_canon _ _ _ (scover1_A_0 c i a4 h4 a5 h5 a6 h6 a7 h7 a8 h8 a9 h9 a10 h10 a11 h11 a12 h12 a13 h13 hc0 hc1 x0 x1 x2)]
  unfold kernelRun1_A
  dsimp only
  sl_unfold_words
  rw [View.canon_cons_unit_zero (S := S512x1) zeroOff2]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A first key/value block: the running sum of head 0 after the point. -/
theorem piece1_A_1 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : cond1_0 i) (hc1 : ¬cond1_1 i) (x0 : Vec F S1x1x512x128 .bf16) (x1 : Vec F S1x1x512x128 .bf16) (x2 : Vec F S1x1x512x128 .bf16) :
    (outs1_A c i a4 h4 a5 h5 a6 h6 a7 h7 a8 h8 a9 h9 a10 h10 a11 h11 a12 h12 a13 h13 hc0 hc1 x0 x1 x2).2.2.1 = k1_pay22 (k1_pay21 x0 x1 (k1_pay4 (F := F)) (k1_pay4 (F := F)) (k1_pay5 (F := F))) := by
  unfold outs1_A
  dsimp only
  rw [View.read_writes_eq_canon _ _ _ (scover1_A_1 c i a4 h4 a5 h5 a6 h6 a7 h7 a8 h8 a9 h9 a10 h10 a11 h11 a12 h12 a13 h13 hc0 hc1 x0 x1 x2)]
  unfold kernelRun1_A
  dsimp only
  sl_unfold_words
  rw [View.canon_cons_unit_zero (S := S512x1) zeroOff2]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A first key/value block: the accumulator of head 0 after the point. -/
theorem piece1_A_2 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : cond1_0 i) (hc1 : ¬cond1_1 i) (x0 : Vec F S1x1x512x128 .bf16) (x1 : Vec F S1x1x512x128 .bf16) (x2 : Vec F S1x1x512x128 .bf16) :
    (outs1_A c i a4 h4 a5 h5 a6 h6 a7 h7 a8 h8 a9 h9 a10 h10 a11 h11 a12 h12 a13 h13 hc0 hc1 x0 x1 x2).2.2.2.1 = k1_pay23 (k1_pay15 x2) (k1_pay19 x0 x1 (k1_pay4 (F := F)) (k1_pay4 (F := F))) (k1_pay20 x0 x1 (k1_pay4 (F := F))) (k1_pay6 (F := F)) := by
  unfold outs1_A
  dsimp only
  rw [View.read_writes_eq_canon _ _ _ (scover1_A_2 c i a4 h4 a5 h5 a6 h6 a7 h7 a8 h8 a9 h9 a10 h10 a11 h11 a12 h12 a13 h13 hc0 hc1 x0 x1 x2)]
  unfold kernelRun1_A
  dsimp only
  sl_unfold_words
  rw [View.canon_cons_unit_zero (S := S512x64) zeroOff2]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A first key/value block: the running maximum of head 1 after the point. -/
theorem piece1_A_3 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : cond1_0 i) (hc1 : ¬cond1_1 i) (x0 : Vec F S1x1x512x128 .bf16) (x1 : Vec F S1x1x512x128 .bf16) (x2 : Vec F S1x1x512x128 .bf16) :
    (outs1_A c i a4 h4 a5 h5 a6 h6 a7 h7 a8 h8 a9 h9 a10 h10 a11 h11 a12 h12 a13 h13 hc0 hc1 x0 x1 x2).2.2.2.2.1 = k1_pay2 (k1_pay26 (k1_pay13 x0) (k1_pay14 x1) (k1_pay7 (F := F))) := by
  unfold outs1_A
  dsimp only
  rw [View.read_writes_eq_canon _ _ _ (scover1_A_3 c i a4 h4 a5 h5 a6 h6 a7 h7 a8 h8 a9 h9 a10 h10 a11 h11 a12 h12 a13 h13 hc0 hc1 x0 x1 x2)]
  unfold kernelRun1_A
  dsimp only
  sl_unfold_words
  rw [View.canon_cons_unit_zero (S := S512x1) zeroOff2]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A first key/value block: the running sum of head 1 after the point. -/
theorem piece1_A_4 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : cond1_0 i) (hc1 : ¬cond1_1 i) (x0 : Vec F S1x1x512x128 .bf16) (x1 : Vec F S1x1x512x128 .bf16) (x2 : Vec F S1x1x512x128 .bf16) :
    (outs1_A c i a4 h4 a5 h5 a6 h6 a7 h7 a8 h8 a9 h9 a10 h10 a11 h11 a12 h12 a13 h13 hc0 hc1 x0 x1 x2).2.2.2.2.2.1 = k1_pay29 (k1_pay13 x0) (k1_pay14 x1) (k1_pay7 (F := F)) (k1_pay7 (F := F)) (k1_pay8 (F := F)) := by
  unfold outs1_A
  dsimp only
  rw [View.read_writes_eq_canon _ _ _ (scover1_A_4 c i a4 h4 a5 h5 a6 h6 a7 h7 a8 h8 a9 h9 a10 h10 a11 h11 a12 h12 a13 h13 hc0 hc1 x0 x1 x2)]
  unfold kernelRun1_A
  dsimp only
  sl_unfold_words
  rw [View.canon_cons_unit_zero (S := S512x1) zeroOff2]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A first key/value block: the accumulator of head 1 after the point. -/
theorem piece1_A_5 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : cond1_0 i) (hc1 : ¬cond1_1 i) (x0 : Vec F S1x1x512x128 .bf16) (x1 : Vec F S1x1x512x128 .bf16) (x2 : Vec F S1x1x512x128 .bf16) :
    (outs1_A c i a4 h4 a5 h5 a6 h6 a7 h7 a8 h8 a9 h9 a10 h10 a11 h11 a12 h12 a13 h13 hc0 hc1 x0 x1 x2).2.2.2.2.2.2 = k1_pay1 (k1_pay16 x2) (k1_pay27 (k1_pay13 x0) (k1_pay14 x1) (k1_pay7 (F := F)) (k1_pay7 (F := F))) (k1_pay28 (k1_pay13 x0) (k1_pay14 x1) (k1_pay7 (F := F))) (k1_pay9 (F := F)) := by
  unfold outs1_A
  dsimp only
  rw [View.read_writes_eq_canon _ _ _ (scover1_A_5 c i a4 h4 a5 h5 a6 h6 a7 h7 a8 h8 a9 h9 a10 h10 a11 h11 a12 h12 a13 h13 hc0 hc1 x0 x1 x2)]
  unfold kernelRun1_A
  dsimp only
  sl_unfold_words
  rw [View.canon_cons_unit_zero (S := S512x64) zeroOff2]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-! ## A last key/value block -/

/-- A last key/value block: the running maximum of head 0 after the point. -/
theorem piece1_C_0 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).2.1 = k1_pay24 (k1_pay18 x0 x1 xs0) := by
  unfold outs1_C
  dsimp only
  rw [View.read_writes_eq_canon _ _ _ (scover1_C_0 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A last key/value block: the running sum of head 0 after the point. -/
theorem piece1_C_1 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).2.2.1 = k1_pay22 (k1_pay21 x0 x1 xs0 xs0 xs1) := by
  unfold outs1_C
  dsimp only
  rw [View.read_writes_eq_canon _ _ _ (scover1_C_1 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A last key/value block: the accumulator of head 0 after the point. -/
theorem piece1_C_2 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).2.2.2.1 = k1_pay23 (k1_pay15 x2) (k1_pay19 x0 x1 xs0 xs0) (k1_pay20 x0 x1 xs0) xs2 := by
  unfold outs1_C
  dsimp only
  rw [View.read_writes_eq_canon _ _ _ (scover1_C_2 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S512x64) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A last key/value block: the running maximum of head 1 after the point. -/
theorem piece1_C_3 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).2.2.2.2.1 = k1_pay2 (k1_pay26 (k1_pay13 x0) (k1_pay14 x1) xs3) := by
  unfold outs1_C
  dsimp only
  rw [View.read_writes_eq_canon _ _ _ (scover1_C_3 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A last key/value block: the running sum of head 1 after the point. -/
theorem piece1_C_4 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).2.2.2.2.2.1 = k1_pay29 (k1_pay13 x0) (k1_pay14 x1) xs3 xs3 xs4 := by
  unfold outs1_C
  dsimp only
  rw [View.read_writes_eq_canon _ _ _ (scover1_C_4 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S512x1) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A last key/value block: the accumulator of head 1 after the point. -/
theorem piece1_C_5 (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).2.2.2.2.2.2 = k1_pay1 (k1_pay16 x2) (k1_pay27 (k1_pay13 x0) (k1_pay14 x1) xs3 xs3) (k1_pay28 (k1_pay13 x0) (k1_pay14 x1) xs3) xs5 := by
  unfold outs1_C
  dsimp only
  rw [View.read_writes_eq_canon _ _ _ (scover1_C_5 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S512x64) zeroOff2]
  simp only [View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

/-- A last key/value block: the output block is the two accumulators, each divided by its running sum, side by side,
    rounded to bf16 — the loads inside the final branch read this point's new accumulators and sums. -/
theorem piece1_C_out (c : Dev nD) (i : grid1.Coords) (a4 : Memref sig .tc .vmem S1x1x512x128 .bf16) (h4 : a4.IsWhole) (a5 : Memref sig .tc .vmem S1x1x512x128 .bf16) (h5 : a5.IsWhole) (a6 : Memref sig .tc .vmem S1x1x512x128 .bf16) (h6 : a6.IsWhole) (a7 : Memref sig .tc .vmem S1x512x128 .bf16) (h7 : a7.IsWhole) (a8 : Memref sig .tc .vmem S512x1 .f32) (h8 : a8.IsWhole) (a9 : Memref sig .tc .vmem S512x1 .f32) (h9 : a9.IsWhole) (a10 : Memref sig .tc .vmem S512x64 .f32) (h10 : a10.IsWhole) (a11 : Memref sig .tc .vmem S512x1 .f32) (h11 : a11.IsWhole) (a12 : Memref sig .tc .vmem S512x1 .f32) (h12 : a12.IsWhole) (a13 : Memref sig .tc .vmem S512x64 .f32) (h13 : a13.IsWhole) (hc0 : ¬cond1_0 i) (hc1 : cond1_1 i) (x0 : Vec F S1x1x512x128 .bf16) (x1 : Vec F S1x1x512x128 .bf16) (x2 : Vec F S1x1x512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    (outs1_C c i a4 h4 a5 h5 a6 h6 a7 h7 a8 h8 a9 h9 a10 h10 a11 h11 a12 h12 a13 h13 hc0 hc1 x0 x1 x2 xs0 xs1 xs2 xs3 xs4 xs5).1 = k1_pay3 (k1_pay23 (k1_pay15 x2) (k1_pay19 x0 x1 xs0 xs0) (k1_pay20 x0 x1 xs0) xs2) (k1_pay22 (k1_pay21 x0 x1 xs0 xs0 xs1)) (k1_pay1 (k1_pay16 x2) (k1_pay27 (k1_pay13 x0) (k1_pay14 x1) xs3 xs3) (k1_pay28 (k1_pay13 x0) (k1_pay14 x1) xs3) xs5) (k1_pay29 (k1_pay13 x0) (k1_pay14 x1) xs3 xs3 xs4) := by
  unfold outs1_C
  dsimp only
  rw [View.read_writes_eq_canon _ _ _ (cover1_C_3 c i a4 h4 a5 h5 a6 h6 a7 h7 a8 h8 a9 h9 a10 h10 a11 h11 a12 h12 a13 h13 hc0 hc1 x0 x1 x2 xs0 xs1 xs2 xs3 xs4 xs5)]
  unfold kernelRun1_C
  dsimp only
  sl_unfold_words
  rw [View.canon_unit_zero (S := S1x512x128) zeroOff3]
  simp only [View.readCov_unit_zero (S := S512x1) _ zeroOff2, View.readCov_unit_zero (S := S512x64) _ zeroOff2, View.readAt_eq_ld, h4.read_unread, h5.read_unread, h6.read_unread, h7.read_unread, h8.read_unread, h9.read_unread, h10.read_unread, h11.read_unread, h12.read_unread, h13.read_unread, View.ld_unit_zero (S := S512x1) zeroOff2, View.ld_unit_zero (S := S512x64) zeroOff2, View.ld_unit_zero (S := S1x1x512x128) zeroOff4, View.ld_unit_zero (S := S1x512x128) zeroOff3]

end Cert.KernelIdeal.Hand

end
-- ==== Proof.ValueAttnInvIdeal.lean ====
/-
  Over the grid of the attention call: after the point of key block kv of a (batch, pair, query block), each
  head's carried maximum, sum and weighted sum at a query row and lane are the fold of the block update over key
  blocks 0 .. kv of the query, key and value arrays. By induction on the point: a first key block starts the fold
  (the body resets the carried buffers to minus infinity, zero, zero before it reads them); a later one continues
  from what the point before left. At a last key block the written-back block holds, per head, the weighted sum
  over the sum.
-/
import proofs.«138496_j31379031065087_2_alg».proof.Proof.ValueAttnStepIdeal
import proofs.«138496_j31379031065087_2_alg».proof.Proof.ValueAttnPiecesIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Flash
open scoped BigOperators

variable (V : (c : Dev nD) → (b : Ref sig .tc) → Buf (Elt Ideal) ((c : Thread nD τ).loc b))

/-- After position n the carried values are the fold over key blocks 0 .. n mod 4. -/
def InvAt (c : Dev nD) (n : ℕ) (hn : n < cfg1.N) : Prop :=
  let O := outsAt1 (F := Ideal) V c n hn
  ∀ (r : Fin 512) (d : Fin 64) (b : Fin 2) (g : Fin 8) (nr : Fin 2048), b.val = n / 128 → g.val = n / 16 % 8 → nr.val = 512 * (n / 4 % 4) + r.val →
      (O.2.1 (ix2 r 0) = (flashSt V c 0 b g nr d (n % 4 + 1)).1 ∧ O.2.2.1 (ix2 r 0) = (flashSt V c 0 b g nr d (n % 4 + 1)).2.1 ∧ O.2.2.2.1 (ix2 r d) = (flashSt V c 0 b g nr d (n % 4 + 1)).2.2)
      ∧ (O.2.2.2.2.1 (ix2 r 0) = (flashSt V c 1 b g nr d (n % 4 + 1)).1 ∧ O.2.2.2.2.2.1 (ix2 r 0) = (flashSt V c 1 b g nr d (n % 4 + 1)).2.1 ∧ O.2.2.2.2.2.2 (ix2 r d) = (flashSt V c 1 b g nr d (n % 4 + 1)).2.2)

/-- A first key block: the carried buffers are reset, then updated once. -/
theorem inv_A (c : Dev nD) (t : Fin cfg1.N) (h0 : t.val % 4 = 0) : InvAt V c t.val t.isLt := by
  intro r d b g nr hb hg hn
  have h1 : ¬t.val % 4 = 3 := by omega
  have hO := outsAt1_A (F := Ideal) V c t h0 h1
  have q0 := (congrArg (fun O => O.2.1) hO).trans (piece1_A_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t))
  have q1 := (congrArg (fun O => O.2.2.1) hO).trans (piece1_A_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t))
  have q2 := (congrArg (fun O => O.2.2.2.1) hO).trans (piece1_A_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t))
  have q3 := (congrArg (fun O => O.2.2.2.2.1) hO).trans (piece1_A_3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t))
  have q4 := (congrArg (fun O => O.2.2.2.2.2.1) hO).trans (piece1_A_4 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t))
  have q5 := (congrArg (fun O => O.2.2.2.2.2.2) hO).trans (piece1_A_5 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (fun h => h1 ((hcond1_1 t).mp h)) (iblk1 V c 0 t) (iblk1 V c 1 t) (iblk1 V c 2 t))
  obtain ⟨a0, a1, a2⟩ := step_head0 (iblk1 V c 0 t) (iblk1 V c 1 t) (iblk1 V c 2 t) (k1_pay4 (F := Ideal)) (k1_pay5 (F := Ideal)) (k1_pay6 (F := Ideal)) _ _ _ q0 q1 q2 r d
  obtain ⟨a3, a4, a5⟩ := step_head1 (iblk1 V c 0 t) (iblk1 V c 1 t) (iblk1 V c 2 t) (k1_pay7 (F := Ideal)) (k1_pay8 (F := Ideal)) (k1_pay9 (F := Ideal)) _ _ _ q3 q4 q5 r d
  have eS0 : (fun k => hS (qLo (iblk1 V c 0 t)) (kLo (iblk1 V c 1 t)) r k) = Srow V c 0 b g nr (t.val % 4) := funext fun k => hS_lo_eq V c t r k b g nr hb hg hn
  have eC0 : (fun k => k1_pay15 (F := Ideal) (iblk1 V c 2 t) (ix2 k d)) = Crow V c 0 b g d (t.val % 4) := funext fun k => C_lo_eq V c t k d b g hb hg
  have eS1 : (fun k => hS (k1_pay13 (F := Ideal) (iblk1 V c 0 t)) (k1_pay14 (iblk1 V c 1 t)) r k) = Srow V c 1 b g nr (t.val % 4) := funext fun k => hS_hi_eq V c t r k b g nr hb hg hn
  have eC1 : (fun k => k1_pay16 (F := Ideal) (iblk1 V c 2 t) (ix2 k d)) = Crow V c 1 b g d (t.val % 4) := funext fun k => C_hi_eq V c t k d b g hb hg
  rw [eS0, eC0, pay4_apply, pay5_apply, pay6_apply, negInf_bot] at a0 a1 a2
  rw [eS1, eC1, pay7_apply, pay8_apply, pay9_apply, negInf_bot] at a3 a4 a5
  rw [h0] at a0 a1 a2 a3 a4 a5
  show (_ ∧ _ ∧ _) ∧ (_ ∧ _ ∧ _)
  rw [h0]
  exact ⟨⟨a0, a1, a2⟩, ⟨a3, a4, a5⟩⟩

/-- A middle key block: each head's carried values are one block's update of what the point before left. -/
theorem inv_B (c : Dev nD) (t : Fin cfg1.N) (h0 : ¬t.val % 4 = 0) (h1 : ¬t.val % 4 = 3)
    (ih : InvAt V c (t.val - 1) (Nat.lt_of_le_of_lt (Nat.sub_le _ _) t.isLt)) : InvAt V c t.val t.isLt := by
  intro r d b g nr hb hg hn
  have hO := outsAt1_B (F := Ideal) V c t h0 h1
  have q0 := (congrArg (fun O => O.2.1) hO).trans (piece1_B_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q1 := (congrArg (fun O => O.2.2.1) hO).trans (piece1_B_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q2 := (congrArg (fun O => O.2.2.2.1) hO).trans (piece1_B_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q3 := (congrArg (fun O => O.2.2.2.2.1) hO).trans (piece1_B_3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q4 := (congrArg (fun O => O.2.2.2.2.2.1) hO).trans (piece1_B_4 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q5 := (congrArg (fun O => O.2.2.2.2.2.2) hO).trans (piece1_B_5 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) (fun h => h1 ((hcond1_1 t).mp h)) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have hN : t.val < 256 := lt_of_lt_of_eq t.isLt N_1
  obtain ⟨⟨i0, i1, i2⟩, ⟨i3, i4, i5⟩⟩ := ih r d b g nr (by omega) (by omega) (by omega)
  have ek : (t.val - 1) % 4 + 1 = t.val % 4 := by omega
  rw [ek] at i0 i1 i2 i3 i4 i5
  obtain ⟨a0, a1, a2⟩ := step_head0 (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) _ _ _ q0 q1 q2 r d
  obtain ⟨a3, a4, a5⟩ := step_head1 (iblk1 V c 0 t) (iblk1 V c 1 t) (iblk1 V c 2 t) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2) _ _ _ q3 q4 q5 r d
  have eS0 : (fun k => hS (qLo (iblk1 V c 0 t)) (kLo (iblk1 V c 1 t)) r k) = Srow V c 0 b g nr (t.val % 4) := funext fun k => hS_lo_eq V c t r k b g nr hb hg hn
  have eC0 : (fun k => k1_pay15 (F := Ideal) (iblk1 V c 2 t) (ix2 k d)) = Crow V c 0 b g d (t.val % 4) := funext fun k => C_lo_eq V c t k d b g hb hg
  have eS1 : (fun k => hS (k1_pay13 (F := Ideal) (iblk1 V c 0 t)) (k1_pay14 (iblk1 V c 1 t)) r k) = Srow V c 1 b g nr (t.val % 4) := funext fun k => hS_hi_eq V c t r k b g nr hb hg hn
  have eC1 : (fun k => k1_pay16 (F := Ideal) (iblk1 V c 2 t) (ix2 k d)) = Crow V c 1 b g d (t.val % 4) := funext fun k => C_hi_eq V c t k d b g hb hg
  have eP0 : (((outsAt1 V c (t.val - 1) (Nat.lt_of_le_of_lt (Nat.sub_le _ _) t.isLt)).2.1) (ix2 r 0), ((outsAt1 V c (t.val - 1) (Nat.lt_of_le_of_lt (Nat.sub_le _ _) t.isLt)).2.2.1) (ix2 r 0), ((outsAt1 V c (t.val - 1) (Nat.lt_of_le_of_lt (Nat.sub_le _ _) t.isLt)).2.2.2.1) (ix2 r d)) = flashSt V c 0 b g nr d (t.val % 4) := by rw [i0, i1, i2]
  have eP1 : (((outsAt1 V c (t.val - 1) (Nat.lt_of_le_of_lt (Nat.sub_le _ _) t.isLt)).2.2.2.2.1) (ix2 r 0), ((outsAt1 V c (t.val - 1) (Nat.lt_of_le_of_lt (Nat.sub_le _ _) t.isLt)).2.2.2.2.2.1) (ix2 r 0), ((outsAt1 V c (t.val - 1) (Nat.lt_of_le_of_lt (Nat.sub_le _ _) t.isLt)).2.2.2.2.2.2) (ix2 r d)) = flashSt V c 1 b g nr d (t.val % 4) := by rw [i3, i4, i5]
  rw [eS0, eC0, eP0] at a0 a1 a2
  rw [eS1, eC1, eP1] at a3 a4 a5
  exact ⟨⟨a0, a1, a2⟩, ⟨a3, a4, a5⟩⟩

/-- The last key block: each head's carried values are one block's update of what the point before left. -/
theorem inv_C (c : Dev nD) (t : Fin cfg1.N) (h0 : ¬t.val % 4 = 0) (h1 : t.val % 4 = 3)
    (ih : InvAt V c (t.val - 1) (Nat.lt_of_le_of_lt (Nat.sub_le _ _) t.isLt)) : InvAt V c t.val t.isLt := by
  intro r d b g nr hb hg hn
  have hO := outsAt1_C (F := Ideal) V c t h0 h1
  have q0 := (congrArg (fun O => O.2.1) hO).trans (piece1_C_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q1 := (congrArg (fun O => O.2.2.1) hO).trans (piece1_C_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q2 := (congrArg (fun O => O.2.2.2.1) hO).trans (piece1_C_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q3 := (congrArg (fun O => O.2.2.2.2.1) hO).trans (piece1_C_3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q4 := (congrArg (fun O => O.2.2.2.2.2.1) hO).trans (piece1_C_4 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q5 := (congrArg (fun O => O.2.2.2.2.2.2) hO).trans (piece1_C_5 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h1) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have hN : t.val < 256 := lt_of_lt_of_eq t.isLt N_1
  obtain ⟨⟨i0, i1, i2⟩, ⟨i3, i4, i5⟩⟩ := ih r d b g nr (by omega) (by omega) (by omega)
  have ek : (t.val - 1) % 4 + 1 = t.val % 4 := by omega
  rw [ek] at i0 i1 i2 i3 i4 i5
  obtain ⟨a0, a1, a2⟩ := step_head0 (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) _ _ _ q0 q1 q2 r d
  obtain ⟨a3, a4, a5⟩ := step_head1 (iblk1 V c 0 t) (iblk1 V c 1 t) (iblk1 V c 2 t) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2) _ _ _ q3 q4 q5 r d
  have eS0 : (fun k => hS (qLo (iblk1 V c 0 t)) (kLo (iblk1 V c 1 t)) r k) = Srow V c 0 b g nr (t.val % 4) := funext fun k => hS_lo_eq V c t r k b g nr hb hg hn
  have eC0 : (fun k => k1_pay15 (F := Ideal) (iblk1 V c 2 t) (ix2 k d)) = Crow V c 0 b g d (t.val % 4) := funext fun k => C_lo_eq V c t k d b g hb hg
  have eS1 : (fun k => hS (k1_pay13 (F := Ideal) (iblk1 V c 0 t)) (k1_pay14 (iblk1 V c 1 t)) r k) = Srow V c 1 b g nr (t.val % 4) := funext fun k => hS_hi_eq V c t r k b g nr hb hg hn
  have eC1 : (fun k => k1_pay16 (F := Ideal) (iblk1 V c 2 t) (ix2 k d)) = Crow V c 1 b g d (t.val % 4) := funext fun k => C_hi_eq V c t k d b g hb hg
  have eP0 : (((outsAt1 V c (t.val - 1) (Nat.lt_of_le_of_lt (Nat.sub_le _ _) t.isLt)).2.1) (ix2 r 0), ((outsAt1 V c (t.val - 1) (Nat.lt_of_le_of_lt (Nat.sub_le _ _) t.isLt)).2.2.1) (ix2 r 0), ((outsAt1 V c (t.val - 1) (Nat.lt_of_le_of_lt (Nat.sub_le _ _) t.isLt)).2.2.2.1) (ix2 r d)) = flashSt V c 0 b g nr d (t.val % 4) := by rw [i0, i1, i2]
  have eP1 : (((outsAt1 V c (t.val - 1) (Nat.lt_of_le_of_lt (Nat.sub_le _ _) t.isLt)).2.2.2.2.1) (ix2 r 0), ((outsAt1 V c (t.val - 1) (Nat.lt_of_le_of_lt (Nat.sub_le _ _) t.isLt)).2.2.2.2.2.1) (ix2 r 0), ((outsAt1 V c (t.val - 1) (Nat.lt_of_le_of_lt (Nat.sub_le _ _) t.isLt)).2.2.2.2.2.2) (ix2 r d)) = flashSt V c 1 b g nr d (t.val % 4) := by rw [i3, i4, i5]
  rw [eS0, eC0, eP0] at a0 a1 a2
  rw [eS1, eC1, eP1] at a3 a4 a5
  exact ⟨⟨a0, a1, a2⟩, ⟨a3, a4, a5⟩⟩

/-- The invariant at every point. -/
theorem inv_all (c : Dev nD) : ∀ (n : ℕ) (hn : n < cfg1.N), InvAt V c n hn := by
  intro n
  induction n with
  | zero => intro hn; exact inv_A V c ⟨0, hn⟩ rfl
  | succ n ih =>
    intro hn
    by_cases h0 : (n + 1) % 4 = 0
    · exact inv_A V c ⟨n + 1, hn⟩ h0
    · by_cases h1 : (n + 1) % 4 = 3
      · exact inv_C V c ⟨n + 1, hn⟩ h0 h1 (ih _)
      · exact inv_B V c ⟨n + 1, hn⟩ h0 h1 (ih _)

end Cert.KernelIdeal.Hand

end
-- ==== Proof.ValueAttnOutIdeal.lean ====
/-
  At a last key block the written-back block holds, per head, the weighted sum over the running sum after all four
  key blocks: the attention output at the block's rows and lanes.
-/
import proofs.«138496_j31379031065087_2_alg».proof.Proof.ValueAttnInvIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Flash
open scoped BigOperators

variable (V : (c : Dev nD) → (b : Ref sig .tc) → Buf (Elt Ideal) ((c : Thread nD τ).loc b))

/-- The block a last key block writes back, in terms of that point's carried sums and weighted sums. -/
theorem out_block_eq (c : Dev nD) (t : Fin cfg1.N) (h3 : t.val % 4 = 3) :
    (outsAt1 (F := Ideal) V c t.val t.isLt).1
      = k1_pay3 (F := Ideal) (outsAt1 (F := Ideal) V c t.val t.isLt).2.2.2.1 (outsAt1 (F := Ideal) V c t.val t.isLt).2.2.1
          (outsAt1 (F := Ideal) V c t.val t.isLt).2.2.2.2.2.2 (outsAt1 (F := Ideal) V c t.val t.isLt).2.2.2.2.2.1 := by
  have h0 : ¬t.val % 4 = 0 := by omega
  have hO := outsAt1_C (F := Ideal) V c t h0 h3
  have qo := (congrArg (fun O => O.1) hO).trans (piece1_C_out (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h3) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q1 : (outsAt1 (F := Ideal) V c t.val t.isLt).2.2.1 = _ := (congrArg (fun O => O.2.2.1) hO).trans (piece1_C_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h3) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q2 : (outsAt1 (F := Ideal) V c t.val t.isLt).2.2.2.1 = _ := (congrArg (fun O => O.2.2.2.1) hO).trans (piece1_C_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h3) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q4 : (outsAt1 (F := Ideal) V c t.val t.isLt).2.2.2.2.2.1 = _ := (congrArg (fun O => O.2.2.2.2.2.1) hO).trans (piece1_C_4 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h3) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  have q5 : (outsAt1 (F := Ideal) V c t.val t.isLt).2.2.2.2.2.2 = _ := (congrArg (fun O => O.2.2.2.2.2.2) hO).trans (piece1_C_5 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => h0 ((hcond1_0 t).mp h)) ((hcond1_1 t).mpr h3) (iblk1 V c 0 t) (iblk1 V c 1 t) (iblk1 V c 2 t) ((outsAt1 V c (t.val - 1) (Nat.lt_of_le_of_lt (Nat.sub_le _ _) t.isLt)).2.1) ((outsAt1 V c (t.val - 1) (Nat.lt_of_le_of_lt (Nat.sub_le _ _) t.isLt)).2.2.1) ((outsAt1 V c (t.val - 1) (Nat.lt_of_le_of_lt (Nat.sub_le _ _) t.isLt)).2.2.2.1) ((outsAt1 V c (t.val - 1) (Nat.lt_of_le_of_lt (Nat.sub_le _ _) t.isLt)).2.2.2.2.1) ((outsAt1 V c (t.val - 1) (Nat.lt_of_le_of_lt (Nat.sub_le _ _) t.isLt)).2.2.2.2.2.1) ((outsAt1 V c (t.val - 1) (Nat.lt_of_le_of_lt (Nat.sub_le _ _) t.isLt)).2.2.2.2.2.2))
  rw [q2, q1, q5, q4]
  exact qo

/-- The written-back block at row r and lane j is the attention output at the block's place. -/
theorem attn_hblk (c : Dev nD) (t : Fin cfg1.N) (h3 : t.val % 4 = 3) (r : Fin 512) (j : Fin 128) (b : Fin 2) (n : Fin 2048) (cc : Fin 1024)
    (hb : b.val = t.val / 128) (hn : n.val = 512 * (t.val / 4 % 4) + r.val) (hcc : cc.val = 128 * (t.val / 16 % 8) + j.val) :
    (outsAt1 (F := Ideal) V c t.val t.isLt).1 (ix3 0 r j) = G1 V c (ix3 b n cc) := by
  have hN : t.val < 256 := lt_of_lt_of_eq t.isLt N_1
  have hj := j.isLt
  rw [out_block_eq V c t h3, G1_apply]
  unfold G1At
  have e4 : t.val % 4 + 1 = 4 := by omega
  by_cases hlo : j.val < 64
  · obtain ⟨⟨-, i1, i2⟩, -⟩ := inv_all V c t.val t.isLt r ⟨j.val, hlo⟩ b ⟨cc.val / 128, by omega⟩ n hb (by show cc.val / 128 = _; omega) hn
    rw [e4] at i1 i2
    have ej : j = (⟨(⟨j.val, hlo⟩ : Fin 64).val, by omega⟩ : Fin 128) := Fin.ext rfl
    rw [ej, pay3_lo, i2, i1]
    have ee : (⟨cc.val / 64 % 2, by omega⟩ : Fin 2) = 0 := Fin.ext (by show cc.val / 64 % 2 = 0; omega)
    have ed : (⟨cc.val % 64, by omega⟩ : Fin 64) = ⟨j.val, hlo⟩ := Fin.ext (by show cc.val % 64 = j.val; omega)
    rw [ee, ed]
  · obtain ⟨-, ⟨-, i1, i2⟩⟩ := inv_all V c t.val t.isLt r ⟨j.val - 64, by omega⟩ b ⟨cc.val / 128, by omega⟩ n hb (by show cc.val / 128 = _; omega) hn
    rw [e4] at i1 i2
    have ej : j = (⟨64 + (⟨j.val - 64, by omega⟩ : Fin 64).val, by omega⟩ : Fin 128) := Fin.ext (by show j.val = 64 + (j.val - 64); omega)
    rw [ej, pay3_hi, i2, i1]
    have ee : (⟨cc.val / 64 % 2, by omega⟩ : Fin 2) = 1 := Fin.ext (by show cc.val / 64 % 2 = 1; omega)
    have ed : (⟨cc.val % 64, by omega⟩ : Fin 64) = ⟨j.val - 64, by omega⟩ := Fin.ext (by show cc.val % 64 = j.val - 64; omega)
    rw [ee, ed]

end Cert.KernelIdeal.Hand

end
-- ==== Proof.ValueAttnFinalIdeal.lean ====
/-
  The attention call's output array from its blocks. The output window is written back only at the points
  whose key/value coordinate is the last (t mod 4 = 3); point t's block is rows 512 (t / 4 mod 4) .. + 511 and
  lanes 128 (t / 16 mod 8) .. + 127 of batch t / 128. Given that each such point's stored block is the
  target function at those indices, the 64 written blocks tile the array, so it ends holding the target.
-/
import proofs.«138496_j31379031065087_2_alg».proof.Proof.ValueAttnStepIdeal
import proofs.«138496_j31379031065087_2_alg».proof.Proof.ValueAttnBlkIdeal
import proofs.«138496_j31379031065087_2_alg».proof.Proof.FrameAttnIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What a point that writes the output block back writes is its block of the target function. -/
theorem attn_flushed_eq (c : Dev nD)
    (hblk : ∀ (t : Fin cfg1.N), t.val % 4 = 3 → ∀ (r : Fin 512) (j : Fin 128) (b : Fin 2) (n : Fin 2048) (cc : Fin 1024), b.val = t.val / 128 → n.val = 512 * (t.val / 4 % 4) + r.val → cc.val = 128 * (t.val / 16 % 8) + j.val → (outsAt1 (F := Ideal) V c t.val t.isLt).1 (ix3 0 r j) = G1 V c (ix3 b n cc))
    (t : Fin cfg1.N) (hf : (cfg1.win 3).flush t = true) :
    (dat1 (F := Ideal) V c).flushed 3 t = ((cfg1.win 3).blk t).view.read (Elt Ideal) (G1 V c) := by
  have h3 : t.val % 4 = 3 := (flush1_3 t).mp hf
  show (cfg1.win 3).cut (grid1.coords t) ((dat1 (F := Ideal) V c).after 3 t) = _
  rw [after1_3]
  obtain ⟨-, -, -, -, -, -, -, -, -, -, -, -, e0, e1, e2⟩ := attn_idx_facts t
  have hN : cfg1.N = 256 := N_1
  have htl : t.val < 256 := lt_of_lt_of_eq t.isLt hN
  funext y
  obtain ⟨z, r, j, rfl⟩ : ∃ (z : Fin 1) (r : Fin 512) (j : Fin 128), y = ix3 z r j := ⟨y 0, y 1, y 2, eq_ix3 y⟩
  obtain rfl : z = 0 := Subsingleton.elim _ _
  have hb : t.val / 128 < 2 := by omega
  have hn : 512 * (t.val / 4 % 4) + r.val < 2048 := by have := r.isLt; omega
  have hcc : 128 * (t.val / 16 % 8) + j.val < 1024 := by have := j.isLt; omega
  show (outsAt1 (F := Ideal) V c t.val t.isLt).1 (ix3 0 r j) = G1 V c (((cfg1.win 3).blk t).view.emb (ix3 0 r j))
  have hemb : ((cfg1.win 3).blk t).view.emb (ix3 0 r j)
      = (ix3 (⟨t.val / 128, hb⟩ : Fin 2) (⟨512 * (t.val / 4 % 4) + r.val, hn⟩ : Fin 2048) (⟨128 * (t.val / 16 % 8) + j.val, hcc⟩ : Fin 1024) : S2x2048x1024.Idx) := by
    funext a
    apply Fin.ext
    match a with
    | ⟨0, _⟩ => show win1_3.index t (0 : Fin 3) * 1 + 1 * 0 = t.val / 128; omega
    | ⟨1, _⟩ => show win1_3.index t (1 : Fin 3) * 512 + 1 * r.val = 512 * (t.val / 4 % 4) + r.val; omega
    | ⟨2, _⟩ => show win1_3.index t (2 : Fin 3) * 128 + 1 * j.val = 128 * (t.val / 16 % 8) + j.val; omega
  rw [hemb]
  exact hblk t h3 r j _ _ _ rfl rfl rfl

/-- An index of the output array is in point t's block iff each coordinate is in the block's range. -/
theorem attn_mem_blk (t : Fin cfg1.N) (i : S2x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v10).slice (win1_3.rect t)).set ↔ _
  rw [View.set_slice_whole, Rect.mem_set_unit]
  exact Iff.rfl

/-- Batch b, token n, column cc is in the block written back at the last key/value block of query block
    n / 512 of head pair cc / 128 of batch b. -/
theorem attn_cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  have hN : cfg1.N = 256 := N_1
  let t : Fin cfg1.N := ⟨(((i 0).val * 8 + (i 2).val / 128) * 4 + (i 1).val / 512) * 4 + 3, by omega⟩
  obtain ⟨-, -, -, -, -, -, -, -, -, -, -, -, e0, e1, e2⟩ := attn_idx_facts t
  have ht : t.val = (((i 0).val * 8 + (i 2).val / 128) * 4 + (i 1).val / 512) * 4 + 3 := rfl
  refine ⟨t, (flush1_3 t).mpr (by omega), ?_⟩
  rw [attn_mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The output array after the call is the target function, given that every written block is. -/
theorem attn_final (c : Dev nD)
    (hblk : ∀ (t : Fin cfg1.N), t.val % 4 = 3 → ∀ (r : Fin 512) (j : Fin 128) (b : Fin 2) (n : Fin 2048) (cc : Fin 1024), b.val = t.val / 128 → n.val = 512 * (t.val / 4 % 4) + r.val → cc.val = 128 * (t.val / 16 % 8) + j.val → (outsAt1 (F := Ideal) V c t.val t.isLt).1 (ix3 0 r j) = G1 V c (ix3 b n cc)) :
    (dat1 (F := Ideal) V c).arrAt 3 cfg1.N = G1 V c :=
  (dat1 (F := Ideal) V c).arrAt_eq_of_cover 3 (G1 V c) (fun t hf => attn_flushed_eq V c hblk t hf) attn_cover

end Cert.KernelIdeal.Hand

end
-- ==== Proof.RefSpec.lean ====
/-
  The reference computation written out index by index: a multi-head attention with a rotary embedding on every token
  but the first.  Nothing here mentions a program; the arrays are functions on literal index types and every stage is a
  plain function of the argument arrays at explicit coordinates
  (b : batch, h : head, n / k : query / key token, d : lane within a head, c : model feature).
-/
import Idealize.ShloMosaic.Lib.ValueIdx
import Idealize.ShloMosaic.PureOps.Ideal.Laws

noncomputable section

namespace Cert.RefAt

open Idealize.ShloMosaic Idealize.ShloMosaic.ValueIdx

/-- The input activations, [batch, token, feature]. -/
abbrev XT := FVec Ideal ⟨3, ![2, 2048, 1024]⟩ .f32
/-- A rotary table (sine or cosine), [token - 1, lane]. -/
abbrev TT := FVec Ideal ⟨2, ![2047, 64]⟩ .f32
/-- The fused query / key / value weights, [3 * feature, feature]. -/
abbrev WT := FVec Ideal ⟨2, ![3072, 1024]⟩ .f32
/-- The output projection's weights, [feature, feature]. -/
abbrev PT := FVec Ideal ⟨2, ![1024, 1024]⟩ .f32
/-- The output projection's bias, [feature]. -/
abbrev BT := FVec Ideal ⟨1, ![1024]⟩ .f32

/-- The fused projection: row `j` of the weights against token `n` of batch `b`. -/
def qkvR (x : XT) (w : WT) (b : Fin 2) (n : Fin 2048) (j : Fin 3072) : EReal :=
  ∑ c : Fin 1024, x (ix3 b n c) * w (ix2 j c)

/-- The weight row of part `t` (0 query, 1 key, 2 value), head `h`, lane `d`. -/
def feat (t : Fin 3) (h : Fin 16) (d : Fin 64) : Fin 3072 :=
  ⟨t.val * 1024 + h.val * 64 + d.val, by have := t.isLt; have := h.isLt; have := d.isLt; omega⟩

/-- Part `t` of the fused projection, split into heads: [batch, head, token, lane]. -/
def part (t : Fin 3) (x : XT) (w : WT) (b : Fin 2) (h : Fin 16) (n : Fin 2048) (d : Fin 64) : EReal :=
  qkvR x w b n (feat t h d)

/-- The half rotation of a head's 64 lanes: minus the upper half, then the lower half. -/
def rotHalf (a : Fin 64 → EReal) (d : Fin 64) : EReal :=
  if h : d.val < 32 then -(a ⟨d.val + 32, by omega⟩) else a ⟨d.val - 32, by have := d.isLt; omega⟩

/-- The row of a rotary table that token `n ≥ 1` reads. -/
def tok (n : Fin 2048) (hn : ¬ n.val = 0) : Fin 2047 := ⟨n.val - 1, by have := n.isLt; omega⟩

/-- The rotary embedding: token 0 is left alone, token `n ≥ 1` is `a · cos + rotHalf a · sin` at row `n - 1`. -/
def rope (a : Fin 2 → Fin 16 → Fin 2048 → Fin 64 → EReal) (sn cs : TT) (b : Fin 2) (h : Fin 16) (n : Fin 2048)
    (d : Fin 64) : EReal :=
  if hn : n.val = 0 then a b h n d
  else a b h n d * cs (ix2 (tok n hn) d) + rotHalf (a b h n) d * sn (ix2 (tok n hn) d)

/-- The rotated queries. -/
def qr (x : XT) (sn cs : TT) (w : WT) : Fin 2 → Fin 16 → Fin 2048 → Fin 64 → EReal := rope (part 0 x w) sn cs
/-- The rotated keys. -/
def kr (x : XT) (sn cs : TT) (w : WT) : Fin 2 → Fin 16 → Fin 2048 → Fin 64 → EReal := rope (part 1 x w) sn cs
/-- The values. -/
def vv (x : XT) (w : WT) : Fin 2 → Fin 16 → Fin 2048 → Fin 64 → EReal := part 2 x w

/-- The score scale, the f32 word of 1/8. -/
def scale : EReal := Ideal.ofBits .f32 0x3E000000#32
/-- The f32 word of minus infinity, from which the row maximum starts. -/
def negInf : EReal := Ideal.ofBits .f32 0xFF800000#32

/-- The scaled score of query token `n` against key token `k`. -/
def score (x : XT) (sn cs : TT) (w : WT) (b : Fin 2) (h : Fin 16) (n k : Fin 2048) : EReal :=
  (∑ d : Fin 64, qr x sn cs w b h n d * kr x sn cs w b h k d) * scale

/-- The row maximum as the reference folds it: `max` from minus infinity over the keys, then once more against minus infinity. -/
def rowMax (x : XT) (sn cs : TT) (w : WT) (b : Fin 2) (h : Fin 16) (n : Fin 2048) : EReal :=
  max negInf ((Finset.univ : Finset (Fin 2048)).fold max negInf (fun k => score x sn cs w b h n k))

/-- The shifted exponentials. -/
def ee (x : XT) (sn cs : TT) (w : WT) (b : Fin 2) (h : Fin 16) (n k : Fin 2048) : EReal :=
  Ideal.exp (score x sn cs w b h n k - rowMax x sn cs w b h n)

/-- The normaliser: the zero word plus the sum of the row's exponentials. -/
def rowSum (x : XT) (sn cs : TT) (w : WT) (b : Fin 2) (h : Fin 16) (n : Fin 2048) : EReal :=
  Ideal.ofBits .f32 0x00000000#32 + ∑ k : Fin 2048, ee x sn cs w b h n k

/-- The attention weights. -/
def attn (x : XT) (sn cs : TT) (w : WT) (b : Fin 2) (h : Fin 16) (n k : Fin 2048) : EReal :=
  Ideal.div (ee x sn cs w b h n k) (rowSum x sn cs w b h n)

/-- The attended values, [batch, head, token, lane]. -/
def oo (x : XT) (sn cs : TT) (w : WT) (b : Fin 2) (h : Fin 16) (n : Fin 2048) (d : Fin 64) : EReal :=
  ∑ k : Fin 2048, attn x sn cs w b h n k * vv x w b h k d

/-- Feature `c` of the merged heads is lane `c % 64` of head `c / 64`. -/
def headOf (c : Fin 1024) : Fin 16 := ⟨c.val / 64, by have := c.isLt; omega⟩
def laneOf (c : Fin 1024) : Fin 64 := ⟨c.val % 64, by omega⟩

/-- The result: the merged heads against row `c` of the output weights, plus the bias. -/
def out (x : XT) (sn cs : TT) (w : WT) (p : PT) (bias : BT) (b : Fin 2) (n : Fin 2048) (c : Fin 1024) : EReal :=
  (∑ c' : Fin 1024, oo x sn cs w b (headOf c') n (laneOf c') * p (ix2 c c')) + bias (ix1 c)

end Cert.RefAt

end
-- ==== Proof.RefSpecLemmas.lean ====
/-
  Small unfolding lemmas for the index-by-index reference: the two cases of the rotary embedding and of the half
  rotation, the normaliser without its zero word, and the score scale as the real number it denotes.
-/
import proofs.«138496_j31379031065087_2_alg».proof.Proof.RefSpec

noncomputable section

namespace Cert.RefAt

open Idealize.ShloMosaic Idealize.ShloMosaic.ValueIdx

/-- The first token is left alone. -/
theorem rope_zero (a : Fin 2 → Fin 16 → Fin 2048 → Fin 64 → EReal) (sn cs : TT) (b : Fin 2) (h : Fin 16) (n : Fin 2048)
    (d : Fin 64) (hn : n.val = 0) : rope a sn cs b h n d = a b h n d := by
  unfold rope; rw [dif_pos hn]

/-- … and it is token 0. -/
theorem rope_zero' (a : Fin 2 → Fin 16 → Fin 2048 → Fin 64 → EReal) (sn cs : TT) (b : Fin 2) (h : Fin 16) (d : Fin 64) :
    rope a sn cs b h 0 d = a b h 0 d := rope_zero a sn cs b h 0 d rfl

/-- Every other token is rotated by its table row. -/
theorem rope_pos (a : Fin 2 → Fin 16 → Fin 2048 → Fin 64 → EReal) (sn cs : TT) (b : Fin 2) (h : Fin 16) (n : Fin 2048)
    (d : Fin 64) (hn : ¬ n.val = 0) :
    rope a sn cs b h n d = a b h n d * cs (ix2 (tok n hn) d) + rotHalf (a b h n) d * sn (ix2 (tok n hn) d) := by
  unfold rope; rw [dif_neg hn]

/-- The half rotation on the lower lanes: minus the lane 32 above. -/
theorem rotHalf_lo (a : Fin 64 → EReal) (d : Fin 64) (hd : d.val < 32) :
    rotHalf a d = -(a ⟨d.val + 32, by omega⟩) := by
  unfold rotHalf; rw [dif_pos hd]

/-- The half rotation on the upper lanes: the lane 32 below. -/
theorem rotHalf_hi (a : Fin 64 → EReal) (d : Fin 64) (hd : ¬ d.val < 32) :
    rotHalf a d = a ⟨d.val - 32, by have := d.isLt; omega⟩ := by
  unfold rotHalf; rw [dif_neg hd]

/-- The zero word the sum starts from adds nothing. -/
theorem rowSum_eq_sum (x : XT) (sn cs : TT) (w : WT) (b : Fin 2) (h : Fin 16) (n : Fin 2048) :
    rowSum x sn cs w b h n = ∑ k : Fin 2048, ee x sn cs w b h n k := by
  unfold rowSum; rw [Ideal.ofBits_zero_f32, zero_add]

/-- The score scale denotes one eighth. -/
theorem scale_eq : scale = ((1 / 8 : ℝ) : EReal) := by
  unfold scale
  simp [Ideal.ofBits, Ideal.ieee, -EReal.coe_mul]
  norm_num

end Cert.RefAt

end
-- ==== Proof.RefMax.lean ====
/-
  The reference's row maximum, freed of the order it is folded in: it is the least upper bound of the row's scores,
  every score is below it, and some key attains it.
-/
import proofs.«138496_j31379031065087_2_alg».proof.Proof.RefSpec

noncomputable section

namespace Cert.RefAt

open Idealize.ShloMosaic Idealize.ShloMosaic.ValueIdx

/-- The word the maximum starts from denotes minus infinity, the least extended real. -/
theorem negInf_eq_bot : negInf = ⊥ := by
  unfold negInf
  simp [Ideal.ofBits, Ideal.ieee]

/-- A fold of `max` from the least element is the supremum over the set. -/
theorem fold_max_bot {ι : Type} (s : Finset ι) (f : ι → EReal) : s.fold max ⊥ f = s.sup f := rfl

/-- The row maximum is the supremum of the row's scores. -/
theorem rowMax_eq_sup (x : XT) (sn cs : TT) (w : WT) (b : Fin 2) (h : Fin 16) (n : Fin 2048) :
    rowMax x sn cs w b h n = (Finset.univ : Finset (Fin 2048)).sup (fun k => score x sn cs w b h n k) := by
  unfold rowMax
  rw [negInf_eq_bot, fold_max_bot]
  exact max_eq_right bot_le

/-- Every score of the row is at most the row maximum. -/
theorem score_le_rowMax (x : XT) (sn cs : TT) (w : WT) (b : Fin 2) (h : Fin 16) (n k : Fin 2048) :
    score x sn cs w b h n k ≤ rowMax x sn cs w b h n := by
  rw [rowMax_eq_sup]
  exact Finset.le_sup (f := fun k => score x sn cs w b h n k) (Finset.mem_univ k)

/-- Anything above every score of the row is above the row maximum. -/
theorem rowMax_le (x : XT) (sn cs : TT) (w : WT) (b : Fin 2) (h : Fin 16) (n : Fin 2048) (M : EReal)
    (hM : ∀ k, score x sn cs w b h n k ≤ M) : rowMax x sn cs w b h n ≤ M := by
  rw [rowMax_eq_sup]
  exact Finset.sup_le fun k _ => hM k

/-- Some key attains the row maximum (the keys are not empty, and the extended reals are linearly ordered). -/
theorem exists_score_eq_rowMax (x : XT) (sn cs : TT) (w : WT) (b : Fin 2) (h : Fin 16) (n : Fin 2048) :
    ∃ k : Fin 2048, rowMax x sn cs w b h n = score x sn cs w b h n k := by
  rw [rowMax_eq_sup]
  obtain ⟨k, _, hk⟩ := Finset.exists_mem_eq_sup (Finset.univ : Finset (Fin 2048)) ⟨0, Finset.mem_univ _⟩
    (fun k => score x sn cs w b h n k)
  exact ⟨k, hk⟩

/-- The row maximum is THE value that bounds every score and is one of them. -/
theorem rowMax_unique (x : XT) (sn cs : TT) (w : WT) (b : Fin 2) (h : Fin 16) (n : Fin 2048) (M : EReal)
    (hle : ∀ k, score x sn cs w b h n k ≤ M) (k₀ : Fin 2048) (hk₀ : M = score x sn cs w b h n k₀) :
    rowMax x sn cs w b h n = M :=
  le_antisymm (rowMax_le x sn cs w b h n M hle) (hk₀ ▸ score_le_rowMax x sn cs w b h n k₀)

/-- When every score of the row is a real number, so is the row maximum. -/
theorem rowMax_real (x : XT) (sn cs : TT) (w : WT) (b : Fin 2) (h : Fin 16) (n : Fin 2048)
    (hr : ∀ k, ∃ r : ℝ, score x sn cs w b h n k = (r : EReal)) : ∃ r : ℝ, rowMax x sn cs w b h n = (r : EReal) := by
  obtain ⟨k, hk⟩ := exists_score_eq_rowMax x sn cs w b h n
  obtain ⟨r, hr⟩ := hr k
  exact ⟨r, hk.trans hr⟩

end Cert.RefAt

end
-- ==== Proof.RefReal.lean ====
/-
  The reference on REAL inputs, in closed form: when the six argument arrays are coerced real arrays, every stage of
  the index-by-index reference is the coercion of a real number — the projections and the rotary embedding by
  pushing the coercion through sums and products, the row maximum because a real upper bound that is attained is the
  least upper bound, the exponentials and their positive total, and so the attention output is the real quotient of
  two sums of exponentials.
-/
import proofs.«138496_j31379031065087_2_alg».proof.Proof.RefSpec
import proofs.«138496_j31379031065087_2_alg».proof.Proof.RefSpecLemmas
import proofs.«138496_j31379031065087_2_alg».proof.Proof.RefMax
import proofs.«138496_j31379031065087_2_alg».proof.Proof.LibOnlineSoftmax

noncomputable section

namespace Cert.RefAt

open Idealize.ShloMosaic Idealize.ShloMosaic.ValueIdx Cert.OnlineSoftmax

/-- A real array read as an array of extended reals. -/
def up {S : Type} (f : S → ℝ) : S → EReal := fun i => ((f i : ℝ) : EReal)
theorem up_apply {S : Type} (f : S → ℝ) (i : S) : up f i = ((f i : ℝ) : EReal) := rfl

/-- The real activations, rotary tables, fused weights, output weights and bias. -/
abbrev XR := (⟨3, ![2, 2048, 1024]⟩ : Shape).Idx → ℝ
abbrev TR := (⟨2, ![2047, 64]⟩ : Shape).Idx → ℝ
abbrev WR := (⟨2, ![3072, 1024]⟩ : Shape).Idx → ℝ
abbrev PR := (⟨2, ![1024, 1024]⟩ : Shape).Idx → ℝ
abbrev BR := (⟨1, ![1024]⟩ : Shape).Idx → ℝ

/-! ## The projections and the rotary embedding -/

/-- Part `t` of the fused projection, over the reals. -/
def partR (t : Fin 3) (xr : XR) (wr : WR) (b : Fin 2) (h : Fin 16) (n : Fin 2048) (d : Fin 64) : ℝ :=
  ∑ c : Fin 1024, xr (ix3 b n c) * wr (ix2 (feat t h d) c)

theorem part_up (t : Fin 3) (xr : XR) (wr : WR) (b : Fin 2) (h : Fin 16) (n : Fin 2048) (d : Fin 64) :
    part t (up xr) (up wr) b h n d = ((partR t xr wr b h n d : ℝ) : EReal) := by
  unfold part qkvR partR
  rw [coe_finset_sum]
  refine Finset.sum_congr rfl fun c _ => ?_
  rw [EReal.coe_mul]
  rfl

/-- The half rotation over the reals. -/
def rotHalfR (a : Fin 64 → ℝ) (d : Fin 64) : ℝ :=
  if h : d.val < 32 then -(a ⟨d.val + 32, by omega⟩) else a ⟨d.val - 32, by have := d.isLt; omega⟩

theorem rotHalf_up (a : Fin 64 → ℝ) (d : Fin 64) :
    rotHalf (fun e => ((a e : ℝ) : EReal)) d = ((rotHalfR a d : ℝ) : EReal) := by
  unfold rotHalf rotHalfR
  by_cases hd : d.val < 32
  · rw [dif_pos hd, dif_pos hd, EReal.coe_neg]
  · rw [dif_neg hd, dif_neg hd]

/-- The rotary embedding over the reals. -/
def ropeR (a : Fin 2 → Fin 16 → Fin 2048 → Fin 64 → ℝ) (snr csr : TR) (b : Fin 2) (h : Fin 16) (n : Fin 2048)
    (d : Fin 64) : ℝ :=
  if hn : n.val = 0 then a b h n d
  else a b h n d * csr (ix2 (tok n hn) d) + rotHalfR (a b h n) d * snr (ix2 (tok n hn) d)

theorem rope_up (a : Fin 2 → Fin 16 → Fin 2048 → Fin 64 → ℝ) (snr csr : TR) (b : Fin 2) (h : Fin 16) (n : Fin 2048)
    (d : Fin 64) :
    rope (fun b h n d => ((a b h n d : ℝ) : EReal)) (up snr) (up csr) b h n d = ((ropeR a snr csr b h n d : ℝ) : EReal) := by
  unfold rope ropeR
  by_cases hn : n.val = 0
  · rw [dif_pos hn, dif_pos hn]
  · rw [dif_neg hn, dif_neg hn, EReal.coe_add, EReal.coe_mul, EReal.coe_mul, ← rotHalf_up]
    rfl

/-- The rotated queries, the rotated keys and the values over the reals. -/
def qrR (xr : XR) (snr csr : TR) (wr : WR) : Fin 2 → Fin 16 → Fin 2048 → Fin 64 → ℝ := ropeR (partR 0 xr wr) snr csr
def krR (xr : XR) (snr csr : TR) (wr : WR) : Fin 2 → Fin 16 → Fin 2048 → Fin 64 → ℝ := ropeR (partR 1 xr wr) snr csr
def vvR (xr : XR) (wr : WR) : Fin 2 → Fin 16 → Fin 2048 → Fin 64 → ℝ := partR 2 xr wr

theorem part_up_fun (t : Fin 3) (xr : XR) (wr : WR) :
    part t (up xr) (up wr) = fun b h n d => ((partR t xr wr b h n d : ℝ) : EReal) :=
  funext fun b => funext fun h => funext fun n => funext fun d => part_up t xr wr b h n d

theorem qr_up (xr : XR) (snr csr : TR) (wr : WR) (b : Fin 2) (h : Fin 16) (n : Fin 2048) (d : Fin 64) :
    qr (up xr) (up snr) (up csr) (up wr) b h n d = ((qrR xr snr csr wr b h n d : ℝ) : EReal) := by
  unfold qr qrR
  rw [part_up_fun]
  exact rope_up _ snr csr b h n d

theorem kr_up (xr : XR) (snr csr : TR) (wr : WR) (b : Fin 2) (h : Fin 16) (n : Fin 2048) (d : Fin 64) :
    kr (up xr) (up snr) (up csr) (up wr) b h n d = ((krR xr snr csr wr b h n d : ℝ) : EReal) := by
  unfold kr krR
  rw [part_up_fun]
  exact rope_up _ snr csr b h n d

theorem vv_up (xr : XR) (wr : WR) (b : Fin 2) (h : Fin 16) (n : Fin 2048) (d : Fin 64) :
    vv (up xr) (up wr) b h n d = ((vvR xr wr b h n d : ℝ) : EReal) := part_up 2 xr wr b h n d

/-! ## The scores -/

/-- The scaled score over the reals. -/
def scoreR (xr : XR) (snr csr : TR) (wr : WR) (b : Fin 2) (h : Fin 16) (n k : Fin 2048) : ℝ :=
  (∑ d : Fin 64, qrR xr snr csr wr b h n d * krR xr snr csr wr b h k d) * (1 / 8)

theorem score_up (xr : XR) (snr csr : TR) (wr : WR) (b : Fin 2) (h : Fin 16) (n k : Fin 2048) :
    score (up xr) (up snr) (up csr) (up wr) b h n k = ((scoreR xr snr csr wr b h n k : ℝ) : EReal) := by
  unfold score scoreR
  rw [scale_eq, EReal.coe_mul, coe_finset_sum]
  refine congrArg (fun s => s * (((1 / 8 : ℝ) : ℝ) : EReal)) (Finset.sum_congr rfl fun d _ => ?_)
  rw [EReal.coe_mul, qr_up, kr_up]

/-! ## The row maximum, the exponentials and their total, at a real maximum `M` of the row -/

section AtMax

variable (xr : XR) (snr csr : TR) (wr : WR) (b : Fin 2) (h : Fin 16) (n : Fin 2048) (M : ℝ)
  (hle : ∀ k, scoreR xr snr csr wr b h n k ≤ M) (hat : ∃ k, scoreR xr snr csr wr b h n k = M)

include hle hat in
/-- A real bound of the row's scores that one of them attains is the row maximum. -/
theorem rowMax_up : rowMax (up xr) (up snr) (up csr) (up wr) b h n = ((M : ℝ) : EReal) := by
  obtain ⟨k0, hk0⟩ := hat
  refine rowMax_unique _ _ _ _ b h n _ (fun k => ?_) k0 ?_
  · rw [score_up]; exact EReal.coe_le_coe_iff.mpr (hle k)
  · rw [score_up, hk0]

include hle hat in
theorem ee_up (k : Fin 2048) :
    ee (up xr) (up snr) (up csr) (up wr) b h n k = ((Real.exp (scoreR xr snr csr wr b h n k - M) : ℝ) : EReal) := by
  unfold ee
  rw [score_up, rowMax_up xr snr csr wr b h n M hle hat, exp_coe_sub]

include hle hat in
theorem rowSum_up :
    rowSum (up xr) (up snr) (up csr) (up wr) b h n
      = ((∑ k : Fin 2048, Real.exp (scoreR xr snr csr wr b h n k - M) : ℝ) : EReal) := by
  rw [rowSum_eq_sum, coe_finset_sum]
  exact Finset.sum_congr rfl fun k _ => ee_up xr snr csr wr b h n M hle hat k

/-- The total of the row's exponentials is positive. -/
theorem total_pos_row : 0 < ∑ k : Fin 2048, Real.exp (scoreR xr snr csr wr b h n k - M) :=
  Finset.sum_pos (fun k _ => Real.exp_pos _) ⟨0, Finset.mem_univ _⟩

include hle hat in
theorem attn_up (k : Fin 2048) :
    attn (up xr) (up snr) (up csr) (up wr) b h n k
      = ((Real.exp (scoreR xr snr csr wr b h n k - M) / ∑ k' : Fin 2048, Real.exp (scoreR xr snr csr wr b h n k' - M) : ℝ) : EReal) := by
  unfold attn
  rw [ee_up xr snr csr wr b h n M hle hat, rowSum_up xr snr csr wr b h n M hle hat,
    div_coe_coe _ (total_pos_row xr snr csr wr b h n M).ne']

include hle hat in
/-- The attended values: the real quotient of the weighted total of the exponentials by their total. -/
theorem oo_up_of (d : Fin 64) :
    oo (up xr) (up snr) (up csr) (up wr) b h n d
      = (((∑ k : Fin 2048, Real.exp (scoreR xr snr csr wr b h n k - M) * vvR xr wr b h k d)
          / (∑ k : Fin 2048, Real.exp (scoreR xr snr csr wr b h n k - M)) : ℝ) : EReal) := by
  unfold oo
  have e : ∀ k : Fin 2048, attn (up xr) (up snr) (up csr) (up wr) b h n k * vv (up xr) (up wr) b h k d
      = ((Real.exp (scoreR xr snr csr wr b h n k - M) / (∑ k' : Fin 2048, Real.exp (scoreR xr snr csr wr b h n k' - M))
          * vvR xr wr b h k d : ℝ) : EReal) := fun k => by
    rw [attn_up xr snr csr wr b h n M hle hat, vv_up, EReal.coe_mul]
  rw [Finset.sum_congr rfl fun k _ => e k, ← coe_finset_sum]
  congr 1
  rw [Finset.sum_div]
  refine Finset.sum_congr rfl fun k _ => ?_
  ring

end AtMax

/-! ## The maximum exists: the closed form with no hypothesis -/

/-- The largest score of the row, over the reals. -/
def rowMaxR (xr : XR) (snr csr : TR) (wr : WR) (b : Fin 2) (h : Fin 16) (n : Fin 2048) : ℝ :=
  (Finset.univ : Finset (Fin 2048)).sup' ⟨0, Finset.mem_univ _⟩ (fun k => scoreR xr snr csr wr b h n k)

theorem scoreR_le_rowMaxR (xr : XR) (snr csr : TR) (wr : WR) (b : Fin 2) (h : Fin 16) (n k : Fin 2048) :
    scoreR xr snr csr wr b h n k ≤ rowMaxR xr snr csr wr b h n :=
  Finset.le_sup' (fun k => scoreR xr snr csr wr b h n k) (Finset.mem_univ k)

theorem rowMaxR_attained (xr : XR) (snr csr : TR) (wr : WR) (b : Fin 2) (h : Fin 16) (n : Fin 2048) :
    ∃ k, scoreR xr snr csr wr b h n k = rowMaxR xr snr csr wr b h n := by
  obtain ⟨k, _, hk⟩ := Finset.exists_mem_eq_sup' (⟨0, Finset.mem_univ _⟩ : (Finset.univ : Finset (Fin 2048)).Nonempty)
    (fun k => scoreR xr snr csr wr b h n k)
  exact ⟨k, hk.symm⟩

/-- Any real bound of the row's scores that one of them attains is that largest score. -/
theorem eq_rowMaxR (xr : XR) (snr csr : TR) (wr : WR) (b : Fin 2) (h : Fin 16) (n : Fin 2048) (M : ℝ)
    (hle : ∀ k, scoreR xr snr csr wr b h n k ≤ M) (hat : ∃ k, scoreR xr snr csr wr b h n k = M) :
    M = rowMaxR xr snr csr wr b h n := by
  obtain ⟨k, hk⟩ := hat
  obtain ⟨k', hk'⟩ := rowMaxR_attained xr snr csr wr b h n
  exact le_antisymm (hk ▸ scoreR_le_rowMaxR xr snr csr wr b h n k) (hk' ▸ hle k')

theorem rowMax_up_R (xr : XR) (snr csr : TR) (wr : WR) (b : Fin 2) (h : Fin 16) (n : Fin 2048) :
    rowMax (up xr) (up snr) (up csr) (up wr) b h n = ((rowMaxR xr snr csr wr b h n : ℝ) : EReal) :=
  rowMax_up xr snr csr wr b h n _ (scoreR_le_rowMaxR xr snr csr wr b h n) (rowMaxR_attained xr snr csr wr b h n)

/-- The attended values over the reals: softmax of the row's scores against the values. -/
def ooR (xr : XR) (snr csr : TR) (wr : WR) (b : Fin 2) (h : Fin 16) (n : Fin 2048) (d : Fin 64) : ℝ :=
  (∑ k : Fin 2048, Real.exp (scoreR xr snr csr wr b h n k - rowMaxR xr snr csr wr b h n) * vvR xr wr b h k d)
    / (∑ k : Fin 2048, Real.exp (scoreR xr snr csr wr b h n k - rowMaxR xr snr csr wr b h n))

theorem oo_up (xr : XR) (snr csr : TR) (wr : WR) (b : Fin 2) (h : Fin 16) (n : Fin 2048) (d : Fin 64) :
    oo (up xr) (up snr) (up csr) (up wr) b h n d = ((ooR xr snr csr wr b h n d : ℝ) : EReal) :=
  oo_up_of xr snr csr wr b h n _ (scoreR_le_rowMaxR xr snr csr wr b h n) (rowMaxR_attained xr snr csr wr b h n) d

/-- The same quotient at any real maximum of the row given with its two properties. -/
theorem ooR_eq_of (xr : XR) (snr csr : TR) (wr : WR) (b : Fin 2) (h : Fin 16) (n : Fin 2048) (d : Fin 64) (M : ℝ)
    (hle : ∀ k, scoreR xr snr csr wr b h n k ≤ M) (hat : ∃ k, scoreR xr snr csr wr b h n k = M) :
    ooR xr snr csr wr b h n d
      = (∑ k : Fin 2048, Real.exp (scoreR xr snr csr wr b h n k - M) * vvR xr wr b h k d)
        / (∑ k : Fin 2048, Real.exp (scoreR xr snr csr wr b h n k - M)) := by
  rw [eq_rowMaxR xr snr csr wr b h n M hle hat]
  rfl

/-! ## The result -/

/-- The reference's result over the reals. -/
def outR (xr : XR) (snr csr : TR) (wr : WR) (pr : PR) (br : BR) (b : Fin 2) (n : Fin 2048) (c : Fin 1024) : ℝ :=
  (∑ c' : Fin 1024, ooR xr snr csr wr b (headOf c') n (laneOf c') * pr (ix2 c c')) + br (ix1 c)

/-- On coerced real inputs the reference's result is the coerced real closed form. -/
theorem out_up (xr : XR) (snr csr : TR) (wr : WR) (pr : PR) (br : BR) (b : Fin 2) (n : Fin 2048) (c : Fin 1024) :
    out (up xr) (up snr) (up csr) (up wr) (up pr) (up br) b n c = ((outR xr snr csr wr pr br b n c : ℝ) : EReal) := by
  unfold out outR
  rw [EReal.coe_add, coe_finset_sum]
  refine congrArg₂ (· + ·) (Finset.sum_congr rfl fun c' _ => ?_) rfl
  rw [oo_up, EReal.coe_mul]
  rfl

end Cert.RefAt

end
-- ==== Proof.BridgeAttnIdeal.lean ====
/-
  The attention output equals the reference's softmax-weighted sum. When the call's query array holds the
  reference's rotated queries times 1/8, its key array the rotated keys and its value array the values, all
  real, the score of a query row against key k of block j is the reference's score of that key (the 1/8 moves
  out of the sum over lanes), so the fold over the four key blocks ends at the closed form over all 2048 keys.
-/
import proofs.«138496_j31379031065087_2_alg».proof.Proof.ValueAttnStepIdeal
import proofs.«138496_j31379031065087_2_alg».proof.Proof.RefReal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Flash Cert.OnlineSoftmax Cert.RefAt
open scoped BigOperators

variable (V : (c : Dev nD) → (b : Ref sig .tc) → Buf (Elt Ideal) ((c : Thread nD τ).loc b))

/-- Head 2 g + e of pair g. -/
def headOfPair (g : Fin 8) (e : Fin 2) : Fin 16 := ⟨2 * g.val + e.val, by omega⟩

theorem G1At_eq_ooR (c : Dev nD) (xr : XR) (snr csr : TR) (wr : WR)
    (hQ : ∀ (b : Fin 2) (g : Fin 8) (n : Fin 2048) (e : Fin 2) (d : Fin 64),
      attQ V c (ix4 b g n (lane e d)) = ((qrR xr snr csr wr b (headOfPair g e) n d : ℝ) : EReal) * Cert.RefAt.scale)
    (hK : ∀ (b : Fin 2) (g : Fin 8) (n : Fin 2048) (e : Fin 2) (d : Fin 64),
      attK V c (ix4 b g n (lane e d)) = ((krR xr snr csr wr b (headOfPair g e) n d : ℝ) : EReal))
    (hV : ∀ (b : Fin 2) (g : Fin 8) (n : Fin 2048) (e : Fin 2) (d : Fin 64),
      attV V c (ix4 b g n (lane e d)) = ((vvR xr wr b (headOfPair g e) n d : ℝ) : EReal))
    (b : Fin 2) (n : Fin 2048) (cc : Fin 1024) :
    G1At V c b n cc = ((ooR xr snr csr wr b (headOf cc) n (laneOf cc) : ℝ) : EReal) := by
  unfold G1At flashSt
  have hh : headOfPair (⟨cc.val / 128, by omega⟩ : Fin 8) (⟨cc.val / 64 % 2, by omega⟩ : Fin 2) = headOf cc :=
    Fin.ext (by show 2 * (cc.val / 128) + cc.val / 64 % 2 = cc.val / 64; omega)
  have hd : (⟨cc.val % 64, by omega⟩ : Fin 64) = laneOf cc := Fin.ext rfl
  have hS : Srow V c ⟨cc.val / 64 % 2, by omega⟩ b ⟨cc.val / 128, by omega⟩ n
      = fun j' k' => ((scoreR xr snr csr wr b (headOf cc) n (keyAt j' k') : ℝ) : EReal) := by
    funext j' k'
    unfold Srow
    simp only [hQ, hK, hh]
    rw [scale_eq]
    simp only [← EReal.coe_mul]
    rw [← coe_finset_sum]
    congr 1
    unfold scoreR
    rw [Finset.sum_mul]
    exact Finset.sum_congr rfl fun d' _ => by ring
  have hC : Crow V c ⟨cc.val / 64 % 2, by omega⟩ b ⟨cc.val / 128, by omega⟩ ⟨cc.val % 64, by omega⟩
      = fun j' k' => ((vvR xr wr b (headOf cc) (keyAt j' k') (laneOf cc) : ℝ) : EReal) := by
    funext j' k'
    unfold Crow
    rw [hV, hh, hd]
  rw [hS, hC]
  have hat : ∃ j' < 4, ∃ k' : Fin 512, scoreR xr snr csr wr b (headOf cc) n (keyAt j' k') = rowMaxR xr snr csr wr b (headOf cc) n := by
    obtain ⟨k, hk⟩ := rowMaxR_attained xr snr csr wr b (headOf cc) n
    have hkl := k.isLt
    refine ⟨k.val / 512, by omega, ⟨k.val % 512, Nat.mod_lt _ (by norm_num)⟩, ?_⟩
    have ek : keyAt (k.val / 512) ⟨k.val % 512, Nat.mod_lt _ (by norm_num)⟩ = k :=
      Fin.ext (by show (512 * (k.val / 512) + k.val % 512) % 2048 = k.val; omega)
    rw [ek]; exact hk
  rw [flash_closed (fun j' k' => scoreR xr snr csr wr b (headOf cc) n (keyAt j' k')) (fun j' k' => vvR xr wr b (headOf cc) (keyAt j' k') (laneOf cc))
    (n := 4) (by norm_num) (M := rowMaxR xr snr csr wr b (headOf cc) n)
    (fun j' _ k' => scoreR_le_rowMaxR xr snr csr wr b (headOf cc) n (keyAt j' k')) hat]
  unfold ooR
  rw [sum_blocks (fun k => Real.exp (scoreR xr snr csr wr b (headOf cc) n k - rowMaxR xr snr csr wr b (headOf cc) n) * vvR xr wr b (headOf cc) k (laneOf cc)),
    sum_blocks (fun k => Real.exp (scoreR xr snr csr wr b (headOf cc) n k - rowMaxR xr snr csr wr b (headOf cc) n))]
  rfl

end Cert.KernelIdeal.Hand

end
-- ==== Proof.ValueQkvBody.lean ====
/-
  The arithmetic of the first call's body at one index of a block. The body multiplies a [2048,1024] block of
  activations with a [384,1024] block of weights (contracted on the 1024 axis), cuts the 384 columns into six
  slabs of 64 (two query heads, two key heads, two value heads), rotates the query and key slabs
  (a * cos + (-a[32:], a[:32]) * sin), scales the queries by a literal, and lays each pair of slabs side by side
  as 128 columns. Here: each stored value at row n and column j as an expression of the product's entries.
-/
import proofs.«138496_j31379031065087_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ### Layout operations at an index, over literal extents -/

section Layout
variable {α : Type}

/-- Two matrices side by side, at a column of the first: the first at that column. -/
theorem cols_concat_left {n m₁ m₂ m : ℕ} (x₁ : (⟨2, ![n, m₁]⟩ : Shape).Idx → α) (x₂ : (⟨2, ![n, m₂]⟩ : Shape).Idx → α)
    (h : Shape.Concatenates [⟨2, ![n, m₁]⟩, ⟨2, ![n, m₂]⟩] ⟨2, ![n, m]⟩ 1) (a : Fin n) (j : Fin m) (k : Fin m₁) (hk : k.val = j.val) :
    concatenate ⟨2, ![n, m]⟩ 1 [⟨⟨2, ![n, m₁]⟩, x₁⟩, ⟨⟨2, ![n, m₂]⟩, x₂⟩] h (ix2 a j) = x₁ (ix2 a k) :=
  concatenate_pair_apply_left (t := ⟨2, ![n, m]⟩) (s₁ := ⟨2, ![n, m₁]⟩) (s₂ := ⟨2, ![n, m₂]⟩) (1 : Fin 2) x₁ x₂ h (ix2 a j) rfl (ix2 a k) (fun b => by
    match b with
    | ⟨0, _⟩ => rfl
    | ⟨1, _⟩ => exact hk)

/-- Two matrices side by side, at a column past the first: the second at that column less the first's width. -/
theorem cols_concat_right {n m₁ m₂ m : ℕ} (x₁ : (⟨2, ![n, m₁]⟩ : Shape).Idx → α) (x₂ : (⟨2, ![n, m₂]⟩ : Shape).Idx → α)
    (h : Shape.Concatenates [⟨2, ![n, m₁]⟩, ⟨2, ![n, m₂]⟩] ⟨2, ![n, m]⟩ 1) (a : Fin n) (j : Fin m) (k : Fin m₂) (hk : k.val + m₁ = j.val) :
    concatenate ⟨2, ![n, m]⟩ 1 [⟨⟨2, ![n, m₁]⟩, x₁⟩, ⟨⟨2, ![n, m₂]⟩, x₂⟩] h (ix2 a j) = x₂ (ix2 a k) :=
  concatenate_pair_apply_right (t := ⟨2, ![n, m]⟩) (s₁ := ⟨2, ![n, m₁]⟩) (s₂ := ⟨2, ![n, m₂]⟩) (1 : Fin 2) x₁ x₂ h (ix2 a j) rfl rfl (ix2 a k) (fun b hb => by
    match b with
    | ⟨0, _⟩ => rfl
    | ⟨1, _⟩ => exact absurd rfl hb) (by exact hk)

/-- A [2048,128] matrix cast to [1,1,2048,128] reads the matrix at the last two coordinates. -/
theorem cast_11ab_apply (x : S2048x128.Idx → α) (u0 u1 : Fin 1) (n : Fin 2048) (j : Fin 128) :
    shapeCast S1x1x2048x128 x shapeCasts_S2048x128_S1x1x2048x128 (ix4 u0 u1 n j) = x (ix2 n j) :=
  shapeCast_apply x _ _ _ (by
    rw [Shape.rowMajor_val_four, Shape.rowMajor_val_two]
    show n.val * 128 + j.val = ((u0.val * 1 + u1.val) * 2048 + n.val) * 128 + j.val
    have h0 := u0.isLt; have h1 := u1.isLt
    omega)

end Layout

/-! ### The product at an index -/

/-- The left operand's row coordinate is the output's row. -/
theorem qkv_lhs_0 (i : S2048x384.Idx) (q : dot_S2048x1024_S384x1024_S2048x384_1_1_0_0_n_n.contr.Idx) :
    (dot_S2048x1024_S384x1024_S2048x384_1_1_0_0_n_n.lhsIdx i q 0).val = (i 0).val := by
  unfold DotDims.lhsIdx
  rw [dif_neg (show ¬(0 : Fin S2048x1024.rank) ∈ dot_S2048x1024_S384x1024_S2048x384_1_1_0_0_n_n.lhsBatch by decide), dif_pos (show (0 : Fin S2048x1024.rank) ∈ dot_S2048x1024_S384x1024_S2048x384_1_1_0_0_n_n.lhsNonContracting by decide)]
  rfl
/-- The left operand's column coordinate is the contraction position. -/
theorem qkv_lhs_1 (i : S2048x384.Idx) (q : dot_S2048x1024_S384x1024_S2048x384_1_1_0_0_n_n.contr.Idx) :
    (dot_S2048x1024_S384x1024_S2048x384_1_1_0_0_n_n.lhsIdx i q 1).val = (q ⟨0, by decide⟩).val :=
  dot_S2048x1024_S384x1024_S2048x384_1_1_0_0_n_n.lhsIdx_val_of_single rfl i q
/-- The right operand's row coordinate is the output's column. -/
theorem qkv_rhs_0 (i : S2048x384.Idx) (q : dot_S2048x1024_S384x1024_S2048x384_1_1_0_0_n_n.contr.Idx) :
    (dot_S2048x1024_S384x1024_S2048x384_1_1_0_0_n_n.rhsIdx i q 0).val = (i 1).val := by
  unfold DotDims.rhsIdx
  rw [dif_neg (show ¬(0 : Fin S384x1024.rank) ∈ dot_S2048x1024_S384x1024_S2048x384_1_1_0_0_n_n.rhsBatch by decide), dif_pos (show (0 : Fin S384x1024.rank) ∈ dot_S2048x1024_S384x1024_S2048x384_1_1_0_0_n_n.rhsNonContracting by decide)]
  rfl
/-- The right operand's column coordinate is the contraction position. -/
theorem qkv_rhs_1 (i : S2048x384.Idx) (q : dot_S2048x1024_S384x1024_S2048x384_1_1_0_0_n_n.contr.Idx) :
    (dot_S2048x1024_S384x1024_S2048x384_1_1_0_0_n_n.rhsIdx i q 1).val = (q ⟨0, by decide⟩).val :=
  dot_S2048x1024_S384x1024_S2048x384_1_1_0_0_n_n.rhsIdx_val_of_single rfl i q

/-- The product of the [2048,1024] activations with the [384,1024] weights, both contracted on their second
    axis, into the zero accumulator, at row n and column col. -/
theorem qkv_matmul_apply (a : FVec Ideal S2048x1024 .bf16) (b : FVec Ideal S384x1024 .bf16) (n : Fin 2048) (col : Fin 384) :
    matmul dot_S2048x1024_S384x1024_S2048x384_1_1_0_0_n_n none a b (constant S2048x384 .f32 0x00000000#32) (ix2 n col)
      = ∑ k : Fin 1024, a (ix2 n k) * b (ix2 col k) := by
  show FloatOps.matmul _ _ _ _ _ _ = _
  rw [Ideal.matmul_constant_zero_apply, ← Equiv.sum_comp (contrEquiv1 dot_S2048x1024_S384x1024_S2048x384_1_1_0_0_n_n 1024 rfl rfl).symm]
  refine Finset.sum_congr rfl fun k _ => ?_
  have hk := contrEquiv1_symm_val dot_S2048x1024_S384x1024_S2048x384_1_1_0_0_n_n 1024 rfl rfl k
  have el : dot_S2048x1024_S384x1024_S2048x384_1_1_0_0_n_n.lhsIdx (ix2 n col) ((contrEquiv1 dot_S2048x1024_S384x1024_S2048x384_1_1_0_0_n_n 1024 rfl rfl).symm k) = ix2 n k := funext fun a => Fin.ext (by
    match a with
    | ⟨0, _⟩ => exact qkv_lhs_0 _ _
    | ⟨1, _⟩ => exact (qkv_lhs_1 _ _).trans hk)
  have er : dot_S2048x1024_S384x1024_S2048x384_1_1_0_0_n_n.rhsIdx (ix2 n col) ((contrEquiv1 dot_S2048x1024_S384x1024_S2048x384_1_1_0_0_n_n 1024 rfl rfl).symm k) = ix2 col k := funext fun a => Fin.ext (by
    match a with
    | ⟨0, _⟩ => exact qkv_rhs_0 _ _
    | ⟨1, _⟩ => exact (qkv_rhs_1 _ _).trans hk)
  rw [el, er]

/-- The body's product of its two input blocks at row n and column col: the sum over k of the activations at
    (0, n, k) times the weights at (0, col, k). -/
theorem qkv_mm_apply (x0 : Vec Ideal S1x2048x1024 .bf16) (x1 : Vec Ideal S1x384x1024 .bf16) (n : Fin 2048) (col : Fin 384) :
    k0_pay4 (F := Ideal) x0 x1 (ix2 n col) = ∑ k : Fin 1024, x0 (ix3 (0 : Fin 1) n k) * x1 (ix3 (0 : Fin 1) col k) := by
  unfold k0_pay4
  rw [qkv_matmul_apply]
  refine Finset.sum_congr rfl fun k _ => ?_
  rw [shapeCast_1ab_ab_apply, shapeCast_1ab_ab_apply]

/-! ### The rotation of one 64-wide slab -/

/-- The rotation of a slab a by the angles' cosines and sines: a * cos + r * sin, where r is the slab's upper
    32 columns negated (written 0 - a) followed by its lower 32 columns. -/
def ropeSlab (a cosv sinv : FVec Ideal S2048x64 .f32) : FVec Ideal S2048x64 .f32 :=
  addf (mulf a cosv) (mulf (concatenate S2048x64 1 [⟨S2048x32, subf (broadcast S2048x32 (Scalar.ofBits (F := Ideal) .f32 0x00000000#32)) (extractStridedSlice S2048x32 ![0, 32] a slices_S2048x64_o0_32_S2048x32)⟩, ⟨S2048x32, extractStridedSlice S2048x32 ![0, 0] a slices_S2048x64_o0_0_S2048x32⟩] concatenates_S2048x32_S2048x32_S2048x64_d1) sinv)

/-- The rotated slab at a column d below 32: its partner is column d + 32, negated. -/
theorem ropeSlab_apply_lo (a cosv sinv : FVec Ideal S2048x64 .f32) (n : Fin 2048) (d : Fin 64) (hd : d.val < 32)
    (p : Fin 64) (hp : p.val = d.val + 32) :
    ropeSlab a cosv sinv (ix2 n d) = a (ix2 n d) * cosv (ix2 n d) + (0 - a (ix2 n p)) * sinv (ix2 n d) := by
  unfold ropeSlab
  rw [addf_apply, mulf_apply, mulf_apply, cols_concat_left _ _ _ n d (⟨d.val, hd⟩ : Fin 32) rfl, subf_apply, broadcast_apply,
    slice2_axis1_apply 32 a _ n (⟨d.val, hd⟩ : Fin 32) p (by rw [hp]; exact Nat.add_comm _ _)]
  show _ + (Ideal.ofBits .f32 0x00000000#32 - _) * _ = _
  rw [Ideal.ofBits_zero_f32]

/-- The rotated slab at a column d from 32 on: its partner is column d - 32. -/
theorem ropeSlab_apply_hi (a cosv sinv : FVec Ideal S2048x64 .f32) (n : Fin 2048) (d : Fin 64) (hd : 32 ≤ d.val)
    (p : Fin 64) (hp : p.val + 32 = d.val) :
    ropeSlab a cosv sinv (ix2 n d) = a (ix2 n d) * cosv (ix2 n d) + a (ix2 n p) * sinv (ix2 n d) := by
  have hp32 : p.val < 32 := by have := d.isLt; omega
  unfold ropeSlab
  rw [addf_apply, mulf_apply, mulf_apply, cols_concat_right _ _ _ n d (⟨p.val, hp32⟩ : Fin 32) hp,
    slice2_axis1_apply 0 a _ n (⟨p.val, hp32⟩ : Fin 32) p (Nat.zero_add _).symm]

/-! ### Two slabs side by side as a block -/

/-- Two 64-wide slabs laid side by side as 128 columns and cast to the block's shape [1,1,2048,128]. -/
def packSlabs (A B : FVec Ideal S2048x64 .f32) : FVec Ideal S1x1x2048x128 .bf16 :=
  shapeCast S1x1x2048x128 (truncf .bf16 (concatenate S2048x128 1 [⟨S2048x64, A⟩, ⟨S2048x64, B⟩] concatenates_S2048x64_S2048x64_S2048x128_d1) bitsLt_bf16_f32) shapeCasts_S2048x128_S1x1x2048x128

/-- At a column below 64 the block reads the first slab. -/
theorem packSlabs_apply_left (A B : FVec Ideal S2048x64 .f32) (u0 u1 : Fin 1) (n : Fin 2048) (j : Fin 128) (d : Fin 64) (hd : d.val = j.val) :
    packSlabs A B (ix4 u0 u1 n j) = A (ix2 n d) := by
  unfold packSlabs
  rw [cast_11ab_apply, truncf_apply, cols_concat_left _ _ _ n j d hd]

/-- At a column from 64 on the block reads the second slab, 64 columns back. -/
theorem packSlabs_apply_right (A B : FVec Ideal S2048x64 .f32) (u0 u1 : Fin 1) (n : Fin 2048) (j : Fin 128) (d : Fin 64) (hd : d.val + 64 = j.val) :
    packSlabs A B (ix4 u0 u1 n j) = B (ix2 n d) := by
  unfold packSlabs
  rw [cast_11ab_apply, truncf_apply, cols_concat_right _ _ _ n j d hd]

/-! ### The rotation in terms of one row of the product -/

/-- The rotated entry at lane d of the slab that starts at column o of a 384-wide row mm, with the row's
    cosines cs and sines sn: mm[o + d] * cs[d] + r * sn[d], where r is 0 - mm[o + d + 32] for d below 32 and
    mm[o + d - 32] from 32 on. -/
def ropeAt (mm : Fin 384 → EReal) (cs sn : Fin 64 → EReal) (o : ℕ) (ho : o + 64 ≤ 384) (d : Fin 64) : EReal :=
  mm ⟨o + d.val, by have := d.isLt; omega⟩ * cs d
    + (if h : d.val < 32 then 0 - mm ⟨o + d.val + 32, by omega⟩ else mm ⟨o + d.val - 32, by have := d.isLt; omega⟩) * sn d

/-- The rotation of the slab cut from the product at column o, at row n and lane d. -/
theorem ropeSlab_slice_apply (mm : FVec Ideal S2048x384 .f32) (cosv sinv : FVec Ideal S2048x64 .f32) (o : ℕ) (ho : o + 64 ≤ 384)
    (h : S2048x384.Slices ![0, o] S2048x64) (n : Fin 2048) (d : Fin 64) :
    ropeSlab (extractStridedSlice S2048x64 ![0, o] mm h) cosv sinv (ix2 n d)
      = ropeAt (fun c => mm (ix2 n c)) (fun e => cosv (ix2 n e)) (fun e => sinv (ix2 n e)) o ho d := by
  have hd := d.isLt
  unfold ropeAt
  by_cases hlo : d.val < 32
  · rw [dif_pos hlo, ropeSlab_apply_lo _ _ _ n d hlo (⟨d.val + 32, by omega⟩ : Fin 64) rfl,
      slice2_axis1_apply o mm h n d (⟨o + d.val, by omega⟩ : Fin 384) rfl,
      slice2_axis1_apply o mm h n (⟨d.val + 32, by omega⟩ : Fin 64) (⟨o + d.val + 32, by omega⟩ : Fin 384) (Nat.add_assoc _ _ _)]
  · rw [dif_neg hlo, ropeSlab_apply_hi _ _ _ n d (by omega) (⟨d.val - 32, by omega⟩ : Fin 64) (by show d.val - 32 + 32 = d.val; omega),
      slice2_axis1_apply o mm h n d (⟨o + d.val, by omega⟩ : Fin 384) rfl,
      slice2_axis1_apply o mm h n (⟨d.val - 32, by omega⟩ : Fin 64) (⟨o + d.val - 32, by omega⟩ : Fin 384) (by show o + d.val - 32 = o + (d.val - 32); omega)]

end Cert.KernelIdeal.Hand

end
-- ==== Proof.ValueQkvPay.lean ====
/-
  The three blocks the first call's body stores, at one index: the query block is the rotated, scaled query
  slabs, the key block the rotated key slabs, the value block the value slabs, each as an expression of one row
  of the body's product, the row's cosines and the row's sines.
-/
import proofs.«138496_j31379031065087_2_alg».proof.Proof.ValueQkvBody

set_option maxRecDepth 16384

noncomputable section

namespace Cert.KernelIdeal.Hand

open Cert.KernelIdeal Cert.KernelIdeal.Gen
open Idealize.ShloMosaic Idealize.ShloMosaic.ValueIdx
open scoped BigOperators

/-- The rotated entry does not depend on how the slab's first column is written. -/
theorem ropeAt_congr_off (mm : Fin 384 → EReal) (cs sn : Fin 64 → EReal) {o o' : ℕ} (ho : o + 64 ≤ 384) (ho' : o' + 64 ≤ 384)
    (e : o = o') (d : Fin 64) : ropeAt mm cs sn o ho d = ropeAt mm cs sn o' ho' d := by
  subst e; rfl

/-- The query block at row n and column j: lane j % 64 of the rotated slab that starts at column 64 * (j / 64)
    of the product's row, times the scaling literal. -/
theorem qkv_q_payload_apply (x0 : Vec Ideal S1x2048x1024 .bf16) (x1 : Vec Ideal S1x384x1024 .bf16) (x2 x3 : Vec Ideal S2048x64 .f32)
    (u0 u1 : Fin 1) (n : Fin 2048) (j : Fin 128) :
    k0_pay1 (F := Ideal) (k0_pay11 x0 x1 x2 x3) (k0_pay12 x0 x1 x2 x3) (ix4 u0 u1 n j)
      = ropeAt (fun c => k0_pay4 (F := Ideal) x0 x1 (ix2 n c)) (fun e => x3 (ix2 n e)) (fun e => x2 (ix2 n e))
          (64 * (j.val / 64)) (by have := j.isLt; omega) ⟨j.val % 64, Nat.mod_lt _ (by decide)⟩
        * Ideal.ofBits .f32 0x3E000000#32 := by
  have hj := j.isLt
  have c10 : k0_pay10 (F := Ideal) x3 = x3 := shapeCast_self _ _
  have c9 : k0_pay9 (F := Ideal) x2 = x2 := shapeCast_self _ _
  have e1 : k0_pay1 (F := Ideal) (k0_pay11 x0 x1 x2 x3) (k0_pay12 x0 x1 x2 x3) = packSlabs (k0_pay11 x0 x1 x2 x3) (k0_pay12 x0 x1 x2 x3) := rfl
  have e11 : k0_pay11 (F := Ideal) x0 x1 x2 x3 = mulf (ropeSlab (extractStridedSlice S2048x64 ![0, 0] (k0_pay4 x0 x1) slices_S2048x384_o0_0_S2048x64) (k0_pay10 x3) (k0_pay9 x2)) (broadcast S2048x64 (Scalar.ofBits (F := Ideal) .f32 0x3E000000#32)) := rfl
  have e12 : k0_pay12 (F := Ideal) x0 x1 x2 x3 = mulf (ropeSlab (extractStridedSlice S2048x64 ![0, 64] (k0_pay4 x0 x1) slices_S2048x384_o0_64_S2048x64) (k0_pay10 x3) (k0_pay9 x2)) (broadcast S2048x64 (Scalar.ofBits (F := Ideal) .f32 0x3E000000#32)) := rfl
  rw [c10, c9] at e11 e12
  rw [e1]
  by_cases hlt : j.val < 64
  · rw [packSlabs_apply_left _ _ u0 u1 n j ⟨j.val % 64, Nat.mod_lt _ (by decide)⟩ (Nat.mod_eq_of_lt hlt), e11, mulf_apply, broadcast_apply,
      ropeSlab_slice_apply _ _ _ 0 (by omega)]
    exact congrArg (· * Ideal.ofBits .f32 0x3E000000#32) (ropeAt_congr_off _ _ _ _ _ (by omega) _)
  · rw [packSlabs_apply_right _ _ u0 u1 n j ⟨j.val % 64, Nat.mod_lt _ (by decide)⟩ (by show j.val % 64 + 64 = j.val; omega), e12, mulf_apply, broadcast_apply,
      ropeSlab_slice_apply _ _ _ 64 (by omega)]
    exact congrArg (· * Ideal.ofBits .f32 0x3E000000#32) (ropeAt_congr_off _ _ _ _ _ (by omega) _)

/-- The key block at row n and column j: lane j % 64 of the rotated slab that starts at column 128 + 64 * (j / 64)
    of the product's row. -/
theorem qkv_k_payload_apply (x0 : Vec Ideal S1x2048x1024 .bf16) (x1 : Vec Ideal S1x384x1024 .bf16) (x2 x3 : Vec Ideal S2048x64 .f32)
    (u0 u1 : Fin 1) (n : Fin 2048) (j : Fin 128) :
    k0_pay2 (F := Ideal) (k0_pay6 x0 x1) (k0_pay9 x2) (k0_pay10 x3) (k0_pay13 x0 x1 x3) (k0_pay14 x0 x1 x2) (ix4 u0 u1 n j)
      = ropeAt (fun c => k0_pay4 (F := Ideal) x0 x1 (ix2 n c)) (fun e => x3 (ix2 n e)) (fun e => x2 (ix2 n e))
          (128 + 64 * (j.val / 64)) (by have := j.isLt; omega) ⟨j.val % 64, Nat.mod_lt _ (by decide)⟩ := by
  have hj := j.isLt
  have c10 : k0_pay10 (F := Ideal) x3 = x3 := shapeCast_self _ _
  have c9 : k0_pay9 (F := Ideal) x2 = x2 := shapeCast_self _ _
  have e2 : k0_pay2 (F := Ideal) (k0_pay6 x0 x1) (k0_pay9 x2) (k0_pay10 x3) (k0_pay13 x0 x1 x3) (k0_pay14 x0 x1 x2)
      = packSlabs (ropeSlab (extractStridedSlice S2048x64 ![0, 128] (k0_pay4 x0 x1) slices_S2048x384_o0_128_S2048x64) (k0_pay10 x3) (k0_pay9 x2))
          (ropeSlab (extractStridedSlice S2048x64 ![0, 192] (k0_pay4 x0 x1) slices_S2048x384_o0_192_S2048x64) (k0_pay10 x3) (k0_pay9 x2)) := rfl
  rw [e2, c10, c9]
  by_cases hlt : j.val < 64
  · rw [packSlabs_apply_left _ _ u0 u1 n j ⟨j.val % 64, Nat.mod_lt _ (by decide)⟩ (Nat.mod_eq_of_lt hlt),
      ropeSlab_slice_apply _ _ _ 128 (by omega)]
    exact ropeAt_congr_off _ _ _ _ _ (by omega) _
  · rw [packSlabs_apply_right _ _ u0 u1 n j ⟨j.val % 64, Nat.mod_lt _ (by decide)⟩ (by show j.val % 64 + 64 = j.val; omega),
      ropeSlab_slice_apply _ _ _ 192 (by omega)]
    exact ropeAt_congr_off _ _ _ _ _ (by omega) _

/-- The value block at row n and column j: column 256 + j of the product's row. -/
theorem qkv_v_payload_apply (x0 : Vec Ideal S1x2048x1024 .bf16) (x1 : Vec Ideal S1x384x1024 .bf16)
    (u0 u1 : Fin 1) (n : Fin 2048) (j : Fin 128) :
    k0_pay3 (F := Ideal) (k0_pay7 x0 x1) (k0_pay8 x0 x1) (ix4 u0 u1 n j)
      = k0_pay4 (F := Ideal) x0 x1 (ix2 n (⟨256 + j.val, by have := j.isLt; omega⟩ : Fin 384)) := by
  have hj := j.isLt
  have e3 : k0_pay3 (F := Ideal) (k0_pay7 x0 x1) (k0_pay8 x0 x1)
      = packSlabs (extractStridedSlice S2048x64 ![0, 256] (k0_pay4 x0 x1) slices_S2048x384_o0_256_S2048x64)
          (extractStridedSlice S2048x64 ![0, 320] (k0_pay4 x0 x1) slices_S2048x384_o0_320_S2048x64) := rfl
  rw [e3]
  by_cases hlt : j.val < 64
  · rw [packSlabs_apply_left _ _ u0 u1 n j ⟨j.val % 64, Nat.mod_lt _ (by decide)⟩ (Nat.mod_eq_of_lt hlt),
      slice2_axis1_apply 256 _ _ n _ (⟨256 + j.val, by omega⟩ : Fin 384) (by show 256 + j.val = 256 + j.val % 64; omega)]
  · rw [packSlabs_apply_right _ _ u0 u1 n j ⟨j.val % 64, Nat.mod_lt _ (by decide)⟩ (by show j.val % 64 + 64 = j.val; omega),
      slice2_axis1_apply 320 _ _ n _ (⟨256 + j.val, by omega⟩ : Fin 384) (by show 256 + j.val = 320 + j.val % 64; omega)]

end Cert.KernelIdeal.Hand

end
-- ==== Proof.ValueQkvIdeal.lean ====
/-
  The first call's three results as functions of the arrays the call is entered with. Point t of the 16 is
  batch b = t / 8 and head pair h2 = t % 8: it reads batch b of the activations, row block h2 of the weights, the
  whole sine and cosine tables, and writes block (b, h2) of the queries, the keys and the values. Row n of that
  block is built from one row of the product, row[col] = the sum over k of activations (b, n, k) times weights
  (h2, col, k): queries from columns 0..127 (rotated, scaled), keys from 128..255 (rotated), values from 256..383.
-/
import proofs.«138496_j31379031065087_2_alg».proof.Proof.FrameQkvIdeal
import proofs.«138496_j31379031065087_2_alg».proof.Proof.ValueQkvPay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ### The results as functions of the arrays the call is entered with -/

/-- The activations the call is entered with, as extended reals over batch, row and feature. -/
abbrev qkvX (c : Dev nD) : S2x2048x1024.Idx → EReal := V c main_v0
/-- The weights the call is entered with, over head pair, column and feature. -/
abbrev qkvW (c : Dev nD) : S8x384x1024.Idx → EReal := V c main_v4
/-- The sine table the call is entered with. -/
abbrev qkvSin (c : Dev nD) : S2048x64.Idx → EReal := V c main_v8
/-- The cosine table the call is entered with. -/
abbrev qkvCos (c : Dev nD) : S2048x64.Idx → EReal := V c main_v7

/-- One row of the product: for batch b, head pair h2 and row n, column col is the sum over k of the
    activations at (b, n, k) times the weights at (h2, col, k). -/
def qkvRow (c : Dev nD) (b : Fin 2) (h2 : Fin 8) (n : Fin 2048) : Fin 384 → EReal :=
  fun col => ∑ k : Fin 1024, qkvX V c (ix3 b n k) * qkvW V c (ix3 h2 col k)

/-- The queries at (b, h2, n, j): lane j % 64 of the rotated slab starting at column 64 * (j / 64), scaled. -/
def GqAt (c : Dev nD) (b : Fin 2) (h2 : Fin 8) (n : Fin 2048) (j : Fin 128) : EReal :=
  ropeAt (qkvRow V c b h2 n) (fun e => qkvCos V c (ix2 n e)) (fun e => qkvSin V c (ix2 n e))
      (64 * (j.val / 64)) (by have := j.isLt; omega) ⟨j.val % 64, Nat.mod_lt _ (by decide)⟩
    * Ideal.ofBits .f32 0x3E000000#32
/-- The keys at (b, h2, n, j): lane j % 64 of the rotated slab starting at column 128 + 64 * (j / 64). -/
def GkAt (c : Dev nD) (b : Fin 2) (h2 : Fin 8) (n : Fin 2048) (j : Fin 128) : EReal :=
  ropeAt (qkvRow V c b h2 n) (fun e => qkvCos V c (ix2 n e)) (fun e => qkvSin V c (ix2 n e))
      (128 + 64 * (j.val / 64)) (by have := j.isLt; omega) ⟨j.val % 64, Nat.mod_lt _ (by decide)⟩
/-- The values at (b, h2, n, j): column 256 + j of the row. -/
def GvAt (c : Dev nD) (b : Fin 2) (h2 : Fin 8) (n : Fin 2048) (j : Fin 128) : EReal :=
  qkvRow V c b h2 n ⟨256 + j.val, by have := j.isLt; omega⟩

/-- The query array. -/
def Gq (c : Dev nD) : S2x8x2048x128.Idx → EReal := fun i => GqAt V c (i 0) (i 1) (i 2) (i 3)
/-- The key array. -/
def Gk (c : Dev nD) : S2x8x2048x128.Idx → EReal := fun i => GkAt V c (i 0) (i 1) (i 2) (i 3)
/-- The value array. -/
def Gv (c : Dev nD) : S2x8x2048x128.Idx → EReal := fun i => GvAt V c (i 0) (i 1) (i 2) (i 3)

theorem Gq_apply (c : Dev nD) (b : Fin 2) (h2 : Fin 8) (n : Fin 2048) (j : Fin 128) : Gq V c (ix4 b h2 n j) = GqAt V c b h2 n j := rfl
theorem Gk_apply (c : Dev nD) (b : Fin 2) (h2 : Fin 8) (n : Fin 2048) (j : Fin 128) : Gk V c (ix4 b h2 n j) = GkAt V c b h2 n j := rfl
theorem Gv_apply (c : Dev nD) (b : Fin 2) (h2 : Fin 8) (n : Fin 2048) (j : Fin 128) : Gv V c (ix4 b h2 n j) = GvAt V c b h2 n j := rfl

/-! ### The input blocks read where the point says -/

theorem hz0_2 : (![0, 0] : Fin 2 → Nat) = fun _ => 0 := funext fun a => by fin_cases a <;> rfl
theorem hz0_3 : (![0, 0, 0] : Fin 3 → Nat) = fun _ => 0 := funext fun a => by fin_cases a <;> rfl
theorem hz0_4 : (![0, 0, 0, 0] : Fin 4 → Nat) = fun _ => 0 := funext fun a => by fin_cases a <;> rfl

/-- The index maps over the sixteen points: the activations sit at batch t / 8, the weights at row block t % 8,
    the two tables are always their one block, and the three outputs sit at block (t / 8, t % 8). -/
theorem qkv_idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val % 8 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 4) = t.val / 8 ∧ win0_4.index t (1 : Fin 4) = t.val % 8 ∧ win0_4.index t (2 : Fin 4) = 0 ∧ win0_4.index t (3 : Fin 4) = 0)
    ∧ (win0_5.index t (0 : Fin 4) = t.val / 8 ∧ win0_5.index t (1 : Fin 4) = t.val % 8 ∧ win0_5.index t (2 : Fin 4) = 0 ∧ win0_5.index t (3 : Fin 4) = 0)
    ∧ (win0_6.index t (0 : Fin 4) = t.val / 8 ∧ win0_6.index t (1 : Fin 4) = t.val % 8 ∧ win0_6.index t (2 : Fin 4) = 0 ∧ win0_6.index t (3 : Fin 4) = 0) :=
  (by decide +kernel : ∀ t : Fin grid0.N, _)

/-- The activations' block at point t is batch t / 8. -/
theorem qkv_iblk0_apply (c : Dev nD) (t : Fin cfg0.N) (u : Fin 1) (n : Fin 2048) (k : Fin 1024) (b : Fin 2) (hb : b.val = t.val / 8) :
    (iblk0 V c 0 t : Vec Ideal S1x2048x1024 .bf16) (ix3 u n k) = qkvX V c (ix3 b n k) := by
  obtain ⟨⟨e0, e1, e2⟩, -⟩ := qkv_idx_facts t
  have hu := u.isLt
  unfold iblk0
  rw [View.read_apply]
  show V c main_v0 _ = V c main_v0 _
  congr 1
  funext a
  apply Fin.ext
  match a with
  | ⟨0, _⟩ => show win0_0.index t (0 : Fin 3) * 1 + 1 * u.val = b.val; omega
  | ⟨1, _⟩ => show win0_0.index t (1 : Fin 3) * 2048 + 1 * n.val = n.val; omega
  | ⟨2, _⟩ => show win0_0.index t (2 : Fin 3) * 1024 + 1 * k.val = k.val; omega

/-- The weights' block at point t is row block t % 8. -/
theorem qkv_iblk1_apply (c : Dev nD) (t : Fin cfg0.N) (u : Fin 1) (col : Fin 384) (k : Fin 1024) (h2 : Fin 8) (hh : h2.val = t.val % 8) :
    (iblk0 V c 1 t : Vec Ideal S1x384x1024 .bf16) (ix3 u col k) = qkvW V c (ix3 h2 col k) := by
  obtain ⟨-, ⟨e0, e1, e2⟩, -⟩ := qkv_idx_facts t
  have hu := u.isLt
  unfold iblk0
  rw [View.read_apply]
  show V c main_v4 _ = V c main_v4 _
  congr 1
  funext a
  apply Fin.ext
  match a with
  | ⟨0, _⟩ => show win0_1.index t (0 : Fin 3) * 1 + 1 * u.val = h2.val; omega
  | ⟨1, _⟩ => show win0_1.index t (1 : Fin 3) * 384 + 1 * col.val = col.val; omega
  | ⟨2, _⟩ => show win0_1.index t (2 : Fin 3) * 1024 + 1 * k.val = k.val; omega

/-- The sine table's block is the table. -/
theorem qkv_iblk2_apply (c : Dev nD) (t : Fin cfg0.N) (n : Fin 2048) (d : Fin 64) :
    (iblk0 V c 2 t : Vec Ideal S2048x64 .f32) (ix2 n d) = qkvSin V c (ix2 n d) := by
  obtain ⟨-, -, ⟨e0, e1⟩, -⟩ := qkv_idx_facts t
  unfold iblk0
  rw [View.read_apply]
  show V c main_v8 _ = V c main_v8 _
  congr 1
  funext a
  apply Fin.ext
  match a with
  | ⟨0, _⟩ => show win0_2.index t (0 : Fin 2) * 2048 + 1 * n.val = n.val; omega
  | ⟨1, _⟩ => show win0_2.index t (1 : Fin 2) * 64 + 1 * d.val = d.val; omega

/-- The cosine table's block is the table. -/
theorem qkv_iblk3_apply (c : Dev nD) (t : Fin cfg0.N) (n : Fin 2048) (d : Fin 64) :
    (iblk0 V c 3 t : Vec Ideal S2048x64 .f32) (ix2 n d) = qkvCos V c (ix2 n d) := by
  obtain ⟨-, -, -, ⟨e0, e1⟩, -⟩ := qkv_idx_facts t
  unfold iblk0
  rw [View.read_apply]
  show V c main_v7 _ = V c main_v7 _
  congr 1
  funext a
  apply Fin.ext
  match a with
  | ⟨0, _⟩ => show win0_3.index t (0 : Fin 2) * 2048 + 1 * n.val = n.val; omega
  | ⟨1, _⟩ => show win0_3.index t (1 : Fin 2) * 64 + 1 * d.val = d.val; omega

/-- One row of the body's product of the blocks at point t is the row of the arrays at batch t / 8 and head
    pair t % 8. -/
theorem qkv_row_eq (c : Dev nD) (t : Fin cfg0.N) (n : Fin 2048) (b : Fin 2) (hb : b.val = t.val / 8) (h2 : Fin 8) (hh : h2.val = t.val % 8) :
    (fun col : Fin 384 => k0_pay4 (F := Ideal) (iblk0 V c 0 t) (iblk0 V c 1 t) (ix2 n col)) = qkvRow V c b h2 n := by
  funext col
  rw [qkv_mm_apply]
  unfold qkvRow
  refine Finset.sum_congr rfl fun k _ => ?_
  rw [qkv_iblk0_apply V c t 0 n k b hb, qkv_iblk1_apply V c t 0 col k h2 hh]

/-- The row's cosines. -/
theorem qkv_cos_eq (c : Dev nD) (t : Fin cfg0.N) (n : Fin 2048) :
    (fun e : Fin 64 => (iblk0 V c 3 t : Vec Ideal S2048x64 .f32) (ix2 n e)) = fun e => qkvCos V c (ix2 n e) :=
  funext fun e => qkv_iblk3_apply V c t n e
/-- The row's sines. -/
theorem qkv_sin_eq (c : Dev nD) (t : Fin cfg0.N) (n : Fin 2048) :
    (fun e : Fin 64 => (iblk0 V c 2 t : Vec Ideal S2048x64 .f32) (ix2 n e)) = fun e => qkvSin V c (ix2 n e) :=
  funext fun e => qkv_iblk2_apply V c t n e

/-! ### The queries -/

/-- What point t writes back into window 4 is block t of the function Gq. -/
theorem qkv_flushed4_eq (c : Dev nD) (t : Fin cfg0.N) :
    (dat0 (F := Ideal) V c).flushed 4 t = ((cfg0.win 4).blk t).view.read (Elt Ideal) (Gq V c) := by
  show (cfg0.win 4).cut (grid0.coords t) ((dat0 (F := Ideal) V c).after 4 t) = _
  rw [after0_4]
  unfold out0_4
  rw [View.canon_unit_zero hz0_4]
  simp only [View.ld_unit_zero (S := S1x2048x1024) hz0_3, View.ld_unit_zero (S := S1x384x1024) hz0_3, View.ld_unit_zero (S := S2048x64) hz0_2]
  have hN : cfg0.N = 16 := N_0
  have ht := t.isLt
  obtain ⟨-, -, -, -, ⟨e0, e1, e2, e3⟩, -⟩ := qkv_idx_facts t
  funext y
  obtain ⟨u0, u1, n, j, rfl⟩ : ∃ (u0 u1 : Fin 1) (n : Fin 2048) (j : Fin 128), y = ix4 u0 u1 n j := ⟨y 0, y 1, y 2, y 3, eq_ix4 y⟩
  have hu0 := u0.isLt
  have hu1 := u1.isLt
  show k0_pay1 (F := Ideal) (k0_pay11 (iblk0 V c 0 t) (iblk0 V c 1 t) (iblk0 V c 2 t) (iblk0 V c 3 t)) (k0_pay12 (iblk0 V c 0 t) (iblk0 V c 1 t) (iblk0 V c 2 t) (iblk0 V c 3 t)) (ix4 u0 u1 n j) = Gq V c (((cfg0.win 4).blk t).view.emb (ix4 u0 u1 n j))
  have hemb : ((cfg0.win 4).blk t).view.emb (ix4 u0 u1 n j)
      = (ix4 (⟨t.val / 8, by omega⟩ : Fin 2) (⟨t.val % 8, by omega⟩ : Fin 8) n j : S2x8x2048x128.Idx) := by
    funext a
    apply Fin.ext
    match a with
    | ⟨0, _⟩ => show win0_4.index t (0 : Fin 4) * 1 + 1 * u0.val = t.val / 8; omega
    | ⟨1, _⟩ => show win0_4.index t (1 : Fin 4) * 1 + 1 * u1.val = t.val % 8; omega
    | ⟨2, _⟩ => show win0_4.index t (2 : Fin 4) * 2048 + 1 * n.val = n.val; omega
    | ⟨3, _⟩ => show win0_4.index t (3 : Fin 4) * 128 + 1 * j.val = j.val; omega
  rw [hemb, Gq_apply, qkv_q_payload_apply]
  unfold GqAt
  rw [qkv_row_eq V c t n (⟨t.val / 8, by omega⟩ : Fin 2) rfl (⟨t.val % 8, by omega⟩ : Fin 8) rfl, qkv_cos_eq V c t n, qkv_sin_eq V c t n]

/-- An index of the array is in point t's block of window 4 iff each coordinate is in the block's range. -/
theorem qkv_mem_blk4 (t : Fin cfg0.N) (i : S2x8x2048x128.Idx) :
    i ∈ ((cfg0.win 4).blk t).view.set ↔ ∀ a : Fin 4, win0_4.index t a * S1x1x2048x128.size a ≤ (i a).val ∧ (i a).val < win0_4.index t a * S1x1x2048x128.size a + S1x1x2048x128.size a := by
  show i ∈ ((View.whole main_v9_0).slice (win0_4.rect t)).set ↔ _
  rw [View.set_slice_whole, Rect.mem_set_unit]
  exact Iff.rfl

/-- Batch b, head pair h2 of window 4's array is the block of point 8 b + h2. -/
theorem qkv_cover4 (i : S2x8x2048x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 2048 := (i 2).isLt
  have hi3 : (i 3).val < 128 := (i 3).isLt
  have hN : cfg0.N = 16 := N_0
  let t : Fin cfg0.N := ⟨8 * (i 0).val + (i 1).val, by omega⟩
  obtain ⟨-, -, -, -, ⟨e0, e1, e2, e3⟩, -⟩ := qkv_idx_facts t
  have ht : t.val = 8 * (i 0).val + (i 1).val := rfl
  refine ⟨t, flush0_4 t, ?_⟩
  rw [qkv_mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 2048 ≤ (i 2).val ∧ (i 2).val < win0_4.index t (2 : Fin 4) * 2048 + 2048; omega
  | ⟨3, _⟩ => show win0_4.index t (3 : Fin 4) * 128 ≤ (i 3).val ∧ (i 3).val < win0_4.index t (3 : Fin 4) * 128 + 128; omega

/-- Window 4's array after the call. -/
theorem qkv_final4 (c : Dev nD) : (dat0 (F := Ideal) V c).arrAt 4 cfg0.N = Gq V c :=
  (dat0 (F := Ideal) V c).arrAt_eq_of_cover 4 (Gq V c) (fun t _ => qkv_flushed4_eq V c t) qkv_cover4

/-! ### The keys -/

/-- What point t writes back into window 5 is block t of the function Gk. -/
theorem qkv_flushed5_eq (c : Dev nD) (t : Fin cfg0.N) :
    (dat0 (F := Ideal) V c).flushed 5 t = ((cfg0.win 5).blk t).view.read (Elt Ideal) (Gk V c) := by
  show (cfg0.win 5).cut (grid0.coords t) ((dat0 (F := Ideal) V c).after 5 t) = _
  rw [after0_5]
  unfold out0_5
  rw [View.canon_unit_zero hz0_4]
  simp only [View.ld_unit_zero (S := S1x2048x1024) hz0_3, View.ld_unit_zero (S := S1x384x1024) hz0_3, View.ld_unit_zero (S := S2048x64) hz0_2]
  have hN : cfg0.N = 16 := N_0
  have ht := t.isLt
  obtain ⟨-, -, -, -, -, ⟨e0, e1, e2, e3⟩, -⟩ := qkv_idx_facts t
  funext y
  obtain ⟨u0, u1, n, j, rfl⟩ : ∃ (u0 u1 : Fin 1) (n : Fin 2048) (j : Fin 128), y = ix4 u0 u1 n j := ⟨y 0, y 1, y 2, y 3, eq_ix4 y⟩
  have hu0 := u0.isLt
  have hu1 := u1.isLt
  show k0_pay2 (F := Ideal) (k0_pay6 (iblk0 V c 0 t) (iblk0 V c 1 t)) (k0_pay9 (iblk0 V c 2 t)) (k0_pay10 (iblk0 V c 3 t)) (k0_pay13 (iblk0 V c 0 t) (iblk0 V c 1 t) (iblk0 V c 3 t)) (k0_pay14 (iblk0 V c 0 t) (iblk0 V c 1 t) (iblk0 V c 2 t)) (ix4 u0 u1 n j) = Gk V c (((cfg0.win 5).blk t).view.emb (ix4 u0 u1 n j))
  have hemb : ((cfg0.win 5).blk t).view.emb (ix4 u0 u1 n j)
      = (ix4 (⟨t.val / 8, by omega⟩ : Fin 2) (⟨t.val % 8, by omega⟩ : Fin 8) n j : S2x8x2048x128.Idx) := by
    funext a
    apply Fin.ext
    match a with
    | ⟨0, _⟩ => show win0_5.index t (0 : Fin 4) * 1 + 1 * u0.val = t.val / 8; omega
    | ⟨1, _⟩ => show win0_5.index t (1 : Fin 4) * 1 + 1 * u1.val = t.val % 8; omega
    | ⟨2, _⟩ => show win0_5.index t (2 : Fin 4) * 2048 + 1 * n.val = n.val; omega
    | ⟨3, _⟩ => show win0_5.index t (3 : Fin 4) * 128 + 1 * j.val = j.val; omega
  rw [hemb, Gk_apply, qkv_k_payload_apply]
  unfold GkAt
  rw [qkv_row_eq V c t n (⟨t.val / 8, by omega⟩ : Fin 2) rfl (⟨t.val % 8, by omega⟩ : Fin 8) rfl, qkv_cos_eq V c t n, qkv_sin_eq V c t n]

/-- An index of the array is in point t's block of window 5 iff each coordinate is in the block's range. -/
theorem qkv_mem_blk5 (t : Fin cfg0.N) (i : S2x8x2048x128.Idx) :
    i ∈ ((cfg0.win 5).blk t).view.set ↔ ∀ a : Fin 4, win0_5.index t a * S1x1x2048x128.size a ≤ (i a).val ∧ (i a).val < win0_5.index t a * S1x1x2048x128.size a + S1x1x2048x128.size a := by
  show i ∈ ((View.whole main_v9_1).slice (win0_5.rect t)).set ↔ _
  rw [View.set_slice_whole, Rect.mem_set_unit]
  exact Iff.rfl

/-- Batch b, head pair h2 of window 5's array is the block of point 8 b + h2. -/
theorem qkv_cover5 (i : S2x8x2048x128.Idx) :
    ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 2048 := (i 2).isLt
  have hi3 : (i 3).val < 128 := (i 3).isLt
  have hN : cfg0.N = 16 := N_0
  let t : Fin cfg0.N := ⟨8 * (i 0).val + (i 1).val, by omega⟩
  obtain ⟨-, -, -, -, -, ⟨e0, e1, e2, e3⟩, -⟩ := qkv_idx_facts t
  have ht : t.val = 8 * (i 0).val + (i 1).val := rfl
  refine ⟨t, flush0_5 t, ?_⟩
  rw [qkv_mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 2048 ≤ (i 2).val ∧ (i 2).val < win0_5.index t (2 : Fin 4) * 2048 + 2048; omega
  | ⟨3, _⟩ => show win0_5.index t (3 : Fin 4) * 128 ≤ (i 3).val ∧ (i 3).val < win0_5.index t (3 : Fin 4) * 128 + 128; omega

/-- Window 5's array after the call. -/
theorem qkv_final5 (c : Dev nD) : (dat0 (F := Ideal) V c).arrAt 5 cfg0.N = Gk V c :=
  (dat0 (F := Ideal) V c).arrAt_eq_of_cover 5 (Gk V c) (fun t _ => qkv_flushed5_eq V c t) qkv_cover5

/-! ### The values -/

/-- What point t writes back into window 6 is block t of the function Gv. -/
theorem qkv_flushed6_eq (c : Dev nD) (t : Fin cfg0.N) :
    (dat0 (F := Ideal) V c).flushed 6 t = ((cfg0.win 6).blk t).view.read (Elt Ideal) (Gv V c) := by
  show (cfg0.win 6).cut (grid0.coords t) ((dat0 (F := Ideal) V c).after 6 t) = _
  rw [after0_6]
  unfold out0_6
  rw [View.canon_unit_zero hz0_4]
  simp only [View.ld_unit_zero (S := S1x2048x1024) hz0_3, View.ld_unit_zero (S := S1x384x1024) hz0_3, View.ld_unit_zero (S := S2048x64) hz0_2]
  have hN : cfg0.N = 16 := N_0
  have ht := t.isLt
  obtain ⟨-, -, -, -, -, -, ⟨e0, e1, e2, e3⟩⟩ := qkv_idx_facts t
  funext y
  obtain ⟨u0, u1, n, j, rfl⟩ : ∃ (u0 u1 : Fin 1) (n : Fin 2048) (j : Fin 128), y = ix4 u0 u1 n j := ⟨y 0, y 1, y 2, y 3, eq_ix4 y⟩
  have hu0 := u0.isLt
  have hu1 := u1.isLt
  show k0_pay3 (F := Ideal) (k0_pay7 (iblk0 V c 0 t) (iblk0 V c 1 t)) (k0_pay8 (iblk0 V c 0 t) (iblk0 V c 1 t)) (ix4 u0 u1 n j) = Gv V c (((cfg0.win 6).blk t).view.emb (ix4 u0 u1 n j))
  have hemb : ((cfg0.win 6).blk t).view.emb (ix4 u0 u1 n j)
      = (ix4 (⟨t.val / 8, by omega⟩ : Fin 2) (⟨t.val % 8, by omega⟩ : Fin 8) n j : S2x8x2048x128.Idx) := by
    funext a
    apply Fin.ext
    match a with
    | ⟨0, _⟩ => show win0_6.index t (0 : Fin 4) * 1 + 1 * u0.val = t.val / 8; omega
    | ⟨1, _⟩ => show win0_6.index t (1 : Fin 4) * 1 + 1 * u1.val = t.val % 8; omega
    | ⟨2, _⟩ => show win0_6.index t (2 : Fin 4) * 2048 + 1 * n.val = n.val; omega
    | ⟨3, _⟩ => show win0_6.index t (3 : Fin 4) * 128 + 1 * j.val = j.val; omega
  rw [hemb, Gv_apply, qkv_v_payload_apply]
  unfold GvAt
  exact congrFun (qkv_row_eq V c t n (⟨t.val / 8, by omega⟩ : Fin 2) rfl (⟨t.val % 8, by omega⟩ : Fin 8) rfl) _

/-- An index of the array is in point t's block of window 6 iff each coordinate is in the block's range. -/
theorem qkv_mem_blk6 (t : Fin cfg0.N) (i : S2x8x2048x128.Idx) :
    i ∈ ((cfg0.win 6).blk t).view.set ↔ ∀ a : Fin 4, win0_6.index t a * S1x1x2048x128.size a ≤ (i a).val ∧ (i a).val < win0_6.index t a * S1x1x2048x128.size a + S1x1x2048x128.size a := by
  show i ∈ ((View.whole main_v9_2).slice (win0_6.rect t)).set ↔ _
  rw [View.set_slice_whole, Rect.mem_set_unit]
  exact Iff.rfl

/-- Batch b, head pair h2 of window 6's array is the block of point 8 b + h2. -/
theorem qkv_cover6 (i : S2x8x2048x128.Idx) :
    ∃ t : Fin cfg0.N, (cfg0.win 6).flush t = true ∧ i ∈ ((cfg0.win 6).blk t).view.set := by
  have hi0 : (i 0).val < 2 := (i 0).isLt
  have hi1 : (i 1).val < 8 := (i 1).isLt
  have hi2 : (i 2).val < 2048 := (i 2).isLt
  have hi3 : (i 3).val < 128 := (i 3).isLt
  have hN : cfg0.N = 16 := N_0
  let t : Fin cfg0.N := ⟨8 * (i 0).val + (i 1).val, by omega⟩
  obtain ⟨-, -, -, -, -, -, ⟨e0, e1, e2, e3⟩⟩ := qkv_idx_facts t
  have ht : t.val = 8 * (i 0).val + (i 1).val := rfl
  refine ⟨t, flush0_6 t, ?_⟩
  rw [qkv_mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 2048 ≤ (i 2).val ∧ (i 2).val < win0_6.index t (2 : Fin 4) * 2048 + 2048; omega
  | ⟨3, _⟩ => show win0_6.index t (3 : Fin 4) * 128 ≤ (i 3).val ∧ (i 3).val < win0_6.index t (3 : Fin 4) * 128 + 128; omega

/-- Window 6's array after the call. -/
theorem qkv_final6 (c : Dev nD) : (dat0 (F := Ideal) V c).arrAt 6 cfg0.N = Gv V c :=
  (dat0 (F := Ideal) V c).arrAt_eq_of_cover 6 (Gv V c) (fun t _ => qkv_flushed6_eq V c t) qkv_cover6

end Cert.KernelIdeal.Hand

end
-- ==== Proof.ValueHostIdeal.lean ====
/-
  The kernel program's host operations read at explicit coordinates, at the ideal values: the casts (identities), the
  fused weights regrouped by pairs of heads, the rotary tables with a first row put on top, the reshapes between
  [batch, token, feature] and [batch * token, feature], and the bias as a one-row matrix.
-/
import proofs.«138496_j31379031065087_2_alg».proof.Proof.RunIdeal
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL Idealize.SL.Sem Idealize.ShloMosaic.ValueIdx

variable (m : (ℓ : Loc nD τ sig) → Buf (Elt Ideal) ℓ) (ρ : Dev nD → PrngReg)

/-! ## Arguments that nothing before the second host stretch writes -/

/-- A buffer that the first host stretch does not write and that is no array of the first two calls is, before the
    second host stretch, as launched. -/
theorem Bd3_of (c : Dev nD) (b : Ref sig .tc) (h0 : b ∉ hostOps0_W) (a0 : ∀ w, Pipeline.arrRef spec0 w ≠ b)
    (a1 : ∀ w, Pipeline.arrRef spec1 w ≠ b) :
    Bd3 (F := Ideal) m ρ c (Proc.devRef .tc b) = m ((c : Thread nD τ).loc b) :=
  calc Bd3 (F := Ideal) m ρ c (Proc.devRef .tc b)
    _ = Bd2 m ρ c (Proc.devRef .tc b) := Bd3_of_ne m ρ c b a1
    _ = Bd1 m ρ c (Proc.devRef .tc b) := Bd2_of_ne m ρ c b a0
    _ = Bd0 m ρ c (Proc.devRef .tc b) := StableHlo.after_of_writes_sub hostOps0 _ hostOps0_writes h0
    _ = m ((c : Thread nD τ).loc b) := rfl

/-- The output weights are still the argument. -/
theorem Bd3_arg4 (c : Dev nD) : Bd3 (F := Ideal) m ρ c (Proc.devRef .tc main_arg4) = m ((c : Thread nD τ).loc main_arg4) :=
  Bd3_of m ρ c main_arg4 (by decide) (by decide) (by decide)

/-- The bias is still the argument. -/
theorem Bd3_arg5 (c : Dev nD) : Bd3 (F := Ideal) m ρ c (Proc.devRef .tc main_arg5) = m ((c : Thread nD τ).loc main_arg5) :=
  Bd3_of m ρ c main_arg5 (by decide) (by decide) (by decide)

/-! ## The first host stretch -/

/-- The activations read the argument: the cast is the identity on extended reals. -/
theorem Bd1_v0_at (c : Dev nD) (b : Fin 2) (n : Fin 2048) (k : Fin 1024) :
    Bd1 (F := Ideal) m ρ c (Proc.devRef .tc main_v0) (ix3 b n k) = m ((c : Thread nD τ).loc main_arg0) (ix3 b n k) := by
  show StableHlo.after hostOps0 (Bd0 m ρ c) (Proc.devRef .tc main_v0) (ix3 b n k) = _
  after_results
  rfl

/-- The weight row that row `r` of group `g` reads: part `r / 128`, then group `g`'s 128 rows, then `r % 128`
    (head `2 g + (r / 64) % 2`, lane `r % 64`). -/
def wRow (g : Fin 8) (r : Fin 384) : Fin 3072 :=
  ⟨(r.val / 128) * 1024 + g.val * 128 + r.val % 128, by have := g.isLt; have := r.isLt; omega⟩

/-- The regrouped weights: [3 * 1024, feature] viewed as [part, group, head in pair, lane, feature], parts and groups
    swapped, and the last three row axes merged; the cast is the identity. -/
theorem Bd1_v4_at (c : Dev nD) (g : Fin 8) (r : Fin 384) (k : Fin 1024) :
    Bd1 (F := Ideal) m ρ c (Proc.devRef .tc main_v4) (ix3 g r k) = m ((c : Thread nD τ).loc main_arg3) (ix2 (wRow g r) k) := by
  show StableHlo.after hostOps0 (Bd0 m ρ c) (Proc.devRef .tc main_v4) (ix3 g r k) = _
  after_results
  have hg : g.val < 8 := g.isLt
  have hr : r.val < 384 := r.isLt
  have hk : k.val < 1024 := k.isLt
  show shapeCast S8x384x1024 (transpose S8x3x2x64x1024 [1, 0, 2, 3, 4]
      (shapeCast S3x8x2x64x1024 (Bd0 (F := Ideal) m ρ c (Proc.devRef .tc main_arg3)) shapeCasts_S3072x1024_S3x8x2x64x1024)
      transposes_S3x8x2x64x1024_S8x3x2x64x1024_1_0_2_3_4) shapeCasts_S8x3x2x64x1024_S8x384x1024 (ix3 g r k) = _
  have t3 : r.val / 128 < 3 := by omega
  have p2 : r.val / 64 % 2 < 2 := by omega
  have l64 : r.val % 64 < 64 := by omega
  rw [shapeCast_apply _ shapeCasts_S8x3x2x64x1024_S8x384x1024 (ix3 g r k)
      (ix5 g (⟨r.val / 128, t3⟩ : Fin 3) (⟨r.val / 64 % 2, p2⟩ : Fin 2) (⟨r.val % 64, l64⟩ : Fin 64) k)
      (by rewrite [Shape.rowMajor_val_five, Shape.rowMajor_val_three]
          show (((g.val * 3 + r.val / 128) * 2 + r.val / 64 % 2) * 64 + r.val % 64) * 1024 + k.val = (g.val * 384 + r.val) * 1024 + k.val
          omega),
    transpose_apply [1, 0, 2, 3, 4] _ transposes_S3x8x2x64x1024_S8x3x2x64x1024_1_0_2_3_4
      (ix5 g (⟨r.val / 128, t3⟩ : Fin 3) (⟨r.val / 64 % 2, p2⟩ : Fin 2) (⟨r.val % 64, l64⟩ : Fin 64) k)
      (ix5 (⟨r.val / 128, t3⟩ : Fin 3) g (⟨r.val / 64 % 2, p2⟩ : Fin 2) (⟨r.val % 64, l64⟩ : Fin 64) k)
      (fun a => by
        match a with
        | ⟨0, _⟩ => rfl
        | ⟨1, _⟩ => rfl
        | ⟨2, _⟩ => rfl
        | ⟨3, _⟩ => rfl
        | ⟨4, _⟩ => rfl),
    shapeCast_apply _ shapeCasts_S3072x1024_S3x8x2x64x1024
      (ix5 (⟨r.val / 128, t3⟩ : Fin 3) g (⟨r.val / 64 % 2, p2⟩ : Fin 2) (⟨r.val % 64, l64⟩ : Fin 64) k) (ix2 (wRow g r) k)
      (by rewrite [Shape.rowMajor_val_two, Shape.rowMajor_val_five]
          show (r.val / 128 * 1024 + g.val * 128 + r.val % 128) * 1024 + k.val
            = ((((r.val / 128) * 8 + g.val) * 2 + r.val / 64 % 2) * 64 + r.val % 64) * 1024 + k.val
          omega)]

/-- The sine table's first row is the constant's. -/
theorem Bd1_v8_zero (c : Dev nD) (n : Fin 2048) (d : Fin 64) (hn : n.val = 0) :
    Bd1 (F := Ideal) m ρ c (Proc.devRef .tc main_v8) (ix2 n d) = (0 : EReal) := by
  show StableHlo.after hostOps0 (Bd0 m ρ c) (Proc.devRef .tc main_v8) (ix2 n d) = _
  after_results
  refine (concatenate_pair_apply_left (0 : Fin S2048x64.rank) _ _ concatenates_S1x64_S2047x64_S2048x64_d0
    (ix2 n d) rfl (ix2 (0 : Fin 1) d) (fun a => by
      match a with
      | ⟨0, _⟩ => show 0 = n.val; omega
      | ⟨1, _⟩ => rfl)).trans ?_
  rw [broadcastInDim_scalar_apply, constant_apply]
  exact Ideal.ofBits_zero_f32

/-- The sine table's row `n ≥ 1` is row `n - 1` of the argument. -/
theorem Bd1_v8_succ (c : Dev nD) (n : Fin 2048) (d : Fin 64) (hn : ¬ n.val = 0) :
    Bd1 (F := Ideal) m ρ c (Proc.devRef .tc main_v8) (ix2 n d)
      = m ((c : Thread nD τ).loc main_arg1) (ix2 (⟨n.val - 1, by have := n.isLt; omega⟩ : Fin 2047) d) := by
  show StableHlo.after hostOps0 (Bd0 m ρ c) (Proc.devRef .tc main_v8) (ix2 n d) = _
  after_results
  have hn' : n.val < 2048 := n.isLt
  refine (concatenate_pair_apply_right (0 : Fin S2048x64.rank) _ _ concatenates_S1x64_S2047x64_S2048x64_d0
    (ix2 n d) rfl rfl (ix2 (⟨n.val - 1, by omega⟩ : Fin 2047) d) (fun a ha => by
      match a with
      | ⟨0, _⟩ => exact absurd rfl ha
      | ⟨1, _⟩ => rfl) (by show (n.val - 1) + 1 = n.val; omega)).trans ?_
  rfl

/-- The cosine table's first row is the constant's. -/
theorem Bd1_v7_zero (c : Dev nD) (n : Fin 2048) (d : Fin 64) (hn : n.val = 0) :
    Bd1 (F := Ideal) m ρ c (Proc.devRef .tc main_v7) (ix2 n d) = Ideal.ofBits .f32 0x3F800000#32 := by
  show StableHlo.after hostOps0 (Bd0 m ρ c) (Proc.devRef .tc main_v7) (ix2 n d) = _
  after_results
  refine (concatenate_pair_apply_left (0 : Fin S2048x64.rank) _ _ concatenates_S1x64_S2047x64_S2048x64_d0
    (ix2 n d) rfl (ix2 (0 : Fin 1) d) (fun a => by
      match a with
      | ⟨0, _⟩ => show 0 = n.val; omega
      | ⟨1, _⟩ => rfl)).trans ?_
  rw [broadcastInDim_scalar_apply, constant_apply]

/-- The cosine table's row `n ≥ 1` is row `n - 1` of the argument. -/
theorem Bd1_v7_succ (c : Dev nD) (n : Fin 2048) (d : Fin 64) (hn : ¬ n.val = 0) :
    Bd1 (F := Ideal) m ρ c (Proc.devRef .tc main_v7) (ix2 n d)
      = m ((c : Thread nD τ).loc main_arg2) (ix2 (⟨n.val - 1, by have := n.isLt; omega⟩ : Fin 2047) d) := by
  show StableHlo.after hostOps0 (Bd0 m ρ c) (Proc.devRef .tc main_v7) (ix2 n d) = _
  after_results
  have hn' : n.val < 2048 := n.isLt
  refine (concatenate_pair_apply_right (0 : Fin S2048x64.rank) _ _ concatenates_S1x64_S2047x64_S2048x64_d0
    (ix2 n d) rfl rfl (ix2 (⟨n.val - 1, by omega⟩ : Fin 2047) d) (fun a ha => by
      match a with
      | ⟨0, _⟩ => exact absurd rfl ha
      | ⟨1, _⟩ => rfl) (by show (n.val - 1) + 1 = n.val; omega)).trans ?_
  rfl

/-- The cosine table's first row is one. -/
theorem Bd1_v7_zero_one (c : Dev nD) (n : Fin 2048) (d : Fin 64) (hn : n.val = 0) :
    Bd1 (F := Ideal) m ρ c (Proc.devRef .tc main_v7) (ix2 n d) = (1 : EReal) :=
  (Bd1_v7_zero m ρ c n d hn).trans Ideal.ofBits_one_f32

/-! ## The second host stretch -/

/-- The attention output with batch and token merged into rows. -/
theorem Bd4_v11_at (c : Dev nD) (r : Fin 4096) (k : Fin 1024) :
    Bd4 (F := Ideal) m ρ c (Proc.devRef .tc main_v11) (ix2 r k)
      = Bd3 (F := Ideal) m ρ c (Proc.devRef .tc main_v10)
          (ix3 (⟨r.val / 2048, by have := r.isLt; omega⟩ : Fin 2) (⟨r.val % 2048, by omega⟩ : Fin 2048) k) := by
  show StableHlo.after hostOps2 (Bd3 m ρ c) (Proc.devRef .tc main_v11) (ix2 r k) = _
  after_results
  have hr : r.val < 4096 := r.isLt
  show shapeCast S4096x1024 (Bd3 (F := Ideal) m ρ c (Proc.devRef .tc main_v10)) shapeCasts_S2x2048x1024_S4096x1024 (ix2 r k) = _
  exact shapeCast_apply _ shapeCasts_S2x2048x1024_S4096x1024 (ix2 r k) _
    (by rewrite [Shape.rowMajor_val_three, Shape.rowMajor_val_two]
        show (r.val / 2048 * 2048 + r.val % 2048) * 1024 + k.val = r.val * 1024 + k.val
        omega)

/-- The output weights, cast: the argument. -/
theorem Bd4_v12_at (c : Dev nD) (j k : Fin 1024) :
    Bd4 (F := Ideal) m ρ c (Proc.devRef .tc main_v12) (ix2 j k) = m ((c : Thread nD τ).loc main_arg4) (ix2 j k) := by
  show StableHlo.after hostOps2 (Bd3 m ρ c) (Proc.devRef .tc main_v12) (ix2 j k) = _
  after_results
  show Bd3 (F := Ideal) m ρ c (Proc.devRef .tc main_arg4) (ix2 j k) = _
  exact congrFun (Bd3_arg4 m ρ c) (ix2 j k)

/-- The bias as a one-row matrix: the argument. -/
theorem Bd4_v13_at (c : Dev nD) (z : Fin 1) (j : Fin 1024) :
    Bd4 (F := Ideal) m ρ c (Proc.devRef .tc main_v13) (ix2 z j) = m ((c : Thread nD τ).loc main_arg5) (ix1 j) := by
  show StableHlo.after hostOps2 (Bd3 m ρ c) (Proc.devRef .tc main_v13) (ix2 z j) = _
  after_results
  have hz : z.val < 1 := z.isLt
  show shapeCast S1x1024 (Bd3 (F := Ideal) m ρ c (Proc.devRef .tc main_arg5)) shapeCasts_S1024_S1x1024 (ix2 z j) = _
  refine (shapeCast_apply _ shapeCasts_S1024_S1x1024 (ix2 z j) (ix1 j)
    (by rewrite [Shape.rowMajor_val_one, Shape.rowMajor_val_two]
        show j.val = z.val * 1024 + j.val
        omega)).trans ?_
  exact congrFun (Bd3_arg5 m ρ c) (ix1 j)

/-! ## The last host stretch -/

/-- The result is the output projection's array, its rows split back into batch and token. -/
theorem Bd6_v15_at (c : Dev nD) (b : Fin 2) (n : Fin 2048) (j : Fin 1024) :
    Bd6 (F := Ideal) m ρ c (Proc.devRef .tc main_v15) (ix3 b n j)
      = Bd5 (F := Ideal) m ρ c (Proc.devRef .tc main_v14)
          (ix2 (⟨b.val * 2048 + n.val, by have := b.isLt; have := n.isLt; omega⟩ : Fin 4096) j) := by
  show StableHlo.after hostOps3 (Bd5 m ρ c) (Proc.devRef .tc main_v15) (ix3 b n j) = _
  after_results
  show shapeCast S2x2048x1024 (Bd5 (F := Ideal) m ρ c (Proc.devRef .tc main_v14)) shapeCasts_S4096x1024_S2x2048x1024 (ix3 b n j) = _
  exact shapeCast_apply _ shapeCasts_S4096x1024_S2x2048x1024 (ix3 b n j) _
    (by rewrite [Shape.rowMajor_val_two, Shape.rowMajor_val_three]
        show (b.val * 2048 + n.val) * 1024 + j.val = (b.val * 2048 + n.val) * 1024 + j.val
        rfl)

end Cert.KernelIdeal.Hand

end
-- ==== Proof.ValueQkvRef.lean ====
/-
  The first call's three arrays are the reference's rotated queries (scaled), rotated keys and values. A row of the
  call's product reads the weights regrouped by pairs of heads; undoing the regrouping, column 64 e + d of part t
  (0 queries, 1 keys, 2 values) of head pair g is the reference's weight row of part t, head 2 g + e, lane d. The
  tables the call reads carry a first row on top (cosine one, sine zero), so token 0 comes out unrotated
  (a * 1 + r * 0 = a) and token n > 0 is rotated by row n - 1 of the argument tables; 0 - x is -x. All on the
  extended reals, with no finiteness.
-/
import proofs.«138496_j31379031065087_2_alg».proof.Proof.ValueQkvIdeal
import proofs.«138496_j31379031065087_2_alg».proof.Proof.ValueHostIdeal
import proofs.«138496_j31379031065087_2_alg».proof.Proof.RefSpecLemmas

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- A column of the product's row is the reference's fused projection at the regrouped weight row. -/
theorem qkvRow_eq_qkvR (c : Dev nD) (b : Fin 2) (g : Fin 8) (n : Fin 2048) (col : Fin 384) :
    qkvRow (Vd1 m ρ) c b g n col
      = Cert.RefAt.qkvR (m ((c : Thread nD τ).loc main_arg0)) (m ((c : Thread nD τ).loc main_arg3)) b n (wRow g col) := by
  unfold qkvRow Cert.RefAt.qkvR
  refine Finset.sum_congr rfl fun k _ => ?_
  exact congrArg₂ (fun a b : EReal => a * b) (Bd1_v0_at m ρ c b n k) (Bd1_v4_at m ρ c g col k)

/-- Column 128 t + 64 e + d of head pair g's row is part t, head 2 g + e, lane d of the reference. -/
theorem qkvRow_eq_part (c : Dev nD) (b : Fin 2) (g : Fin 8) (n : Fin 2048) (t : Fin 3) (e : Fin 2) (d : Fin 64) (col : Fin 384)
    (hc : col.val = 128 * t.val + 64 * e.val + d.val) :
    qkvRow (Vd1 m ρ) c b g n col
      = Cert.RefAt.part t (m ((c : Thread nD τ).loc main_arg0)) (m ((c : Thread nD τ).loc main_arg3)) b
          (⟨2 * g.val + e.val, by have := g.isLt; have := e.isLt; omega⟩ : Fin 16) n d := by
  rw [qkvRow_eq_qkvR]
  unfold Cert.RefAt.part
  refine congrArg _ (Fin.ext ?_)
  have ht := t.isLt; have he := e.isLt; have hd := d.isLt; have hg := g.isLt
  show col.val / 128 * 1024 + g.val * 128 + col.val % 128 = t.val * 1024 + (2 * g.val + e.val) * 64 + d.val
  omega

/-- The rotated slab of part t at head e of the pair, lane d, is the reference's rotary embedding of part t at head
    2 g + e: token 0 meets cosine one and sine zero and is left alone; token n > 0 meets row n - 1 of the tables. -/
theorem ropeAt_eq_rope (c : Dev nD) (b : Fin 2) (g : Fin 8) (n : Fin 2048) (t : Fin 3) (e : Fin 2) (d : Fin 64)
    (o : ℕ) (ho : o + 64 ≤ 384) (hoe : o = 128 * t.val + 64 * e.val) :
    ropeAt (qkvRow (Vd1 m ρ) c b g n) (fun e' => qkvCos (Vd1 m ρ) c (ix2 n e')) (fun e' => qkvSin (Vd1 m ρ) c (ix2 n e')) o ho d
      = Cert.RefAt.rope (Cert.RefAt.part t (m ((c : Thread nD τ).loc main_arg0)) (m ((c : Thread nD τ).loc main_arg3)))
          (m ((c : Thread nD τ).loc main_arg1)) (m ((c : Thread nD τ).loc main_arg2)) b
          (⟨2 * g.val + e.val, by have := g.isLt; have := e.isLt; omega⟩ : Fin 16) n d := by
  have hd := d.isLt
  unfold ropeAt
  show qkvRow (Vd1 m ρ) c b g n ⟨o + d.val, _⟩ * (Bd1 (F := Ideal) m ρ c (Proc.devRef .tc main_v7) (ix2 n d) : EReal)
      + (if h : d.val < 32 then 0 - qkvRow (Vd1 m ρ) c b g n ⟨o + d.val + 32, _⟩ else qkvRow (Vd1 m ρ) c b g n ⟨o + d.val - 32, _⟩)
        * (Bd1 (F := Ideal) m ρ c (Proc.devRef .tc main_v8) (ix2 n d) : EReal) = _
  rw [qkvRow_eq_part m ρ c b g n t e d _ (by show o + d.val = _; omega)]
  by_cases hn : n.val = 0
  · rw [Cert.RefAt.rope_zero _ _ _ _ _ _ _ hn, Bd1_v7_zero_one m ρ c n d hn, Bd1_v8_zero m ρ c n d hn, mul_one, mul_zero, add_zero]
  · rw [Cert.RefAt.rope_pos _ _ _ _ _ _ _ hn, Bd1_v7_succ m ρ c n d hn, Bd1_v8_succ m ρ c n d hn]
    by_cases hlo : d.val < 32
    · rw [dif_pos hlo, Cert.RefAt.rotHalf_lo _ _ hlo, zero_sub,
        qkvRow_eq_part m ρ c b g n t e (⟨d.val + 32, by omega⟩ : Fin 64) _ (by show o + d.val + 32 = _ + (d.val + 32); omega)]
      rfl
    · rw [dif_neg hlo, Cert.RefAt.rotHalf_hi _ _ hlo,
        qkvRow_eq_part m ρ c b g n t e (⟨d.val - 32, by omega⟩ : Fin 64) _ (by show o + d.val - 32 = _ + (d.val - 32); omega)]
      rfl

/-- The call's query array is the reference's rotated queries times the score scale. -/
theorem qkv_ref_q (c : Dev nD) (b : Fin 2) (g : Fin 8) (n : Fin 2048) (e : Fin 2) (d : Fin 64) :
    Vd2 (F := Ideal) m ρ c main_v9_0 (ix4 b g n (⟨64 * e.val + d.val, by have := e.isLt; have := d.isLt; omega⟩ : Fin 128))
      = Cert.RefAt.qr (m ((c : Thread nD τ).loc main_arg0)) (m ((c : Thread nD τ).loc main_arg1)) (m ((c : Thread nD τ).loc main_arg2))
          (m ((c : Thread nD τ).loc main_arg3)) b (⟨2 * g.val + e.val, by have := g.isLt; have := e.isLt; omega⟩ : Fin 16) n d
        * Cert.RefAt.scale := by
  have he := e.isLt; have hd := d.isLt
  have h1 : Vd2 (F := Ideal) m ρ c main_v9_0 = Gq (Vd1 m ρ) c := (Bd2_arr m ρ c 4).trans (qkv_final4 (Vd1 m ρ) c)
  rw [h1, Gq_apply]
  unfold GqAt Cert.RefAt.qr Cert.RefAt.scale
  have hd' : (⟨(64 * e.val + d.val) % 64, Nat.mod_lt _ (by decide)⟩ : Fin 64) = d := Fin.ext (by show (64 * e.val + d.val) % 64 = d.val; omega)
  show ropeAt _ _ _ (64 * ((64 * e.val + d.val) / 64)) _ ⟨(64 * e.val + d.val) % 64, _⟩ * _ = _
  rw [hd', ropeAt_eq_rope m ρ c b g n 0 e d _ _ (by show 64 * ((64 * e.val + d.val) / 64) = 128 * 0 + 64 * e.val; omega)]

/-- The call's key array is the reference's rotated keys. -/
theorem qkv_ref_k (c : Dev nD) (b : Fin 2) (g : Fin 8) (n : Fin 2048) (e : Fin 2) (d : Fin 64) :
    Vd2 (F := Ideal) m ρ c main_v9_1 (ix4 b g n (⟨64 * e.val + d.val, by have := e.isLt; have := d.isLt; omega⟩ : Fin 128))
      = Cert.RefAt.kr (m ((c : Thread nD τ).loc main_arg0)) (m ((c : Thread nD τ).loc main_arg1)) (m ((c : Thread nD τ).loc main_arg2))
          (m ((c : Thread nD τ).loc main_arg3)) b (⟨2 * g.val + e.val, by have := g.isLt; have := e.isLt; omega⟩ : Fin 16) n d := by
  have he := e.isLt; have hd := d.isLt
  have h1 : Vd2 (F := Ideal) m ρ c main_v9_1 = Gk (Vd1 m ρ) c := (Bd2_arr m ρ c 5).trans (qkv_final5 (Vd1 m ρ) c)
  rw [h1, Gk_apply]
  unfold GkAt Cert.RefAt.kr
  have hd' : (⟨(64 * e.val + d.val) % 64, Nat.mod_lt _ (by decide)⟩ : Fin 64) = d := Fin.ext (by show (64 * e.val + d.val) % 64 = d.val; omega)
  show ropeAt _ _ _ (128 + 64 * ((64 * e.val + d.val) / 64)) _ ⟨(64 * e.val + d.val) % 64, _⟩ = _
  rw [hd', ropeAt_eq_rope m ρ c b g n 1 e d _ _ (by show 128 + 64 * ((64 * e.val + d.val) / 64) = 128 * 1 + 64 * e.val; omega)]

/-- The call's value array is the reference's values. -/
theorem qkv_ref_v (c : Dev nD) (b : Fin 2) (g : Fin 8) (n : Fin 2048) (e : Fin 2) (d : Fin 64) :
    Vd2 (F := Ideal) m ρ c main_v9_2 (ix4 b g n (⟨64 * e.val + d.val, by have := e.isLt; have := d.isLt; omega⟩ : Fin 128))
      = Cert.RefAt.vv (m ((c : Thread nD τ).loc main_arg0)) (m ((c : Thread nD τ).loc main_arg3)) b
          (⟨2 * g.val + e.val, by have := g.isLt; have := e.isLt; omega⟩ : Fin 16) n d := by
  have he := e.isLt; have hd := d.isLt
  have h1 : Vd2 (F := Ideal) m ρ c main_v9_2 = Gv (Vd1 m ρ) c := (Bd2_arr m ρ c 6).trans (qkv_final6 (Vd1 m ρ) c)
  rw [h1, Gv_apply]
  unfold GvAt Cert.RefAt.vv
  exact qkvRow_eq_part m ρ c b g n 2 e d _ (by show 256 + (64 * e.val + d.val) = 128 * 2 + 64 * e.val + d.val; omega)

end Cert.KernelIdeal.Hand

end
-- ==== Proof.ValueProjIdeal.lean ====
/-
  The output projection as one function of the arrays the call is entered with: row r, column j of the
  result is the sum over k of the attention output at (r, k) times the projection matrix at (j, k), plus
  the bias at column j. First the body's arithmetic at one index of a block, then each block of the three
  inputs read where the output block's rows say, then the eight row blocks cover the 4096 rows.
-/
import proofs.«138496_j31379031065087_2_alg».proof.Proof.FrameProjIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ### The body's arithmetic at one index -/

/-- The left operand's row coordinate is the output's row. -/
theorem proj_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The left operand's column coordinate is the contraction position. -/
theorem proj_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's row coordinate is the output's column. -/
theorem proj_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The right operand's column coordinate is the contraction position. -/
theorem proj_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a [512,1024] block with a [1024,1024] matrix, both contracted on their second axis,
    into the zero accumulator, at row r and column j: the sum over k of left (r, k) times right (j, k). -/
theorem proj_matmul_apply (a : FVec Ideal S512x1024 .bf16) (b : FVec Ideal S1024x1024 .bf16) (r : Fin 512) (j : Fin 1024) :
    matmul dot_S512x1024_S1024x1024_S512x1024_1_1_0_0_n_n none a b (constant S512x1024 .f32 0x00000000#32) (ix2 r j)
      = ∑ k : Fin 1024, a (ix2 r k) * b (ix2 j k) := by
  show FloatOps.matmul _ _ _ _ _ _ = _
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r j) ((contrEquiv1 dot_S512x1024_S1024x1024_S512x1024_1_1_0_0_n_n 1024 rfl rfl).symm k) = ix2 r k := funext fun a => Fin.ext (by
    match a with
    | ⟨0, _⟩ => exact proj_lhs_0 _ _
    | ⟨1, _⟩ => exact (proj_lhs_1 _ _).trans hk)
  have er : dot_S512x1024_S1024x1024_S512x1024_1_1_0_0_n_n.rhsIdx (ix2 r j) ((contrEquiv1 dot_S512x1024_S1024x1024_S512x1024_1_1_0_0_n_n 1024 rfl rfl).symm k) = ix2 j k := funext fun a => Fin.ext (by
    match a with
    | ⟨0, _⟩ => exact proj_rhs_0 _ _
    | ⟨1, _⟩ => exact (proj_rhs_1 _ _).trans hk)
  rw [el, er]

/-- The bias row broadcast over the 512 rows, at row r and column j, is the bias at column j. -/
theorem proj_bias_apply (x : FVec Ideal S1x1024 .f32) (r : Fin 512) (j : Fin 1024) :
    broadcastTo S512x1024 x broadcasts_S1x1024_S512x1024 (ix2 r j) = x (ix2 0 j) := by
  refine broadcastTo_apply x _ (ix2 r j) (ix2 0 j) fun a => ?_
  match a with
  | ⟨0, _⟩ => rfl
  | ⟨1, _⟩ => rfl

/-- The body's stored value at row r and column j of the block: the product's sum plus the bias. -/
theorem proj_payload_apply (x0 : Vec Ideal S512x1024 .bf16) (x1 : Vec Ideal S1024x1024 .bf16) (x2 : Vec Ideal S1x1024 .f32)
    (r : Fin 512) (j : Fin 1024) :
    k2_pay1 (F := Ideal) x0 x1 x2 (ix2 r j) = (∑ k : Fin 1024, x0 (ix2 r k) * x1 (ix2 j k)) + x2 (ix2 0 j) := by
  unfold k2_pay1
  simp only [shapeCast_self]
  rw [addf_apply, proj_matmul_apply, proj_bias_apply]

/-! ### The result as one function of the arrays the call is entered with -/

variable (V : (c : Dev nD) → (b : Ref sig .tc) → Buf (Elt Ideal) ((c : Thread nD τ).loc b))

/-- The attention output the call is entered with, as extended reals over rows and columns. -/
abbrev projIn (c : Dev nD) : S4096x1024.Idx → EReal := V c main_v11
/-- The projection matrix the call is entered with. -/
abbrev projMat (c : Dev nD) : S1024x1024.Idx → EReal := V c main_v12
/-- The bias row the call is entered with. -/
abbrev projBias (c : Dev nD) : S1x1024.Idx → EReal := V c main_v13

/-- The projection's result: at row r and column j, the sum over k of the first array at (r, k) times the
    second at (j, k), plus the third at (0, j). -/
def G2 (c : Dev nD) : S4096x1024.Idx → EReal := fun i =>
  (∑ k : Fin 1024, projIn V c (ix2 (i 0) k) * projMat V c (ix2 (i 1) k)) + projBias V c (ix2 0 (i 1))

/-- The result at row r and column j. -/
theorem G2_apply (c : Dev nD) (r : Fin 4096) (j : Fin 1024) :
    G2 V c (ix2 r j) = (∑ k : Fin 1024, projIn V c (ix2 r k) * projMat V c (ix2 j k)) + projBias V c (ix2 0 j) := rfl

/-! ### From blocks to the array -/

theorem hz2 : (![0, 0] : Fin 2 → Nat) = fun _ => 0 := funext fun a => by fin_cases a <;> rfl

/-- The index maps over the eight points: the first input and the output sit at row block t, column block 0;
    the matrix and the bias row are always their one block. -/
theorem proj_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first input's block at point t, at row r and column k of the block, is the array at row 512 t + r. -/
theorem proj_iblk0_apply (c : Dev nD) (t : Fin cfg2.N) (r : Fin 512) (k : Fin 1024) (R : Fin 4096) (hR : R.val = 512 * t.val + r.val) :
    (iblk2 V c 0 t : Vec Ideal S512x1024 .bf16) (ix2 r k) = projIn V c (ix2 R k) := by
  obtain ⟨e0, e1, -⟩ := proj_idx_facts t
  unfold iblk2
  rw [View.read_apply]
  show V c main_v11 _ = V c main_v11 _
  congr 1
  funext a
  apply Fin.ext
  match a with
  | ⟨0, _⟩ => show win2_0.index t (0 : Fin 2) * 512 + 1 * r.val = R.val; omega
  | ⟨1, _⟩ => show win2_0.index t (1 : Fin 2) * 1024 + 1 * k.val = k.val; omega

/-- The matrix's block is the matrix. -/
theorem proj_iblk1_apply (c : Dev nD) (t : Fin cfg2.N) (j : Fin 1024) (k : Fin 1024) :
    (iblk2 V c 1 t : Vec Ideal S1024x1024 .bf16) (ix2 j k) = projMat V c (ix2 j k) := by
  obtain ⟨-, -, e0, e1, -⟩ := proj_idx_facts t
  unfold iblk2
  rw [View.read_apply]
  show V c main_v12 _ = V c main_v12 _
  congr 1
  funext a
  apply Fin.ext
  match a with
  | ⟨0, _⟩ => show win2_1.index t (0 : Fin 2) * 1024 + 1 * j.val = j.val; omega
  | ⟨1, _⟩ => show win2_1.index t (1 : Fin 2) * 1024 + 1 * k.val = k.val; omega

/-- The bias row's block is the bias row. -/
theorem proj_iblk2_apply (c : Dev nD) (t : Fin cfg2.N) (j : Fin 1024) :
    (iblk2 V c 2 t : Vec Ideal S1x1024 .f32) (ix2 0 j) = projBias V c (ix2 0 j) := by
  obtain ⟨-, -, -, -, e0, e1, -⟩ := proj_idx_facts t
  unfold iblk2
  rw [View.read_apply]
  show V c main_v13 _ = V c main_v13 _
  congr 1
  funext a
  apply Fin.ext
  match a with
  | ⟨0, _⟩ => show win2_2.index t (0 : Fin 2) * 1 + 1 * 0 = 0; omega
  | ⟨1, _⟩ => show win2_2.index t (1 : Fin 2) * 1024 + 1 * j.val = j.val; omega

/-- What point t writes back is block t of the result function: the body's stored value at each index of the
    block, with each input block read where the output block's rows say. -/
theorem proj_flushed_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  obtain ⟨-, -, -, -, -, -, e0, e1⟩ := proj_idx_facts t
  funext y
  obtain ⟨r, j, rfl⟩ : ∃ (r : Fin 512) (j : Fin 1024), y = ix2 r j := ⟨y 0, y 1, eq_ix2 y⟩
  have hR : 512 * t.val + r.val < 4096 := by have := t.isLt; have hN : cfg2.N = 8 := N_2; omega
  show k2_pay1 (F := Ideal) (iblk2 V c 0 t) (iblk2 V c 1 t) (iblk2 V c 2 t) (ix2 r j) = G2 V c (((cfg2.win 3).blk t).view.emb (ix2 r j))
  have hemb : ((cfg2.win 3).blk t).view.emb (ix2 r j) = (ix2 (⟨512 * t.val + r.val, hR⟩ : Fin 4096) j : S4096x1024.Idx) := by
    funext a
    apply Fin.ext
    match a with
    | ⟨0, _⟩ => show win2_3.index t (0 : Fin 2) * 512 + 1 * r.val = 512 * t.val + r.val; omega
    | ⟨1, _⟩ => show win2_3.index t (1 : Fin 2) * 1024 + 1 * j.val = j.val; omega
  rw [hemb, G2_apply, proj_payload_apply]
  congr 1
  · refine Finset.sum_congr rfl fun k _ => ?_
    rw [proj_iblk0_apply V c t r k ⟨512 * t.val + r.val, hR⟩ rfl, proj_iblk1_apply]
  · exact proj_iblk2_apply V c t j

/-- An index of the result array is in point t's block iff each coordinate is in the block's range. -/
theorem proj_mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Row r of the result is in the block of point r / 512. -/
theorem proj_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  let t : Fin cfg2.N := ⟨(i 0).val / 512, by omega⟩
  obtain ⟨-, -, -, -, -, -, e0, e1⟩ := proj_idx_facts t
  have ht : t.val = (i 0).val / 512 := rfl
  refine ⟨t, flush2_3 t, ?_⟩
  rw [proj_mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the call: the projection of the arrays the call was entered with. -/
theorem proj_final (c : Dev nD) : (dat2 (F := Ideal) V c).arrAt 3 cfg2.N = G2 V c :=
  (dat2 (F := Ideal) V c).arrAt_eq_of_cover 3 (G2 V c) (fun t _ => proj_flushed_eq V c t) proj_cover

end Cert.KernelIdeal.Hand

end
-- ==== Proof.KernelValueIdeal.lean ====
/-
  The kernel program's result, entry by entry, on real inputs: the last reshape of the output projection's array;
  the projection is the sum over columns of the attention output times the projection matrix plus the bias; the
  attention output is the reference's softmax-weighted sum (the first call's arrays are the reference's rotated,
  scaled queries, rotated keys and values); so the entry is the reference's closed form.
-/
import proofs.«138496_j31379031065087_2_alg».proof.Proof.ValueAttnOutIdeal
import proofs.«138496_j31379031065087_2_alg».proof.Proof.ValueAttnFinalIdeal
import proofs.«138496_j31379031065087_2_alg».proof.Proof.BridgeAttnIdeal
import proofs.«138496_j31379031065087_2_alg».proof.Proof.ValueQkvRef
import proofs.«138496_j31379031065087_2_alg».proof.Proof.ValueProjIdeal
import proofs.«138496_j31379031065087_2_alg».proof.Proof.ValueHostIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Flash Cert.OnlineSoftmax Cert.RefAt
open scoped BigOperators

variable (m : (ℓ : Loc nD τ sig) → Buf (Elt Ideal) ℓ) (ρ : Dev nD → PrngReg)

theorem kernel_value (c : Dev nD) (xr : XR) (snr csr : TR) (wr : WR) (pr : PR) (br : BR)
    (h0 : m ((c : Thread nD τ).loc main_arg0) = up xr) (h1 : m ((c : Thread nD τ).loc main_arg1) = up snr)
    (h2 : m ((c : Thread nD τ).loc main_arg2) = up csr) (h3 : m ((c : Thread nD τ).loc main_arg3) = up wr)
    (h4 : m ((c : Thread nD τ).loc main_arg4) = up pr) (h5 : m ((c : Thread nD τ).loc main_arg5) = up br)
    (b : Fin 2) (n : Fin 2048) (j : Fin 1024) :
    Bd6 (F := Ideal) m ρ c (Proc.devRef .tc main_v15) (ix3 b n j) = ((outR xr snr csr wr pr br b n j : ℝ) : EReal) := by
  have hQ : ∀ (b : Fin 2) (g : Fin 8) (n : Fin 2048) (e : Fin 2) (d : Fin 64),
      attQ (Vd2 m ρ) c (ix4 b g n (lane e d)) = ((qrR xr snr csr wr b (headOfPair g e) n d : ℝ) : EReal) * Cert.RefAt.scale := by
    intro b g n e d
    refine (qkv_ref_q m ρ c b g n e d).trans ?_
    rw [h0, h1, h2, h3, qr_up]; rfl
  have hK : ∀ (b : Fin 2) (g : Fin 8) (n : Fin 2048) (e : Fin 2) (d : Fin 64),
      attK (Vd2 m ρ) c (ix4 b g n (lane e d)) = ((krR xr snr csr wr b (headOfPair g e) n d : ℝ) : EReal) := by
    intro b g n e d
    refine (qkv_ref_k m ρ c b g n e d).trans ?_
    rw [h0, h1, h2, h3, kr_up]; rfl
  have hV : ∀ (b : Fin 2) (g : Fin 8) (n : Fin 2048) (e : Fin 2) (d : Fin 64),
      attV (Vd2 m ρ) c (ix4 b g n (lane e d)) = ((vvR xr wr b (headOfPair g e) n d : ℝ) : EReal) := by
    intro b g n e d
    refine (qkv_ref_v m ρ c b g n e d).trans ?_
    rw [h0, h3, vv_up]; rfl
  have e10 : Bd3 (F := Ideal) m ρ c (Proc.devRef .tc main_v10) = G1 (Vd2 m ρ) c :=
    (Bd3_arr m ρ c 3).trans (attn_final (Vd2 m ρ) c (attn_hblk (Vd2 m ρ) c))
  have e14 : Bd5 (F := Ideal) m ρ c (Proc.devRef .tc main_v14) = G2 (Vd4 m ρ) c :=
    (Bd5_arr m ρ c 3).trans (proj_final (Vd4 m ρ) c)
  have hR : b.val * 2048 + n.val < 4096 := by have := b.isLt; have := n.isLt; omega
  have eIn : ∀ k : Fin 1024, projIn (Vd4 m ρ) c (ix2 (⟨b.val * 2048 + n.val, hR⟩ : Fin 4096) k)
      = ((ooR xr snr csr wr b (headOf k) n (laneOf k) : ℝ) : EReal) := by
    intro k
    refine (Bd4_v11_at m ρ c ⟨b.val * 2048 + n.val, hR⟩ k).trans ?_
    rw [e10]
    have eb : (⟨(b.val * 2048 + n.val) / 2048, by omega⟩ : Fin 2) = b := Fin.ext (by show (b.val * 2048 + n.val) / 2048 = b.val; have := n.isLt; omega)
    have en : (⟨(b.val * 2048 + n.val) % 2048, Nat.mod_lt _ (by norm_num)⟩ : Fin 2048) = n := Fin.ext (by show (b.val * 2048 + n.val) % 2048 = n.val; have := n.isLt; omega)
    rw [eb, en, G1_apply, G1At_eq_ooR (Vd2 m ρ) c xr snr csr wr hQ hK hV b n k]
  have eMat : ∀ k : Fin 1024, projMat (Vd4 m ρ) c (ix2 j k) = ((pr (ix2 j k) : ℝ) : EReal) := by
    intro k
    refine (Bd4_v12_at m ρ c j k).trans ?_
    rw [h4]; rfl
  have eBias : projBias (Vd4 m ρ) c (ix2 0 j) = ((br (ix1 j) : ℝ) : EReal) := by
    refine (Bd4_v13_at m ρ c 0 j).trans ?_
    rw [h5]; rfl
  rw [Bd6_v15_at m ρ c b n j, e14, G2_apply]
  simp only [eIn, eMat, eBias, ← EReal.coe_mul]
  rw [← coe_finset_sum, ← EReal.coe_add]
  rfl

end Cert.KernelIdeal.Hand

end
-- ==== Proof.FiniteInputs.lean ====
/-
  From the precondition to real entries: the printed predicate says that every entry of every argument array has an
  absolute value below plus infinity; an extended real whose absolute value is below plus infinity is a real number.
-/
import proofs.«138496_j31379031065087_2_alg».proof.Defs
import proofs.«138496_j31379031065087_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.FiniteInputs

open Idealize.ShloMosaic Idealize.ShloMosaic.TcCoe Idealize.SL.Sem Idealize.ShloMosaic.ValueIdx

/-- The scalar shape has one index. -/
instance : Subsingleton Cert.Pre_finite_inputs.S_.Idx := ⟨fun a b => funext fun d => d.elim0⟩

/-- An extended real whose absolute value is below plus infinity (the f32 word 0x7F800000) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A conjunction of two one-bit words that is 1 has both 1, at an index of two arrays. -/
theorem andi_vec_eq_one {s : Shape} (a b : IVec s 1) (i : s.Idx) (h : andi a b i = 1#1) : a i = 1#1 ∧ b i = 1#1 :=
  IntOp.andi_eq_one.1 h

/-- One array's clause of the predicate: if "every entry's absolute value is below plus infinity" came out true, every
    entry is a real number. -/
theorem real_of_all {s : Shape} (x : FVec Ideal s .f32)
    (hb : Cert.Pre_finite_inputs.S_.BroadcastsInDim s (![] : Fin 0 → Fin s.rank)) {axes : List (Fin s.rank)}
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) :
    ∃ r : ℝ, x i = (r : EReal) := by
  have hi := Host.reduce_andi_all _ _ hr hu ix0 e i
  rw [cmpf_apply, broadcastInDim_scalar_apply, constant_apply] at hi
  exact real_of_abs_lt_inf (x i) hi

/-- Under the precondition every entry of each of the six argument arrays is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h0 := congrFun (h c) ix0
  dsimp only [Cert.Pre_finite_inputs.fn, Cert.Pre_finite_inputs.fn_part1] at h0
  obtain ⟨h01234, h5⟩ := andi_vec_eq_one _ _ _ h0
  obtain ⟨h0123, h4⟩ := andi_vec_eq_one _ _ _ h01234
  obtain ⟨h012, h3⟩ := andi_vec_eq_one _ _ _ h0123
  obtain ⟨h01, h2⟩ := andi_vec_eq_one _ _ _ h012
  obtain ⟨h0', h1⟩ := andi_vec_eq_one _ _ _ h01
  exact ⟨real_of_all _ _ _ _ h0', real_of_all _ _ _ _ h1, real_of_all _ _ _ _ h2, real_of_all _ _ _ _ h3,
    real_of_all _ _ _ _ h4, real_of_all _ _ _ _ h5⟩

/-- Every entry of argument 0 is a real number. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD)
    (i : (Cert.KernelIdeal.main_arg0).ty.shape.Idx) :
    ∃ r : ℝ, m ((c.tc : Thread Cert.KernelIdeal.nD Cert.KernelIdeal.τ).loc Cert.KernelIdeal.main_arg0) i = (r : EReal) :=
  (args_real m h c).1 i

/-- Every entry of argument 1 is a real number. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD)
    (i : (Cert.KernelIdeal.main_arg1).ty.shape.Idx) :
    ∃ r : ℝ, m ((c.tc : Thread Cert.KernelIdeal.nD Cert.KernelIdeal.τ).loc Cert.KernelIdeal.main_arg1) i = (r : EReal) :=
  (args_real m h c).2.1 i

/-- Every entry of argument 2 is a real number. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD)
    (i : (Cert.KernelIdeal.main_arg2).ty.shape.Idx) :
    ∃ r : ℝ, m ((c.tc : Thread Cert.KernelIdeal.nD Cert.KernelIdeal.τ).loc Cert.KernelIdeal.main_arg2) i = (r : EReal) :=
  (args_real m h c).2.2.1 i

/-- Every entry of argument 3 is a real number. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD)
    (i : (Cert.KernelIdeal.main_arg3).ty.shape.Idx) :
    ∃ r : ℝ, m ((c.tc : Thread Cert.KernelIdeal.nD Cert.KernelIdeal.τ).loc Cert.KernelIdeal.main_arg3) i = (r : EReal) :=
  (args_real m h c).2.2.2.1 i

/-- Every entry of argument 4 is a real number. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD)
    (i : (Cert.KernelIdeal.main_arg4).ty.shape.Idx) :
    ∃ r : ℝ, m ((c.tc : Thread Cert.KernelIdeal.nD Cert.KernelIdeal.τ).loc Cert.KernelIdeal.main_arg4) i = (r : EReal) :=
  (args_real m h c).2.2.2.2.1 i

/-- Every entry of argument 5 is a real number. -/
theorem arg5_real (m : (ℓ : Loc Cert.KernelIdeal.nD Cert.KernelIdeal.τ Cert.KernelIdeal.sig) → Buf (Elt Ideal) ℓ)
    (h : Cert.Pre_KernelIdeal m) (c : Dev Cert.KernelIdeal.nD)
    (i : (Cert.KernelIdeal.main_arg5).ty.shape.Idx) :
    ∃ r : ℝ, m ((c.tc : Thread Cert.KernelIdeal.nD Cert.KernelIdeal.τ).loc Cert.KernelIdeal.main_arg5) i = (r : EReal) :=
  (args_real m h c).2.2.2.2.2 i

end Cert.FiniteInputs

end
-- ==== Proof.RealArgs.lean ====
/-
  Under the precondition the six argument arrays ARE coerced real arrays: the entrywise "is a real number" facts,
  collected into real arrays.
-/
import proofs.«138496_j31379031065087_2_alg».proof.Proof.FiniteInputs
import proofs.«138496_j31379031065087_2_alg».proof.Proof.RefReal

noncomputable section

namespace Cert.FiniteInputs

open Idealize.ShloMosaic Idealize.ShloMosaic.TcCoe Idealize.SL.Sem Idealize.ShloMosaic.ValueIdx Cert.RefAt

/-- Under the precondition there are six real arrays whose coercions the argument buffers hold. -/
theorem exists_real_args (m : (ℓ : Loc Cert.KernelIdeal.nD Cert.KernelIdeal.τ Cert.KernelIdeal.sig) → Buf (Elt Ideal) ℓ)
    (h : Cert.Pre_KernelIdeal m) (c : Dev Cert.KernelIdeal.nD) :
    ∃ (xr : XR) (snr csr : TR) (wr : WR) (pr : PR) (br : BR),
      m ((c.tc : Thread Cert.KernelIdeal.nD Cert.KernelIdeal.τ).loc Cert.KernelIdeal.main_arg0) = up xr
      ∧ m ((c.tc : Thread Cert.KernelIdeal.nD Cert.KernelIdeal.τ).loc Cert.KernelIdeal.main_arg1) = up snr
      ∧ m ((c.tc : Thread Cert.KernelIdeal.nD Cert.KernelIdeal.τ).loc Cert.KernelIdeal.main_arg2) = up csr
      ∧ m ((c.tc : Thread Cert.KernelIdeal.nD Cert.KernelIdeal.τ).loc Cert.KernelIdeal.main_arg3) = up wr
      ∧ m ((c.tc : Thread Cert.KernelIdeal.nD Cert.KernelIdeal.τ).loc Cert.KernelIdeal.main_arg4) = up pr
      ∧ m ((c.tc : Thread Cert.KernelIdeal.nD Cert.KernelIdeal.τ).loc Cert.KernelIdeal.main_arg5) = up br := by
  choose xr hx using arg0_real m h c
  choose snr hs using arg1_real m h c
  choose csr hc using arg2_real m h c
  choose wr hw using arg3_real m h c
  choose pr hp using arg4_real m h c
  choose br hb using arg5_real m h c
  exact ⟨xr, snr, csr, wr, pr, br, funext hx, funext hs, funext hc, funext hw, funext hp, funext hb⟩

end Cert.FiniteInputs

end
-- ==== Proof.RefAtQkv.lean ====
/-
  The reference's first eleven operations read at explicit coordinates: the fused projection, its five-axis view, and
  the three parts (query, key, value) cut out, squeezed and transposed to [batch, head, token, lane].
-/
import proofs.«138496_j31379031065087_2_alg».proof.Proof.Gen.ReferenceIdeal.Read
import proofs.«138496_j31379031065087_2_alg».proof.Proof.RefSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefAt

open Cert.ReferenceIdeal Cert.ReferenceIdeal.Gen Cert.ReferenceIdeal.Read Idealize.ShloMosaic Idealize.ShloMosaic.ValueIdx

/-- The fused projection at (b, n, j) is the sum over the features. -/
theorem v0_at (x : XT) (w : WT) (b : Fin 2) (n : Fin 2048) (j : Fin 3072) :
    val_main_v0 (F := Ideal) x w (ix3 b n j) = qkvR x w b n j := by
  rw [val_main_v0_apply]
  unfold qkvR
  refine Finset.sum_congr rfl fun k _ => ?_
  have el : lidx_main_v0 (ix3 b n j) k = ix3 b n k := funext fun a => by
    match a with
    | ⟨0, _⟩ => rfl
    | ⟨1, _⟩ => rfl
    | ⟨2, _⟩ => rfl
  have er : ridx_main_v0 (ix3 b n j) k = ix2 j k := funext fun a => by
    match a with
    | ⟨0, _⟩ => rfl
    | ⟨1, _⟩ => rfl
  rw [el, er]

/-- The five-axis view [batch, token, part, head, lane] reads weight row `part * 1024 + head * 64 + lane`. -/
theorem v1_at (x : XT) (w : WT) (b : Fin 2) (n : Fin 2048) (t : Fin 3) (h : Fin 16) (d : Fin 64) :
    val_main_v1 (F := Ideal) x w (ix5 b n t h d) = part t x w b h n d := by
  rw [val_main_v1_apply]
  have e : idx_main_v1 (ix5 b n t h d) = ix3 b n (feat t h d) := funext fun a => Fin.ext (by
    have hb : b.val < 2 := b.isLt; have hn : n.val < 2048 := n.isLt; have ht : t.val < 3 := t.isLt
    have hh : h.val < 16 := h.isLt; have hd : d.val < 64 := d.isLt
    match a with
    | ⟨0, _⟩ => show ((((b.val * 2048 + n.val) * 3 + t.val) * 16 + h.val) * 64 + d.val) / 6291456 = b.val; omega
    | ⟨1, _⟩ => show ((((b.val * 2048 + n.val) * 3 + t.val) * 16 + h.val) * 64 + d.val) / 3072 % 2048 = n.val; omega
    | ⟨2, _⟩ => show ((((b.val * 2048 + n.val) * 3 + t.val) * 16 + h.val) * 64 + d.val) % 3072 = t.val * 1024 + h.val * 64 + d.val; omega)
  rw [e, v0_at]; rfl

/-- Part 0 cut out of the five-axis view: the unit axis's one coordinate reads part 0. -/
theorem v2_at (x : XT) (w : WT) (b : Fin 2) (n : Fin 2048) (z : Fin 1) (h : Fin 16) (d : Fin 64) :
    val_main_v2 (F := Ideal) x w (ix5 b n z h d) = part 0 x w b h n d := by
  rw [val_main_v2_apply]
  have e : idx_main_v2 (ix5 b n z h d) = ix5 b n (0 : Fin 3) h d := funext fun a => Fin.ext (by
    have hz : z.val < 1 := z.isLt
    match a with
    | ⟨0, _⟩ => rfl
    | ⟨1, _⟩ => rfl
    | ⟨2, _⟩ => show z.val = 0; omega
    | ⟨3, _⟩ => rfl
    | ⟨4, _⟩ => rfl)
  rw [e, v1_at]

/-- … with the unit axis dropped. -/
theorem v3_at (x : XT) (w : WT) (b : Fin 2) (n : Fin 2048) (h : Fin 16) (d : Fin 64) :
    val_main_v3 (F := Ideal) x w (ix4 b n h d) = part 0 x w b h n d := by
  rw [val_main_v3_apply]
  have e : idx_main_v3 (ix4 b n h d) = ix5 b n (0 : Fin 1) h d := funext fun a => Fin.ext (by
    have hb : b.val < 2 := b.isLt; have hn : n.val < 2048 := n.isLt; have hh : h.val < 16 := h.isLt; have hd : d.val < 64 := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
    | ⟨3, _⟩ => show (((b.val * 2048 + n.val) * 16 + h.val) * 64 + d.val) / 64 % 16 = h.val; omega
    | ⟨4, _⟩ => show (((b.val * 2048 + n.val) * 16 + h.val) * 64 + d.val) % 64 = d.val; omega)
  rw [e, v2_at]

/-- … and heads moved in front of tokens: part 0 as [batch, head, token, lane]. -/
theorem v4_at (x : XT) (w : WT) (b : Fin 2) (h : Fin 16) (n : Fin 2048) (d : Fin 64) :
    val_main_v4 (F := Ideal) x w (ix4 b h n d) = part 0 x w b h n d := by
  rw [val_main_v4_apply]
  have e : idx_main_v4 (ix4 b h n d) = ix4 b n h d := funext fun a => Fin.ext (by
    match a with
    | ⟨0, _⟩ => rfl
    | ⟨1, _⟩ => rfl
    | ⟨2, _⟩ => rfl
    | ⟨3, _⟩ => rfl)
  rw [e, v3_at]

/-- Part 1 cut out of the five-axis view: the unit axis's one coordinate reads part 1. -/
theorem v5_at (x : XT) (w : WT) (b : Fin 2) (n : Fin 2048) (z : Fin 1) (h : Fin 16) (d : Fin 64) :
    val_main_v5 (F := Ideal) x w (ix5 b n z h d) = part 1 x w b h n d := by
  rw [val_main_v5_apply]
  have e : idx_main_v5 (ix5 b n z h d) = ix5 b n (1 : Fin 3) h d := funext fun a => Fin.ext (by
    have hz : z.val < 1 := z.isLt
    match a with
    | ⟨0, _⟩ => rfl
    | ⟨1, _⟩ => rfl
    | ⟨2, _⟩ => show 1 + z.val = 1; omega
    | ⟨3, _⟩ => rfl
    | ⟨4, _⟩ => rfl)
  rw [e, v1_at]

/-- … with the unit axis dropped. -/
theorem v6_at (x : XT) (w : WT) (b : Fin 2) (n : Fin 2048) (h : Fin 16) (d : Fin 64) :
    val_main_v6 (F := Ideal) x w (ix4 b n h d) = part 1 x w b h n d := by
  rw [val_main_v6_apply]
  have e : idx_main_v6 (ix4 b n h d) = ix5 b n (0 : Fin 1) h d := funext fun a => Fin.ext (by
    have hb : b.val < 2 := b.isLt; have hn : n.val < 2048 := n.isLt; have hh : h.val < 16 := h.isLt; have hd : d.val < 64 := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
    | ⟨3, _⟩ => show (((b.val * 2048 + n.val) * 16 + h.val) * 64 + d.val) / 64 % 16 = h.val; omega
    | ⟨4, _⟩ => show (((b.val * 2048 + n.val) * 16 + h.val) * 64 + d.val) % 64 = d.val; omega)
  rw [e, v5_at]

/-- … and heads moved in front of tokens: part 1 as [batch, head, token, lane]. -/
theorem v7_at (x : XT) (w : WT) (b : Fin 2) (h : Fin 16) (n : Fin 2048) (d : Fin 64) :
    val_main_v7 (F := Ideal) x w (ix4 b h n d) = part 1 x w b h n d := by
  rw [val_main_v7_apply]
  have e : idx_main_v7 (ix4 b h n d) = ix4 b n h d := funext fun a => Fin.ext (by
    match a with
    | ⟨0, _⟩ => rfl
    | ⟨1, _⟩ => rfl
    | ⟨2, _⟩ => rfl
    | ⟨3, _⟩ => rfl)
  rw [e, v6_at]

/-- Part 2 cut out of the five-axis view: the unit axis's one coordinate reads part 2. -/
theorem v8_at (x : XT) (w : WT) (b : Fin 2) (n : Fin 2048) (z : Fin 1) (h : Fin 16) (d : Fin 64) :
    val_main_v8 (F := Ideal) x w (ix5 b n z h d) = part 2 x w b h n d := by
  rw [val_main_v8_apply]
  have e : idx_main_v8 (ix5 b n z h d) = ix5 b n (2 : Fin 3) h d := funext fun a => Fin.ext (by
    have hz : z.val < 1 := z.isLt
    match a with
    | ⟨0, _⟩ => rfl
    | ⟨1, _⟩ => rfl
    | ⟨2, _⟩ => show 2 + z.val = 2; omega
    | ⟨3, _⟩ => rfl
    | ⟨4, _⟩ => rfl)
  rw [e, v1_at]

/-- … with the unit axis dropped. -/
theorem v9_at (x : XT) (w : WT) (b : Fin 2) (n : Fin 2048) (h : Fin 16) (d : Fin 64) :
    val_main_v9 (F := Ideal) x w (ix4 b n h d) = part 2 x w b h n d := by
  rw [val_main_v9_apply]
  have e : idx_main_v9 (ix4 b n h d) = ix5 b n (0 : Fin 1) h d := funext fun a => Fin.ext (by
    have hb : b.val < 2 := b.isLt; have hn : n.val < 2048 := n.isLt; have hh : h.val < 16 := h.isLt; have hd : d.val < 64 := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
    | ⟨3, _⟩ => show (((b.val * 2048 + n.val) * 16 + h.val) * 64 + d.val) / 64 % 16 = h.val; omega
    | ⟨4, _⟩ => show (((b.val * 2048 + n.val) * 16 + h.val) * 64 + d.val) % 64 = d.val; omega)
  rw [e, v8_at]

/-- … and heads moved in front of tokens: part 2 as [batch, head, token, lane]. -/
theorem v10_at (x : XT) (w : WT) (b : Fin 2) (h : Fin 16) (n : Fin 2048) (d : Fin 64) :
    val_main_v10 (F := Ideal) x w (ix4 b h n d) = part 2 x w b h n d := by
  rw [val_main_v10_apply]
  have e : idx_main_v10 (ix4 b h n d) = ix4 b n h d := funext fun a => Fin.ext (by
    match a with
    | ⟨0, _⟩ => rfl
    | ⟨1, _⟩ => rfl
    | ⟨2, _⟩ => rfl
    | ⟨3, _⟩ => rfl)
  rw [e, v9_at]

end Cert.RefAt

end
-- ==== Proof.RefAtRope.lean ====
/-
  The reference's rotary embedding read at explicit coordinates: for the queries (operations 11 to 24) and the keys
  (operations 25 to 38), the first token is cut off and kept, every other token becomes `a · cos + rotHalf a · sin`
  at its table row, and the two pieces are joined again along the token axis.
-/
import proofs.«138496_j31379031065087_2_alg».proof.Proof.Gen.ReferenceIdeal.Read
import proofs.«138496_j31379031065087_2_alg».proof.Proof.RefSpec
import proofs.«138496_j31379031065087_2_alg».proof.Proof.RefAtQkv
import Idealize.ShloMosaic.Lib.ValueIdx
import Idealize.ShloMosaic.Lib.ValueLayout
import Idealize.ShloMosaic.Lib.Pipeline.Value
import Idealize.ShloMosaic.PureOps.Ideal.Laws

noncomputable section

namespace Cert.RefAt

open Cert.ReferenceIdeal Cert.ReferenceIdeal.Gen Cert.ReferenceIdeal.Read Idealize.ShloMosaic Idealize.ShloMosaic.ValueIdx

/-! ### The rotary embedding of part 0 (queries) -/

/-- The first token, cut off. -/
theorem v11_at (x : XT) (w : WT) (b : Fin 2) (h : Fin 16) (z : Fin 1) (d : Fin 64) (n : Fin 2048) (hn : n.val = 0) :
    val_main_v11 (F := Ideal) x w (ix4 b h z d) = part 0 x w b h n d := by
  rw [val_main_v11_apply]
  have e : idx_main_v11 (ix4 b h z d) = ix4 b h n d := funext fun a => Fin.ext (by
    have hz : z.val < 1 := z.isLt
    match a with
    | ⟨0, _⟩ => rfl
    | ⟨1, _⟩ => rfl
    | ⟨2, _⟩ => show z.val = n.val; omega
    | ⟨3, _⟩ => rfl)
  rw [e, v4_at]

/-- The other tokens: row `n'` is token `n' + 1`. -/
theorem v12_at (x : XT) (w : WT) (b : Fin 2) (h : Fin 16) (n' : Fin 2047) (d : Fin 64) (n : Fin 2048) (hn : n.val = n'.val + 1) :
    val_main_v12 (F := Ideal) x w (ix4 b h n' d) = part 0 x w b h n d := by
  rw [val_main_v12_apply]
  have e : idx_main_v12 (ix4 b h n' d) = ix4 b h n d := funext fun a => Fin.ext (by
    match a with
    | ⟨0, _⟩ => rfl
    | ⟨1, _⟩ => rfl
    | ⟨2, _⟩ => show 1 + n'.val = n.val; omega
    | ⟨3, _⟩ => rfl)
  rw [e, v4_at]

/-- The cosine table, broadcast over batch and head. -/
theorem v14_at (cs : TT) (b : Fin 2) (h : Fin 16) (n' : Fin 2047) (d : Fin 64) :
    val_main_v14 (F := Ideal) cs (ix4 b h n' d) = cs (ix2 n' d) := by
  rw [val_main_v14_apply, val_main_v13_apply]
  have e : idx_main_v13 (idx_main_v14 (ix4 b h n' d)) = ix2 n' d := funext fun a => by
    match a with
    | ⟨0, _⟩ => rfl
    | ⟨1, _⟩ => rfl
  rw [e]

/-- The sine table, broadcast over batch and head. -/
theorem v21_at (sn : TT) (b : Fin 2) (h : Fin 16) (n' : Fin 2047) (d : Fin 64) :
    val_main_v21 (F := Ideal) sn (ix4 b h n' d) = sn (ix2 n' d) := by
  rw [val_main_v21_apply, val_main_v20_apply]
  have e : idx_main_v20 (idx_main_v21 (ix4 b h n' d)) = ix2 n' d := funext fun a => by
    match a with
    | ⟨0, _⟩ => rfl
    | ⟨1, _⟩ => rfl
  rw [e]

/-- The lower half of the lanes. -/
theorem v16_at (x : XT) (w : WT) (b : Fin 2) (h : Fin 16) (n' : Fin 2047) (e : Fin 32) (n : Fin 2048) (hn : n.val = n'.val + 1)
    (d : Fin 64) (hd : d.val = e.val) :
    val_main_v16 (F := Ideal) x w (ix4 b h n' e) = part 0 x w b h n d := by
  rw [val_main_v16_apply]
  have e' : idx_main_v16 (ix4 b h n' e) = ix4 b h n' d := funext fun a => Fin.ext (by
    match a with
    | ⟨0, _⟩ => rfl
    | ⟨1, _⟩ => rfl
    | ⟨2, _⟩ => rfl
    | ⟨3, _⟩ => show e.val = d.val; omega)
  rw [e', v12_at x w b h n' d n hn]

/-- The upper half of the lanes. -/
theorem v17_at (x : XT) (w : WT) (b : Fin 2) (h : Fin 16) (n' : Fin 2047) (e : Fin 32) (n : Fin 2048) (hn : n.val = n'.val + 1)
    (d : Fin 64) (hd : d.val = e.val + 32) :
    val_main_v17 (F := Ideal) x w (ix4 b h n' e) = part 0 x w b h n d := by
  rw [val_main_v17_apply]
  have e' : idx_main_v17 (ix4 b h n' e) = ix4 b h n' d := funext fun a => Fin.ext (by
    match a with
    | ⟨0, _⟩ => rfl
    | ⟨1, _⟩ => rfl
    | ⟨2, _⟩ => rfl
    | ⟨3, _⟩ => show 32 + e.val = d.val; omega)
  rw [e', v12_at x w b h n' d n hn]

/-- The two halves swapped, the upper one negated: the half rotation. -/
theorem v19_at (x : XT) (w : WT) (b : Fin 2) (h : Fin 16) (n' : Fin 2047) (d : Fin 64) (n : Fin 2048) (hn : n.val = n'.val + 1) :
    val_main_v19 (F := Ideal) x w (ix4 b h n' d) = rotHalf (part 0 x w b h n) d := by
  unfold val_main_v19 rotHalf
  by_cases hd : d.val < 32
  · rw [dif_pos hd]
    refine (concatenate_pair_apply_left (3 : Fin S2x16x2047x64.rank) _ _ concatenates_S2x16x2047x32_S2x16x2047x32_S2x16x2047x64_d3
      (ix4 b h n' d) rfl (ix4 b h n' (⟨d.val, hd⟩ : Fin 32)) (fun a => by
        match a with
        | ⟨0, _⟩ => rfl
        | ⟨1, _⟩ => rfl
        | ⟨2, _⟩ => rfl
        | ⟨3, _⟩ => rfl)).trans ?_
    rw [val_main_v18_apply, v17_at x w b h n' ⟨d.val, hd⟩ n hn ⟨d.val + 32, by omega⟩ rfl]
    rfl
  · rw [dif_neg hd]
    have hd64 : d.val < 64 := d.isLt
    refine (concatenate_pair_apply_right (3 : Fin S2x16x2047x64.rank) _ _ concatenates_S2x16x2047x32_S2x16x2047x32_S2x16x2047x64_d3
      (ix4 b h n' d) rfl rfl (ix4 b h n' (⟨d.val - 32, by omega⟩ : Fin 32)) (fun a ha => by
        match a with
        | ⟨0, _⟩ => rfl
        | ⟨1, _⟩ => rfl
        | ⟨2, _⟩ => rfl
        | ⟨3, _⟩ => exact absurd rfl ha) (by show (d.val - 32) + 32 = d.val; omega)).trans ?_
    exact v16_at x w b h n' ⟨d.val - 32, by omega⟩ n hn ⟨d.val - 32, by omega⟩ rfl

/-- A rotated token: `a · cos + rotHalf a · sin` at the token's table row. -/
theorem v23_at (x : XT) (sn cs : TT) (w : WT) (b : Fin 2) (h : Fin 16) (n' : Fin 2047) (d : Fin 64) (n : Fin 2048)
    (hn : n.val = n'.val + 1) :
    val_main_v23 (F := Ideal) x sn cs w (ix4 b h n' d)
      = part 0 x w b h n d * cs (ix2 n' d) + rotHalf (part 0 x w b h n) d * sn (ix2 n' d) := by
  rw [val_main_v23_apply, val_main_v15_apply, val_main_v22_apply, v12_at x w b h n' d n hn, v14_at,
    v19_at x w b h n' d n hn, v21_at]
  rfl

/-- The first token put back in front: the rotary embedding of part 0. -/
theorem v24_at (x : XT) (sn cs : TT) (w : WT) (b : Fin 2) (h : Fin 16) (n : Fin 2048) (d : Fin 64) :
    val_main_v24 (F := Ideal) x sn cs w (ix4 b h n d) = rope (part 0 x w) sn cs b h n d := by
  unfold val_main_v24 rope
  by_cases hn : n.val = 0
  · rw [dif_pos hn]
    refine (concatenate_pair_apply_left (2 : Fin S2x16x2048x64.rank) _ _ concatenates_S2x16x1x64_S2x16x2047x64_S2x16x2048x64_d2
      (ix4 b h n d) rfl (ix4 b h (0 : Fin 1) d) (fun a => by
        match a with
        | ⟨0, _⟩ => rfl
        | ⟨1, _⟩ => rfl
        | ⟨2, _⟩ => show 0 = n.val; omega
        | ⟨3, _⟩ => rfl)).trans ?_
    exact v11_at x w b h 0 d n hn
  · rw [dif_neg hn]
    have hn' : n.val < 2048 := n.isLt
    refine (concatenate_pair_apply_right (2 : Fin S2x16x2048x64.rank) _ _ concatenates_S2x16x1x64_S2x16x2047x64_S2x16x2048x64_d2
      (ix4 b h n d) rfl rfl (ix4 b h (tok n hn) d) (fun a ha => by
        match a with
        | ⟨0, _⟩ => rfl
        | ⟨1, _⟩ => rfl
        | ⟨2, _⟩ => exact absurd rfl ha
        | ⟨3, _⟩ => rfl) (by show (n.val - 1) + 1 = n.val; omega)).trans ?_
    exact v23_at x sn cs w b h (tok n hn) d n (by show n.val = (n.val - 1) + 1; omega)

/-! ### The rotary embedding of part 1 (keys) -/

/-- The first token, cut off. -/
theorem v25_at (x : XT) (w : WT) (b : Fin 2) (h : Fin 16) (z : Fin 1) (d : Fin 64) (n : Fin 2048) (hn : n.val = 0) :
    val_main_v25 (F := Ideal) x w (ix4 b h z d) = part 1 x w b h n d := by
  rw [val_main_v25_apply]
  have e : idx_main_v25 (ix4 b h z d) = ix4 b h n d := funext fun a => Fin.ext (by
    have hz : z.val < 1 := z.isLt
    match a with
    | ⟨0, _⟩ => rfl
    | ⟨1, _⟩ => rfl
    | ⟨2, _⟩ => show z.val = n.val; omega
    | ⟨3, _⟩ => rfl)
  rw [e, v7_at]

/-- The other tokens: row `n'` is token `n' + 1`. -/
theorem v26_at (x : XT) (w : WT) (b : Fin 2) (h : Fin 16) (n' : Fin 2047) (d : Fin 64) (n : Fin 2048) (hn : n.val = n'.val + 1) :
    val_main_v26 (F := Ideal) x w (ix4 b h n' d) = part 1 x w b h n d := by
  rw [val_main_v26_apply]
  have e : idx_main_v26 (ix4 b h n' d) = ix4 b h n d := funext fun a => Fin.ext (by
    match a with
    | ⟨0, _⟩ => rfl
    | ⟨1, _⟩ => rfl
    | ⟨2, _⟩ => show 1 + n'.val = n.val; omega
    | ⟨3, _⟩ => rfl)
  rw [e, v7_at]

/-- The cosine table, broadcast over batch and head. -/
theorem v28_at (cs : TT) (b : Fin 2) (h : Fin 16) (n' : Fin 2047) (d : Fin 64) :
    val_main_v28 (F := Ideal) cs (ix4 b h n' d) = cs (ix2 n' d) := by
  rw [val_main_v28_apply, val_main_v27_apply]
  have e : idx_main_v27 (idx_main_v28 (ix4 b h n' d)) = ix2 n' d := funext fun a => by
    match a with
    | ⟨0, _⟩ => rfl
    | ⟨1, _⟩ => rfl
  rw [e]

/-- The sine table, broadcast over batch and head. -/
theorem v35_at (sn : TT) (b : Fin 2) (h : Fin 16) (n' : Fin 2047) (d : Fin 64) :
    val_main_v35 (F := Ideal) sn (ix4 b h n' d) = sn (ix2 n' d) := by
  rw [val_main_v35_apply, val_main_v34_apply]
  have e : idx_main_v34 (idx_main_v35 (ix4 b h n' d)) = ix2 n' d := funext fun a => by
    match a with
    | ⟨0, _⟩ => rfl
    | ⟨1, _⟩ => rfl
  rw [e]

/-- The lower half of the lanes. -/
theorem v30_at (x : XT) (w : WT) (b : Fin 2) (h : Fin 16) (n' : Fin 2047) (e : Fin 32) (n : Fin 2048) (hn : n.val = n'.val + 1)
    (d : Fin 64) (hd : d.val = e.val) :
    val_main_v30 (F := Ideal) x w (ix4 b h n' e) = part 1 x w b h n d := by
  rw [val_main_v30_apply]
  have e' : idx_main_v30 (ix4 b h n' e) = ix4 b h n' d := funext fun a => Fin.ext (by
    match a with
    | ⟨0, _⟩ => rfl
    | ⟨1, _⟩ => rfl
    | ⟨2, _⟩ => rfl
    | ⟨3, _⟩ => show e.val = d.val; omega)
  rw [e', v26_at x w b h n' d n hn]

/-- The upper half of the lanes. -/
theorem v31_at (x : XT) (w : WT) (b : Fin 2) (h : Fin 16) (n' : Fin 2047) (e : Fin 32) (n : Fin 2048) (hn : n.val = n'.val + 1)
    (d : Fin 64) (hd : d.val = e.val + 32) :
    val_main_v31 (F := Ideal) x w (ix4 b h n' e) = part 1 x w b h n d := by
  rw [val_main_v31_apply]
  have e' : idx_main_v31 (ix4 b h n' e) = ix4 b h n' d := funext fun a => Fin.ext (by
    match a with
    | ⟨0, _⟩ => rfl
    | ⟨1, _⟩ => rfl
    | ⟨2, _⟩ => rfl
    | ⟨3, _⟩ => show 32 + e.val = d.val; omega)
  rw [e', v26_at x w b h n' d n hn]

/-- The two halves swapped, the upper one negated: the half rotation. -/
theorem v33_at (x : XT) (w : WT) (b : Fin 2) (h : Fin 16) (n' : Fin 2047) (d : Fin 64) (n : Fin 2048) (hn : n.val = n'.val + 1) :
    val_main_v33 (F := Ideal) x w (ix4 b h n' d) = rotHalf (part 1 x w b h n) d := by
  unfold val_main_v33 rotHalf
  by_cases hd : d.val < 32
  · rw [dif_pos hd]
    refine (concatenate_pair_apply_left (3 : Fin S2x16x2047x64.rank) _ _ concatenates_S2x16x2047x32_S2x16x2047x32_S2x16x2047x64_d3
      (ix4 b h n' d) rfl (ix4 b h n' (⟨d.val, hd⟩ : Fin 32)) (fun a => by
        match a with
        | ⟨0, _⟩ => rfl
        | ⟨1, _⟩ => rfl
        | ⟨2, _⟩ => rfl
        | ⟨3, _⟩ => rfl)).trans ?_
    rw [val_main_v32_apply, v31_at x w b h n' ⟨d.val, hd⟩ n hn ⟨d.val + 32, by omega⟩ rfl]
    rfl
  · rw [dif_neg hd]
    have hd64 : d.val < 64 := d.isLt
    refine (concatenate_pair_apply_right (3 : Fin S2x16x2047x64.rank) _ _ concatenates_S2x16x2047x32_S2x16x2047x32_S2x16x2047x64_d3
      (ix4 b h n' d) rfl rfl (ix4 b h n' (⟨d.val - 32, by omega⟩ : Fin 32)) (fun a ha => by
        match a with
        | ⟨0, _⟩ => rfl
        | ⟨1, _⟩ => rfl
        | ⟨2, _⟩ => rfl
        | ⟨3, _⟩ => exact absurd rfl ha) (by show (d.val - 32) + 32 = d.val; omega)).trans ?_
    exact v30_at x w b h n' ⟨d.val - 32, by omega⟩ n hn ⟨d.val - 32, by omega⟩ rfl

/-- A rotated token: `a · cos + rotHalf a · sin` at the token's table row. -/
theorem v37_at (x : XT) (sn cs : TT) (w : WT) (b : Fin 2) (h : Fin 16) (n' : Fin 2047) (d : Fin 64) (n : Fin 2048)
    (hn : n.val = n'.val + 1) :
    val_main_v37 (F := Ideal) x sn cs w (ix4 b h n' d)
      = part 1 x w b h n d * cs (ix2 n' d) + rotHalf (part 1 x w b h n) d * sn (ix2 n' d) := by
  rw [val_main_v37_apply, val_main_v29_apply, val_main_v36_apply, v26_at x w b h n' d n hn, v28_at,
    v33_at x w b h n' d n hn, v35_at]
  rfl

/-- The first token put back in front: the rotary embedding of part 1. -/
theorem v38_at (x : XT) (sn cs : TT) (w : WT) (b : Fin 2) (h : Fin 16) (n : Fin 2048) (d : Fin 64) :
    val_main_v38 (F := Ideal) x sn cs w (ix4 b h n d) = rope (part 1 x w) sn cs b h n d := by
  unfold val_main_v38 rope
  by_cases hn : n.val = 0
  · rw [dif_pos hn]
    refine (concatenate_pair_apply_left (2 : Fin S2x16x2048x64.rank) _ _ concatenates_S2x16x1x64_S2x16x2047x64_S2x16x2048x64_d2
      (ix4 b h n d) rfl (ix4 b h (0 : Fin 1) d) (fun a => by
        match a with
        | ⟨0, _⟩ => rfl
        | ⟨1, _⟩ => rfl
        | ⟨2, _⟩ => show 0 = n.val; omega
        | ⟨3, _⟩ => rfl)).trans ?_
    exact v25_at x w b h 0 d n hn
  · rw [dif_neg hn]
    have hn' : n.val < 2048 := n.isLt
    refine (concatenate_pair_apply_right (2 : Fin S2x16x2048x64.rank) _ _ concatenates_S2x16x1x64_S2x16x2047x64_S2x16x2048x64_d2
      (ix4 b h n d) rfl rfl (ix4 b h (tok n hn) d) (fun a ha => by
        match a with
        | ⟨0, _⟩ => rfl
        | ⟨1, _⟩ => rfl
        | ⟨2, _⟩ => exact absurd rfl ha
        | ⟨3, _⟩ => rfl) (by show (n.val - 1) + 1 = n.val; omega)).trans ?_
    exact v37_at x sn cs w b h (tok n hn) d n (by show n.val = (n.val - 1) + 1; omega)

end Cert.RefAt

end
-- ==== Proof.RefAtAttn.lean ====
/-
  The reference's attention core read at explicit coordinates (operations 39 to 53): the scaled scores, the row maximum
  (a fold of `max` from minus infinity over the keys), the shifted exponentials, their sum, the quotient, and the
  weighted sum of the values.
-/
import proofs.«138496_j31379031065087_2_alg».proof.Proof.Gen.ReferenceIdeal.Read
import proofs.«138496_j31379031065087_2_alg».proof.Proof.RefSpec
import proofs.«138496_j31379031065087_2_alg».proof.Proof.RefAtQkv
import proofs.«138496_j31379031065087_2_alg».proof.Proof.RefAtRope
import Idealize.ShloMosaic.Lib.ValueIdx
import Idealize.ShloMosaic.Lib.ValueLayout
import Idealize.ShloMosaic.Lib.Pipeline.Value
import Idealize.ShloMosaic.PureOps.Ideal.Laws

noncomputable section

namespace Cert.RefAt

open Cert.ReferenceIdeal Cert.ReferenceIdeal.Gen Cert.ReferenceIdeal.Read Idealize.ShloMosaic Idealize.ShloMosaic.ValueIdx

/-- The raw scores: rotated query `n` against rotated key `k`, summed over the lanes. -/
theorem v39_at (x : XT) (sn cs : TT) (w : WT) (b : Fin 2) (h : Fin 16) (n k : Fin 2048) :
    val_main_v39 (F := Ideal) x sn cs w (ix4 b h n k) = ∑ d : Fin 64, qr x sn cs w b h n d * kr x sn cs w b h k d := by
  rw [val_main_v39_apply]
  refine Finset.sum_congr rfl fun d _ => ?_
  have el : lidx_main_v39 (ix4 b h n k) d = ix4 b h n d := funext fun a => by
    match a with
    | ⟨0, _⟩ => rfl
    | ⟨1, _⟩ => rfl
    | ⟨2, _⟩ => rfl
    | ⟨3, _⟩ => rfl
  have er : ridx_main_v39 (ix4 b h n k) d = ix4 b h k d := funext fun a => by
    match a with
    | ⟨0, _⟩ => rfl
    | ⟨1, _⟩ => rfl
    | ⟨2, _⟩ => rfl
    | ⟨3, _⟩ => rfl
  rw [el, er, v24_at, v38_at]
  rfl

/-- The scaled scores. -/
theorem v41_at (x : XT) (sn cs : TT) (w : WT) (b : Fin 2) (h : Fin 16) (n k : Fin 2048) :
    val_main_v41 (F := Ideal) x sn cs w (ix4 b h n k) = score x sn cs w b h n k := by
  rw [val_main_v41_apply, v39_at, val_main_v40_apply, val_main_cst_apply]
  rfl

/-- The key axis is the one the two row reductions drop. -/
theorem reduces_keys : S2x16x2048x2048.Reduces [3] S2x16x2048 := by decide

/-- A row index with key `k` inserted on the dropped axis. -/
theorem lift_keys (b : Fin 2) (h : Fin 16) (n k : Fin 2048) :
    reduces_keys.lift (ix3 b h n) k = ix4 b h n k := funext fun a => Fin.ext (by
  match a with
  | ⟨0, _⟩ => rfl
  | ⟨1, _⟩ => rfl
  | ⟨2, _⟩ => rfl
  | ⟨3, _⟩ => rfl)

/-- The max-reduce over the keys: the fold of `max` from minus infinity over the row's scores. -/
theorem v42_at (x : XT) (sn cs : TT) (w : WT) (b : Fin 2) (h : Fin 16) (n : Fin 2048) :
    val_main_v42 (F := Ideal) x sn cs w (ix3 b h n)
      = (Finset.univ : Finset (Fin 2048)).fold max negInf (fun k => score x sn cs w b h n k) := by
  unfold val_main_v42
  rw [Host.reduce_eq_fold_single FloatOps.maximumf _ _ reducesTo_S2x16x2048x2048_S2x16x2048_d3 reduces_keys h_S_ (ix3 b h n)]
  refine (Finset.fold_congr (g := fun k : Fin 2048 => score x sn cs w b h n k) fun k _ => ?_).trans rfl
  exact (congrArg (val_main_v41 (F := Ideal) x sn cs w) (lift_keys b h n k)).trans (v41_at x sn cs w b h n k)

/-- The row maximum as the reference computes it. -/
theorem v44_at (x : XT) (sn cs : TT) (w : WT) (b : Fin 2) (h : Fin 16) (n : Fin 2048) :
    val_main_v44 (F := Ideal) x sn cs w (ix3 b h n) = rowMax x sn cs w b h n := by
  rw [val_main_v44_apply, val_main_v43_apply, val_main_cst_1_apply, v42_at]
  rfl

/-- … broadcast back over the keys. -/
theorem v46_at (x : XT) (sn cs : TT) (w : WT) (b : Fin 2) (h : Fin 16) (n k : Fin 2048) :
    val_main_v46 (F := Ideal) x sn cs w (ix4 b h n k) = rowMax x sn cs w b h n := by
  rw [val_main_v46_apply, val_main_v45_apply]
  have e : idx_main_v45 (idx_main_v46 (ix4 b h n k)) = ix3 b h n := funext fun a => by
    match a with
    | ⟨0, _⟩ => rfl
    | ⟨1, _⟩ => rfl
    | ⟨2, _⟩ => rfl
  rw [e, v44_at]

/-- The shifted exponentials. -/
theorem v48_at (x : XT) (sn cs : TT) (w : WT) (b : Fin 2) (h : Fin 16) (n k : Fin 2048) :
    val_main_v48 (F := Ideal) x sn cs w (ix4 b h n k) = ee x sn cs w b h n k := by
  rw [val_main_v48_apply, val_main_v47_apply, v41_at, v46_at]
  rfl

/-- The normaliser: the zero word plus the row's exponentials. -/
theorem v49_at (x : XT) (sn cs : TT) (w : WT) (b : Fin 2) (h : Fin 16) (n : Fin 2048) :
    val_main_v49 (F := Ideal) x sn cs w (ix3 b h n) = rowSum x sn cs w b h n := by
  rw [val_main_v49_apply, val_main_cst_2_apply]
  unfold rowSum
  refine congrArg (fun s => Ideal.ofBits .f32 0x00000000#32 + s) (Finset.sum_congr rfl fun k _ => ?_)
  have e : idx_main_v49 (ix3 b h n) k = ix4 b h n k := funext fun a => by
    match a with
    | ⟨0, _⟩ => rfl
    | ⟨1, _⟩ => rfl
    | ⟨2, _⟩ => rfl
    | ⟨3, _⟩ => rfl
  rw [e, v48_at]

/-- … broadcast back over the keys. -/
theorem v51_at (x : XT) (sn cs : TT) (w : WT) (b : Fin 2) (h : Fin 16) (n k : Fin 2048) :
    val_main_v51 (F := Ideal) x sn cs w (ix4 b h n k) = rowSum x sn cs w b h n := by
  rw [val_main_v51_apply, val_main_v50_apply]
  have e : idx_main_v50 (idx_main_v51 (ix4 b h n k)) = ix3 b h n := funext fun a => by
    match a with
    | ⟨0, _⟩ => rfl
    | ⟨1, _⟩ => rfl
    | ⟨2, _⟩ => rfl
  rw [e, v49_at]

/-- The attention weights. -/
theorem v52_at (x : XT) (sn cs : TT) (w : WT) (b : Fin 2) (h : Fin 16) (n k : Fin 2048) :
    val_main_v52 (F := Ideal) x sn cs w (ix4 b h n k) = attn x sn cs w b h n k := by
  rw [val_main_v52_apply, v48_at, v51_at]
  rfl

/-- The attended values. -/
theorem v53_at (x : XT) (sn cs : TT) (w : WT) (b : Fin 2) (h : Fin 16) (n : Fin 2048) (d : Fin 64) :
    val_main_v53 (F := Ideal) x sn cs w (ix4 b h n d) = oo x sn cs w b h n d := by
  rw [val_main_v53_apply]
  refine Finset.sum_congr rfl fun k _ => ?_
  have el : lidx_main_v53 (ix4 b h n d) k = ix4 b h n k := funext fun a => by
    match a with
    | ⟨0, _⟩ => rfl
    | ⟨1, _⟩ => rfl
    | ⟨2, _⟩ => rfl
    | ⟨3, _⟩ => rfl
  have er : ridx_main_v53 (ix4 b h n d) k = ix4 b h k d := funext fun a => by
    match a with
    | ⟨0, _⟩ => rfl
    | ⟨1, _⟩ => rfl
    | ⟨2, _⟩ => rfl
    | ⟨3, _⟩ => rfl
  rw [el, er, v52_at, v10_at]
  rfl

end Cert.RefAt

end
-- ==== Proof.RefAt.lean ====
/-
  The reference's last operations read at explicit coordinates (54 to 59): the heads merged back into features, the
  output projection and its bias — and with them the reference's whole result at (batch, token, feature).
-/
import proofs.«138496_j31379031065087_2_alg».proof.Proof.Gen.ReferenceIdeal.Read
import proofs.«138496_j31379031065087_2_alg».proof.Proof.RefSpec
import proofs.«138496_j31379031065087_2_alg».proof.Proof.RefAtQkv
import proofs.«138496_j31379031065087_2_alg».proof.Proof.RefAtRope
import proofs.«138496_j31379031065087_2_alg».proof.Proof.RefAtAttn
import Idealize.ShloMosaic.Lib.ValueIdx
import Idealize.ShloMosaic.Lib.ValueLayout
import Idealize.ShloMosaic.Lib.Pipeline.Value
import Idealize.ShloMosaic.PureOps.Ideal.Laws

noncomputable section

namespace Cert.RefAt

open Cert.ReferenceIdeal Cert.ReferenceIdeal.Gen Cert.ReferenceIdeal.Read Idealize.ShloMosaic Idealize.ShloMosaic.ValueIdx

/-- Tokens moved back in front of heads. -/
theorem v54_at (x : XT) (sn cs : TT) (w : WT) (b : Fin 2) (n : Fin 2048) (h : Fin 16) (d : Fin 64) :
    val_main_v54 (F := Ideal) x sn cs w (ix4 b n h d) = oo x sn cs w b h n d := by
  rw [val_main_v54_apply]
  have e : idx_main_v54 (ix4 b n h d) = ix4 b h n d := funext fun a => Fin.ext (by
    match a with
    | ⟨0, _⟩ => rfl
    | ⟨1, _⟩ => rfl
    | ⟨2, _⟩ => rfl
    | ⟨3, _⟩ => rfl)
  rw [e, v53_at]

/-- Heads and lanes merged: feature `c` is lane `c % 64` of head `c / 64`. -/
theorem v55_at (x : XT) (sn cs : TT) (w : WT) (b : Fin 2) (n : Fin 2048) (c : Fin 1024) :
    val_main_v55 (F := Ideal) x sn cs w (ix3 b n c) = oo x sn cs w b (headOf c) n (laneOf c) := by
  rw [val_main_v55_apply]
  have e : idx_main_v55 (ix3 b n c) = ix4 b n (headOf c) (laneOf c) := funext fun a => Fin.ext (by
    have hb : b.val < 2 := b.isLt; have hn : n.val < 2048 := n.isLt; have hc : c.val < 1024 := c.isLt
    match a with
    | ⟨0, _⟩ => show ((b.val * 2048 + n.val) * 1024 + c.val) / 2097152 = b.val; omega
    | ⟨1, _⟩ => show ((b.val * 2048 + n.val) * 1024 + c.val) / 1024 % 2048 = n.val; omega
    | ⟨2, _⟩ => show ((b.val * 2048 + n.val) * 1024 + c.val) / 64 % 16 = c.val / 64; omega
    | ⟨3, _⟩ => show ((b.val * 2048 + n.val) * 1024 + c.val) % 64 = c.val % 64; omega)
  rw [e, v54_at]

/-- The output projection. -/
theorem v56_at (x : XT) (sn cs : TT) (w : WT) (p : PT) (b : Fin 2) (n : Fin 2048) (c : Fin 1024) :
    val_main_v56 (F := Ideal) x sn cs w p (ix3 b n c)
      = ∑ c' : Fin 1024, oo x sn cs w b (headOf c') n (laneOf c') * p (ix2 c c') := by
  rw [val_main_v56_apply]
  refine Finset.sum_congr rfl fun k _ => ?_
  have el : lidx_main_v56 (ix3 b n c) k = ix3 b n k := funext fun a => by
    match a with
    | ⟨0, _⟩ => rfl
    | ⟨1, _⟩ => rfl
    | ⟨2, _⟩ => rfl
  have er : ridx_main_v56 (ix3 b n c) k = ix2 c k := funext fun a => by
    match a with
    | ⟨0, _⟩ => rfl
    | ⟨1, _⟩ => rfl
  rw [el, er, v55_at]

/-- The bias, broadcast over batch and token. -/
theorem v58_at (bias : BT) (b : Fin 2) (n : Fin 2048) (c : Fin 1024) :
    val_main_v58 (F := Ideal) bias (ix3 b n c) = bias (ix1 c) := by
  rw [val_main_v58_apply, val_main_v57_apply]
  have e : idx_main_v57 (idx_main_v58 (ix3 b n c)) = ix1 c := funext fun a => by
    match a with
    | ⟨0, _⟩ => rfl
  rw [e]

/-- The reference's result stage at (batch, token, feature). -/
theorem v59_at (x : XT) (sn cs : TT) (w : WT) (p : PT) (bias : BT) (b : Fin 2) (n : Fin 2048) (c : Fin 1024) :
    val_main_v59 (F := Ideal) x sn cs w p bias (ix3 b n c) = out x sn cs w p bias b n c := by
  rw [val_main_v59_apply, v56_at, v58_at]
  rfl

/-- The reference's result stage is `out`, as arrays. -/
theorem val_main_v59_eq_out (x : XT) (sn cs : TT) (w : WT) (p : PT) (bias : BT) :
    val_main_v59 (F := Ideal) x sn cs w p bias = fun i => out x sn cs w p bias (i 0) (i 1) (i 2) := by
  funext i
  obtain ⟨b, n, c, rfl⟩ : ∃ (b : Fin 2) (n : Fin 2048) (c : Fin 1024), i = ix3 b n c := ⟨i 0, i 1, i 2, eq_ix3 i⟩
  exact v59_at x sn cs w p bias b n c

/-- The run's result term, read at (batch, token, feature), is `out` of the six argument arrays as the run finds them. -/
theorem res_at (m : (ℓ : Loc nD τ sig) → Buf (Elt Ideal) ℓ) (dv : Dev nD) (b : Fin 2) (n : Fin 2048) (c : Fin 1024) :
    Cert.ReferenceIdeal.Value.res_main_v59 (F := Ideal) m dv (ix3 b n c)
      = out (m ((dv.tc : Thread nD τ).loc main_arg0)) (m ((dv.tc : Thread nD τ).loc main_arg1))
          (m ((dv.tc : Thread nD τ).loc main_arg2)) (m ((dv.tc : Thread nD τ).loc main_arg3))
          (m ((dv.tc : Thread nD τ).loc main_arg4)) (m ((dv.tc : Thread nD τ).loc main_arg5)) b n c := by
  rw [val_main_v59_eq]
  exact v59_at _ _ _ _ _ _ b n c

/-- The run's result term as a whole array: `out` at each index's three coordinates. -/
theorem res_eq_out (m : (ℓ : Loc nD τ sig) → Buf (Elt Ideal) ℓ) (dv : Dev nD) :
    Cert.ReferenceIdeal.Value.res_main_v59 (F := Ideal) m dv
      = fun i : S2x2048x1024.Idx => out (m ((dv.tc : Thread nD τ).loc main_arg0)) (m ((dv.tc : Thread nD τ).loc main_arg1))
          (m ((dv.tc : Thread nD τ).loc main_arg2)) (m ((dv.tc : Thread nD τ).loc main_arg3))
          (m ((dv.tc : Thread nD τ).loc main_arg4)) (m ((dv.tc : Thread nD τ).loc main_arg5)) (i 0) (i 1) (i 2) := by
  rw [val_main_v59_eq]
  exact val_main_v59_eq_out _ _ _ _ _ _

end Cert.RefAt

end
-- ==== Proof.RefAtReal.lean ====
/-
  The reference run's result on coerced real arguments is the coerced real closed form.
-/
import proofs.«138496_j31379031065087_2_alg».proof.Proof.RefAt
import proofs.«138496_j31379031065087_2_alg».proof.Proof.RefReal

noncomputable section

namespace Cert.RefAt

open Cert.ReferenceIdeal Cert.ReferenceIdeal.Gen Cert.ReferenceIdeal.Read Idealize.ShloMosaic Idealize.ShloMosaic.ValueIdx

/-- If the run finds coerced real arrays in its six argument buffers, its result at (batch, token, feature) is the
    coerced real closed form. -/
theorem res_at_real (m : (ℓ : Loc nD τ sig) → Buf (Elt Ideal) ℓ) (dv : Dev nD)
    (xr : XR) (snr csr : TR) (wr : WR) (pr : PR) (br : BR)
    (h0 : m ((dv.tc : Thread nD τ).loc main_arg0) = up xr) (h1 : m ((dv.tc : Thread nD τ).loc main_arg1) = up snr)
    (h2 : m ((dv.tc : Thread nD τ).loc main_arg2) = up csr) (h3 : m ((dv.tc : Thread nD τ).loc main_arg3) = up wr)
    (h4 : m ((dv.tc : Thread nD τ).loc main_arg4) = up pr) (h5 : m ((dv.tc : Thread nD τ).loc main_arg5) = up br)
    (b : Fin 2) (n : Fin 2048) (c : Fin 1024) :
    Cert.ReferenceIdeal.Value.res_main_v59 (F := Ideal) m dv (ix3 b n c)
      = ((outR xr snr csr wr pr br b n c : ℝ) : EReal) := by
  rw [res_at, h0, h1, h2, h3, h4, h5, out_up]

end Cert.RefAt

end
-- ==== Proof.lean ====
/-
  The certificate. The kernel program is three pallas_calls among host operations: a fused projection with
  rotary rotation (queries also scaled by 1/8), a blockwise attention with a running maximum, and an output
  projection with bias. Its three frames come from one run of the program as a chain of six segments, which also
  names every buffer's final contents. Read as extended reals, on finite inputs, the program's result is entry by
  entry the reference's: the first call's arrays are the reference's rotated queries times 1/8, rotated keys and
  values; the blockwise recurrence over four key blocks ends at the plain softmax-weighted sum (the running
  maximum only rescales numerator and denominator alike); the last call is the same product plus the bias.
-/
import proofs.«138496_j31379031065087_2_alg».proof.Defs
import proofs.«138496_j31379031065087_2_alg».proof.Proof.Gen.Kernel
import proofs.«138496_j31379031065087_2_alg».proof.Proof.Gen.KernelIdeal
import proofs.«138496_j31379031065087_2_alg».proof.Proof.Gen.ReferenceIdeal
import proofs.«138496_j31379031065087_2_alg».proof.Proof.Gen.ReferenceIdeal.Run
import proofs.«138496_j31379031065087_2_alg».proof.Proof.Gen.ReferenceIdeal.Read
import proofs.«138496_j31379031065087_2_alg».proof.Proof.Gen.Pre_finite_inputs
import proofs.«138496_j31379031065087_2_alg».proof.Proof.RunBits
import proofs.«138496_j31379031065087_2_alg».proof.Proof.RunIdeal
import proofs.«138496_j31379031065087_2_alg».proof.Proof.KernelValueIdeal
import proofs.«138496_j31379031065087_2_alg».proof.Proof.RealArgs
import proofs.«138496_j31379031065087_2_alg».proof.Proof.RefAtReal
import Idealize.ShloMosaic.Adequacy
import Idealize.ShloMosaic.Init

noncomputable section

namespace Cert.Proof

open Idealize.ShloMosaic Idealize.ShloMosaic.ValueIdx Idealize.SL.Sem

/-- The word-level program runs and leaves its arguments unchanged. -/
theorem frame_p : Cert.frame_Kernel (hKernel := Cert.Kernel.Gen.facts) (hPre_finite_inputs := Cert.Pre_finite_inputs.Gen.facts) :=
  fun m ρ _ => Cert.Kernel.Hand.frame_all m ρ
/-- So does the program read on the extended reals. -/
theorem frame_pi : Cert.frame_KernelIdeal (hKernelIdeal := Cert.KernelIdeal.Gen.facts) (hPre_finite_inputs := Cert.Pre_finite_inputs.Gen.facts) :=
  fun m ρ _ => Cert.KernelIdeal.Hand.frame_all m ρ
/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On finite inputs both programs end, with equal results entry by entry. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.Bd6 (F := Ideal) m ρ c (Proc.devRef .tc Cert.KernelIdeal.main_v15), ?_, ?_⟩
  · refine (θ_run Cert.KernelIdeal.defs _ _).mono (fun r h c => ?_) (Cert.KernelIdeal.Hand.run_all (F := Ideal) m ρ)
    exact ⟨h c _ (Cert.KernelIdeal.Hand.mem_ucH Cert.KernelIdeal.main_v15 (by decide)),
      (h c _ (Cert.KernelIdeal.Hand.mem_ucH Cert.KernelIdeal.main_arg0 (by decide))).trans (Cert.KernelIdeal.Hand.Bd6_of m ρ c Cert.KernelIdeal.main_arg0 (by decide) (by decide) (by decide) (by decide) (by decide) (by decide)),
      (h c _ (Cert.KernelIdeal.Hand.mem_ucH Cert.KernelIdeal.main_arg1 (by decide))).trans (Cert.KernelIdeal.Hand.Bd6_of m ρ c Cert.KernelIdeal.main_arg1 (by decide) (by decide) (by decide) (by decide) (by decide) (by decide)),
      (h c _ (Cert.KernelIdeal.Hand.mem_ucH Cert.KernelIdeal.main_arg2 (by decide))).trans (Cert.KernelIdeal.Hand.Bd6_of m ρ c Cert.KernelIdeal.main_arg2 (by decide) (by decide) (by decide) (by decide) (by decide) (by decide)),
      (h c _ (Cert.KernelIdeal.Hand.mem_ucH Cert.KernelIdeal.main_arg3 (by decide))).trans (Cert.KernelIdeal.Hand.Bd6_of m ρ c Cert.KernelIdeal.main_arg3 (by decide) (by decide) (by decide) (by decide) (by decide) (by decide)),
      (h c _ (Cert.KernelIdeal.Hand.mem_ucH Cert.KernelIdeal.main_arg4 (by decide))).trans (Cert.KernelIdeal.Hand.Bd6_of m ρ c Cert.KernelIdeal.main_arg4 (by decide) (by decide) (by decide) (by decide) (by decide) (by decide)),
      (h c _ (Cert.KernelIdeal.Hand.mem_ucH Cert.KernelIdeal.main_arg5 (by decide))).trans (Cert.KernelIdeal.Hand.Bd6_of m ρ c Cert.KernelIdeal.main_arg5 (by decide) (by decide) (by decide) (by decide) (by decide) (by decide))⟩
  · refine (θ_run Cert.ReferenceIdeal.defs _ _).mono (fun _ h c => ⟨(h c).1.trans ?_, (h c).2⟩)
      (Cert.ReferenceIdeal.Value.run (F := Ideal) m' ρ')
    obtain ⟨xr, snr, csr, wr, pr, br, e0, e1, e2, e3, e4, e5⟩ := Cert.FiniteInputs.exists_real_args m hpre c
    obtain ⟨a0, a1, a2, a3, a4, a5⟩ := hagree c
    funext i
    obtain ⟨b, n, j, rfl⟩ : ∃ (b : Fin 2) (n : Fin 2048) (j : Fin 1024), i = ix3 b n j := ⟨i 0, i 1, i 2, eq_ix3 i⟩
    rw [Cert.RefAt.res_at_real m' c xr snr csr wr pr br (a0.trans e0) (a1.trans e1) (a2.trans e2) (a3.trans e3) (a4.trans e4) (a5.trans e5) b n j]
    exact (Cert.KernelIdeal.Hand.kernel_value m ρ c xr snr csr wr pr br e0 e1 e2 e3 e4 e5 b n j).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
